-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32768 : Shape := ⟨2, ![64, 32768]⟩
abbrev S64x28x32768 : Shape := ⟨3, ![64, 28, 32768]⟩
abbrev S_ : Shape := ⟨0, ![]⟩

class Facts : Prop where
  bcast_S_S64x32768 : S_.BroadcastsInDim S64x32768 (![] : Fin 0 → Fin S64x32768.rank)
  reducesTo_S64x32768_S_d0_1 : S64x32768.ReducesTo [0, 1] S_
  h_S_ : 0 < S_.numel
  bcast_S_S64x28x32768 : S_.BroadcastsInDim S64x28x32768 (![] : Fin 0 → Fin S64x28x32768.rank)
  reducesTo_S64x28x32768_S_d0_1_2 : S64x28x32768.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S64x32768 .f32) (main_arg1 : FVec F S64x28x32768 .f32) : IVec S_ 1 :=
  let main_v0 : FVec F S64x32768 .f32 := Host.absf main_arg0
  let main_cst : FVec F S_ .f32 := constant S_ .f32 0x7F800000#32
  let main_v1 : FVec F S64x32768 .f32 := broadcastInDim S64x32768 ![] bcast_S_S64x32768 main_cst
  let main_v2 : IVec S64x32768 1 := cmpf .olt main_v0 main_v1
  let main_c : IVec S_ 1 := constantI S_ 1 1#1
  let main_v3 : IVec S_ 1 := (fun x v => Host.reduce IntOp.andi x v reducesTo_S64x32768_S_d0_1 h_S_) main_v2 main_c
  let main_v4 : FVec F S64x28x32768 .f32 := Host.absf main_arg1
  let main_cst_0 : FVec F S_ .f32 := constant S_ .f32 0x7F800000#32
  let main_v5 : FVec F S64x28x32768 .f32 := broadcastInDim S64x28x32768 ![] bcast_S_S64x28x32768 main_cst_0
  let main_v6 : IVec S64x28x32768 1 := cmpf .olt main_v4 main_v5
  let main_c_1 : IVec S_ 1 := constantI S_ 1 1#1
  let main_v7 : IVec S_ 1 := (fun x v => Host.reduce IntOp.andi x v reducesTo_S64x28x32768_S_d0_1_2 h_S_) main_v6 main_c_1
  let main_v8 : IVec S_ 1 := andi main_v3 main_v7
  let main_cst_2 : FVec F S_ .f32 := constant S_ .f32 0x00000000#32
  let main_v9 : FVec F S64x28x32768 .f32 := broadcastInDim S64x28x32768 ![] bcast_S_S64x28x32768 main_cst_2
  let main_v10 : IVec S64x28x32768 1 := cmpf .ogt main_arg1 main_v9
  let main_c_3 : IVec S_ 1 := constantI S_ 1 1#1
  let main_v11 : IVec S_ 1 := (fun x v => Host.reduce IntOp.andi x v reducesTo_S64x28x32768_S_d0_1_2 h_S_) main_v10 main_c_3
  let main_v12 : IVec S_ 1 := andi main_v8 main_v11
  let main_cst_4 : FVec F S_ .f32 := constant S_ .f32 0x3F800000#32
  let main_v13 : FVec F S64x28x32768 .f32 := broadcastInDim S64x28x32768 ![] bcast_S_S64x28x32768 main_cst_4
  let main_v14 : IVec S64x28x32768 1 := cmpf .olt main_arg1 main_v13
  let main_c_5 : IVec S_ 1 := constantI S_ 1 1#1
  let main_v15 : IVec S_ 1 := (fun x v => Host.reduce IntOp.andi x v reducesTo_S64x28x32768_S_d0_1_2 h_S_) main_v14 main_c_5
  fn_part1 (F := F) main_v12 main_v15
-- ==== Kernel.lean ====
abbrev S64x32768 : Shape := ⟨2, ![64, 32768]⟩
abbrev S64x28x32768 : Shape := ⟨3, ![64, 28, 32768]⟩
abbrev S4x28x32768 : Shape := ⟨3, ![4, 28, 32768]⟩
abbrev S4x32768 : Shape := ⟨2, ![4, 32768]⟩
abbrev S1x32768 : Shape := ⟨2, ![1, 32768]⟩
abbrev S1x28x32768 : Shape := ⟨3, ![1, 28, 32768]⟩
abbrev S28x32768 : Shape := ⟨2, ![28, 32768]⟩
abbrev S28 : Shape := ⟨1, ![28]⟩
abbrev S28x1 : Shape := ⟨2, ![28, 1]⟩
abbrev S32768 : Shape := ⟨1, ![32768]⟩

abbrev nBuf : Space → Nat
  | .hbm => 51
  | .vmem => 48
  | .smem => 0
  | _ => 0

abbrev bufTy : (tb : Table) → Fin (tcTables nBuf tb) → BufTy
  | .hbm, ⟨0, _⟩ => ⟨S64x32768, .f32⟩
  | .hbm, ⟨1, _⟩ => ⟨S64x28x32768, .f32⟩
  | .hbm, ⟨2, _⟩ => ⟨S4x28x32768, .f32⟩
  | .hbm, ⟨3, _⟩ => ⟨S4x32768, .f32⟩
  | .hbm, ⟨4, _⟩ => ⟨S4x32768, .f32⟩
  | .hbm, ⟨5, _⟩ => ⟨S4x28x32768, .f32⟩
  | .hbm, ⟨6, _⟩ => ⟨S4x32768, .f32⟩
  | .hbm, ⟨7, _⟩ => ⟨S4x32768, .f32⟩
  | .hbm, ⟨8, _⟩ => ⟨S4x28x32768, .f32⟩
  | .hbm, ⟨9, _⟩ => ⟨S4x32768, .f32⟩
  | .hbm, ⟨10, _⟩ => ⟨S4x32768, .f32⟩
  | .hbm, ⟨11, _⟩ => ⟨S4x28x32768, .f32⟩
  | .hbm, ⟨12, _⟩ => ⟨S4x32768, .f32⟩
  | .hbm, ⟨13, _⟩ => ⟨S4x32768, .f32⟩
  | .hbm, ⟨14, _⟩ => ⟨S4x28x32768, .f32⟩
  | .hbm, ⟨15, _⟩ => ⟨S4x32768, .f32⟩
  | .hbm, ⟨16, _⟩ => ⟨S4x32768, .f32⟩
  | .hbm, ⟨17, _⟩ => ⟨S4x28x32768, .f32⟩
  | .hbm, ⟨18, _⟩ => ⟨S4x32768, .f32⟩
  | .hbm, ⟨19, _⟩ => ⟨S4x32768, .f32⟩
  | .hbm, ⟨20, _⟩ => ⟨S4x28x32768, .f32⟩
  | .hbm, ⟨21, _⟩ => ⟨S4x32768, .f32⟩
  | .hbm, ⟨22, _⟩ => ⟨S4x32768, .f32⟩
  | .hbm, ⟨23, _⟩ => ⟨S4x28x32768, .f32⟩
  | .hbm, ⟨24, _⟩ => ⟨S4x32768, .f32⟩
  | .hbm, ⟨25, _⟩ => ⟨S4x32768, .f32⟩
  | .hbm, ⟨26, _⟩ => ⟨S4x28x32768, .f32⟩
  | .hbm, ⟨27, _⟩ => ⟨S4x32768, .f32⟩
  | .hbm, ⟨28, _⟩ => ⟨S4x32768, .f32⟩
  | .hbm, ⟨29, _⟩ => ⟨S4x28x32768, .f32⟩
  | .hbm, ⟨30, _⟩ => ⟨S4x32768, .f32⟩
  | .hbm, ⟨31, _⟩ => ⟨S4x32768, .f32⟩
  | .hbm, ⟨32, _⟩ => ⟨S4x28x32768, .f32⟩
  | .hbm, ⟨33, _⟩ => ⟨S4x32768, .f32⟩
  | .hbm, ⟨34, _⟩ => ⟨S4x32768, .f32⟩
  | .hbm, ⟨35, _⟩ => ⟨S4x28x32768, .f32⟩
  | .hbm, ⟨36, _⟩ => ⟨S4x32768, .f32⟩
  | .hbm, ⟨37, _⟩ => ⟨S4x32768, .f32⟩
  | .hbm, ⟨38, _⟩ => ⟨S4x28x32768, .f32⟩
  | .hbm, ⟨39, _⟩ => ⟨S4x32768, .f32⟩
  | .hbm, ⟨40, _⟩ => ⟨S4x32768, .f32⟩
  | .hbm, ⟨41, _⟩ => ⟨S4x28x32768, .f32⟩
  | .hbm, ⟨42, _⟩ => ⟨S4x32768, .f32⟩
  | .hbm, ⟨43, _⟩ => ⟨S4x32768, .f32⟩
  | .hbm, ⟨44, _⟩ => ⟨S4x28x32768, .f32⟩
  | .hbm, ⟨45, _⟩ => ⟨S4x32768, .f32⟩
  | .hbm, ⟨46, _⟩ => ⟨S4x32768, .f32⟩
  | .hbm, ⟨47, _⟩ => ⟨S4x28x32768, .f32⟩
  | .hbm, ⟨48, _⟩ => ⟨S4x32768, .f32⟩
  | .hbm, ⟨49, _⟩ => ⟨S4x32768, .f32⟩
  | .hbm, ⟨50, _⟩ => ⟨S64x32768, .f32⟩
  | .local _ .vmem, ⟨0, _⟩ => ⟨S4x32768, .f32⟩
  | .local _ .vmem, ⟨1, _⟩ => ⟨S4x28x32768, .f32⟩
  | .local _ .vmem, ⟨2, _⟩ => ⟨S4x32768, .f32⟩
  | .local _ .vmem, ⟨3, _⟩ => ⟨S4x32768, .f32⟩
  | .local _ .vmem, ⟨4, _⟩ => ⟨S4x28x32768, .f32⟩
  | .local _ .vmem, ⟨5, _⟩ => ⟨S4x32768, .f32⟩
  | .local _ .vmem, ⟨6, _⟩ => ⟨S4x32768, .f32⟩
  | .local _ .vmem, ⟨7, _⟩ => ⟨S4x28x32768, .f32⟩
  | .local _ .vmem, ⟨8, _⟩ => ⟨S4x32768, .f32⟩
  | .local _ .vmem, ⟨9, _⟩ => ⟨S4x32768, .f32⟩
  | .local _ .vmem, ⟨10, _⟩ => ⟨S4x28x32768, .f32⟩
  | .local _ .vmem, ⟨11, _⟩ => ⟨S4x32768, .f32⟩
  | .local _ .vmem, ⟨12, _⟩ => ⟨S4x32768, .f32⟩
  | .local _ .vmem, ⟨13, _⟩ => ⟨S4x28x32768, .f32⟩
  | .local _ .vmem, ⟨14, _⟩ => ⟨S4x32768, .f32⟩
  | .local _ .vmem, ⟨15, _⟩ => ⟨S4x32768, .f32⟩
  | .local _ .vmem, ⟨16, _⟩ => ⟨S4x28x32768, .f32⟩
  | .local _ .vmem, ⟨17, _⟩ => ⟨S4x32768, .f32⟩
  | .local _ .vmem, ⟨18, _⟩ => ⟨S4x32768, .f32⟩
  | .local _ .vmem, ⟨19, _⟩ => ⟨S4x28x32768, .f32⟩
  | .local _ .vmem, ⟨20, _⟩ => ⟨S4x32768, .f32⟩
  | .local _ .vmem, ⟨21, _⟩ => ⟨S4x32768, .f32⟩
  | .local _ .vmem, ⟨22, _⟩ => ⟨S4x28x32768, .f32⟩
  | .local _ .vmem, ⟨23, _⟩ => ⟨S4x32768, .f32⟩
  | .local _ .vmem, ⟨24, _⟩ => ⟨S4x32768, .f32⟩
  | .local _ .vmem, ⟨25, _⟩ => ⟨S4x28x32768, .f32⟩
  | .local _ .vmem, ⟨26, _⟩ => ⟨S4x32768, .f32⟩
  | .local _ .vmem, ⟨27, _⟩ => ⟨S4x32768, .f32⟩
  | .local _ .vmem, ⟨28, _⟩ => ⟨S4x28x32768, .f32⟩
  | .local _ .vmem, ⟨29, _⟩ => ⟨S4x32768, .f32⟩
  | .local _ .vmem, ⟨30, _⟩ => ⟨S4x32768, .f32⟩
  | .local _ .vmem, ⟨31, _⟩ => ⟨S4x28x32768, .f32⟩
  | .local _ .vmem, ⟨32, _⟩ => ⟨S4x32768, .f32⟩
  | .local _ .vmem, ⟨33, _⟩ => ⟨S4x32768, .f32⟩
  | .local _ .vmem, ⟨34, _⟩ => ⟨S4x28x32768, .f32⟩
  | .local _ .vmem, ⟨35, _⟩ => ⟨S4x32768, .f32⟩
  | .local _ .vmem, ⟨36, _⟩ => ⟨S4x32768, .f32⟩
  | .local _ .vmem, ⟨37, _⟩ => ⟨S4x28x32768, .f32⟩
  | .local _ .vmem, ⟨38, _⟩ => ⟨S4x32768, .f32⟩
  | .local _ .vmem, ⟨39, _⟩ => ⟨S4x32768, .f32⟩
  | .local _ .vmem, ⟨40, _⟩ => ⟨S4x28x32768, .f32⟩
  | .local _ .vmem, ⟨41, _⟩ => ⟨S4x32768, .f32⟩
  | .local _ .vmem, ⟨42, _⟩ => ⟨S4x32768, .f32⟩
  | .local _ .vmem, ⟨43, _⟩ => ⟨S4x28x32768, .f32⟩
  | .local _ .vmem, ⟨44, _⟩ => ⟨S4x32768, .f32⟩
  | .local _ .vmem, ⟨45, _⟩ => ⟨S4x32768, .f32⟩
  | .local _ .vmem, ⟨46, _⟩ => ⟨S4x28x32768, .f32⟩
  | .local _ .vmem, ⟨47, _⟩ => ⟨S4x32768, .f32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc4_stg0_0 : Ref sig .tc := ⟨.vmem, 12, rfl⟩
abbrev cc4_stg1_0 : Ref sig .tc := ⟨.vmem, 13, rfl⟩
abbrev cc4_stg2_0 : Ref sig .tc := ⟨.vmem, 14, rfl⟩
abbrev cc5_stg0_0 : Ref sig .tc := ⟨.vmem, 15, rfl⟩
abbrev cc5_stg1_0 : Ref sig .tc := ⟨.vmem, 16, rfl⟩
abbrev cc5_stg2_0 : Ref sig .tc := ⟨.vmem, 17, rfl⟩
abbrev cc6_stg0_0 : Ref sig .tc := ⟨.vmem, 18, rfl⟩
abbrev cc6_stg1_0 : Ref sig .tc := ⟨.vmem, 19, rfl⟩
abbrev cc6_stg2_0 : Ref sig .tc := ⟨.vmem, 20, rfl⟩
abbrev cc7_stg0_0 : Ref sig .tc := ⟨.vmem, 21, rfl⟩
abbrev cc7_stg1_0 : Ref sig .tc := ⟨.vmem, 22, rfl⟩
abbrev cc7_stg2_0 : Ref sig .tc := ⟨.vmem, 23, rfl⟩
abbrev cc8_stg0_0 : Ref sig .tc := ⟨.vmem, 24, rfl⟩
abbrev cc8_stg1_0 : Ref sig .tc := ⟨.vmem, 25, rfl⟩
abbrev cc8_stg2_0 : Ref sig .tc := ⟨.vmem, 26, rfl⟩
abbrev cc9_stg0_0 : Ref sig .tc := ⟨.vmem, 27, rfl⟩
abbrev cc9_stg1_0 : Ref sig .tc := ⟨.vmem, 28, rfl⟩
abbrev cc9_stg2_0 : Ref sig .tc := ⟨.vmem, 29, rfl⟩
abbrev cc10_stg0_0 : Ref sig .tc := ⟨.vmem, 30, rfl⟩
abbrev cc10_stg1_0 : Ref sig .tc := ⟨.vmem, 31, rfl⟩
abbrev cc10_stg2_0 : Ref sig .tc := ⟨.vmem, 32, rfl⟩
abbrev cc11_stg0_0 : Ref sig .tc := ⟨.vmem, 33, rfl⟩
abbrev cc11_stg1_0 : Ref sig .tc := ⟨.vmem, 34, rfl⟩
abbrev cc11_stg2_0 : Ref sig .tc := ⟨.vmem, 35, rfl⟩
abbrev cc12_stg0_0 : Ref sig .tc := ⟨.vmem, 36, rfl⟩
abbrev cc12_stg1_0 : Ref sig .tc := ⟨.vmem, 37, rfl⟩
abbrev cc12_stg2_0 : Ref sig .tc := ⟨.vmem, 38, rfl⟩
abbrev cc13_stg0_0 : Ref sig .tc := ⟨.vmem, 39, rfl⟩
abbrev cc13_stg1_0 : Ref sig .tc := ⟨.vmem, 40, rfl⟩
abbrev cc13_stg2_0 : Ref sig .tc := ⟨.vmem, 41, rfl⟩
abbrev cc14_stg0_0 : Ref sig .tc := ⟨.vmem, 42, rfl⟩
abbrev cc14_stg1_0 : Ref sig .tc := ⟨.vmem, 43, rfl⟩
abbrev cc14_stg2_0 : Ref sig .tc := ⟨.vmem, 44, rfl⟩
abbrev cc15_stg0_0 : Ref sig .tc := ⟨.vmem, 45, rfl⟩
abbrev cc15_stg1_0 : Ref sig .tc := ⟨.vmem, 46, rfl⟩
abbrev cc15_stg2_0 : Ref sig .tc := ⟨.vmem, 47, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11
abbrev cc4_sem0_0 : DmaSem sig := 12
abbrev cc4_sem1_0 : DmaSem sig := 13
abbrev cc4_sem2_0 : DmaSem sig := 14
abbrev cc5_sem0_0 : DmaSem sig := 15
abbrev cc5_sem1_0 : DmaSem sig := 16
abbrev cc5_sem2_0 : DmaSem sig := 17
abbrev cc6_sem0_0 : DmaSem sig := 18
abbrev cc6_sem1_0 : DmaSem sig := 19
abbrev cc6_sem2_0 : DmaSem sig := 20
abbrev cc7_sem0_0 : DmaSem sig := 21
abbrev cc7_sem1_0 : DmaSem sig := 22
abbrev cc7_sem2_0 : DmaSem sig := 23
abbrev cc8_sem0_0 : DmaSem sig := 24
abbrev cc8_sem1_0 : DmaSem sig := 25
abbrev cc8_sem2_0 : DmaSem sig := 26
abbrev cc9_sem0_0 : DmaSem sig := 27
abbrev cc9_sem1_0 : DmaSem sig := 28
abbrev cc9_sem2_0 : DmaSem sig := 29
abbrev cc10_sem0_0 : DmaSem sig := 30
abbrev cc10_sem1_0 : DmaSem sig := 31
abbrev cc10_sem2_0 : DmaSem sig := 32
abbrev cc11_sem0_0 : DmaSem sig := 33
abbrev cc11_sem1_0 : DmaSem sig := 34
abbrev cc11_sem2_0 : DmaSem sig := 35
abbrev cc12_sem0_0 : DmaSem sig := 36
abbrev cc12_sem1_0 : DmaSem sig := 37
abbrev cc12_sem2_0 : DmaSem sig := 38
abbrev cc13_sem0_0 : DmaSem sig := 39
abbrev cc13_sem1_0 : DmaSem sig := 40
abbrev cc13_sem2_0 : DmaSem sig := 41
abbrev cc14_sem0_0 : DmaSem sig := 42
abbrev cc14_sem1_0 : DmaSem sig := 43
abbrev cc14_sem2_0 : DmaSem sig := 44
abbrev cc15_sem0_0 : DmaSem sig := 45
abbrev cc15_sem1_0 : DmaSem sig := 46
abbrev cc15_sem2_0 : DmaSem sig := 47

abbrev nD : Nat := 1
abbrev τ : Topo := Topo.v7x

variable {F : FTy → Type} [FloatOps F]

abbrev grid0 : Pipeline.Grid := .none

abbrev stage0_0 : Fin 1 → Memref sig .tc .vmem S4x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x28x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S4x32768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x28x32768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x32768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := .none

abbrev stage2_0 : Fin 1 → Memref sig .tc .vmem S4x32768 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x28x32768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4x32768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := .none

abbrev stage3_0 : Fin 1 → Memref sig .tc .vmem S4x32768 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S4x28x32768 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S4x32768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev grid4 : Pipeline.Grid := .none

abbrev stage4_0 : Fin 1 → Memref sig .tc .vmem S4x32768 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S4x28x32768 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S4x32768 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev grid5 : Pipeline.Grid := .none

abbrev stage5_0 : Fin 1 → Memref sig .tc .vmem S4x32768 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S4x28x32768 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S4x32768 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev grid6 : Pipeline.Grid := .none

abbrev stage6_0 : Fin 1 → Memref sig .tc .vmem S4x32768 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S4x28x32768 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S4x32768 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev grid7 : Pipeline.Grid := .none

abbrev stage7_0 : Fin 1 → Memref sig .tc .vmem S4x32768 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S4x28x32768 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S4x32768 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev grid8 : Pipeline.Grid := .none

abbrev stage8_0 : Fin 1 → Memref sig .tc .vmem S4x32768 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S4x28x32768 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S4x32768 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev grid9 : Pipeline.Grid := .none

abbrev stage9_0 : Fin 1 → Memref sig .tc .vmem S4x32768 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S4x28x32768 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S4x32768 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))

abbrev grid10 : Pipeline.Grid := .none

abbrev stage10_0 : Fin 1 → Memref sig .tc .vmem S4x32768 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))

abbrev stage10_1 : Fin 1 → Memref sig .tc .vmem S4x28x32768 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))

abbrev stage10_2 : Fin 1 → Memref sig .tc .vmem S4x32768 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))

abbrev grid11 : Pipeline.Grid := .none

abbrev stage11_0 : Fin 1 → Memref sig .tc .vmem S4x32768 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))

abbrev stage11_1 : Fin 1 → Memref sig .tc .vmem S4x28x32768 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))

abbrev stage11_2 : Fin 1 → Memref sig .tc .vmem S4x32768 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))

abbrev grid12 : Pipeline.Grid := .none

abbrev stage12_0 : Fin 1 → Memref sig .tc .vmem S4x32768 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))

abbrev stage12_1 : Fin 1 → Memref sig .tc .vmem S4x28x32768 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))

abbrev stage12_2 : Fin 1 → Memref sig .tc .vmem S4x32768 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))

abbrev grid13 : Pipeline.Grid := .none

abbrev stage13_0 : Fin 1 → Memref sig .tc .vmem S4x32768 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))

abbrev stage13_1 : Fin 1 → Memref sig .tc .vmem S4x28x32768 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))

abbrev stage13_2 : Fin 1 → Memref sig .tc .vmem S4x32768 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))

abbrev grid14 : Pipeline.Grid := .none

abbrev stage14_0 : Fin 1 → Memref sig .tc .vmem S4x32768 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))

abbrev stage14_1 : Fin 1 → Memref sig .tc .vmem S4x28x32768 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))

abbrev stage14_2 : Fin 1 → Memref sig .tc .vmem S4x32768 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))

abbrev grid15 : Pipeline.Grid := .none

abbrev stage15_0 : Fin 1 → Memref sig .tc .vmem S4x32768 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))

abbrev stage15_1 : Fin 1 → Memref sig .tc .vmem S4x28x32768 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))

abbrev stage15_2 : Fin 1 → Memref sig .tc .vmem S4x32768 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))

class Facts₀ : Prop where
  slices_S64x28x32768_S4x28x32768_0_0_0 : S64x28x32768.Slices ![0, 0, 0] S4x28x32768
  slices_S64x32768_S4x32768_0_0 : S64x32768.Slices ![0, 0] S4x32768
  inb_S4x32768_S1x32768_0_0 : ∀ a, (![0, 0] : Fin 2 → Nat) a + S1x32768.size a ≤ S4x32768.size a
  h_S1x32768 : 0 < S1x32768.numel
  shapeCasts_S1x32768_S1x32768 : S1x32768.ShapeCasts S1x32768
  inb_S4x28x32768_S1x28x32768_0_0_0 : ∀ a, (![0, 0, 0] : Fin 3 → Nat) a + S1x28x32768.size a ≤ S4x28x32768.size a
  h_S1x28x32768 : 0 < S1x28x32768.numel
  shapeCasts_S1x28x32768_S28x32768 : S1x28x32768.ShapeCasts S28x32768
  broadcasts_S1x32768_S28x32768 : S1x32768.Broadcasts S28x32768
  reduces_S28x32768_S28 : S28x32768.Reduces [1] S28
  shapeCasts_S28_S28x1 : S28.ShapeCasts S28x1
  broadcasts_S28x1_S28x32768 : S28x1.Broadcasts S28x32768
  reduces_S28x32768_S32768 : S28x32768.Reduces [0] S32768
  shapeCasts_S32768_S1x32768 : S32768.ShapeCasts S1x32768
  inb_S4x32768_S1x32768_1_0 : ∀ a, (![1, 0] : Fin 2 → Nat) a + S1x32768.size a ≤ S4x32768.size a
  inb_S4x28x32768_S1x28x32768_1_0_0 : ∀ a, (![1, 0, 0] : Fin 3 → Nat) a + S1x28x32768.size a ≤ S4x28x32768.size a
  inb_S4x32768_S1x32768_2_0 : ∀ a, (![2, 0] : Fin 2 → Nat) a + S1x32768.size a ≤ S4x32768.size a
  inb_S4x28x32768_S1x28x32768_2_0_0 : ∀ a, (![2, 0, 0] : Fin 3 → Nat) a + S1x28x32768.size a ≤ S4x28x32768.size a
  inb_S4x32768_S1x32768_3_0 : ∀ a, (![3, 0] : Fin 2 → Nat) a + S1x32768.size a ≤ S4x32768.size a
  inb_S4x28x32768_S1x28x32768_3_0_0 : ∀ a, (![3, 0, 0] : Fin 3 → Nat) a + S1x28x32768.size a ≤ S4x28x32768.size a
  slices_S64x28x32768_S4x28x32768_4_0_0 : S64x28x32768.Slices ![4, 0, 0] S4x28x32768
  slices_S64x32768_S4x32768_4_0 : S64x32768.Slices ![4, 0] S4x32768
  slices_S64x28x32768_S4x28x32768_8_0_0 : S64x28x32768.Slices ![8, 0, 0] S4x28x32768
  slices_S64x32768_S4x32768_8_0 : S64x32768.Slices ![8, 0] S4x32768
  slices_S64x28x32768_S4x28x32768_12_0_0 : S64x28x32768.Slices ![12, 0, 0] S4x28x32768
  slices_S64x32768_S4x32768_12_0 : S64x32768.Slices ![12, 0] S4x32768
  slices_S64x28x32768_S4x28x32768_16_0_0 : S64x28x32768.Slices ![16, 0, 0] S4x28x32768
  slices_S64x32768_S4x32768_16_0 : S64x32768.Slices ![16, 0] S4x32768
  slices_S64x28x32768_S4x28x32768_20_0_0 : S64x28x32768.Slices ![20, 0, 0] S4x28x32768
  slices_S64x32768_S4x32768_20_0 : S64x32768.Slices ![20, 0] S4x32768
  slices_S64x28x32768_S4x28x32768_24_0_0 : S64x28x32768.Slices ![24, 0, 0] S4x28x32768
  slices_S64x32768_S4x32768_24_0 : S64x32768.Slices ![24, 0] S4x32768
  slices_S64x28x32768_S4x28x32768_28_0_0 : S64x28x32768.Slices ![28, 0, 0] S4x28x32768
  slices_S64x32768_S4x32768_28_0 : S64x32768.Slices ![28, 0] S4x32768
  slices_S64x28x32768_S4x28x32768_32_0_0 : S64x28x32768.Slices ![32, 0, 0] S4x28x32768
  slices_S64x32768_S4x32768_32_0 : S64x32768.Slices ![32, 0] S4x32768
  slices_S64x28x32768_S4x28x32768_36_0_0 : S64x28x32768.Slices ![36, 0, 0] S4x28x32768
  slices_S64x32768_S4x32768_36_0 : S64x32768.Slices ![36, 0] S4x32768
  slices_S64x28x32768_S4x28x32768_40_0_0 : S64x28x32768.Slices ![40, 0, 0] S4x28x32768
  slices_S64x32768_S4x32768_40_0 : S64x32768.Slices ![40, 0] S4x32768
  slices_S64x28x32768_S4x28x32768_44_0_0 : S64x28x32768.Slices ![44, 0, 0] S4x28x32768
  slices_S64x32768_S4x32768_44_0 : S64x32768.Slices ![44, 0] S4x32768
  slices_S64x28x32768_S4x28x32768_48_0_0 : S64x28x32768.Slices ![48, 0, 0] S4x28x32768
  slices_S64x32768_S4x32768_48_0 : S64x32768.Slices ![48, 0] S4x32768
  slices_S64x28x32768_S4x28x32768_52_0_0 : S64x28x32768.Slices ![52, 0, 0] S4x28x32768
  slices_S64x32768_S4x32768_52_0 : S64x32768.Slices ![52, 0] S4x32768
  slices_S64x28x32768_S4x28x32768_56_0_0 : S64x28x32768.Slices ![56, 0, 0] S4x28x32768
  slices_S64x32768_S4x32768_56_0 : S64x32768.Slices ![56, 0] S4x32768
  slices_S64x28x32768_S4x28x32768_60_0_0 : S64x28x32768.Slices ![60, 0, 0] S4x28x32768
  slices_S64x32768_S4x32768_60_0 : S64x32768.Slices ![60, 0] S4x32768
  concatenates_S4x32768_S4x32768_S4x32768_S4x32768_S4x32768_S4x32768_S4x32768_S4x32768_S4x32768_S4x32768_S4x32768_S4x32768_S4x32768_S4x32768_S4x32768_S4x32768_S64x32768_d0 : Shape.Concatenates [S4x32768, S4x32768, S4x32768, S4x32768, S4x32768, S4x32768, S4x32768, S4x32768, S4x32768, S4x32768, S4x32768, S4x32768, S4x32768, S4x32768, S4x32768, S4x32768] S64x32768 0
  hstage0_0 : ∀ j, (stage0_0 j).IsWhole
  hstage0_1 : ∀ j, (stage0_1 j).IsWhole
  hstage0_2 : ∀ j, (stage0_2 j).IsWhole
  hstage1_0 : ∀ j, (stage1_0 j).IsWhole
  hstage1_1 : ∀ j, (stage1_1 j).IsWhole
  hstage1_2 : ∀ j, (stage1_2 j).IsWhole
  hstage2_0 : ∀ j, (stage2_0 j).IsWhole
  hstage2_1 : ∀ j, (stage2_1 j).IsWhole
  hstage2_2 : ∀ j, (stage2_2 j).IsWhole
  hstage3_0 : ∀ j, (stage3_0 j).IsWhole
  hstage3_1 : ∀ j, (stage3_1 j).IsWhole
  hstage3_2 : ∀ j, (stage3_2 j).IsWhole
  hstage4_0 : ∀ j, (stage4_0 j).IsWhole
  hstage4_1 : ∀ j, (stage4_1 j).IsWhole
  hstage4_2 : ∀ j, (stage4_2 j).IsWhole
  hstage5_0 : ∀ j, (stage5_0 j).IsWhole
  hstage5_1 : ∀ j, (stage5_1 j).IsWhole
  hstage5_2 : ∀ j, (stage5_2 j).IsWhole
  hstage6_0 : ∀ j, (stage6_0 j).IsWhole
  hstage6_1 : ∀ j, (stage6_1 j).IsWhole
  hstage6_2 : ∀ j, (stage6_2 j).IsWhole
  hstage7_0 : ∀ j, (stage7_0 j).IsWhole
  hstage7_1 : ∀ j, (stage7_1 j).IsWhole
  hstage7_2 : ∀ j, (stage7_2 j).IsWhole
  hstage8_0 : ∀ j, (stage8_0 j).IsWhole
  hstage8_1 : ∀ j, (stage8_1 j).IsWhole
  hstage8_2 : ∀ j, (stage8_2 j).IsWhole
  hstage9_0 : ∀ j, (stage9_0 j).IsWhole
  hstage9_1 : ∀ j, (stage9_1 j).IsWhole
  hstage9_2 : ∀ j, (stage9_2 j).IsWhole
  hstage10_0 : ∀ j, (stage10_0 j).IsWhole
  hstage10_1 : ∀ j, (stage10_1 j).IsWhole
  hstage10_2 : ∀ j, (stage10_2 j).IsWhole
  hstage11_0 : ∀ j, (stage11_0 j).IsWhole
  hstage11_1 : ∀ j, (stage11_1 j).IsWhole
  hstage11_2 : ∀ j, (stage11_2 j).IsWhole
  hstage12_0 : ∀ j, (stage12_0 j).IsWhole
  hstage12_1 : ∀ j, (stage12_1 j).IsWhole
  hstage12_2 : ∀ j, (stage12_2 j).IsWhole
  hstage13_0 : ∀ j, (stage13_0 j).IsWhole
  hstage13_1 : ∀ j, (stage13_1 j).IsWhole
  hstage13_2 : ∀ j, (stage13_2 j).IsWhole
  hstage14_0 : ∀ j, (stage14_0 j).IsWhole
  hstage14_1 : ∀ j, (stage14_1 j).IsWhole
  hstage14_2 : ∀ j, (stage14_2 j).IsWhole
  hstage15_0 : ∀ j, (stage15_0 j).IsWhole
  hstage15_1 : ∀ j, (stage15_1 j).IsWhole
  hstage15_2 : ∀ j, (stage15_2 j).IsWhole

variable [Facts₀]

abbrev win0_0 : Pipeline.Window sig grid0 :=
  Pipeline.Window.whole (Memref.whole main_v1) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_v4) false false (stage1_0 0) (sem1_0 0) (Memref.isWhole_whole _) (hstage1_0 0)

abbrev win1_1 : Pipeline.Window sig grid1 :=
  Pipeline.Window.whole (Memref.whole main_v3) false false (stage1_1 0) (sem1_1 0) (Memref.isWhole_whole _) (hstage1_1 0)

abbrev win1_2 : Pipeline.Window sig grid1 :=
  Pipeline.Window.whole (Memref.whole main_v5) true false (stage1_2 0) (sem1_2 0) (Memref.isWhole_whole _) (hstage1_2 0)

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.whole (Memref.whole main_v7) false false (stage2_0 0) (sem2_0 0) (Memref.isWhole_whole _) (hstage2_0 0)

abbrev win2_1 : Pipeline.Window sig grid2 :=
  Pipeline.Window.whole (Memref.whole main_v6) false false (stage2_1 0) (sem2_1 0) (Memref.isWhole_whole _) (hstage2_1 0)

abbrev win2_2 : Pipeline.Window sig grid2 :=
  Pipeline.Window.whole (Memref.whole main_v8) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.whole (Memref.whole main_v10) false false (stage3_0 0) (sem3_0 0) (Memref.isWhole_whole _) (hstage3_0 0)

abbrev win3_1 : Pipeline.Window sig grid3 :=
  Pipeline.Window.whole (Memref.whole main_v9) false false (stage3_1 0) (sem3_1 0) (Memref.isWhole_whole _) (hstage3_1 0)

abbrev win3_2 : Pipeline.Window sig grid3 :=
  Pipeline.Window.whole (Memref.whole main_v11) true false (stage3_2 0) (sem3_2 0) (Memref.isWhole_whole _) (hstage3_2 0)

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.whole (Memref.whole main_v13) false false (stage4_0 0) (sem4_0 0) (Memref.isWhole_whole _) (hstage4_0 0)

abbrev win4_1 : Pipeline.Window sig grid4 :=
  Pipeline.Window.whole (Memref.whole main_v12) false false (stage4_1 0) (sem4_1 0) (Memref.isWhole_whole _) (hstage4_1 0)

abbrev win4_2 : Pipeline.Window sig grid4 :=
  Pipeline.Window.whole (Memref.whole main_v14) true false (stage4_2 0) (sem4_2 0) (Memref.isWhole_whole _) (hstage4_2 0)

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.whole (Memref.whole main_v16) false false (stage5_0 0) (sem5_0 0) (Memref.isWhole_whole _) (hstage5_0 0)

abbrev win5_1 : Pipeline.Window sig grid5 :=
  Pipeline.Window.whole (Memref.whole main_v15) false false (stage5_1 0) (sem5_1 0) (Memref.isWhole_whole _) (hstage5_1 0)

abbrev win5_2 : Pipeline.Window sig grid5 :=
  Pipeline.Window.whole (Memref.whole main_v17) true false (stage5_2 0) (sem5_2 0) (Memref.isWhole_whole _) (hstage5_2 0)

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.whole (Memref.whole main_v19) false false (stage6_0 0) (sem6_0 0) (Memref.isWhole_whole _) (hstage6_0 0)

abbrev win6_1 : Pipeline.Window sig grid6 :=
  Pipeline.Window.whole (Memref.whole main_v18) false false (stage6_1 0) (sem6_1 0) (Memref.isWhole_whole _) (hstage6_1 0)

abbrev win6_2 : Pipeline.Window sig grid6 :=
  Pipeline.Window.whole (Memref.whole main_v20) true false (stage6_2 0) (sem6_2 0) (Memref.isWhole_whole _) (hstage6_2 0)

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.whole (Memref.whole main_v22) false false (stage7_0 0) (sem7_0 0) (Memref.isWhole_whole _) (hstage7_0 0)

abbrev win7_1 : Pipeline.Window sig grid7 :=
  Pipeline.Window.whole (Memref.whole main_v21) false false (stage7_1 0) (sem7_1 0) (Memref.isWhole_whole _) (hstage7_1 0)

abbrev win7_2 : Pipeline.Window sig grid7 :=
  Pipeline.Window.whole (Memref.whole main_v23) true false (stage7_2 0) (sem7_2 0) (Memref.isWhole_whole _) (hstage7_2 0)

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.whole (Memref.whole main_v25) false false (stage8_0 0) (sem8_0 0) (Memref.isWhole_whole _) (hstage8_0 0)

abbrev win8_1 : Pipeline.Window sig grid8 :=
  Pipeline.Window.whole (Memref.whole main_v24) false false (stage8_1 0) (sem8_1 0) (Memref.isWhole_whole _) (hstage8_1 0)

abbrev win8_2 : Pipeline.Window sig grid8 :=
  Pipeline.Window.whole (Memref.whole main_v26) true false (stage8_2 0) (sem8_2 0) (Memref.isWhole_whole _) (hstage8_2 0)

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.whole (Memref.whole main_v28) false false (stage9_0 0) (sem9_0 0) (Memref.isWhole_whole _) (hstage9_0 0)

abbrev win9_1 : Pipeline.Window sig grid9 :=
  Pipeline.Window.whole (Memref.whole main_v27) false false (stage9_1 0) (sem9_1 0) (Memref.isWhole_whole _) (hstage9_1 0)

abbrev win9_2 : Pipeline.Window sig grid9 :=
  Pipeline.Window.whole (Memref.whole main_v29) true false (stage9_2 0) (sem9_2 0) (Memref.isWhole_whole _) (hstage9_2 0)

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.whole (Memref.whole main_v31) false false (stage10_0 0) (sem10_0 0) (Memref.isWhole_whole _) (hstage10_0 0)

abbrev win10_1 : Pipeline.Window sig grid10 :=
  Pipeline.Window.whole (Memref.whole main_v30) false false (stage10_1 0) (sem10_1 0) (Memref.isWhole_whole _) (hstage10_1 0)

abbrev win10_2 : Pipeline.Window sig grid10 :=
  Pipeline.Window.whole (Memref.whole main_v32) true false (stage10_2 0) (sem10_2 0) (Memref.isWhole_whole _) (hstage10_2 0)

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.whole (Memref.whole main_v34) false false (stage11_0 0) (sem11_0 0) (Memref.isWhole_whole _) (hstage11_0 0)

abbrev win11_1 : Pipeline.Window sig grid11 :=
  Pipeline.Window.whole (Memref.whole main_v33) false false (stage11_1 0) (sem11_1 0) (Memref.isWhole_whole _) (hstage11_1 0)

abbrev win11_2 : Pipeline.Window sig grid11 :=
  Pipeline.Window.whole (Memref.whole main_v35) true false (stage11_2 0) (sem11_2 0) (Memref.isWhole_whole _) (hstage11_2 0)

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.whole (Memref.whole main_v37) false false (stage12_0 0) (sem12_0 0) (Memref.isWhole_whole _) (hstage12_0 0)

abbrev win12_1 : Pipeline.Window sig grid12 :=
  Pipeline.Window.whole (Memref.whole main_v36) false false (stage12_1 0) (sem12_1 0) (Memref.isWhole_whole _) (hstage12_1 0)

abbrev win12_2 : Pipeline.Window sig grid12 :=
  Pipeline.Window.whole (Memref.whole main_v38) true false (stage12_2 0) (sem12_2 0) (Memref.isWhole_whole _) (hstage12_2 0)

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.whole (Memref.whole main_v40) false false (stage13_0 0) (sem13_0 0) (Memref.isWhole_whole _) (hstage13_0 0)

abbrev win13_1 : Pipeline.Window sig grid13 :=
  Pipeline.Window.whole (Memref.whole main_v39) false false (stage13_1 0) (sem13_1 0) (Memref.isWhole_whole _) (hstage13_1 0)

abbrev win13_2 : Pipeline.Window sig grid13 :=
  Pipeline.Window.whole (Memref.whole main_v41) true false (stage13_2 0) (sem13_2 0) (Memref.isWhole_whole _) (hstage13_2 0)

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.whole (Memref.whole main_v43) false false (stage14_0 0) (sem14_0 0) (Memref.isWhole_whole _) (hstage14_0 0)

abbrev win14_1 : Pipeline.Window sig grid14 :=
  Pipeline.Window.whole (Memref.whole main_v42) false false (stage14_1 0) (sem14_1 0) (Memref.isWhole_whole _) (hstage14_1 0)

abbrev win14_2 : Pipeline.Window sig grid14 :=
  Pipeline.Window.whole (Memref.whole main_v44) true false (stage14_2 0) (sem14_2 0) (Memref.isWhole_whole _) (hstage14_2 0)

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.whole (Memref.whole main_v46) false false (stage15_0 0) (sem15_0 0) (Memref.isWhole_whole _) (hstage15_0 0)

abbrev win15_1 : Pipeline.Window sig grid15 :=
  Pipeline.Window.whole (Memref.whole main_v45) false false (stage15_1 0) (sem15_1 0) (Memref.isWhole_whole _) (hstage15_1 0)

abbrev win15_2 : Pipeline.Window sig grid15 :=
  Pipeline.Window.whole (Memref.whole main_v47) true false (stage15_2 0) (sem15_2 0) (Memref.isWhole_whole _) (hstage15_2 0)

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

class Facts : Prop extends Facts₀ where

variable [Facts]
-- ==== ReferenceIdeal.lean ====
abbrev S64x32768 : Shape := ⟨2, ![64, 32768]⟩
abbrev S64x28x32768 : Shape := ⟨3, ![64, 28, 32768]⟩
abbrev S64x1x32768 : Shape := ⟨3, ![64, 1, 32768]⟩
abbrev S_ : Shape := ⟨0, ![]⟩
abbrev S64x28 : Shape := ⟨2, ![64, 28]⟩
abbrev S64x28x1 : Shape := ⟨3, ![64, 28, 1]⟩

abbrev nBuf : Space → Nat
  | .hbm => 28
  | .vmem => 0
  | .smem => 0
  | _ => 0

abbrev bufTy : (tb : Table) → Fin (tcTables nBuf tb) → BufTy
  | .hbm, ⟨0, _⟩ => ⟨S64x32768, .f32⟩
  | .hbm, ⟨1, _⟩ => ⟨S64x28x32768, .f32⟩
  | .hbm, ⟨2, _⟩ => ⟨S64x1x32768, .f32⟩
  | .hbm, ⟨3, _⟩ => ⟨S64x28x32768, .f32⟩
  | .hbm, ⟨4, _⟩ => ⟨S64x28x32768, .f32⟩
  | .hbm, ⟨5, _⟩ => ⟨S64x28x32768, .f32⟩
  | .hbm, ⟨6, _⟩ => ⟨S64x28x32768, .f32⟩
  | .hbm, ⟨7, _⟩ => ⟨S64x28x32768, .f32⟩
  | .hbm, ⟨8, _⟩ => ⟨S64x28x32768, .f32⟩
  | .hbm, ⟨9, _⟩ => ⟨S_, .f32⟩
  | .hbm, ⟨10, _⟩ => ⟨S64x28x32768, .f32⟩
  | .hbm, ⟨11, _⟩ => ⟨S64x28x32768, .f32⟩
  | .hbm, ⟨12, _⟩ => ⟨S_, .f32⟩
  | .hbm, ⟨13, _⟩ => ⟨S64x28, .f32⟩
  | .hbm, ⟨14, _⟩ => ⟨S_, .f32⟩
  | .hbm, ⟨15, _⟩ => ⟨S64x28, .f32⟩
  | .hbm, ⟨16, _⟩ => ⟨S64x28, .f32⟩
  | .hbm, ⟨17, _⟩ => ⟨S64x28x1, .f32⟩
  | .hbm, ⟨18, _⟩ => ⟨S64x28x32768, .f32⟩
  | .hbm, ⟨19, _⟩ => ⟨S64x28x32768, .f32⟩
  | .hbm, ⟨20, _⟩ => ⟨S64x28x32768, .f32⟩
  | .hbm, ⟨21, _⟩ => ⟨S_, .f32⟩
  | .hbm, ⟨22, _⟩ => ⟨S64x28, .f32⟩
  | .hbm, ⟨23, _⟩ => ⟨S64x28x1, .f32⟩
  | .hbm, ⟨24, _⟩ => ⟨S64x28x32768, .f32⟩
  | .hbm, ⟨25, _⟩ => ⟨S64x28x32768, .f32⟩
  | .hbm, ⟨26, _⟩ => ⟨S_, .f32⟩
  | .hbm, ⟨27, _⟩ => ⟨S64x32768, .f32⟩
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S64x32768_S64x1x32768_0_2 : S64x32768.BroadcastsInDim S64x1x32768 (![0, 2] : Fin 2 → Fin S64x1x32768.rank)
  bcast_S64x1x32768_S64x28x32768_0_1_2 : S64x1x32768.BroadcastsInDim S64x28x32768 (![0, 1, 2] : Fin 3 → Fin S64x28x32768.rank)
  bcast_S_S64x28x32768 : S_.BroadcastsInDim S64x28x32768 (![] : Fin 0 → Fin S64x28x32768.rank)
  reducesTo_S64x28x32768_S64x28_d2 : S64x28x32768.ReducesTo [2] S64x28
  h_S_ : 0 < S_.numel
  bcast_S_S64x28 : S_.BroadcastsInDim S64x28 (![] : Fin 0 → Fin S64x28.rank)
  bcast_S64x28_S64x28x1_0_1 : S64x28.BroadcastsInDim S64x28x1 (![0, 1] : Fin 2 → Fin S64x28x1.rank)
  bcast_S64x28x1_S64x28x32768_0_1_2 : S64x28x1.BroadcastsInDim S64x28x32768 (![0, 1, 2] : Fin 3 → Fin S64x28x32768.rank)
  reducesTo_S64x28x32768_S64x32768_d1 : S64x28x32768.ReducesTo [1] S64x32768

variable [Facts₀]

class Facts : Prop extends Facts₀ where

variable [Facts]
-- ==== Proof.KB.Region0.lean ====
/-
  Region 0 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits window's buffer holds its block when the body starts, for any proof data over these arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The noise window's buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Row r of the four logits rows (and of the four result rows), as a rectangle of the buffer. -/
abbrev rowL0_0 : Rect S4x32768 := Rect.unit (s := S4x32768) ![0, 0] S1x32768.size inb_S4x32768_S1x32768_0_0
abbrev rowL0_1 : Rect S4x32768 := Rect.unit (s := S4x32768) ![1, 0] S1x32768.size inb_S4x32768_S1x32768_1_0
abbrev rowL0_2 : Rect S4x32768 := Rect.unit (s := S4x32768) ![2, 0] S1x32768.size inb_S4x32768_S1x32768_2_0
abbrev rowL0_3 : Rect S4x32768 := Rect.unit (s := S4x32768) ![3, 0] S1x32768.size inb_S4x32768_S1x32768_3_0
/-- Slab r of the four noise slabs. -/
abbrev slab0_0 : Rect S4x28x32768 := Rect.unit (s := S4x28x32768) ![0, 0, 0] S1x28x32768.size inb_S4x28x32768_S1x28x32768_0_0_0
abbrev slab0_1 : Rect S4x28x32768 := Rect.unit (s := S4x28x32768) ![1, 0, 0] S1x28x32768.size inb_S4x28x32768_S1x28x32768_1_0_0
abbrev slab0_2 : Rect S4x28x32768 := Rect.unit (s := S4x28x32768) ![2, 0, 0] S1x28x32768.size inb_S4x28x32768_S1x28x32768_2_0_0
abbrev slab0_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out0_2 (x0 : Vec F S4x32768 .f32) (x1 : Vec F S4x28x32768 .f32) : Vec F S4x32768 .f32 :=
  View.canon [⟨rowL0_3, k0_pay1 (k0_pay5 (View.ld x0 rowL0_3) (View.ld x1 slab0_3)) (k0_pay6 (View.ld x0 rowL0_3) (View.ld x1 slab0_3))⟩,
    ⟨rowL0_2, k0_pay4 (View.ld x0 rowL0_2) (View.ld x1 slab0_2)⟩,
    ⟨rowL0_1, k0_pay3 (View.ld x0 rowL0_1) (View.ld x1 slab0_1)⟩,
    ⟨rowL0_0, k0_pay2 (View.ld x0 rowL0_0) (View.ld x1 slab0_0)⟩]

/-- The four stored rows tile the result buffer. -/
theorem cover0_2 (p3 p2 p1 p0 : Vec F S1x32768 .f32) (y : S4x32768.Idx) :
    ∃ pc ∈ ([⟨rowL0_3, p3⟩, ⟨rowL0_2, p2⟩, ⟨rowL0_1, p1⟩, ⟨rowL0_0, p0⟩] : List (View.Piece (Elt F) S4x32768 .f32)), y ∈ pc.1.set :=
  View.cover_of_tiled [⟨rowL0_3, p3⟩, ⟨rowL0_2, p2⟩, ⟨rowL0_1, p1⟩, ⟨rowL0_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel0 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__chunk_body arg0 harg0 arg1 harg1 arg2 harg2) K := by
  simp only [cc0__chunk_body_eq_skeleton]; unfold cc0__chunk_body_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _ _ _ _)

/-- The proof data of the call on core c: the arrays as the call finds them; after the body each input's
    buffer holds its block and the result buffer the four stored rows of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation0 (c : Dev nD) : BodyObligation (dat0 (F := F) V c) (defs₀ (F := F)) Variants.none () Set.univ := fun t => by
  rw [bigSep_W0, bigSep_W0]
  exact sound_body0 V c t

end Cert.Kernel.Rgn

end
-- ==== Proof.KB.Region1.lean ====
/-
  Region 1 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The logits window's buffer holds its block when the body starts, for any proof data over these arrays
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The noise window's buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Row r of the four logits rows (and of the four result rows), as a rectangle of the buffer. -/
abbrev rowL1_0 : Rect S4x32768 := Rect.unit (s := S4x32768) ![0, 0] S1x32768.size inb_S4x32768_S1x32768_0_0
abbrev rowL1_1 : Rect S4x32768 := Rect.unit (s := S4x32768) ![1, 0] S1x32768.size inb_S4x32768_S1x32768_1_0
abbrev rowL1_2 : Rect S4x32768 := Rect.unit (s := S4x32768) ![2, 0] S1x32768.size inb_S4x32768_S1x32768_2_0
abbrev rowL1_3 : Rect S4x32768 := Rect.unit (s := S4x32768) ![3, 0] S1x32768.size inb_S4x32768_S1x32768_3_0
/-- Slab r of the four noise slabs. -/
abbrev slab1_0 : Rect S4x28x32768 := Rect.unit (s := S4x28x32768) ![0, 0, 0] S1x28x32768.size inb_S4x28x32768_S1x28x32768_0_0_0
abbrev slab1_1 : Rect S4x28x32768 := Rect.unit (s := S4x28x32768) ![1, 0, 0] S1x28x32768.size inb_S4x28x32768_S1x28x32768_1_0_0
abbrev slab1_2 : Rect S4x28x32768 := Rect.unit (s := S4x28x32768) ![2, 0, 0] S1x28x32768.size inb_S4x28x32768_S1x28x32768_2_0_0
abbrev slab1_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out1_2 (x0 : Vec F S4x32768 .f32) (x1 : Vec F S4x28x32768 .f32) : Vec F S4x32768 .f32 :=
  View.canon [⟨rowL1_3, k1_pay1 (k1_pay5 (View.ld x0 rowL1_3) (View.ld x1 slab1_3)) (k1_pay6 (View.ld x0 rowL1_3) (View.ld x1 slab1_3))⟩,
    ⟨rowL1_2, k1_pay4 (View.ld x0 rowL1_2) (View.ld x1 slab1_2)⟩,
    ⟨rowL1_1, k1_pay3 (View.ld x0 rowL1_1) (View.ld x1 slab1_1)⟩,
    ⟨rowL1_0, k1_pay2 (View.ld x0 rowL1_0) (View.ld x1 slab1_0)⟩]

/-- The four stored rows tile the result buffer. -/
theorem cover1_2 (p3 p2 p1 p0 : Vec F S1x32768 .f32) (y : S4x32768.Idx) :
    ∃ pc ∈ ([⟨rowL1_3, p3⟩, ⟨rowL1_2, p2⟩, ⟨rowL1_1, p1⟩, ⟨rowL1_0, p0⟩] : List (View.Piece (Elt F) S4x32768 .f32)), y ∈ pc.1.set :=
  View.cover_of_tiled [⟨rowL1_3, p3⟩, ⟨rowL1_2, p2⟩, ⟨rowL1_1, p1⟩, ⟨rowL1_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel1 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__chunk_body arg0 harg0 arg1 harg1 arg2 harg2) K := by
  simp only [cc1__chunk_body_eq_skeleton]; unfold cc1__chunk_body_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _ _ _ _)

/-- The proof data of the call on core c: the arrays as the call finds them; after the body each input's
    buffer holds its block and the result buffer the four stored rows of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation1 (c : Dev nD) : BodyObligation (dat1 (F := F) V c) (defs₀ (F := F)) Variants.none () Set.univ := fun t => by
  rw [bigSep_W1, bigSep_W1]
  exact sound_body1 V c t

end Cert.Kernel.Rgn

end
-- ==== Proof.KB.Region2.lean ====
/-
  Region 2 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The logits window's buffer holds its block when the body starts, for any proof data over these arrays
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The noise window's buffer likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Row r of the four logits rows (and of the four result rows), as a rectangle of the buffer. -/
abbrev rowL2_0 : Rect S4x32768 := Rect.unit (s := S4x32768) ![0, 0] S1x32768.size inb_S4x32768_S1x32768_0_0
abbrev rowL2_1 : Rect S4x32768 := Rect.unit (s := S4x32768) ![1, 0] S1x32768.size inb_S4x32768_S1x32768_1_0
abbrev rowL2_2 : Rect S4x32768 := Rect.unit (s := S4x32768) ![2, 0] S1x32768.size inb_S4x32768_S1x32768_2_0
abbrev rowL2_3 : Rect S4x32768 := Rect.unit (s := S4x32768) ![3, 0] S1x32768.size inb_S4x32768_S1x32768_3_0
/-- Slab r of the four noise slabs. -/
abbrev slab2_0 : Rect S4x28x32768 := Rect.unit (s := S4x28x32768) ![0, 0, 0] S1x28x32768.size inb_S4x28x32768_S1x28x32768_0_0_0
abbrev slab2_1 : Rect S4x28x32768 := Rect.unit (s := S4x28x32768) ![1, 0, 0] S1x28x32768.size inb_S4x28x32768_S1x28x32768_1_0_0
abbrev slab2_2 : Rect S4x28x32768 := Rect.unit (s := S4x28x32768) ![2, 0, 0] S1x28x32768.size inb_S4x28x32768_S1x28x32768_2_0_0
abbrev slab2_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out2_2 (x0 : Vec F S4x32768 .f32) (x1 : Vec F S4x28x32768 .f32) : Vec F S4x32768 .f32 :=
  View.canon [⟨rowL2_3, k2_pay1 (k2_pay5 (View.ld x0 rowL2_3) (View.ld x1 slab2_3)) (k2_pay6 (View.ld x0 rowL2_3) (View.ld x1 slab2_3))⟩,
    ⟨rowL2_2, k2_pay4 (View.ld x0 rowL2_2) (View.ld x1 slab2_2)⟩,
    ⟨rowL2_1, k2_pay3 (View.ld x0 rowL2_1) (View.ld x1 slab2_1)⟩,
    ⟨rowL2_0, k2_pay2 (View.ld x0 rowL2_0) (View.ld x1 slab2_0)⟩]

/-- The four stored rows tile the result buffer. -/
theorem cover2_2 (p3 p2 p1 p0 : Vec F S1x32768 .f32) (y : S4x32768.Idx) :
    ∃ pc ∈ ([⟨rowL2_3, p3⟩, ⟨rowL2_2, p2⟩, ⟨rowL2_1, p1⟩, ⟨rowL2_0, p0⟩] : List (View.Piece (Elt F) S4x32768 .f32)), y ∈ pc.1.set :=
  View.cover_of_tiled [⟨rowL2_3, p3⟩, ⟨rowL2_2, p2⟩, ⟨rowL2_1, p1⟩, ⟨rowL2_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel2 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__chunk_body arg0 harg0 arg1 harg1 arg2 harg2) K := by
  simp only [cc2__chunk_body_eq_skeleton]; unfold cc2__chunk_body_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _ _ _ _)

/-- The proof data of the call on core c: the arrays as the call finds them; after the body each input's
    buffer holds its block and the result buffer the four stored rows of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation2 (c : Dev nD) : BodyObligation (dat2 (F := F) V c) (defs₀ (F := F)) Variants.none () Set.univ := fun t => by
  rw [bigSep_W2, bigSep_W2]
  exact sound_body2 V c t

end Cert.Kernel.Rgn

end
-- ==== Proof.KB.Region3.lean ====
/-
  Region 3 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The logits window's buffer holds its block when the body starts, for any proof data over these arrays
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The noise window's buffer likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Row r of the four logits rows (and of the four result rows), as a rectangle of the buffer. -/
abbrev rowL3_0 : Rect S4x32768 := Rect.unit (s := S4x32768) ![0, 0] S1x32768.size inb_S4x32768_S1x32768_0_0
abbrev rowL3_1 : Rect S4x32768 := Rect.unit (s := S4x32768) ![1, 0] S1x32768.size inb_S4x32768_S1x32768_1_0
abbrev rowL3_2 : Rect S4x32768 := Rect.unit (s := S4x32768) ![2, 0] S1x32768.size inb_S4x32768_S1x32768_2_0
abbrev rowL3_3 : Rect S4x32768 := Rect.unit (s := S4x32768) ![3, 0] S1x32768.size inb_S4x32768_S1x32768_3_0
/-- Slab r of the four noise slabs. -/
abbrev slab3_0 : Rect S4x28x32768 := Rect.unit (s := S4x28x32768) ![0, 0, 0] S1x28x32768.size inb_S4x28x32768_S1x28x32768_0_0_0
abbrev slab3_1 : Rect S4x28x32768 := Rect.unit (s := S4x28x32768) ![1, 0, 0] S1x28x32768.size inb_S4x28x32768_S1x28x32768_1_0_0
abbrev slab3_2 : Rect S4x28x32768 := Rect.unit (s := S4x28x32768) ![2, 0, 0] S1x28x32768.size inb_S4x28x32768_S1x28x32768_2_0_0
abbrev slab3_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out3_2 (x0 : Vec F S4x32768 .f32) (x1 : Vec F S4x28x32768 .f32) : Vec F S4x32768 .f32 :=
  View.canon [⟨rowL3_3, k3_pay1 (k3_pay5 (View.ld x0 rowL3_3) (View.ld x1 slab3_3)) (k3_pay6 (View.ld x0 rowL3_3) (View.ld x1 slab3_3))⟩,
    ⟨rowL3_2, k3_pay4 (View.ld x0 rowL3_2) (View.ld x1 slab3_2)⟩,
    ⟨rowL3_1, k3_pay3 (View.ld x0 rowL3_1) (View.ld x1 slab3_1)⟩,
    ⟨rowL3_0, k3_pay2 (View.ld x0 rowL3_0) (View.ld x1 slab3_0)⟩]

/-- The four stored rows tile the result buffer. -/
theorem cover3_2 (p3 p2 p1 p0 : Vec F S1x32768 .f32) (y : S4x32768.Idx) :
    ∃ pc ∈ ([⟨rowL3_3, p3⟩, ⟨rowL3_2, p2⟩, ⟨rowL3_1, p1⟩, ⟨rowL3_0, p0⟩] : List (View.Piece (Elt F) S4x32768 .f32)), y ∈ pc.1.set :=
  View.cover_of_tiled [⟨rowL3_3, p3⟩, ⟨rowL3_2, p2⟩, ⟨rowL3_1, p1⟩, ⟨rowL3_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel3 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__chunk_body arg0 harg0 arg1 harg1 arg2 harg2) K := by
  simp only [cc3__chunk_body_eq_skeleton]; unfold cc3__chunk_body_skel
  simp only [k3_part1_eq_skeleton]; unfold k3_part1_skel
  simp only [k3_part2_eq_skeleton]; unfold k3_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover3_2 _ _ _ _)

/-- The proof data of the call on core c: the arrays as the call finds them; after the body each input's
    buffer holds its block and the result buffer the four stored rows of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation3 (c : Dev nD) : BodyObligation (dat3 (F := F) V c) (defs₀ (F := F)) Variants.none () Set.univ := fun t => by
  rw [bigSep_W3, bigSep_W3]
  exact sound_body3 V c t

end Cert.Kernel.Rgn

end
-- ==== Proof.KB.Region4.lean ====
/-
  Region 4 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The logits window's buffer holds its block when the body starts, for any proof data over these arrays
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The noise window's buffer likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Row r of the four logits rows (and of the four result rows), as a rectangle of the buffer. -/
abbrev rowL4_0 : Rect S4x32768 := Rect.unit (s := S4x32768) ![0, 0] S1x32768.size inb_S4x32768_S1x32768_0_0
abbrev rowL4_1 : Rect S4x32768 := Rect.unit (s := S4x32768) ![1, 0] S1x32768.size inb_S4x32768_S1x32768_1_0
abbrev rowL4_2 : Rect S4x32768 := Rect.unit (s := S4x32768) ![2, 0] S1x32768.size inb_S4x32768_S1x32768_2_0
abbrev rowL4_3 : Rect S4x32768 := Rect.unit (s := S4x32768) ![3, 0] S1x32768.size inb_S4x32768_S1x32768_3_0
/-- Slab r of the four noise slabs. -/
abbrev slab4_0 : Rect S4x28x32768 := Rect.unit (s := S4x28x32768) ![0, 0, 0] S1x28x32768.size inb_S4x28x32768_S1x28x32768_0_0_0
abbrev slab4_1 : Rect S4x28x32768 := Rect.unit (s := S4x28x32768) ![1, 0, 0] S1x28x32768.size inb_S4x28x32768_S1x28x32768_1_0_0
abbrev slab4_2 : Rect S4x28x32768 := Rect.unit (s := S4x28x32768) ![2, 0, 0] S1x28x32768.size inb_S4x28x32768_S1x28x32768_2_0_0
abbrev slab4_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out4_2 (x0 : Vec F S4x32768 .f32) (x1 : Vec F S4x28x32768 .f32) : Vec F S4x32768 .f32 :=
  View.canon [⟨rowL4_3, k4_pay1 (k4_pay5 (View.ld x0 rowL4_3) (View.ld x1 slab4_3)) (k4_pay6 (View.ld x0 rowL4_3) (View.ld x1 slab4_3))⟩,
    ⟨rowL4_2, k4_pay4 (View.ld x0 rowL4_2) (View.ld x1 slab4_2)⟩,
    ⟨rowL4_1, k4_pay3 (View.ld x0 rowL4_1) (View.ld x1 slab4_1)⟩,
    ⟨rowL4_0, k4_pay2 (View.ld x0 rowL4_0) (View.ld x1 slab4_0)⟩]

/-- The four stored rows tile the result buffer. -/
theorem cover4_2 (p3 p2 p1 p0 : Vec F S1x32768 .f32) (y : S4x32768.Idx) :
    ∃ pc ∈ ([⟨rowL4_3, p3⟩, ⟨rowL4_2, p2⟩, ⟨rowL4_1, p1⟩, ⟨rowL4_0, p0⟩] : List (View.Piece (Elt F) S4x32768 .f32)), y ∈ pc.1.set :=
  View.cover_of_tiled [⟨rowL4_3, p3⟩, ⟨rowL4_2, p2⟩, ⟨rowL4_1, p1⟩, ⟨rowL4_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel4 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__chunk_body arg0 harg0 arg1 harg1 arg2 harg2) K := by
  simp only [cc4__chunk_body_eq_skeleton]; unfold cc4__chunk_body_skel
  simp only [k4_part1_eq_skeleton]; unfold k4_part1_skel
  simp only [k4_part2_eq_skeleton]; unfold k4_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover4_2 _ _ _ _)

/-- The proof data of the call on core c: the arrays as the call finds them; after the body each input's
    buffer holds its block and the result buffer the four stored rows of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation4 (c : Dev nD) : BodyObligation (dat4 (F := F) V c) (defs₀ (F := F)) Variants.none () Set.univ := fun t => by
  rw [bigSep_W4, bigSep_W4]
  exact sound_body4 V c t

end Cert.Kernel.Rgn

end
-- ==== Proof.KB.Region5.lean ====
/-
  Region 5 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The logits window's buffer holds its block when the body starts, for any proof data over these arrays
    whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The noise window's buffer likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Row r of the four logits rows (and of the four result rows), as a rectangle of the buffer. -/
abbrev rowL5_0 : Rect S4x32768 := Rect.unit (s := S4x32768) ![0, 0] S1x32768.size inb_S4x32768_S1x32768_0_0
abbrev rowL5_1 : Rect S4x32768 := Rect.unit (s := S4x32768) ![1, 0] S1x32768.size inb_S4x32768_S1x32768_1_0
abbrev rowL5_2 : Rect S4x32768 := Rect.unit (s := S4x32768) ![2, 0] S1x32768.size inb_S4x32768_S1x32768_2_0
abbrev rowL5_3 : Rect S4x32768 := Rect.unit (s := S4x32768) ![3, 0] S1x32768.size inb_S4x32768_S1x32768_3_0
/-- Slab r of the four noise slabs. -/
abbrev slab5_0 : Rect S4x28x32768 := Rect.unit (s := S4x28x32768) ![0, 0, 0] S1x28x32768.size inb_S4x28x32768_S1x28x32768_0_0_0
abbrev slab5_1 : Rect S4x28x32768 := Rect.unit (s := S4x28x32768) ![1, 0, 0] S1x28x32768.size inb_S4x28x32768_S1x28x32768_1_0_0
abbrev slab5_2 : Rect S4x28x32768 := Rect.unit (s := S4x28x32768) ![2, 0, 0] S1x28x32768.size inb_S4x28x32768_S1x28x32768_2_0_0
abbrev slab5_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out5_2 (x0 : Vec F S4x32768 .f32) (x1 : Vec F S4x28x32768 .f32) : Vec F S4x32768 .f32 :=
  View.canon [⟨rowL5_3, k5_pay1 (k5_pay5 (View.ld x0 rowL5_3) (View.ld x1 slab5_3)) (k5_pay6 (View.ld x0 rowL5_3) (View.ld x1 slab5_3))⟩,
    ⟨rowL5_2, k5_pay4 (View.ld x0 rowL5_2) (View.ld x1 slab5_2)⟩,
    ⟨rowL5_1, k5_pay3 (View.ld x0 rowL5_1) (View.ld x1 slab5_1)⟩,
    ⟨rowL5_0, k5_pay2 (View.ld x0 rowL5_0) (View.ld x1 slab5_0)⟩]

/-- The four stored rows tile the result buffer. -/
theorem cover5_2 (p3 p2 p1 p0 : Vec F S1x32768 .f32) (y : S4x32768.Idx) :
    ∃ pc ∈ ([⟨rowL5_3, p3⟩, ⟨rowL5_2, p2⟩, ⟨rowL5_1, p1⟩, ⟨rowL5_0, p0⟩] : List (View.Piece (Elt F) S4x32768 .f32)), y ∈ pc.1.set :=
  View.cover_of_tiled [⟨rowL5_3, p3⟩, ⟨rowL5_2, p2⟩, ⟨rowL5_1, p1⟩, ⟨rowL5_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel5 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__chunk_body arg0 harg0 arg1 harg1 arg2 harg2) K := by
  simp only [cc5__chunk_body_eq_skeleton]; unfold cc5__chunk_body_skel
  simp only [k5_part1_eq_skeleton]; unfold k5_part1_skel
  simp only [k5_part2_eq_skeleton]; unfold k5_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover5_2 _ _ _ _)

/-- The proof data of the call on core c: the arrays as the call finds them; after the body each input's
    buffer holds its block and the result buffer the four stored rows of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation5 (c : Dev nD) : BodyObligation (dat5 (F := F) V c) (defs₀ (F := F)) Variants.none () Set.univ := fun t => by
  rw [bigSep_W5, bigSep_W5]
  exact sound_body5 V c t

end Cert.Kernel.Rgn

end
-- ==== Proof.KB.Region6.lean ====
/-
  Region 6 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The logits window's buffer holds its block when the body starts, for any proof data over these arrays
    whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The noise window's buffer likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Row r of the four logits rows (and of the four result rows), as a rectangle of the buffer. -/
abbrev rowL6_0 : Rect S4x32768 := Rect.unit (s := S4x32768) ![0, 0] S1x32768.size inb_S4x32768_S1x32768_0_0
abbrev rowL6_1 : Rect S4x32768 := Rect.unit (s := S4x32768) ![1, 0] S1x32768.size inb_S4x32768_S1x32768_1_0
abbrev rowL6_2 : Rect S4x32768 := Rect.unit (s := S4x32768) ![2, 0] S1x32768.size inb_S4x32768_S1x32768_2_0
abbrev rowL6_3 : Rect S4x32768 := Rect.unit (s := S4x32768) ![3, 0] S1x32768.size inb_S4x32768_S1x32768_3_0
/-- Slab r of the four noise slabs. -/
abbrev slab6_0 : Rect S4x28x32768 := Rect.unit (s := S4x28x32768) ![0, 0, 0] S1x28x32768.size inb_S4x28x32768_S1x28x32768_0_0_0
abbrev slab6_1 : Rect S4x28x32768 := Rect.unit (s := S4x28x32768) ![1, 0, 0] S1x28x32768.size inb_S4x28x32768_S1x28x32768_1_0_0
abbrev slab6_2 : Rect S4x28x32768 := Rect.unit (s := S4x28x32768) ![2, 0, 0] S1x28x32768.size inb_S4x28x32768_S1x28x32768_2_0_0
abbrev slab6_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out6_2 (x0 : Vec F S4x32768 .f32) (x1 : Vec F S4x28x32768 .f32) : Vec F S4x32768 .f32 :=
  View.canon [⟨rowL6_3, k6_pay1 (k6_pay5 (View.ld x0 rowL6_3) (View.ld x1 slab6_3)) (k6_pay6 (View.ld x0 rowL6_3) (View.ld x1 slab6_3))⟩,
    ⟨rowL6_2, k6_pay4 (View.ld x0 rowL6_2) (View.ld x1 slab6_2)⟩,
    ⟨rowL6_1, k6_pay3 (View.ld x0 rowL6_1) (View.ld x1 slab6_1)⟩,
    ⟨rowL6_0, k6_pay2 (View.ld x0 rowL6_0) (View.ld x1 slab6_0)⟩]

/-- The four stored rows tile the result buffer. -/
theorem cover6_2 (p3 p2 p1 p0 : Vec F S1x32768 .f32) (y : S4x32768.Idx) :
    ∃ pc ∈ ([⟨rowL6_3, p3⟩, ⟨rowL6_2, p2⟩, ⟨rowL6_1, p1⟩, ⟨rowL6_0, p0⟩] : List (View.Piece (Elt F) S4x32768 .f32)), y ∈ pc.1.set :=
  View.cover_of_tiled [⟨rowL6_3, p3⟩, ⟨rowL6_2, p2⟩, ⟨rowL6_1, p1⟩, ⟨rowL6_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel6 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out6_2 x0 x1)) -∗ K ⟨⟩))
      ⊢ wp frame (wpE (defs₀ (F := F)) Variants.none c none) E (cc6__chunk_body arg0 harg0 arg1 harg1 arg2 harg2) K := by
  simp only [cc6__chunk_body_eq_skeleton]; unfold cc6__chunk_body_skel
  simp only [k6_part1_eq_skeleton]; unfold k6_part1_skel
  simp only [k6_part2_eq_skeleton]; unfold k6_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover6_2 _ _ _ _)

/-- The proof data of the call on core c: the arrays as the call finds them; after the body each input's
    buffer holds its block and the result buffer the four stored rows of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation6 (c : Dev nD) : BodyObligation (dat6 (F := F) V c) (defs₀ (F := F)) Variants.none () Set.univ := fun t => by
  rw [bigSep_W6, bigSep_W6]
  exact sound_body6 V c t

end Cert.Kernel.Rgn

end
-- ==== Proof.KB.Region7.lean ====
/-
  Region 7 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The logits window's buffer holds its block when the body starts, for any proof data over these arrays
    whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The noise window's buffer likewise. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Row r of the four logits rows (and of the four result rows), as a rectangle of the buffer. -/
abbrev rowL7_0 : Rect S4x32768 := Rect.unit (s := S4x32768) ![0, 0] S1x32768.size inb_S4x32768_S1x32768_0_0
abbrev rowL7_1 : Rect S4x32768 := Rect.unit (s := S4x32768) ![1, 0] S1x32768.size inb_S4x32768_S1x32768_1_0
abbrev rowL7_2 : Rect S4x32768 := Rect.unit (s := S4x32768) ![2, 0] S1x32768.size inb_S4x32768_S1x32768_2_0
abbrev rowL7_3 : Rect S4x32768 := Rect.unit (s := S4x32768) ![3, 0] S1x32768.size inb_S4x32768_S1x32768_3_0
/-- Slab r of the four noise slabs. -/
abbrev slab7_0 : Rect S4x28x32768 := Rect.unit (s := S4x28x32768) ![0, 0, 0] S1x28x32768.size inb_S4x28x32768_S1x28x32768_0_0_0
abbrev slab7_1 : Rect S4x28x32768 := Rect.unit (s := S4x28x32768) ![1, 0, 0] S1x28x32768.size inb_S4x28x32768_S1x28x32768_1_0_0
abbrev slab7_2 : Rect S4x28x32768 := Rect.unit (s := S4x28x32768) ![2, 0, 0] S1x28x32768.size inb_S4x28x32768_S1x28x32768_2_0_0
abbrev slab7_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out7_2 (x0 : Vec F S4x32768 .f32) (x1 : Vec F S4x28x32768 .f32) : Vec F S4x32768 .f32 :=
  View.canon [⟨rowL7_3, k7_pay1 (k7_pay5 (View.ld x0 rowL7_3) (View.ld x1 slab7_3)) (k7_pay6 (View.ld x0 rowL7_3) (View.ld x1 slab7_3))⟩,
    ⟨rowL7_2, k7_pay4 (View.ld x0 rowL7_2) (View.ld x1 slab7_2)⟩,
    ⟨rowL7_1, k7_pay3 (View.ld x0 rowL7_1) (View.ld x1 slab7_1)⟩,
    ⟨rowL7_0, k7_pay2 (View.ld x0 rowL7_0) (View.ld x1 slab7_0)⟩]

/-- The four stored rows tile the result buffer. -/
theorem cover7_2 (p3 p2 p1 p0 : Vec F S1x32768 .f32) (y : S4x32768.Idx) :
    ∃ pc ∈ ([⟨rowL7_3, p3⟩, ⟨rowL7_2, p2⟩, ⟨rowL7_1, p1⟩, ⟨rowL7_0, p0⟩] : List (View.Piece (Elt F) S4x32768 .f32)), y ∈ pc.1.set :=
  View.cover_of_tiled [⟨rowL7_3, p3⟩, ⟨rowL7_2, p2⟩, ⟨rowL7_1, p1⟩, ⟨rowL7_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel7 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out7_2 x0 x1)) -∗ K ⟨⟩))
      ⊢ wp frame (wpE (defs₀ (F := F)) Variants.none c none) E (cc7__chunk_body arg0 harg0 arg1 harg1 arg2 harg2) K := by
  simp only [cc7__chunk_body_eq_skeleton]; unfold cc7__chunk_body_skel
  simp only [k7_part1_eq_skeleton]; unfold k7_part1_skel
  simp only [k7_part2_eq_skeleton]; unfold k7_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover7_2 _ _ _ _)

/-- The proof data of the call on core c: the arrays as the call finds them; after the body each input's
    buffer holds its block and the result buffer the four stored rows of the input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation7 (c : Dev nD) : BodyObligation (dat7 (F := F) V c) (defs₀ (F := F)) Variants.none () Set.univ := fun t => by
  rw [bigSep_W7, bigSep_W7]
  exact sound_body7 V c t

end Cert.Kernel.Rgn

end
-- ==== Proof.KB.Region8.lean ====
/-
  Region 8 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The logits window's buffer holds its block when the body starts, for any proof data over these arrays
    whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The noise window's buffer likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Row r of the four logits rows (and of the four result rows), as a rectangle of the buffer. -/
abbrev rowL8_0 : Rect S4x32768 := Rect.unit (s := S4x32768) ![0, 0] S1x32768.size inb_S4x32768_S1x32768_0_0
abbrev rowL8_1 : Rect S4x32768 := Rect.unit (s := S4x32768) ![1, 0] S1x32768.size inb_S4x32768_S1x32768_1_0
abbrev rowL8_2 : Rect S4x32768 := Rect.unit (s := S4x32768) ![2, 0] S1x32768.size inb_S4x32768_S1x32768_2_0
abbrev rowL8_3 : Rect S4x32768 := Rect.unit (s := S4x32768) ![3, 0] S1x32768.size inb_S4x32768_S1x32768_3_0
/-- Slab r of the four noise slabs. -/
abbrev slab8_0 : Rect S4x28x32768 := Rect.unit (s := S4x28x32768) ![0, 0, 0] S1x28x32768.size inb_S4x28x32768_S1x28x32768_0_0_0
abbrev slab8_1 : Rect S4x28x32768 := Rect.unit (s := S4x28x32768) ![1, 0, 0] S1x28x32768.size inb_S4x28x32768_S1x28x32768_1_0_0
abbrev slab8_2 : Rect S4x28x32768 := Rect.unit (s := S4x28x32768) ![2, 0, 0] S1x28x32768.size inb_S4x28x32768_S1x28x32768_2_0_0
abbrev slab8_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out8_2 (x0 : Vec F S4x32768 .f32) (x1 : Vec F S4x28x32768 .f32) : Vec F S4x32768 .f32 :=
  View.canon [⟨rowL8_3, k8_pay1 (k8_pay5 (View.ld x0 rowL8_3) (View.ld x1 slab8_3)) (k8_pay6 (View.ld x0 rowL8_3) (View.ld x1 slab8_3))⟩,
    ⟨rowL8_2, k8_pay4 (View.ld x0 rowL8_2) (View.ld x1 slab8_2)⟩,
    ⟨rowL8_1, k8_pay3 (View.ld x0 rowL8_1) (View.ld x1 slab8_1)⟩,
    ⟨rowL8_0, k8_pay2 (View.ld x0 rowL8_0) (View.ld x1 slab8_0)⟩]

/-- The four stored rows tile the result buffer. -/
theorem cover8_2 (p3 p2 p1 p0 : Vec F S1x32768 .f32) (y : S4x32768.Idx) :
    ∃ pc ∈ ([⟨rowL8_3, p3⟩, ⟨rowL8_2, p2⟩, ⟨rowL8_1, p1⟩, ⟨rowL8_0, p0⟩] : List (View.Piece (Elt F) S4x32768 .f32)), y ∈ pc.1.set :=
  View.cover_of_tiled [⟨rowL8_3, p3⟩, ⟨rowL8_2, p2⟩, ⟨rowL8_1, p1⟩, ⟨rowL8_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel8 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out8_2 x0 x1)) -∗ K ⟨⟩))
      ⊢ wp frame (wpE (defs₀ (F := F)) Variants.none c none) E (cc8__chunk_body arg0 harg0 arg1 harg1 arg2 harg2) K := by
  simp only [cc8__chunk_body_eq_skeleton]; unfold cc8__chunk_body_skel
  simp only [k8_part1_eq_skeleton]; unfold k8_part1_skel
  simp only [k8_part2_eq_skeleton]; unfold k8_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover8_2 _ _ _ _)

/-- The proof data of the call on core c: the arrays as the call finds them; after the body each input's
    buffer holds its block and the result buffer the four stored rows of the input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation8 (c : Dev nD) : BodyObligation (dat8 (F := F) V c) (defs₀ (F := F)) Variants.none () Set.univ := fun t => by
  rw [bigSep_W8, bigSep_W8]
  exact sound_body8 V c t

end Cert.Kernel.Rgn

end
-- ==== Proof.KB.Region9.lean ====
/-
  Region 9 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The logits window's buffer holds its block when the body starts, for any proof data over these arrays
    whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The noise window's buffer likewise. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Row r of the four logits rows (and of the four result rows), as a rectangle of the buffer. -/
abbrev rowL9_0 : Rect S4x32768 := Rect.unit (s := S4x32768) ![0, 0] S1x32768.size inb_S4x32768_S1x32768_0_0
abbrev rowL9_1 : Rect S4x32768 := Rect.unit (s := S4x32768) ![1, 0] S1x32768.size inb_S4x32768_S1x32768_1_0
abbrev rowL9_2 : Rect S4x32768 := Rect.unit (s := S4x32768) ![2, 0] S1x32768.size inb_S4x32768_S1x32768_2_0
abbrev rowL9_3 : Rect S4x32768 := Rect.unit (s := S4x32768) ![3, 0] S1x32768.size inb_S4x32768_S1x32768_3_0
/-- Slab r of the four noise slabs. -/
abbrev slab9_0 : Rect S4x28x32768 := Rect.unit (s := S4x28x32768) ![0, 0, 0] S1x28x32768.size inb_S4x28x32768_S1x28x32768_0_0_0
abbrev slab9_1 : Rect S4x28x32768 := Rect.unit (s := S4x28x32768) ![1, 0, 0] S1x28x32768.size inb_S4x28x32768_S1x28x32768_1_0_0
abbrev slab9_2 : Rect S4x28x32768 := Rect.unit (s := S4x28x32768) ![2, 0, 0] S1x28x32768.size inb_S4x28x32768_S1x28x32768_2_0_0
abbrev slab9_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out9_2 (x0 : Vec F S4x32768 .f32) (x1 : Vec F S4x28x32768 .f32) : Vec F S4x32768 .f32 :=
  View.canon [⟨rowL9_3, k9_pay1 (k9_pay5 (View.ld x0 rowL9_3) (View.ld x1 slab9_3)) (k9_pay6 (View.ld x0 rowL9_3) (View.ld x1 slab9_3))⟩,
    ⟨rowL9_2, k9_pay4 (View.ld x0 rowL9_2) (View.ld x1 slab9_2)⟩,
    ⟨rowL9_1, k9_pay3 (View.ld x0 rowL9_1) (View.ld x1 slab9_1)⟩,
    ⟨rowL9_0, k9_pay2 (View.ld x0 rowL9_0) (View.ld x1 slab9_0)⟩]

/-- The four stored rows tile the result buffer. -/
theorem cover9_2 (p3 p2 p1 p0 : Vec F S1x32768 .f32) (y : S4x32768.Idx) :
    ∃ pc ∈ ([⟨rowL9_3, p3⟩, ⟨rowL9_2, p2⟩, ⟨rowL9_1, p1⟩, ⟨rowL9_0, p0⟩] : List (View.Piece (Elt F) S4x32768 .f32)), y ∈ pc.1.set :=
  View.cover_of_tiled [⟨rowL9_3, p3⟩, ⟨rowL9_2, p2⟩, ⟨rowL9_1, p1⟩, ⟨rowL9_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel9 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out9_2 x0 x1)) -∗ K ⟨⟩))
      ⊢ wp frame (wpE (defs₀ (F := F)) Variants.none c none) E (cc9__chunk_body arg0 harg0 arg1 harg1 arg2 harg2) K := by
  simp only [cc9__chunk_body_eq_skeleton]; unfold cc9__chunk_body_skel
  simp only [k9_part1_eq_skeleton]; unfold k9_part1_skel
  simp only [k9_part2_eq_skeleton]; unfold k9_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover9_2 _ _ _ _)

/-- The proof data of the call on core c: the arrays as the call finds them; after the body each input's
    buffer holds its block and the result buffer the four stored rows of the input blocks. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation9 (c : Dev nD) : BodyObligation (dat9 (F := F) V c) (defs₀ (F := F)) Variants.none () Set.univ := fun t => by
  rw [bigSep_W9, bigSep_W9]
  exact sound_body9 V c t

end Cert.Kernel.Rgn

end
-- ==== Proof.KB.Region10.lean ====
/-
  Region 10 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The logits window's buffer holds its block when the body starts, for any proof data over these arrays
    whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The noise window's buffer likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Row r of the four logits rows (and of the four result rows), as a rectangle of the buffer. -/
abbrev rowL10_0 : Rect S4x32768 := Rect.unit (s := S4x32768) ![0, 0] S1x32768.size inb_S4x32768_S1x32768_0_0
abbrev rowL10_1 : Rect S4x32768 := Rect.unit (s := S4x32768) ![1, 0] S1x32768.size inb_S4x32768_S1x32768_1_0
abbrev rowL10_2 : Rect S4x32768 := Rect.unit (s := S4x32768) ![2, 0] S1x32768.size inb_S4x32768_S1x32768_2_0
abbrev rowL10_3 : Rect S4x32768 := Rect.unit (s := S4x32768) ![3, 0] S1x32768.size inb_S4x32768_S1x32768_3_0
/-- Slab r of the four noise slabs. -/
abbrev slab10_0 : Rect S4x28x32768 := Rect.unit (s := S4x28x32768) ![0, 0, 0] S1x28x32768.size inb_S4x28x32768_S1x28x32768_0_0_0
abbrev slab10_1 : Rect S4x28x32768 := Rect.unit (s := S4x28x32768) ![1, 0, 0] S1x28x32768.size inb_S4x28x32768_S1x28x32768_1_0_0
abbrev slab10_2 : Rect S4x28x32768 := Rect.unit (s := S4x28x32768) ![2, 0, 0] S1x28x32768.size inb_S4x28x32768_S1x28x32768_2_0_0
abbrev slab10_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out10_2 (x0 : Vec F S4x32768 .f32) (x1 : Vec F S4x28x32768 .f32) : Vec F S4x32768 .f32 :=
  View.canon [⟨rowL10_3, k10_pay1 (k10_pay5 (View.ld x0 rowL10_3) (View.ld x1 slab10_3)) (k10_pay6 (View.ld x0 rowL10_3) (View.ld x1 slab10_3))⟩,
    ⟨rowL10_2, k10_pay4 (View.ld x0 rowL10_2) (View.ld x1 slab10_2)⟩,
    ⟨rowL10_1, k10_pay3 (View.ld x0 rowL10_1) (View.ld x1 slab10_1)⟩,
    ⟨rowL10_0, k10_pay2 (View.ld x0 rowL10_0) (View.ld x1 slab10_0)⟩]

/-- The four stored rows tile the result buffer. -/
theorem cover10_2 (p3 p2 p1 p0 : Vec F S1x32768 .f32) (y : S4x32768.Idx) :
    ∃ pc ∈ ([⟨rowL10_3, p3⟩, ⟨rowL10_2, p2⟩, ⟨rowL10_1, p1⟩, ⟨rowL10_0, p0⟩] : List (View.Piece (Elt F) S4x32768 .f32)), y ∈ pc.1.set :=
  View.cover_of_tiled [⟨rowL10_3, p3⟩, ⟨rowL10_2, p2⟩, ⟨rowL10_1, p1⟩, ⟨rowL10_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel10 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out10_2 x0 x1)) -∗ K ⟨⟩))
      ⊢ wp frame (wpE (defs₀ (F := F)) Variants.none c none) E (cc10__chunk_body arg0 harg0 arg1 harg1 arg2 harg2) K := by
  simp only [cc10__chunk_body_eq_skeleton]; unfold cc10__chunk_body_skel
  simp only [k10_part1_eq_skeleton]; unfold k10_part1_skel
  simp only [k10_part2_eq_skeleton]; unfold k10_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover10_2 _ _ _ _)

/-- The proof data of the call on core c: the arrays as the call finds them; after the body each input's
    buffer holds its block and the result buffer the four stored rows of the input blocks. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation10 (c : Dev nD) : BodyObligation (dat10 (F := F) V c) (defs₀ (F := F)) Variants.none () Set.univ := fun t => by
  rw [bigSep_W10, bigSep_W10]
  exact sound_body10 V c t

end Cert.Kernel.Rgn

end
-- ==== Proof.KB.Region11.lean ====
/-
  Region 11 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The logits window's buffer holds its block when the body starts, for any proof data over these arrays
    whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The noise window's buffer likewise. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Row r of the four logits rows (and of the four result rows), as a rectangle of the buffer. -/
abbrev rowL11_0 : Rect S4x32768 := Rect.unit (s := S4x32768) ![0, 0] S1x32768.size inb_S4x32768_S1x32768_0_0
abbrev rowL11_1 : Rect S4x32768 := Rect.unit (s := S4x32768) ![1, 0] S1x32768.size inb_S4x32768_S1x32768_1_0
abbrev rowL11_2 : Rect S4x32768 := Rect.unit (s := S4x32768) ![2, 0] S1x32768.size inb_S4x32768_S1x32768_2_0
abbrev rowL11_3 : Rect S4x32768 := Rect.unit (s := S4x32768) ![3, 0] S1x32768.size inb_S4x32768_S1x32768_3_0
/-- Slab r of the four noise slabs. -/
abbrev slab11_0 : Rect S4x28x32768 := Rect.unit (s := S4x28x32768) ![0, 0, 0] S1x28x32768.size inb_S4x28x32768_S1x28x32768_0_0_0
abbrev slab11_1 : Rect S4x28x32768 := Rect.unit (s := S4x28x32768) ![1, 0, 0] S1x28x32768.size inb_S4x28x32768_S1x28x32768_1_0_0
abbrev slab11_2 : Rect S4x28x32768 := Rect.unit (s := S4x28x32768) ![2, 0, 0] S1x28x32768.size inb_S4x28x32768_S1x28x32768_2_0_0
abbrev slab11_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out11_2 (x0 : Vec F S4x32768 .f32) (x1 : Vec F S4x28x32768 .f32) : Vec F S4x32768 .f32 :=
  View.canon [⟨rowL11_3, k11_pay1 (k11_pay5 (View.ld x0 rowL11_3) (View.ld x1 slab11_3)) (k11_pay6 (View.ld x0 rowL11_3) (View.ld x1 slab11_3))⟩,
    ⟨rowL11_2, k11_pay4 (View.ld x0 rowL11_2) (View.ld x1 slab11_2)⟩,
    ⟨rowL11_1, k11_pay3 (View.ld x0 rowL11_1) (View.ld x1 slab11_1)⟩,
    ⟨rowL11_0, k11_pay2 (View.ld x0 rowL11_0) (View.ld x1 slab11_0)⟩]

/-- The four stored rows tile the result buffer. -/
theorem cover11_2 (p3 p2 p1 p0 : Vec F S1x32768 .f32) (y : S4x32768.Idx) :
    ∃ pc ∈ ([⟨rowL11_3, p3⟩, ⟨rowL11_2, p2⟩, ⟨rowL11_1, p1⟩, ⟨rowL11_0, p0⟩] : List (View.Piece (Elt F) S4x32768 .f32)), y ∈ pc.1.set :=
  View.cover_of_tiled [⟨rowL11_3, p3⟩, ⟨rowL11_2, p2⟩, ⟨rowL11_1, p1⟩, ⟨rowL11_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel11 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out11_2 x0 x1)) -∗ K ⟨⟩))
      ⊢ wp frame (wpE (defs₀ (F := F)) Variants.none c none) E (cc11__chunk_body arg0 harg0 arg1 harg1 arg2 harg2) K := by
  simp only [cc11__chunk_body_eq_skeleton]; unfold cc11__chunk_body_skel
  simp only [k11_part1_eq_skeleton]; unfold k11_part1_skel
  simp only [k11_part2_eq_skeleton]; unfold k11_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover11_2 _ _ _ _)

/-- The proof data of the call on core c: the arrays as the call finds them; after the body each input's
    buffer holds its block and the result buffer the four stored rows of the input blocks. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the body is called with, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation11 (c : Dev nD) : BodyObligation (dat11 (F := F) V c) (defs₀ (F := F)) Variants.none () Set.univ := fun t => by
  rw [bigSep_W11, bigSep_W11]
  exact sound_body11 V c t

end Cert.Kernel.Rgn

end
-- ==== Proof.KB.Region12.lean ====
/-
  Region 12 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The logits window's buffer holds its block when the body starts, for any proof data over these arrays
    whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- The noise window's buffer likewise. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Row r of the four logits rows (and of the four result rows), as a rectangle of the buffer. -/
abbrev rowL12_0 : Rect S4x32768 := Rect.unit (s := S4x32768) ![0, 0] S1x32768.size inb_S4x32768_S1x32768_0_0
abbrev rowL12_1 : Rect S4x32768 := Rect.unit (s := S4x32768) ![1, 0] S1x32768.size inb_S4x32768_S1x32768_1_0
abbrev rowL12_2 : Rect S4x32768 := Rect.unit (s := S4x32768) ![2, 0] S1x32768.size inb_S4x32768_S1x32768_2_0
abbrev rowL12_3 : Rect S4x32768 := Rect.unit (s := S4x32768) ![3, 0] S1x32768.size inb_S4x32768_S1x32768_3_0
/-- Slab r of the four noise slabs. -/
abbrev slab12_0 : Rect S4x28x32768 := Rect.unit (s := S4x28x32768) ![0, 0, 0] S1x28x32768.size inb_S4x28x32768_S1x28x32768_0_0_0
abbrev slab12_1 : Rect S4x28x32768 := Rect.unit (s := S4x28x32768) ![1, 0, 0] S1x28x32768.size inb_S4x28x32768_S1x28x32768_1_0_0
abbrev slab12_2 : Rect S4x28x32768 := Rect.unit (s := S4x28x32768) ![2, 0, 0] S1x28x32768.size inb_S4x28x32768_S1x28x32768_2_0_0
abbrev slab12_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out12_2 (x0 : Vec F S4x32768 .f32) (x1 : Vec F S4x28x32768 .f32) : Vec F S4x32768 .f32 :=
  View.canon [⟨rowL12_3, k12_pay1 (k12_pay5 (View.ld x0 rowL12_3) (View.ld x1 slab12_3)) (k12_pay6 (View.ld x0 rowL12_3) (View.ld x1 slab12_3))⟩,
    ⟨rowL12_2, k12_pay4 (View.ld x0 rowL12_2) (View.ld x1 slab12_2)⟩,
    ⟨rowL12_1, k12_pay3 (View.ld x0 rowL12_1) (View.ld x1 slab12_1)⟩,
    ⟨rowL12_0, k12_pay2 (View.ld x0 rowL12_0) (View.ld x1 slab12_0)⟩]

/-- The four stored rows tile the result buffer. -/
theorem cover12_2 (p3 p2 p1 p0 : Vec F S1x32768 .f32) (y : S4x32768.Idx) :
    ∃ pc ∈ ([⟨rowL12_3, p3⟩, ⟨rowL12_2, p2⟩, ⟨rowL12_1, p1⟩, ⟨rowL12_0, p0⟩] : List (View.Piece (Elt F) S4x32768 .f32)), y ∈ pc.1.set :=
  View.cover_of_tiled [⟨rowL12_3, p3⟩, ⟨rowL12_2, p2⟩, ⟨rowL12_1, p1⟩, ⟨rowL12_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel12 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out12_2 x0 x1)) -∗ K ⟨⟩))
      ⊢ wp frame (wpE (defs₀ (F := F)) Variants.none c none) E (cc12__chunk_body arg0 harg0 arg1 harg1 arg2 harg2) K := by
  simp only [cc12__chunk_body_eq_skeleton]; unfold cc12__chunk_body_skel
  simp only [k12_part1_eq_skeleton]; unfold k12_part1_skel
  simp only [k12_part2_eq_skeleton]; unfold k12_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover12_2 _ _ _ _)

/-- The proof data of the call on core c: the arrays as the call finds them; after the body each input's
    buffer holds its block and the result buffer the four stored rows of the input blocks. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation12 (c : Dev nD) : BodyObligation (dat12 (F := F) V c) (defs₀ (F := F)) Variants.none () Set.univ := fun t => by
  rw [bigSep_W12, bigSep_W12]
  exact sound_body12 V c t

end Cert.Kernel.Rgn

end
-- ==== Proof.KB.Region13.lean ====
/-
  Region 13 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The logits window's buffer holds its block when the body starts, for any proof data over these arrays
    whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The noise window's buffer likewise. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Row r of the four logits rows (and of the four result rows), as a rectangle of the buffer. -/
abbrev rowL13_0 : Rect S4x32768 := Rect.unit (s := S4x32768) ![0, 0] S1x32768.size inb_S4x32768_S1x32768_0_0
abbrev rowL13_1 : Rect S4x32768 := Rect.unit (s := S4x32768) ![1, 0] S1x32768.size inb_S4x32768_S1x32768_1_0
abbrev rowL13_2 : Rect S4x32768 := Rect.unit (s := S4x32768) ![2, 0] S1x32768.size inb_S4x32768_S1x32768_2_0
abbrev rowL13_3 : Rect S4x32768 := Rect.unit (s := S4x32768) ![3, 0] S1x32768.size inb_S4x32768_S1x32768_3_0
/-- Slab r of the four noise slabs. -/
abbrev slab13_0 : Rect S4x28x32768 := Rect.unit (s := S4x28x32768) ![0, 0, 0] S1x28x32768.size inb_S4x28x32768_S1x28x32768_0_0_0
abbrev slab13_1 : Rect S4x28x32768 := Rect.unit (s := S4x28x32768) ![1, 0, 0] S1x28x32768.size inb_S4x28x32768_S1x28x32768_1_0_0
abbrev slab13_2 : Rect S4x28x32768 := Rect.unit (s := S4x28x32768) ![2, 0, 0] S1x28x32768.size inb_S4x28x32768_S1x28x32768_2_0_0
abbrev slab13_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out13_2 (x0 : Vec F S4x32768 .f32) (x1 : Vec F S4x28x32768 .f32) : Vec F S4x32768 .f32 :=
  View.canon [⟨rowL13_3, k13_pay1 (k13_pay5 (View.ld x0 rowL13_3) (View.ld x1 slab13_3)) (k13_pay6 (View.ld x0 rowL13_3) (View.ld x1 slab13_3))⟩,
    ⟨rowL13_2, k13_pay4 (View.ld x0 rowL13_2) (View.ld x1 slab13_2)⟩,
    ⟨rowL13_1, k13_pay3 (View.ld x0 rowL13_1) (View.ld x1 slab13_1)⟩,
    ⟨rowL13_0, k13_pay2 (View.ld x0 rowL13_0) (View.ld x1 slab13_0)⟩]

/-- The four stored rows tile the result buffer. -/
theorem cover13_2 (p3 p2 p1 p0 : Vec F S1x32768 .f32) (y : S4x32768.Idx) :
    ∃ pc ∈ ([⟨rowL13_3, p3⟩, ⟨rowL13_2, p2⟩, ⟨rowL13_1, p1⟩, ⟨rowL13_0, p0⟩] : List (View.Piece (Elt F) S4x32768 .f32)), y ∈ pc.1.set :=
  View.cover_of_tiled [⟨rowL13_3, p3⟩, ⟨rowL13_2, p2⟩, ⟨rowL13_1, p1⟩, ⟨rowL13_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel13 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out13_2 x0 x1)) -∗ K ⟨⟩))
      ⊢ wp frame (wpE (defs₀ (F := F)) Variants.none c none) E (cc13__chunk_body arg0 harg0 arg1 harg1 arg2 harg2) K := by
  simp only [cc13__chunk_body_eq_skeleton]; unfold cc13__chunk_body_skel
  simp only [k13_part1_eq_skeleton]; unfold k13_part1_skel
  simp only [k13_part2_eq_skeleton]; unfold k13_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover13_2 _ _ _ _)

/-- The proof data of the call on core c: the arrays as the call finds them; after the body each input's
    buffer holds its block and the result buffer the four stored rows of the input blocks. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the body is called with, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation13 (c : Dev nD) : BodyObligation (dat13 (F := F) V c) (defs₀ (F := F)) Variants.none () Set.univ := fun t => by
  rw [bigSep_W13, bigSep_W13]
  exact sound_body13 V c t

end Cert.Kernel.Rgn

end
-- ==== Proof.KB.Region14.lean ====
/-
  Region 14 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The logits window's buffer holds its block when the body starts, for any proof data over these arrays
    whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The noise window's buffer likewise. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Row r of the four logits rows (and of the four result rows), as a rectangle of the buffer. -/
abbrev rowL14_0 : Rect S4x32768 := Rect.unit (s := S4x32768) ![0, 0] S1x32768.size inb_S4x32768_S1x32768_0_0
abbrev rowL14_1 : Rect S4x32768 := Rect.unit (s := S4x32768) ![1, 0] S1x32768.size inb_S4x32768_S1x32768_1_0
abbrev rowL14_2 : Rect S4x32768 := Rect.unit (s := S4x32768) ![2, 0] S1x32768.size inb_S4x32768_S1x32768_2_0
abbrev rowL14_3 : Rect S4x32768 := Rect.unit (s := S4x32768) ![3, 0] S1x32768.size inb_S4x32768_S1x32768_3_0
/-- Slab r of the four noise slabs. -/
abbrev slab14_0 : Rect S4x28x32768 := Rect.unit (s := S4x28x32768) ![0, 0, 0] S1x28x32768.size inb_S4x28x32768_S1x28x32768_0_0_0
abbrev slab14_1 : Rect S4x28x32768 := Rect.unit (s := S4x28x32768) ![1, 0, 0] S1x28x32768.size inb_S4x28x32768_S1x28x32768_1_0_0
abbrev slab14_2 : Rect S4x28x32768 := Rect.unit (s := S4x28x32768) ![2, 0, 0] S1x28x32768.size inb_S4x28x32768_S1x28x32768_2_0_0
abbrev slab14_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out14_2 (x0 : Vec F S4x32768 .f32) (x1 : Vec F S4x28x32768 .f32) : Vec F S4x32768 .f32 :=
  View.canon [⟨rowL14_3, k14_pay1 (k14_pay5 (View.ld x0 rowL14_3) (View.ld x1 slab14_3)) (k14_pay6 (View.ld x0 rowL14_3) (View.ld x1 slab14_3))⟩,
    ⟨rowL14_2, k14_pay4 (View.ld x0 rowL14_2) (View.ld x1 slab14_2)⟩,
    ⟨rowL14_1, k14_pay3 (View.ld x0 rowL14_1) (View.ld x1 slab14_1)⟩,
    ⟨rowL14_0, k14_pay2 (View.ld x0 rowL14_0) (View.ld x1 slab14_0)⟩]

/-- The four stored rows tile the result buffer. -/
theorem cover14_2 (p3 p2 p1 p0 : Vec F S1x32768 .f32) (y : S4x32768.Idx) :
    ∃ pc ∈ ([⟨rowL14_3, p3⟩, ⟨rowL14_2, p2⟩, ⟨rowL14_1, p1⟩, ⟨rowL14_0, p0⟩] : List (View.Piece (Elt F) S4x32768 .f32)), y ∈ pc.1.set :=
  View.cover_of_tiled [⟨rowL14_3, p3⟩, ⟨rowL14_2, p2⟩, ⟨rowL14_1, p1⟩, ⟨rowL14_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel14 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out14_2 x0 x1)) -∗ K ⟨⟩))
      ⊢ wp frame (wpE (defs₀ (F := F)) Variants.none c none) E (cc14__chunk_body arg0 harg0 arg1 harg1 arg2 harg2) K := by
  simp only [cc14__chunk_body_eq_skeleton]; unfold cc14__chunk_body_skel
  simp only [k14_part1_eq_skeleton]; unfold k14_part1_skel
  simp only [k14_part2_eq_skeleton]; unfold k14_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover14_2 _ _ _ _)

/-- The proof data of the call on core c: the arrays as the call finds them; after the body each input's
    buffer holds its block and the result buffer the four stored rows of the input blocks. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14_2 (iblk14 V c 0 t) (iblk14 V c 1 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- What the body is called with, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation14 (c : Dev nD) : BodyObligation (dat14 (F := F) V c) (defs₀ (F := F)) Variants.none () Set.univ := fun t => by
  rw [bigSep_W14, bigSep_W14]
  exact sound_body14 V c t

end Cert.Kernel.Rgn

end
-- ==== Proof.KB.Region15.lean ====
/-
  Region 15 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.Kernel.Launch
import proofs.«146618_g16140487098628_cont_week2b_481_21_alg».proof.Proof.Gen.Kernel.Skeleton
import proofs.«146618_g16140487098628_cont_week2b_481_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The logits window's buffer holds its block when the body starts, for any proof data over these arrays
    whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- The noise window's buffer likewise. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- Row r of the four logits rows (and of the four result rows), as a rectangle of the buffer. -/
abbrev rowL15_0 : Rect S4x32768 := Rect.unit (s := S4x32768) ![0, 0] S1x32768.size inb_S4x32768_S1x32768_0_0
abbrev rowL15_1 : Rect S4x32768 := Rect.unit (s := S4x32768) ![1, 0] S1x32768.size inb_S4x32768_S1x32768_1_0
abbrev rowL15_2 : Rect S4x32768 := Rect.unit (s := S4x32768) ![2, 0] S1x32768.size inb_S4x32768_S1x32768_2_0
abbrev rowL15_3 : Rect S4x32768 := Rect.unit (s := S4x32768) ![3, 0] S1x32768.size inb_S4x32768_S1x32768_3_0
/-- Slab r of the four noise slabs. -/
abbrev slab15_0 : Rect S4x28x32768 := Rect.unit (s := S4x28x32768) ![0, 0, 0] S1x28x32768.size inb_S4x28x32768_S1x28x32768_0_0_0
abbrev slab15_1 : Rect S4x28x32768 := Rect.unit (s := S4x28x32768) ![1, 0, 0] S1x28x32768.size inb_S4x28x32768_S1x28x32768_1_0_0
abbrev slab15_2 : Rect S4x28x32768 := Rect.unit (s := S4x28x32768) ![2, 0, 0] S1x28x32768.size inb_S4x28x32768_S1x28x32768_2_0_0
abbrev slab15_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out15_2 (x0 : Vec F S4x32768 .f32) (x1 : Vec F S4x28x32768 .f32) : Vec F S4x32768 .f32 :=
  View.canon [⟨rowL15_3, k15_pay1 (k15_pay5 (View.ld x0 rowL15_3) (View.ld x1 slab15_3)) (k15_pay6 (View.ld x0 rowL15_3) (View.ld x1 slab15_3))⟩,
    ⟨rowL15_2, k15_pay4 (View.ld x0 rowL15_2) (View.ld x1 slab15_2)⟩,
    ⟨rowL15_1, k15_pay3 (View.ld x0 rowL15_1) (View.ld x1 slab15_1)⟩,
    ⟨rowL15_0, k15_pay2 (View.ld x0 rowL15_0) (View.ld x1 slab15_0)⟩]

/-- The four stored rows tile the result buffer. -/
theorem cover15_2 (p3 p2 p1 p0 : Vec F S1x32768 .f32) (y : S4x32768.Idx) :
    ∃ pc ∈ ([⟨rowL15_3, p3⟩, ⟨rowL15_2, p2⟩, ⟨rowL15_1, p1⟩, ⟨rowL15_0, p0⟩] : List (View.Piece (Elt F) S4x32768 .f32)), y ∈ pc.1.set :=
  View.cover_of_tiled [⟨rowL15_3, p3⟩, ⟨rowL15_2, p2⟩, ⟨rowL15_1, p1⟩, ⟨rowL15_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel15 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out15_2 x0 x1)) -∗ K ⟨⟩))
      ⊢ wp frame (wpE (defs₀ (F := F)) Variants.none c none) E (cc15__chunk_body arg0 harg0 arg1 harg1 arg2 harg2) K := by
  simp only [cc15__chunk_body_eq_skeleton]; unfold cc15__chunk_body_skel
  simp only [k15_part1_eq_skeleton]; unfold k15_part1_skel
  simp only [k15_part2_eq_skeleton]; unfold k15_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover15_2 _ _ _ _)

/-- The proof data of the call on core c: the arrays as the call finds them; after the body each input's
    buffer holds its block and the result buffer the four stored rows of the input blocks. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-- What the body is called with, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation15 (c : Dev nD) : BodyObligation (dat15 (F := F) V c) (defs₀ (F := F)) Variants.none () Set.univ := fun t => by
  rw [bigSep_W15, bigSep_W15]
  exact sound_body15 V c t

end Cert.Kernel.Rgn

end
-- ==== Proof.KB.Run.lean ====
/-
  The whole run of the program: sixteen calls of the chunk body between the slices that feed them, then the
  concatenation of the sixteen results.

  The contents of the core's buffers are followed through the program: at launch, after each pair of slices
  (what the next call is entered from), after each call (its result array at what the call's one point
  writes back, everything else as before), and after the final concatenation.  Every weakly fair execution
  terminates, nothing faults, and every buffer ends at the last of these contents.
-/
import proofs.«146618_g16140487098628_cont_week2b_481_21_alg».proof.Proof.KB.Region0
import proofs.«146618_g16140487098628_cont_week2b_481_21_alg».proof.Proof.KB.Region1
import proofs.«146618_g16140487098628_cont_week2b_481_21_alg».proof.Proof.KB.Region2
import proofs.«146618_g16140487098628_cont_week2b_481_21_alg».proof.Proof.KB.Region3
import proofs.«146618_g16140487098628_cont_week2b_481_21_alg».proof.Proof.KB.Region4
import proofs.«146618_g16140487098628_cont_week2b_481_21_alg».proof.Proof.KB.Region5
import proofs.«146618_g16140487098628_cont_week2b_481_21_alg».proof.Proof.KB.Region6
import proofs.«146618_g16140487098628_cont_week2b_481_21_alg».proof.Proof.KB.Region7
import proofs.«146618_g16140487098628_cont_week2b_481_21_alg».proof.Proof.KB.Region8
import proofs.«146618_g16140487098628_cont_week2b_481_21_alg».proof.Proof.KB.Region9
import proofs.«146618_g16140487098628_cont_week2b_481_21_alg».proof.Proof.KB.Region10
import proofs.«146618_g16140487098628_cont_week2b_481_21_alg».proof.Proof.KB.Region11
import proofs.«146618_g16140487098628_cont_week2b_481_21_alg».proof.Proof.KB.Region12
import proofs.«146618_g16140487098628_cont_week2b_481_21_alg».proof.Proof.KB.Region13
import proofs.«146618_g16140487098628_cont_week2b_481_21_alg».proof.Proof.KB.Region14
import proofs.«146618_g16140487098628_cont_week2b_481_21_alg».proof.Proof.KB.Region15

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's items -/

/-- At launch. -/
abbrev W0 : Dev nD → Valuation τ sig (Elt F) := fun c b => (s₀ m ρ).mem ((c : Dev nD), b)
/-- After the slices feeding call 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After call 0: its arrays at what the call leaves, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the slices feeding call 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After call 1: its arrays at what the call leaves, every other buffer as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the slices feeding call 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After call 2: its arrays at what the call leaves, every other buffer as before. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the slices feeding call 3. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After call 3: its arrays at what the call leaves, every other buffer as before. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the slices feeding call 4. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- After call 4: its arrays at what the call leaves, every other buffer as before. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the slices feeding call 5. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- After call 5: its arrays at what the call leaves, every other buffer as before. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After the slices feeding call 6. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- After call 6: its arrays at what the call leaves, every other buffer as before. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- After the slices feeding call 7. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- After call 7: its arrays at what the call leaves, every other buffer as before. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- After the slices feeding call 8. -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- After call 8: its arrays at what the call leaves, every other buffer as before. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- After the slices feeding call 9. -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- After call 9: its arrays at what the call leaves, every other buffer as before. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- After the slices feeding call 10. -/
abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
/-- After call 10: its arrays at what the call leaves, every other buffer as before. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)
/-- After the slices feeding call 11. -/
abbrev W23 : Dev nD → Valuation τ sig (Elt F) := fun c => StableHlo.after hostOps11 (W22 m ρ c)
abbrev V23 : (c : Dev nD) → (b : Ref sig .tc) → Buf (Elt F) ((c : Thread nD τ).loc b) := fun c b => W23 m ρ c b
/-- After call 11: its arrays at what the call leaves, every other buffer as before. -/
def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
abbrev V24 : (c : Dev nD) → (b : Ref sig .tc) → Buf (Elt F) ((c : Thread nD τ).loc b) := fun c b => W24 m ρ c b
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)
/-- After the slices feeding call 12. -/
abbrev W25 : Dev nD → Valuation τ sig (Elt F) := fun c => StableHlo.after hostOps12 (W24 m ρ c)
abbrev V25 : (c : Dev nD) → (b : Ref sig .tc) → Buf (Elt F) ((c : Thread nD τ).loc b) := fun c b => W25 m ρ c b
/-- After call 12: its arrays at what the call leaves, every other buffer as before. -/
def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
abbrev V26 : (c : Dev nD) → (b : Ref sig .tc) → Buf (Elt F) ((c : Thread nD τ).loc b) := fun c b => W26 m ρ c b
theorem hF12 (c : Dev nD) (w : Fin cfg12.W) : (dat12 (V25 m ρ) c).arrAt w cfg12.N = V26 m ρ c (Pipeline.arrRef spec12 w) :=
  (W26_arr m ρ c w).symm
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)
/-- After the slices feeding call 13. -/
abbrev W27 : Dev nD → Valuation τ sig (Elt F) := fun c => StableHlo.after hostOps13 (W26 m ρ c)
abbrev V27 : (c : Dev nD) → (b : Ref sig .tc) → Buf (Elt F) ((c : Thread nD τ).loc b) := fun c b => W27 m ρ c b
/-- After call 13: its arrays at what the call leaves, every other buffer as before. -/
def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
abbrev V28 : (c : Dev nD) → (b : Ref sig .tc) → Buf (Elt F) ((c : Thread nD τ).loc b) := fun c b => W28 m ρ c b
theorem hF13 (c : Dev nD) (w : Fin cfg13.W) : (dat13 (V27 m ρ) c).arrAt w cfg13.N = V28 m ρ c (Pipeline.arrRef spec13 w) :=
  (W28_arr m ρ c w).symm
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)
/-- After the slices feeding call 14. -/
abbrev W29 : Dev nD → Valuation τ sig (Elt F) := fun c => StableHlo.after hostOps14 (W28 m ρ c)
abbrev V29 : (c : Dev nD) → (b : Ref sig .tc) → Buf (Elt F) ((c : Thread nD τ).loc b) := fun c b => W29 m ρ c b
/-- After call 14: its arrays at what the call leaves, every other buffer as before. -/
def W30 (c : Dev nD) : Valuation τ sig (Elt F) :=
  Pipeline.withArrays spec14 c (W29 m ρ c) fun w => (dat14 (V29 m ρ) c).arrAt w cfg14.N
theorem W30_arr (c : Dev nD) (w : Fin cfg14.W) :
    W30 m ρ c (Proc.devRef .tc (Pipeline.arrRef spec14 w)) = (dat14 (V29 m ρ) c).arrAt w cfg14.N := by
  unfold W30; exact Pipeline.withArrays_arr spec14 launch14.win.arr_inj c _ _ w
theorem W30_of_ne (c : Dev nD) (b : Ref sig .tc) (hb : ∀ w, Pipeline.arrRef spec14 w ≠ b) :
    W30 m ρ c (Proc.devRef .tc b) = W29 m ρ c (Proc.devRef .tc b) := by
  unfold W30; exact Pipeline.withArrays_of_ne spec14 c _ _ b hb
abbrev V30 : (c : Dev nD) → (b : Ref sig .tc) → Buf (Elt F) ((c : Thread nD τ).loc b) := fun c b => W30 m ρ c b
theorem hF14 (c : Dev nD) (w : Fin cfg14.W) : (dat14 (V29 m ρ) c).arrAt w cfg14.N = V30 m ρ c (Pipeline.arrRef spec14 w) :=
  (W30_arr m ρ c w).symm
theorem hrest14 (c : Dev nD) : ∀ b, b ∉ Finset.univ.image (Pipeline.arrRef spec14) → V30 m ρ c b = V29 m ρ c b :=
  fun b hb => W30_of_ne m ρ c b fun w e => hb (Finset.mem_image.mpr ⟨w, Finset.mem_univ _, e⟩)
/-- After the slices feeding call 15. -/
abbrev W31 : Dev nD → Valuation τ sig (Elt F) := fun c => StableHlo.after hostOps15 (W30 m ρ c)
abbrev V31 : (c : Dev nD) → (b : Ref sig .tc) → Buf (Elt F) ((c : Thread nD τ).loc b) := fun c b => W31 m ρ c b
/-- After call 15: its arrays at what the call leaves, every other buffer as before. -/
def W32 (c : Dev nD) : Valuation τ sig (Elt F) :=
  Pipeline.withArrays spec15 c (W31 m ρ c) fun w => (dat15 (V31 m ρ) c).arrAt w cfg15.N
theorem W32_arr (c : Dev nD) (w : Fin cfg15.W) :
    W32 m ρ c (Proc.devRef .tc (Pipeline.arrRef spec15 w)) = (dat15 (V31 m ρ) c).arrAt w cfg15.N := by
  unfold W32; exact Pipeline.withArrays_arr spec15 launch15.win.arr_inj c _ _ w
theorem W32_of_ne (c : Dev nD) (b : Ref sig .tc) (hb : ∀ w, Pipeline.arrRef spec15 w ≠ b) :
    W32 m ρ c (Proc.devRef .tc b) = W31 m ρ c (Proc.devRef .tc b) := by
  unfold W32; exact Pipeline.withArrays_of_ne spec15 c _ _ b hb
abbrev V32 : (c : Dev nD) → (b : Ref sig .tc) → Buf (Elt F) ((c : Thread nD τ).loc b) := fun c b => W32 m ρ c b
theorem hF15 (c : Dev nD) (w : Fin cfg15.W) : (dat15 (V31 m ρ) c).arrAt w cfg15.N = V32 m ρ c (Pipeline.arrRef spec15 w) :=
  (W32_arr m ρ c w).symm
theorem hrest15 (c : Dev nD) : ∀ b, b ∉ Finset.univ.image (Pipeline.arrRef spec15) → V32 m ρ c b = V31 m ρ c b :=
  fun b hb => W32_of_ne m ρ c b fun w e => hb (Finset.mem_image.mpr ⟨w, Finset.mem_univ _, e⟩)
/-- After the concatenation: the end. -/
abbrev W33 : Dev nD → Valuation τ sig (Elt F) := fun c => StableHlo.after hostOps16 (W32 m ρ c)

/-! ## The calls' proof data and the state between items -/

abbrev adm : (p : Fin 16) → (pcfgs (F := F) p).Adm := fun p => (cfgs p).toPCfg_adm
/-- Every call's proof data, each at the contents its call is entered from. -/
def pdats : (p : Fin 16) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨14, _⟩ => fun c => dat14 (V29 m ρ) c
  | ⟨15, _⟩ => fun c => dat15 (V31 m ρ) c
  | ⟨_ + 16, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the owes: every unscoped buffer at the final contents, the generator register at some state. -/
abbrev Tₙ (c : Dev nD) : sProp 𝕄 := iprop(StableHlo.held (c : Thread nD τ) (Pipeline.ucRefs τ sig) (W33 m ρ c) ∗ ∃ r, prngReg c r)

/-! ## The calls as segments -/

set_option backward.isDefEq.respectTransparency.types false in
/-- Call 0: entered from every unscoped buffer at the contents after its slices, left at the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered from every unscoped buffer at the contents after its slices, left at the contents after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2: entered from every unscoped buffer at the contents after its slices, left at the contents after it. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3: entered from every unscoped buffer at the contents after its slices, left at the contents after it. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4: entered from every unscoped buffer at the contents after its slices, left at the contents after it. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5: entered from every unscoped buffer at the contents after its slices, left at the contents after it. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 6: entered from every unscoped buffer at the contents after its slices, left at the contents after it. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 7: entered from every unscoped buffer at the contents after its slices, left at the contents after it. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 8: entered from every unscoped buffer at the contents after its slices, left at the contents after it. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 9: entered from every unscoped buffer at the contents after its slices, left at the contents after it. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 10: entered from every unscoped buffer at the contents after its slices, left at the contents after it. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 11: entered from every unscoped buffer at the contents after its slices, left at the contents after it. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 12: entered from every unscoped buffer at the contents after its slices, left at the contents after it. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m ρ) c).loose
  hwaits := Pipeline.hwaits_of_owed_zero _ _ _ _ L lv 12 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec12 c (V25 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V25 m ρ c) (V26 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 13: entered from every unscoped buffer at the contents after its slices, left at the contents after it. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V27 m ρ) c).loose
  hwaits := Pipeline.hwaits_of_owed_zero _ _ _ _ L lv 13 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec13 c (V27 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V27 m ρ c) (V28 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 14: entered from every unscoped buffer at the contents after its slices, left at the contents after it. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V29 m ρ) c).loose
  hwaits := Pipeline.hwaits_of_owed_zero _ _ _ _ L lv 14 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec14 c (V29 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V29 m ρ c) (V30 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 15: entered from every unscoped buffer at the contents after its slices, left at the contents after it. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V31 m ρ) c).loose
  hwaits := Pipeline.hwaits_of_owed_zero _ _ _ _ L lv 15 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec15 c (V31 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V31 m ρ c) (V32 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps4_fresh' : (hostOps4 : List (HloOp τ sig (Elt F))).Forall fun op => op.fresh = ∅ := by
  simp only [List.Forall]; repeat' constructor
theorem hostOps5_fresh' : (hostOps5 : List (HloOp τ sig (Elt F))).Forall fun op => op.fresh = ∅ := by
  simp only [List.Forall]; repeat' constructor
theorem hostOps6_fresh' : (hostOps6 : List (HloOp τ sig (Elt F))).Forall fun op => op.fresh = ∅ := by
  simp only [List.Forall]; repeat' constructor
theorem hostOps7_fresh' : (hostOps7 : List (HloOp τ sig (Elt F))).Forall fun op => op.fresh = ∅ := by
  simp only [List.Forall]; repeat' constructor
theorem hostOps8_fresh' : (hostOps8 : List (HloOp τ sig (Elt F))).Forall fun op => op.fresh = ∅ := by
  simp only [List.Forall]; repeat' constructor
theorem hostOps9_fresh' : (hostOps9 : List (HloOp τ sig (Elt F))).Forall fun op => op.fresh = ∅ := by
  simp only [List.Forall]; repeat' constructor
theorem hostOps10_fresh' : (hostOps10 : List (HloOp τ sig (Elt F))).Forall fun op => op.fresh = ∅ := by
  simp only [List.Forall]; repeat' constructor
theorem hostOps11_fresh' : (hostOps11 : List (HloOp τ sig (Elt F))).Forall fun op => op.fresh = ∅ := by
  simp only [List.Forall]; repeat' constructor
theorem hostOps12_fresh' : (hostOps12 : List (HloOp τ sig (Elt F))).Forall fun op => op.fresh = ∅ := by
  simp only [List.Forall]; repeat' constructor
theorem hostOps13_fresh' : (hostOps13 : List (HloOp τ sig (Elt F))).Forall fun op => op.fresh = ∅ := by
  simp only [List.Forall]; repeat' constructor
theorem hostOps14_fresh' : (hostOps14 : List (HloOp τ sig (Elt F))).Forall fun op => op.fresh = ∅ := by
  simp only [List.Forall]; repeat' constructor
theorem hostOps15_fresh' : (hostOps15 : List (HloOp τ sig (Elt F))).Forall fun op => op.fresh = ∅ := by
  simp only [List.Forall]; repeat' constructor
theorem hostOps16_fresh' : (hostOps16 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ),
    .host (hseg hostOps3 hostOps3_sub hostOps3_fresh' (W6 m ρ)),
    .region (reg3 m ρ),
    .host (hseg hostOps4 hostOps4_sub hostOps4_fresh' (W8 m ρ)),
    .region (reg4 m ρ),
    .host (hseg hostOps5 hostOps5_sub hostOps5_fresh' (W10 m ρ)),
    .region (reg5 m ρ),
    .host (hseg hostOps6 hostOps6_sub hostOps6_fresh' (W12 m ρ)),
    .region (reg6 m ρ),
    .host (hseg hostOps7 hostOps7_sub hostOps7_fresh' (W14 m ρ)),
    .region (reg7 m ρ),
    .host (hseg hostOps8 hostOps8_sub hostOps8_fresh' (W16 m ρ)),
    .region (reg8 m ρ),
    .host (hseg hostOps9 hostOps9_sub hostOps9_fresh' (W18 m ρ)),
    .region (reg9 m ρ),
    .host (hseg hostOps10 hostOps10_sub hostOps10_fresh' (W20 m ρ)),
    .region (reg10 m ρ),
    .host (hseg hostOps11 hostOps11_sub hostOps11_fresh' (W22 m ρ)),
    .region (reg11 m ρ),
    .host (hseg hostOps12 hostOps12_sub hostOps12_fresh' (W24 m ρ)),
    .region (reg12 m ρ),
    .host (hseg hostOps13 hostOps13_sub hostOps13_fresh' (W26 m ρ)),
    .region (reg13 m ρ),
    .host (hseg hostOps14 hostOps14_sub hostOps14_fresh' (W28 m ρ)),
    .region (reg14 m ρ),
    .host (hseg hostOps15 hostOps15_sub hostOps15_fresh' (W30 m ρ)),
    .region (reg15 m ρ),
    .host (hseg hostOps16 hostOps16_sub hostOps16_fresh' (W32 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer ends at the final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W33 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => show iprop(StableHlo.held (c : Thread nD τ) (Pipeline.ucRefs τ sig) (W33 m ρ c) ∗ R c)
        ⊢ iprop(Tₙ m ρ c ∗ ∃ W, owes (c : Thread nD τ) (0 : CellTallies nD τ sig Unit) W) from by
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h c => h c)

end Cert.Kernel.Rgn

end
-- ==== Proof.KB.Ends.lean ====
/-
  What the buffers hold at the end of the program, walked back through its items.

  No slice and no call writes an argument array, so each argument ends as launched.  A call's result array is
  written by that call alone, so at the end it still holds what the call left; the arrays a call is entered
  with are the slices of the arguments taken just before it; and the final array is the concatenation of the
  sixteen result arrays.
-/
import proofs.«146618_g16140487098628_cont_week2b_481_21_alg».proof.Proof.KB.Run
import proofs.«146618_g16140487098628_cont_week2b_481_21_alg».proof.Proof.Gen.Kernel.Regions
set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## One item at a time: a buffer the item does not write keeps its contents -/
theorem stepH0 (c : Dev nD) (b : Ref sig .tc) (h : b ∉ hostOps0_W) :
    W1 m ρ c (Proc.devRef .tc b) = W0 m ρ c (Proc.devRef .tc b) :=
  StableHlo.after_of_writes_sub hostOps0 _ hostOps0_writes h
theorem stepH1 (c : Dev nD) (b : Ref sig .tc) (h : b ∉ hostOps1_W) :
    W3 m ρ c (Proc.devRef .tc b) = W2 m ρ c (Proc.devRef .tc b) :=
  StableHlo.after_of_writes_sub hostOps1 _ hostOps1_writes h
theorem stepH2 (c : Dev nD) (b : Ref sig .tc) (h : b ∉ hostOps2_W) :
    W5 m ρ c (Proc.devRef .tc b) = W4 m ρ c (Proc.devRef .tc b) :=
  StableHlo.after_of_writes_sub hostOps2 _ hostOps2_writes h
theorem stepH3 (c : Dev nD) (b : Ref sig .tc) (h : b ∉ hostOps3_W) :
    W7 m ρ c (Proc.devRef .tc b) = W6 m ρ c (Proc.devRef .tc b) :=
  StableHlo.after_of_writes_sub hostOps3 _ hostOps3_writes h
theorem stepH4 (c : Dev nD) (b : Ref sig .tc) (h : b ∉ hostOps4_W) :
    W9 m ρ c (Proc.devRef .tc b) = W8 m ρ c (Proc.devRef .tc b) :=
  StableHlo.after_of_writes_sub hostOps4 _ hostOps4_writes h
theorem stepH5 (c : Dev nD) (b : Ref sig .tc) (h : b ∉ hostOps5_W) :
    W11 m ρ c (Proc.devRef .tc b) = W10 m ρ c (Proc.devRef .tc b) :=
  StableHlo.after_of_writes_sub hostOps5 _ hostOps5_writes h
theorem stepH6 (c : Dev nD) (b : Ref sig .tc) (h : b ∉ hostOps6_W) :
    W13 m ρ c (Proc.devRef .tc b) = W12 m ρ c (Proc.devRef .tc b) :=
  StableHlo.after_of_writes_sub hostOps6 _ hostOps6_writes h
theorem stepH7 (c : Dev nD) (b : Ref sig .tc) (h : b ∉ hostOps7_W) :
    W15 m ρ c (Proc.devRef .tc b) = W14 m ρ c (Proc.devRef .tc b) :=
  StableHlo.after_of_writes_sub hostOps7 _ hostOps7_writes h
theorem stepH8 (c : Dev nD) (b : Ref sig .tc) (h : b ∉ hostOps8_W) :
    W17 m ρ c (Proc.devRef .tc b) = W16 m ρ c (Proc.devRef .tc b) :=
  StableHlo.after_of_writes_sub hostOps8 _ hostOps8_writes h
theorem stepH9 (c : Dev nD) (b : Ref sig .tc) (h : b ∉ hostOps9_W) :
    W19 m ρ c (Proc.devRef .tc b) = W18 m ρ c (Proc.devRef .tc b) :=
  StableHlo.after_of_writes_sub hostOps9 _ hostOps9_writes h
theorem stepH10 (c : Dev nD) (b : Ref sig .tc) (h : b ∉ hostOps10_W) :
    W21 m ρ c (Proc.devRef .tc b) = W20 m ρ c (Proc.devRef .tc b) :=
  StableHlo.after_of_writes_sub hostOps10 _ hostOps10_writes h
theorem stepH11 (c : Dev nD) (b : Ref sig .tc) (h : b ∉ hostOps11_W) :
    W23 m ρ c (Proc.devRef .tc b) = W22 m ρ c (Proc.devRef .tc b) :=
  StableHlo.after_of_writes_sub hostOps11 _ hostOps11_writes h
theorem stepH12 (c : Dev nD) (b : Ref sig .tc) (h : b ∉ hostOps12_W) :
    W25 m ρ c (Proc.devRef .tc b) = W24 m ρ c (Proc.devRef .tc b) :=
  StableHlo.after_of_writes_sub hostOps12 _ hostOps12_writes h
theorem stepH13 (c : Dev nD) (b : Ref sig .tc) (h : b ∉ hostOps13_W) :
    W27 m ρ c (Proc.devRef .tc b) = W26 m ρ c (Proc.devRef .tc b) :=
  StableHlo.after_of_writes_sub hostOps13 _ hostOps13_writes h
theorem stepH14 (c : Dev nD) (b : Ref sig .tc) (h : b ∉ hostOps14_W) :
    W29 m ρ c (Proc.devRef .tc b) = W28 m ρ c (Proc.devRef .tc b) :=
  StableHlo.after_of_writes_sub hostOps14 _ hostOps14_writes h
theorem stepH15 (c : Dev nD) (b : Ref sig .tc) (h : b ∉ hostOps15_W) :
    W31 m ρ c (Proc.devRef .tc b) = W30 m ρ c (Proc.devRef .tc b) :=
  StableHlo.after_of_writes_sub hostOps15 _ hostOps15_writes h
theorem stepH16 (c : Dev nD) (b : Ref sig .tc) (h : b ∉ hostOps16_W) :
    W33 m ρ c (Proc.devRef .tc b) = W32 m ρ c (Proc.devRef .tc b) :=
  StableHlo.after_of_writes_sub hostOps16 _ hostOps16_writes h

/-! ## The arguments end as launched -/

theorem W0_arg0 (c : Dev nD) : W0 m ρ c (Proc.devRef .tc main_arg0) = m ((c : Thread nD τ).loc main_arg0) := rfl
theorem W0_arg1 (c : Dev nD) : W0 m ρ c (Proc.devRef .tc main_arg1) = m ((c : Thread nD τ).loc main_arg1) := rfl
theorem W2_arg0 (c : Dev nD) : W2 m ρ c (Proc.devRef .tc main_arg0) = m ((c : Thread nD τ).loc main_arg0) :=
  (W2_of_ne m ρ c main_arg0 (by decide)).trans ((stepH0 m ρ c main_arg0 (by decide)).trans (W0_arg0 m ρ c))
theorem W2_arg1 (c : Dev nD) : W2 m ρ c (Proc.devRef .tc main_arg1) = m ((c : Thread nD τ).loc main_arg1) :=
  (W2_of_ne m ρ c main_arg1 (by decide)).trans ((stepH0 m ρ c main_arg1 (by decide)).trans (W0_arg1 m ρ c))
theorem W4_arg0 (c : Dev nD) : W4 m ρ c (Proc.devRef .tc main_arg0) = m ((c : Thread nD τ).loc main_arg0) :=
  (W4_of_ne m ρ c main_arg0 (by decide)).trans ((stepH1 m ρ c main_arg0 (by decide)).trans (W2_arg0 m ρ c))
theorem W4_arg1 (c : Dev nD) : W4 m ρ c (Proc.devRef .tc main_arg1) = m ((c : Thread nD τ).loc main_arg1) :=
  (W4_of_ne m ρ c main_arg1 (by decide)).trans ((stepH1 m ρ c main_arg1 (by decide)).trans (W2_arg1 m ρ c))
theorem W6_arg0 (c : Dev nD) : W6 m ρ c (Proc.devRef .tc main_arg0) = m ((c : Thread nD τ).loc main_arg0) :=
  (W6_of_ne m ρ c main_arg0 (by decide)).trans ((stepH2 m ρ c main_arg0 (by decide)).trans (W4_arg0 m ρ c))
theorem W6_arg1 (c : Dev nD) : W6 m ρ c (Proc.devRef .tc main_arg1) = m ((c : Thread nD τ).loc main_arg1) :=
  (W6_of_ne m ρ c main_arg1 (by decide)).trans ((stepH2 m ρ c main_arg1 (by decide)).trans (W4_arg1 m ρ c))
theorem W8_arg0 (c : Dev nD) : W8 m ρ c (Proc.devRef .tc main_arg0) = m ((c : Thread nD τ).loc main_arg0) :=
  (W8_of_ne m ρ c main_arg0 (by decide)).trans ((stepH3 m ρ c main_arg0 (by decide)).trans (W6_arg0 m ρ c))
theorem W8_arg1 (c : Dev nD) : W8 m ρ c (Proc.devRef .tc main_arg1) = m ((c : Thread nD τ).loc main_arg1) :=
  (W8_of_ne m ρ c main_arg1 (by decide)).trans ((stepH3 m ρ c main_arg1 (by decide)).trans (W6_arg1 m ρ c))
theorem W10_arg0 (c : Dev nD) : W10 m ρ c (Proc.devRef .tc main_arg0) = m ((c : Thread nD τ).loc main_arg0) :=
  (W10_of_ne m ρ c main_arg0 (by decide)).trans ((stepH4 m ρ c main_arg0 (by decide)).trans (W8_arg0 m ρ c))
theorem W10_arg1 (c : Dev nD) : W10 m ρ c (Proc.devRef .tc main_arg1) = m ((c : Thread nD τ).loc main_arg1) :=
  (W10_of_ne m ρ c main_arg1 (by decide)).trans ((stepH4 m ρ c main_arg1 (by decide)).trans (W8_arg1 m ρ c))
theorem W12_arg0 (c : Dev nD) : W12 m ρ c (Proc.devRef .tc main_arg0) = m ((c : Thread nD τ).loc main_arg0) :=
  (W12_of_ne m ρ c main_arg0 (by decide)).trans ((stepH5 m ρ c main_arg0 (by decide)).trans (W10_arg0 m ρ c))
theorem W12_arg1 (c : Dev nD) : W12 m ρ c (Proc.devRef .tc main_arg1) = m ((c : Thread nD τ).loc main_arg1) :=
  (W12_of_ne m ρ c main_arg1 (by decide)).trans ((stepH5 m ρ c main_arg1 (by decide)).trans (W10_arg1 m ρ c))
theorem W14_arg0 (c : Dev nD) : W14 m ρ c (Proc.devRef .tc main_arg0) = m ((c : Thread nD τ).loc main_arg0) :=
  (W14_of_ne m ρ c main_arg0 (by decide)).trans ((stepH6 m ρ c main_arg0 (by decide)).trans (W12_arg0 m ρ c))
theorem W14_arg1 (c : Dev nD) : W14 m ρ c (Proc.devRef .tc main_arg1) = m ((c : Thread nD τ).loc main_arg1) :=
  (W14_of_ne m ρ c main_arg1 (by decide)).trans ((stepH6 m ρ c main_arg1 (by decide)).trans (W12_arg1 m ρ c))
theorem W16_arg0 (c : Dev nD) : W16 m ρ c (Proc.devRef .tc main_arg0) = m ((c : Thread nD τ).loc main_arg0) :=
  (W16_of_ne m ρ c main_arg0 (by decide)).trans ((stepH7 m ρ c main_arg0 (by decide)).trans (W14_arg0 m ρ c))
theorem W16_arg1 (c : Dev nD) : W16 m ρ c (Proc.devRef .tc main_arg1) = m ((c : Thread nD τ).loc main_arg1) :=
  (W16_of_ne m ρ c main_arg1 (by decide)).trans ((stepH7 m ρ c main_arg1 (by decide)).trans (W14_arg1 m ρ c))
theorem W18_arg0 (c : Dev nD) : W18 m ρ c (Proc.devRef .tc main_arg0) = m ((c : Thread nD τ).loc main_arg0) :=
  (W18_of_ne m ρ c main_arg0 (by decide)).trans ((stepH8 m ρ c main_arg0 (by decide)).trans (W16_arg0 m ρ c))
theorem W18_arg1 (c : Dev nD) : W18 m ρ c (Proc.devRef .tc main_arg1) = m ((c : Thread nD τ).loc main_arg1) :=
  (W18_of_ne m ρ c main_arg1 (by decide)).trans ((stepH8 m ρ c main_arg1 (by decide)).trans (W16_arg1 m ρ c))
theorem W20_arg0 (c : Dev nD) : W20 m ρ c (Proc.devRef .tc main_arg0) = m ((c : Thread nD τ).loc main_arg0) :=
  (W20_of_ne m ρ c main_arg0 (by decide)).trans ((stepH9 m ρ c main_arg0 (by decide)).trans (W18_arg0 m ρ c))
theorem W20_arg1 (c : Dev nD) : W20 m ρ c (Proc.devRef .tc main_arg1) = m ((c : Thread nD τ).loc main_arg1) :=
  (W20_of_ne m ρ c main_arg1 (by decide)).trans ((stepH9 m ρ c main_arg1 (by decide)).trans (W18_arg1 m ρ c))
theorem W22_arg0 (c : Dev nD) : W22 m ρ c (Proc.devRef .tc main_arg0) = m ((c : Thread nD τ).loc main_arg0) :=
  (W22_of_ne m ρ c main_arg0 (by decide)).trans ((stepH10 m ρ c main_arg0 (by decide)).trans (W20_arg0 m ρ c))
theorem W22_arg1 (c : Dev nD) : W22 m ρ c (Proc.devRef .tc main_arg1) = m ((c : Thread nD τ).loc main_arg1) :=
  (W22_of_ne m ρ c main_arg1 (by decide)).trans ((stepH10 m ρ c main_arg1 (by decide)).trans (W20_arg1 m ρ c))
theorem W24_arg0 (c : Dev nD) : W24 m ρ c (Proc.devRef .tc main_arg0) = m ((c : Thread nD τ).loc main_arg0) :=
  (W24_of_ne m ρ c main_arg0 (by decide)).trans ((stepH11 m ρ c main_arg0 (by decide)).trans (W22_arg0 m ρ c))
theorem W24_arg1 (c : Dev nD) : W24 m ρ c (Proc.devRef .tc main_arg1) = m ((c : Thread nD τ).loc main_arg1) :=
  (W24_of_ne m ρ c main_arg1 (by decide)).trans ((stepH11 m ρ c main_arg1 (by decide)).trans (W22_arg1 m ρ c))
theorem W26_arg0 (c : Dev nD) : W26 m ρ c (Proc.devRef .tc main_arg0) = m ((c : Thread nD τ).loc main_arg0) :=
  (W26_of_ne m ρ c main_arg0 (by decide)).trans ((stepH12 m ρ c main_arg0 (by decide)).trans (W24_arg0 m ρ c))
theorem W26_arg1 (c : Dev nD) : W26 m ρ c (Proc.devRef .tc main_arg1) = m ((c : Thread nD τ).loc main_arg1) :=
  (W26_of_ne m ρ c main_arg1 (by decide)).trans ((stepH12 m ρ c main_arg1 (by decide)).trans (W24_arg1 m ρ c))
theorem W28_arg0 (c : Dev nD) : W28 m ρ c (Proc.devRef .tc main_arg0) = m ((c : Thread nD τ).loc main_arg0) :=
  (W28_of_ne m ρ c main_arg0 (by decide)).trans ((stepH13 m ρ c main_arg0 (by decide)).trans (W26_arg0 m ρ c))
theorem W28_arg1 (c : Dev nD) : W28 m ρ c (Proc.devRef .tc main_arg1) = m ((c : Thread nD τ).loc main_arg1) :=
  (W28_of_ne m ρ c main_arg1 (by decide)).trans ((stepH13 m ρ c main_arg1 (by decide)).trans (W26_arg1 m ρ c))
theorem W30_arg0 (c : Dev nD) : W30 m ρ c (Proc.devRef .tc main_arg0) = m ((c : Thread nD τ).loc main_arg0) :=
  (W30_of_ne m ρ c main_arg0 (by decide)).trans ((stepH14 m ρ c main_arg0 (by decide)).trans (W28_arg0 m ρ c))
theorem W30_arg1 (c : Dev nD) : W30 m ρ c (Proc.devRef .tc main_arg1) = m ((c : Thread nD τ).loc main_arg1) :=
  (W30_of_ne m ρ c main_arg1 (by decide)).trans ((stepH14 m ρ c main_arg1 (by decide)).trans (W28_arg1 m ρ c))
theorem W32_arg0 (c : Dev nD) : W32 m ρ c (Proc.devRef .tc main_arg0) = m ((c : Thread nD τ).loc main_arg0) :=
  (W32_of_ne m ρ c main_arg0 (by decide)).trans ((stepH15 m ρ c main_arg0 (by decide)).trans (W30_arg0 m ρ c))
theorem W32_arg1 (c : Dev nD) : W32 m ρ c (Proc.devRef .tc main_arg1) = m ((c : Thread nD τ).loc main_arg1) :=
  (W32_of_ne m ρ c main_arg1 (by decide)).trans ((stepH15 m ρ c main_arg1 (by decide)).trans (W30_arg1 m ρ c))
theorem W33_arg0 (c : Dev nD) : W33 m ρ c (Proc.devRef .tc main_arg0) = m ((c : Thread nD τ).loc main_arg0) :=
  (stepH16 m ρ c main_arg0 (by decide)).trans (W32_arg0 m ρ c)
theorem W33_arg1 (c : Dev nD) : W33 m ρ c (Proc.devRef .tc main_arg1) = m ((c : Thread nD τ).loc main_arg1) :=
  (stepH16 m ρ c main_arg1 (by decide)).trans (W32_arg1 m ρ c)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W33_arg0 m ρ c),
     (h c _ (mem_uc main_arg1 (by decide))).trans (W33_arg1 m ρ c)⟩) (run_all m ρ)

end Cert.Kernel.Rgn

end
-- ==== Proof.KI.Region0.lean ====
/-
  Region 0 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits window's buffer holds its block when the body starts, for any proof data over these arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The noise window's buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Row r of the four logits rows (and of the four result rows), as a rectangle of the buffer. -/
abbrev rowL0_0 : Rect S4x32768 := Rect.unit (s := S4x32768) ![0, 0] S1x32768.size inb_S4x32768_S1x32768_0_0
abbrev rowL0_1 : Rect S4x32768 := Rect.unit (s := S4x32768) ![1, 0] S1x32768.size inb_S4x32768_S1x32768_1_0
abbrev rowL0_2 : Rect S4x32768 := Rect.unit (s := S4x32768) ![2, 0] S1x32768.size inb_S4x32768_S1x32768_2_0
abbrev rowL0_3 : Rect S4x32768 := Rect.unit (s := S4x32768) ![3, 0] S1x32768.size inb_S4x32768_S1x32768_3_0
/-- Slab r of the four noise slabs. -/
abbrev slab0_0 : Rect S4x28x32768 := Rect.unit (s := S4x28x32768) ![0, 0, 0] S1x28x32768.size inb_S4x28x32768_S1x28x32768_0_0_0
abbrev slab0_1 : Rect S4x28x32768 := Rect.unit (s := S4x28x32768) ![1, 0, 0] S1x28x32768.size inb_S4x28x32768_S1x28x32768_1_0_0
abbrev slab0_2 : Rect S4x28x32768 := Rect.unit (s := S4x28x32768) ![2, 0, 0] S1x28x32768.size inb_S4x28x32768_S1x28x32768_2_0_0
abbrev slab0_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out0_2 (x0 : Vec F S4x32768 .f32) (x1 : Vec F S4x28x32768 .f32) : Vec F S4x32768 .f32 :=
  View.canon [⟨rowL0_3, k0_pay1 (k0_pay5 (View.ld x0 rowL0_3) (View.ld x1 slab0_3)) (k0_pay6 (View.ld x0 rowL0_3) (View.ld x1 slab0_3))⟩,
    ⟨rowL0_2, k0_pay4 (View.ld x0 rowL0_2) (View.ld x1 slab0_2)⟩,
    ⟨rowL0_1, k0_pay3 (View.ld x0 rowL0_1) (View.ld x1 slab0_1)⟩,
    ⟨rowL0_0, k0_pay2 (View.ld x0 rowL0_0) (View.ld x1 slab0_0)⟩]

/-- The four stored rows tile the result buffer. -/
theorem cover0_2 (p3 p2 p1 p0 : Vec F S1x32768 .f32) (y : S4x32768.Idx) :
    ∃ pc ∈ ([⟨rowL0_3, p3⟩, ⟨rowL0_2, p2⟩, ⟨rowL0_1, p1⟩, ⟨rowL0_0, p0⟩] : List (View.Piece (Elt F) S4x32768 .f32)), y ∈ pc.1.set :=
  View.cover_of_tiled [⟨rowL0_3, p3⟩, ⟨rowL0_2, p2⟩, ⟨rowL0_1, p1⟩, ⟨rowL0_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel0 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__chunk_body arg0 harg0 arg1 harg1 arg2 harg2) K := by
  simp only [cc0__chunk_body_eq_skeleton]; unfold cc0__chunk_body_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _ _ _ _)

/-- The proof data of the call on core c: the arrays as the call finds them; after the body each input's
    buffer holds its block and the result buffer the four stored rows of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation0 (c : Dev nD) : BodyObligation (dat0 (F := F) V c) (defs₀ (F := F)) Variants.none () Set.univ := fun t => by
  rw [bigSep_W0, bigSep_W0]
  exact sound_body0 V c t

/-! ## The call's result array after the call -/

/-- The call has one point, and each of its windows' one block starts at the origin of its array. -/
theorem idx0 : ∀ t : Fin cfg0.N, win0_0.index t (0 : Fin 2) = 0 ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- The logits block is the whole logits array of the call. -/
theorem blk0_0 (c : Dev nD) (t : Fin cfg0.N) : iblk0 V c 0 t = V c main_v1 := by
  obtain ⟨e0, e1, -⟩ := idx0 t
  funext j
  show V c main_v1 (((cfg0.win 0).blk t).view.emb j) = V c main_v1 j
  refine congrArg (V c main_v1) ?_
  funext a; apply Fin.ext
  match a with
  | ⟨0, _⟩ => show win0_0.index t (0 : Fin 2) * 4 + 1 * (j 0).val = (j 0).val; omega
  | ⟨1, _⟩ => show win0_0.index t (1 : Fin 2) * 32768 + 1 * (j 1).val = (j 1).val; omega

/-- The noise block is the whole noise array of the call. -/
theorem blk0_1 (c : Dev nD) (t : Fin cfg0.N) : iblk0 V c 1 t = V c main_v0 := by
  obtain ⟨-, -, e0, e1, e2, -⟩ := idx0 t
  funext j
  show V c main_v0 (((cfg0.win 1).blk t).view.emb j) = V c main_v0 j
  refine congrArg (V c main_v0) ?_
  funext a; apply Fin.ext
  match a with
  | ⟨0, _⟩ => show win0_1.index t (0 : Fin 3) * 4 + 1 * (j 0).val = (j 0).val; omega
  | ⟨1, _⟩ => show win0_1.index t (1 : Fin 3) * 28 + 1 * (j 1).val = (j 1).val; omega
  | ⟨2, _⟩ => show win0_1.index t (2 : Fin 3) * 32768 + 1 * (j 2).val = (j 2).val; omega

/-- What the call's point writes back is the whole of the four stored rows. -/
theorem flushed0_eq (c : Dev nD) (t : Fin cfg0.N) :
    (dat0 V c).flushed 2 t = ((cfg0.win 2).blk t).view.read (Elt F) (out0_2 (V c main_v1) (V c main_v0)) := by
  show (cfg0.win 2).cut (grid0.coords t) ((dat0 V c).after 2 t) = _
  rw [after0_2, blk0_0, blk0_1]
  obtain ⟨-, -, -, -, -, e0, e1⟩ := idx0 t
  generalize out0_2 (V c main_v1) (V c main_v0) = G
  funext j
  show G j = G (((cfg0.win 2).blk t).view.emb j)
  refine congrArg G ?_
  funext a; apply Fin.ext
  match a with
  | ⟨0, _⟩ => show (j 0).val = win0_2.index t (0 : Fin 2) * 4 + 1 * (j 0).val; omega
  | ⟨1, _⟩ => show (j 1).val = win0_2.index t (1 : Fin 2) * 32768 + 1 * (j 1).val; omega

theorem mem_blk0 (t : Fin cfg0.N) (i : S4x32768.Idx) :
    i ∈ ((cfg0.win 2).blk t).view.set ↔ ∀ a : Fin 2, win0_2.index t a * S4x32768.size a ≤ (i a).val ∧ (i a).val < win0_2.index t a * S4x32768.size a + S4x32768.size a := by
  show i ∈ ((View.whole main_v2).slice (win0_2.rect t)).set ↔ _
  rw [View.set_slice_whole, Rect.mem_set_unit]
  exact Iff.rfl

/-- The call's result array after the call: the four stored rows of the arrays the call was entered with. -/
theorem final0 (c : Dev nD) : (dat0 V c).arrAt 2 cfg0.N = out0_2 (V c main_v1) (V c main_v0) :=
  (dat0 V c).arrAt_eq_of_cover 2 _ (fun t _ => flushed0_eq V c t) (fun i => ⟨t0_0, flush0_2 t0_0, by
    rw [mem_blk0]
    obtain ⟨-, -, -, -, -, e0, e1⟩ := idx0 t0_0
    intro a
    match a with
    | ⟨0, _⟩ => show win0_2.index t0_0 (0 : Fin 2) * 4 ≤ (i 0).val ∧ (i 0).val < win0_2.index t0_0 (0 : Fin 2) * 4 + 4; have h0 : (i 0).val < 4 := (i 0).isLt; omega
    | ⟨1, _⟩ => show win0_2.index t0_0 (1 : Fin 2) * 32768 ≤ (i 1).val ∧ (i 1).val < win0_2.index t0_0 (1 : Fin 2) * 32768 + 32768; have h1 : (i 1).val < 32768 := (i 1).isLt; omega⟩)

end Cert.KernelIdeal.Rgn

end
-- ==== Proof.KI.Region1.lean ====
/-
  Region 1 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The logits window's buffer holds its block when the body starts, for any proof data over these arrays
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The noise window's buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Row r of the four logits rows (and of the four result rows), as a rectangle of the buffer. -/
abbrev rowL1_0 : Rect S4x32768 := Rect.unit (s := S4x32768) ![0, 0] S1x32768.size inb_S4x32768_S1x32768_0_0
abbrev rowL1_1 : Rect S4x32768 := Rect.unit (s := S4x32768) ![1, 0] S1x32768.size inb_S4x32768_S1x32768_1_0
abbrev rowL1_2 : Rect S4x32768 := Rect.unit (s := S4x32768) ![2, 0] S1x32768.size inb_S4x32768_S1x32768_2_0
abbrev rowL1_3 : Rect S4x32768 := Rect.unit (s := S4x32768) ![3, 0] S1x32768.size inb_S4x32768_S1x32768_3_0
/-- Slab r of the four noise slabs. -/
abbrev slab1_0 : Rect S4x28x32768 := Rect.unit (s := S4x28x32768) ![0, 0, 0] S1x28x32768.size inb_S4x28x32768_S1x28x32768_0_0_0
abbrev slab1_1 : Rect S4x28x32768 := Rect.unit (s := S4x28x32768) ![1, 0, 0] S1x28x32768.size inb_S4x28x32768_S1x28x32768_1_0_0
abbrev slab1_2 : Rect S4x28x32768 := Rect.unit (s := S4x28x32768) ![2, 0, 0] S1x28x32768.size inb_S4x28x32768_S1x28x32768_2_0_0
abbrev slab1_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out1_2 (x0 : Vec F S4x32768 .f32) (x1 : Vec F S4x28x32768 .f32) : Vec F S4x32768 .f32 :=
  View.canon [⟨rowL1_3, k1_pay1 (k1_pay5 (View.ld x0 rowL1_3) (View.ld x1 slab1_3)) (k1_pay6 (View.ld x0 rowL1_3) (View.ld x1 slab1_3))⟩,
    ⟨rowL1_2, k1_pay4 (View.ld x0 rowL1_2) (View.ld x1 slab1_2)⟩,
    ⟨rowL1_1, k1_pay3 (View.ld x0 rowL1_1) (View.ld x1 slab1_1)⟩,
    ⟨rowL1_0, k1_pay2 (View.ld x0 rowL1_0) (View.ld x1 slab1_0)⟩]

/-- The four stored rows tile the result buffer. -/
theorem cover1_2 (p3 p2 p1 p0 : Vec F S1x32768 .f32) (y : S4x32768.Idx) :
    ∃ pc ∈ ([⟨rowL1_3, p3⟩, ⟨rowL1_2, p2⟩, ⟨rowL1_1, p1⟩, ⟨rowL1_0, p0⟩] : List (View.Piece (Elt F) S4x32768 .f32)), y ∈ pc.1.set :=
  View.cover_of_tiled [⟨rowL1_3, p3⟩, ⟨rowL1_2, p2⟩, ⟨rowL1_1, p1⟩, ⟨rowL1_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel1 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__chunk_body arg0 harg0 arg1 harg1 arg2 harg2) K := by
  simp only [cc1__chunk_body_eq_skeleton]; unfold cc1__chunk_body_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _ _ _ _)

/-- The proof data of the call on core c: the arrays as the call finds them; after the body each input's
    buffer holds its block and the result buffer the four stored rows of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation1 (c : Dev nD) : BodyObligation (dat1 (F := F) V c) (defs₀ (F := F)) Variants.none () Set.univ := fun t => by
  rw [bigSep_W1, bigSep_W1]
  exact sound_body1 V c t

/-! ## The call's result array after the call -/

/-- The call has one point, and each of its windows' one block starts at the origin of its array. -/
theorem idx1 : ∀ t : Fin cfg1.N, win1_0.index t (0 : Fin 2) = 0 ∧ win1_0.index t (1 : Fin 2) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0 :=
  (by decide +kernel : ∀ t : Fin grid1.N, _)

/-- The logits block is the whole logits array of the call. -/
theorem blk1_0 (c : Dev nD) (t : Fin cfg1.N) : iblk1 V c 0 t = V c main_v4 := by
  obtain ⟨e0, e1, -⟩ := idx1 t
  funext j
  show V c main_v4 (((cfg1.win 0).blk t).view.emb j) = V c main_v4 j
  refine congrArg (V c main_v4) ?_
  funext a; apply Fin.ext
  match a with
  | ⟨0, _⟩ => show win1_0.index t (0 : Fin 2) * 4 + 1 * (j 0).val = (j 0).val; omega
  | ⟨1, _⟩ => show win1_0.index t (1 : Fin 2) * 32768 + 1 * (j 1).val = (j 1).val; omega

/-- The noise block is the whole noise array of the call. -/
theorem blk1_1 (c : Dev nD) (t : Fin cfg1.N) : iblk1 V c 1 t = V c main_v3 := by
  obtain ⟨-, -, e0, e1, e2, -⟩ := idx1 t
  funext j
  show V c main_v3 (((cfg1.win 1).blk t).view.emb j) = V c main_v3 j
  refine congrArg (V c main_v3) ?_
  funext a; apply Fin.ext
  match a with
  | ⟨0, _⟩ => show win1_1.index t (0 : Fin 3) * 4 + 1 * (j 0).val = (j 0).val; omega
  | ⟨1, _⟩ => show win1_1.index t (1 : Fin 3) * 28 + 1 * (j 1).val = (j 1).val; omega
  | ⟨2, _⟩ => show win1_1.index t (2 : Fin 3) * 32768 + 1 * (j 2).val = (j 2).val; omega

/-- What the call's point writes back is the whole of the four stored rows. -/
theorem flushed1_eq (c : Dev nD) (t : Fin cfg1.N) :
    (dat1 V c).flushed 2 t = ((cfg1.win 2).blk t).view.read (Elt F) (out1_2 (V c main_v4) (V c main_v3)) := by
  show (cfg1.win 2).cut (grid1.coords t) ((dat1 V c).after 2 t) = _
  rw [after1_2, blk1_0, blk1_1]
  obtain ⟨-, -, -, -, -, e0, e1⟩ := idx1 t
  generalize out1_2 (V c main_v4) (V c main_v3) = G
  funext j
  show G j = G (((cfg1.win 2).blk t).view.emb j)
  refine congrArg G ?_
  funext a; apply Fin.ext
  match a with
  | ⟨0, _⟩ => show (j 0).val = win1_2.index t (0 : Fin 2) * 4 + 1 * (j 0).val; omega
  | ⟨1, _⟩ => show (j 1).val = win1_2.index t (1 : Fin 2) * 32768 + 1 * (j 1).val; omega

theorem mem_blk1 (t : Fin cfg1.N) (i : S4x32768.Idx) :
    i ∈ ((cfg1.win 2).blk t).view.set ↔ ∀ a : Fin 2, win1_2.index t a * S4x32768.size a ≤ (i a).val ∧ (i a).val < win1_2.index t a * S4x32768.size a + S4x32768.size a := by
  show i ∈ ((View.whole main_v5).slice (win1_2.rect t)).set ↔ _
  rw [View.set_slice_whole, Rect.mem_set_unit]
  exact Iff.rfl

/-- The call's result array after the call: the four stored rows of the arrays the call was entered with. -/
theorem final1 (c : Dev nD) : (dat1 V c).arrAt 2 cfg1.N = out1_2 (V c main_v4) (V c main_v3) :=
  (dat1 V c).arrAt_eq_of_cover 2 _ (fun t _ => flushed1_eq V c t) (fun i => ⟨t1_0, flush1_2 t1_0, by
    rw [mem_blk1]
    obtain ⟨-, -, -, -, -, e0, e1⟩ := idx1 t1_0
    intro a
    match a with
    | ⟨0, _⟩ => show win1_2.index t1_0 (0 : Fin 2) * 4 ≤ (i 0).val ∧ (i 0).val < win1_2.index t1_0 (0 : Fin 2) * 4 + 4; have h0 : (i 0).val < 4 := (i 0).isLt; omega
    | ⟨1, _⟩ => show win1_2.index t1_0 (1 : Fin 2) * 32768 ≤ (i 1).val ∧ (i 1).val < win1_2.index t1_0 (1 : Fin 2) * 32768 + 32768; have h1 : (i 1).val < 32768 := (i 1).isLt; omega⟩)

end Cert.KernelIdeal.Rgn

end
-- ==== Proof.KI.Region2.lean ====
/-
  Region 2 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The logits window's buffer holds its block when the body starts, for any proof data over these arrays
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The noise window's buffer likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Row r of the four logits rows (and of the four result rows), as a rectangle of the buffer. -/
abbrev rowL2_0 : Rect S4x32768 := Rect.unit (s := S4x32768) ![0, 0] S1x32768.size inb_S4x32768_S1x32768_0_0
abbrev rowL2_1 : Rect S4x32768 := Rect.unit (s := S4x32768) ![1, 0] S1x32768.size inb_S4x32768_S1x32768_1_0
abbrev rowL2_2 : Rect S4x32768 := Rect.unit (s := S4x32768) ![2, 0] S1x32768.size inb_S4x32768_S1x32768_2_0
abbrev rowL2_3 : Rect S4x32768 := Rect.unit (s := S4x32768) ![3, 0] S1x32768.size inb_S4x32768_S1x32768_3_0
/-- Slab r of the four noise slabs. -/
abbrev slab2_0 : Rect S4x28x32768 := Rect.unit (s := S4x28x32768) ![0, 0, 0] S1x28x32768.size inb_S4x28x32768_S1x28x32768_0_0_0
abbrev slab2_1 : Rect S4x28x32768 := Rect.unit (s := S4x28x32768) ![1, 0, 0] S1x28x32768.size inb_S4x28x32768_S1x28x32768_1_0_0
abbrev slab2_2 : Rect S4x28x32768 := Rect.unit (s := S4x28x32768) ![2, 0, 0] S1x28x32768.size inb_S4x28x32768_S1x28x32768_2_0_0
abbrev slab2_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out2_2 (x0 : Vec F S4x32768 .f32) (x1 : Vec F S4x28x32768 .f32) : Vec F S4x32768 .f32 :=
  View.canon [⟨rowL2_3, k2_pay1 (k2_pay5 (View.ld x0 rowL2_3) (View.ld x1 slab2_3)) (k2_pay6 (View.ld x0 rowL2_3) (View.ld x1 slab2_3))⟩,
    ⟨rowL2_2, k2_pay4 (View.ld x0 rowL2_2) (View.ld x1 slab2_2)⟩,
    ⟨rowL2_1, k2_pay3 (View.ld x0 rowL2_1) (View.ld x1 slab2_1)⟩,
    ⟨rowL2_0, k2_pay2 (View.ld x0 rowL2_0) (View.ld x1 slab2_0)⟩]

/-- The four stored rows tile the result buffer. -/
theorem cover2_2 (p3 p2 p1 p0 : Vec F S1x32768 .f32) (y : S4x32768.Idx) :
    ∃ pc ∈ ([⟨rowL2_3, p3⟩, ⟨rowL2_2, p2⟩, ⟨rowL2_1, p1⟩, ⟨rowL2_0, p0⟩] : List (View.Piece (Elt F) S4x32768 .f32)), y ∈ pc.1.set :=
  View.cover_of_tiled [⟨rowL2_3, p3⟩, ⟨rowL2_2, p2⟩, ⟨rowL2_1, p1⟩, ⟨rowL2_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel2 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__chunk_body arg0 harg0 arg1 harg1 arg2 harg2) K := by
  simp only [cc2__chunk_body_eq_skeleton]; unfold cc2__chunk_body_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _ _ _ _)

/-- The proof data of the call on core c: the arrays as the call finds them; after the body each input's
    buffer holds its block and the result buffer the four stored rows of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation2 (c : Dev nD) : BodyObligation (dat2 (F := F) V c) (defs₀ (F := F)) Variants.none () Set.univ := fun t => by
  rw [bigSep_W2, bigSep_W2]
  exact sound_body2 V c t

/-! ## The call's result array after the call -/

/-- The call has one point, and each of its windows' one block starts at the origin of its array. -/
theorem idx2 : ∀ t : Fin cfg2.N, win2_0.index t (0 : Fin 2) = 0 ∧ win2_0.index t (1 : Fin 2) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0 :=
  (by decide +kernel : ∀ t : Fin grid2.N, _)

/-- The logits block is the whole logits array of the call. -/
theorem blk2_0 (c : Dev nD) (t : Fin cfg2.N) : iblk2 V c 0 t = V c main_v7 := by
  obtain ⟨e0, e1, -⟩ := idx2 t
  funext j
  show V c main_v7 (((cfg2.win 0).blk t).view.emb j) = V c main_v7 j
  refine congrArg (V c main_v7) ?_
  funext a; apply Fin.ext
  match a with
  | ⟨0, _⟩ => show win2_0.index t (0 : Fin 2) * 4 + 1 * (j 0).val = (j 0).val; omega
  | ⟨1, _⟩ => show win2_0.index t (1 : Fin 2) * 32768 + 1 * (j 1).val = (j 1).val; omega

/-- The noise block is the whole noise array of the call. -/
theorem blk2_1 (c : Dev nD) (t : Fin cfg2.N) : iblk2 V c 1 t = V c main_v6 := by
  obtain ⟨-, -, e0, e1, e2, -⟩ := idx2 t
  funext j
  show V c main_v6 (((cfg2.win 1).blk t).view.emb j) = V c main_v6 j
  refine congrArg (V c main_v6) ?_
  funext a; apply Fin.ext
  match a with
  | ⟨0, _⟩ => show win2_1.index t (0 : Fin 3) * 4 + 1 * (j 0).val = (j 0).val; omega
  | ⟨1, _⟩ => show win2_1.index t (1 : Fin 3) * 28 + 1 * (j 1).val = (j 1).val; omega
  | ⟨2, _⟩ => show win2_1.index t (2 : Fin 3) * 32768 + 1 * (j 2).val = (j 2).val; omega

/-- What the call's point writes back is the whole of the four stored rows. -/
theorem flushed2_eq (c : Dev nD) (t : Fin cfg2.N) :
    (dat2 V c).flushed 2 t = ((cfg2.win 2).blk t).view.read (Elt F) (out2_2 (V c main_v7) (V c main_v6)) := by
  show (cfg2.win 2).cut (grid2.coords t) ((dat2 V c).after 2 t) = _
  rw [after2_2, blk2_0, blk2_1]
  obtain ⟨-, -, -, -, -, e0, e1⟩ := idx2 t
  generalize out2_2 (V c main_v7) (V c main_v6) = G
  funext j
  show G j = G (((cfg2.win 2).blk t).view.emb j)
  refine congrArg G ?_
  funext a; apply Fin.ext
  match a with
  | ⟨0, _⟩ => show (j 0).val = win2_2.index t (0 : Fin 2) * 4 + 1 * (j 0).val; omega
  | ⟨1, _⟩ => show (j 1).val = win2_2.index t (1 : Fin 2) * 32768 + 1 * (j 1).val; omega

theorem mem_blk2 (t : Fin cfg2.N) (i : S4x32768.Idx) :
    i ∈ ((cfg2.win 2).blk t).view.set ↔ ∀ a : Fin 2, win2_2.index t a * S4x32768.size a ≤ (i a).val ∧ (i a).val < win2_2.index t a * S4x32768.size a + S4x32768.size a := by
  show i ∈ ((View.whole main_v8).slice (win2_2.rect t)).set ↔ _
  rw [View.set_slice_whole, Rect.mem_set_unit]
  exact Iff.rfl

/-- The call's result array after the call: the four stored rows of the arrays the call was entered with. -/
theorem final2 (c : Dev nD) : (dat2 V c).arrAt 2 cfg2.N = out2_2 (V c main_v7) (V c main_v6) :=
  (dat2 V c).arrAt_eq_of_cover 2 _ (fun t _ => flushed2_eq V c t) (fun i => ⟨t2_0, flush2_2 t2_0, by
    rw [mem_blk2]
    obtain ⟨-, -, -, -, -, e0, e1⟩ := idx2 t2_0
    intro a
    match a with
    | ⟨0, _⟩ => show win2_2.index t2_0 (0 : Fin 2) * 4 ≤ (i 0).val ∧ (i 0).val < win2_2.index t2_0 (0 : Fin 2) * 4 + 4; have h0 : (i 0).val < 4 := (i 0).isLt; omega
    | ⟨1, _⟩ => show win2_2.index t2_0 (1 : Fin 2) * 32768 ≤ (i 1).val ∧ (i 1).val < win2_2.index t2_0 (1 : Fin 2) * 32768 + 32768; have h1 : (i 1).val < 32768 := (i 1).isLt; omega⟩)

end Cert.KernelIdeal.Rgn

end
-- ==== Proof.KI.Region3.lean ====
/-
  Region 3 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The logits window's buffer holds its block when the body starts, for any proof data over these arrays
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The noise window's buffer likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Row r of the four logits rows (and of the four result rows), as a rectangle of the buffer. -/
abbrev rowL3_0 : Rect S4x32768 := Rect.unit (s := S4x32768) ![0, 0] S1x32768.size inb_S4x32768_S1x32768_0_0
abbrev rowL3_1 : Rect S4x32768 := Rect.unit (s := S4x32768) ![1, 0] S1x32768.size inb_S4x32768_S1x32768_1_0
abbrev rowL3_2 : Rect S4x32768 := Rect.unit (s := S4x32768) ![2, 0] S1x32768.size inb_S4x32768_S1x32768_2_0
abbrev rowL3_3 : Rect S4x32768 := Rect.unit (s := S4x32768) ![3, 0] S1x32768.size inb_S4x32768_S1x32768_3_0
/-- Slab r of the four noise slabs. -/
abbrev slab3_0 : Rect S4x28x32768 := Rect.unit (s := S4x28x32768) ![0, 0, 0] S1x28x32768.size inb_S4x28x32768_S1x28x32768_0_0_0
abbrev slab3_1 : Rect S4x28x32768 := Rect.unit (s := S4x28x32768) ![1, 0, 0] S1x28x32768.size inb_S4x28x32768_S1x28x32768_1_0_0
abbrev slab3_2 : Rect S4x28x32768 := Rect.unit (s := S4x28x32768) ![2, 0, 0] S1x28x32768.size inb_S4x28x32768_S1x28x32768_2_0_0
abbrev slab3_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out3_2 (x0 : Vec F S4x32768 .f32) (x1 : Vec F S4x28x32768 .f32) : Vec F S4x32768 .f32 :=
  View.canon [⟨rowL3_3, k3_pay1 (k3_pay5 (View.ld x0 rowL3_3) (View.ld x1 slab3_3)) (k3_pay6 (View.ld x0 rowL3_3) (View.ld x1 slab3_3))⟩,
    ⟨rowL3_2, k3_pay4 (View.ld x0 rowL3_2) (View.ld x1 slab3_2)⟩,
    ⟨rowL3_1, k3_pay3 (View.ld x0 rowL3_1) (View.ld x1 slab3_1)⟩,
    ⟨rowL3_0, k3_pay2 (View.ld x0 rowL3_0) (View.ld x1 slab3_0)⟩]

/-- The four stored rows tile the result buffer. -/
theorem cover3_2 (p3 p2 p1 p0 : Vec F S1x32768 .f32) (y : S4x32768.Idx) :
    ∃ pc ∈ ([⟨rowL3_3, p3⟩, ⟨rowL3_2, p2⟩, ⟨rowL3_1, p1⟩, ⟨rowL3_0, p0⟩] : List (View.Piece (Elt F) S4x32768 .f32)), y ∈ pc.1.set :=
  View.cover_of_tiled [⟨rowL3_3, p3⟩, ⟨rowL3_2, p2⟩, ⟨rowL3_1, p1⟩, ⟨rowL3_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel3 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__chunk_body arg0 harg0 arg1 harg1 arg2 harg2) K := by
  simp only [cc3__chunk_body_eq_skeleton]; unfold cc3__chunk_body_skel
  simp only [k3_part1_eq_skeleton]; unfold k3_part1_skel
  simp only [k3_part2_eq_skeleton]; unfold k3_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover3_2 _ _ _ _)

/-- The proof data of the call on core c: the arrays as the call finds them; after the body each input's
    buffer holds its block and the result buffer the four stored rows of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation3 (c : Dev nD) : BodyObligation (dat3 (F := F) V c) (defs₀ (F := F)) Variants.none () Set.univ := fun t => by
  rw [bigSep_W3, bigSep_W3]
  exact sound_body3 V c t

/-! ## The call's result array after the call -/

/-- The call has one point, and each of its windows' one block starts at the origin of its array. -/
theorem idx3 : ∀ t : Fin cfg3.N, win3_0.index t (0 : Fin 2) = 0 ∧ win3_0.index t (1 : Fin 2) = 0
    ∧ win3_1.index t (0 : Fin 3) = 0 ∧ win3_1.index t (1 : Fin 3) = 0 ∧ win3_1.index t (2 : Fin 3) = 0
    ∧ win3_2.index t (0 : Fin 2) = 0 ∧ win3_2.index t (1 : Fin 2) = 0 :=
  (by decide +kernel : ∀ t : Fin grid3.N, _)

/-- The logits block is the whole logits array of the call. -/
theorem blk3_0 (c : Dev nD) (t : Fin cfg3.N) : iblk3 V c 0 t = V c main_v10 := by
  obtain ⟨e0, e1, -⟩ := idx3 t
  funext j
  show V c main_v10 (((cfg3.win 0).blk t).view.emb j) = V c main_v10 j
  refine congrArg (V c main_v10) ?_
  funext a; apply Fin.ext
  match a with
  | ⟨0, _⟩ => show win3_0.index t (0 : Fin 2) * 4 + 1 * (j 0).val = (j 0).val; omega
  | ⟨1, _⟩ => show win3_0.index t (1 : Fin 2) * 32768 + 1 * (j 1).val = (j 1).val; omega

/-- The noise block is the whole noise array of the call. -/
theorem blk3_1 (c : Dev nD) (t : Fin cfg3.N) : iblk3 V c 1 t = V c main_v9 := by
  obtain ⟨-, -, e0, e1, e2, -⟩ := idx3 t
  funext j
  show V c main_v9 (((cfg3.win 1).blk t).view.emb j) = V c main_v9 j
  refine congrArg (V c main_v9) ?_
  funext a; apply Fin.ext
  match a with
  | ⟨0, _⟩ => show win3_1.index t (0 : Fin 3) * 4 + 1 * (j 0).val = (j 0).val; omega
  | ⟨1, _⟩ => show win3_1.index t (1 : Fin 3) * 28 + 1 * (j 1).val = (j 1).val; omega
  | ⟨2, _⟩ => show win3_1.index t (2 : Fin 3) * 32768 + 1 * (j 2).val = (j 2).val; omega

/-- What the call's point writes back is the whole of the four stored rows. -/
theorem flushed3_eq (c : Dev nD) (t : Fin cfg3.N) :
    (dat3 V c).flushed 2 t = ((cfg3.win 2).blk t).view.read (Elt F) (out3_2 (V c main_v10) (V c main_v9)) := by
  show (cfg3.win 2).cut (grid3.coords t) ((dat3 V c).after 2 t) = _
  rw [after3_2, blk3_0, blk3_1]
  obtain ⟨-, -, -, -, -, e0, e1⟩ := idx3 t
  generalize out3_2 (V c main_v10) (V c main_v9) = G
  funext j
  show G j = G (((cfg3.win 2).blk t).view.emb j)
  refine congrArg G ?_
  funext a; apply Fin.ext
  match a with
  | ⟨0, _⟩ => show (j 0).val = win3_2.index t (0 : Fin 2) * 4 + 1 * (j 0).val; omega
  | ⟨1, _⟩ => show (j 1).val = win3_2.index t (1 : Fin 2) * 32768 + 1 * (j 1).val; omega

theorem mem_blk3 (t : Fin cfg3.N) (i : S4x32768.Idx) :
    i ∈ ((cfg3.win 2).blk t).view.set ↔ ∀ a : Fin 2, win3_2.index t a * S4x32768.size a ≤ (i a).val ∧ (i a).val < win3_2.index t a * S4x32768.size a + S4x32768.size a := by
  show i ∈ ((View.whole main_v11).slice (win3_2.rect t)).set ↔ _
  rw [View.set_slice_whole, Rect.mem_set_unit]
  exact Iff.rfl

/-- The call's result array after the call: the four stored rows of the arrays the call was entered with. -/
theorem final3 (c : Dev nD) : (dat3 V c).arrAt 2 cfg3.N = out3_2 (V c main_v10) (V c main_v9) :=
  (dat3 V c).arrAt_eq_of_cover 2 _ (fun t _ => flushed3_eq V c t) (fun i => ⟨t3_0, flush3_2 t3_0, by
    rw [mem_blk3]
    obtain ⟨-, -, -, -, -, e0, e1⟩ := idx3 t3_0
    intro a
    match a with
    | ⟨0, _⟩ => show win3_2.index t3_0 (0 : Fin 2) * 4 ≤ (i 0).val ∧ (i 0).val < win3_2.index t3_0 (0 : Fin 2) * 4 + 4; have h0 : (i 0).val < 4 := (i 0).isLt; omega
    | ⟨1, _⟩ => show win3_2.index t3_0 (1 : Fin 2) * 32768 ≤ (i 1).val ∧ (i 1).val < win3_2.index t3_0 (1 : Fin 2) * 32768 + 32768; have h1 : (i 1).val < 32768 := (i 1).isLt; omega⟩)

end Cert.KernelIdeal.Rgn

end
-- ==== Proof.KI.Region4.lean ====
/-
  Region 4 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The logits window's buffer holds its block when the body starts, for any proof data over these arrays
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The noise window's buffer likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Row r of the four logits rows (and of the four result rows), as a rectangle of the buffer. -/
abbrev rowL4_0 : Rect S4x32768 := Rect.unit (s := S4x32768) ![0, 0] S1x32768.size inb_S4x32768_S1x32768_0_0
abbrev rowL4_1 : Rect S4x32768 := Rect.unit (s := S4x32768) ![1, 0] S1x32768.size inb_S4x32768_S1x32768_1_0
abbrev rowL4_2 : Rect S4x32768 := Rect.unit (s := S4x32768) ![2, 0] S1x32768.size inb_S4x32768_S1x32768_2_0
abbrev rowL4_3 : Rect S4x32768 := Rect.unit (s := S4x32768) ![3, 0] S1x32768.size inb_S4x32768_S1x32768_3_0
/-- Slab r of the four noise slabs. -/
abbrev slab4_0 : Rect S4x28x32768 := Rect.unit (s := S4x28x32768) ![0, 0, 0] S1x28x32768.size inb_S4x28x32768_S1x28x32768_0_0_0
abbrev slab4_1 : Rect S4x28x32768 := Rect.unit (s := S4x28x32768) ![1, 0, 0] S1x28x32768.size inb_S4x28x32768_S1x28x32768_1_0_0
abbrev slab4_2 : Rect S4x28x32768 := Rect.unit (s := S4x28x32768) ![2, 0, 0] S1x28x32768.size inb_S4x28x32768_S1x28x32768_2_0_0
abbrev slab4_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out4_2 (x0 : Vec F S4x32768 .f32) (x1 : Vec F S4x28x32768 .f32) : Vec F S4x32768 .f32 :=
  View.canon [⟨rowL4_3, k4_pay1 (k4_pay5 (View.ld x0 rowL4_3) (View.ld x1 slab4_3)) (k4_pay6 (View.ld x0 rowL4_3) (View.ld x1 slab4_3))⟩,
    ⟨rowL4_2, k4_pay4 (View.ld x0 rowL4_2) (View.ld x1 slab4_2)⟩,
    ⟨rowL4_1, k4_pay3 (View.ld x0 rowL4_1) (View.ld x1 slab4_1)⟩,
    ⟨rowL4_0, k4_pay2 (View.ld x0 rowL4_0) (View.ld x1 slab4_0)⟩]

/-- The four stored rows tile the result buffer. -/
theorem cover4_2 (p3 p2 p1 p0 : Vec F S1x32768 .f32) (y : S4x32768.Idx) :
    ∃ pc ∈ ([⟨rowL4_3, p3⟩, ⟨rowL4_2, p2⟩, ⟨rowL4_1, p1⟩, ⟨rowL4_0, p0⟩] : List (View.Piece (Elt F) S4x32768 .f32)), y ∈ pc.1.set :=
  View.cover_of_tiled [⟨rowL4_3, p3⟩, ⟨rowL4_2, p2⟩, ⟨rowL4_1, p1⟩, ⟨rowL4_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel4 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__chunk_body arg0 harg0 arg1 harg1 arg2 harg2) K := by
  simp only [cc4__chunk_body_eq_skeleton]; unfold cc4__chunk_body_skel
  simp only [k4_part1_eq_skeleton]; unfold k4_part1_skel
  simp only [k4_part2_eq_skeleton]; unfold k4_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover4_2 _ _ _ _)

/-- The proof data of the call on core c: the arrays as the call finds them; after the body each input's
    buffer holds its block and the result buffer the four stored rows of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation4 (c : Dev nD) : BodyObligation (dat4 (F := F) V c) (defs₀ (F := F)) Variants.none () Set.univ := fun t => by
  rw [bigSep_W4, bigSep_W4]
  exact sound_body4 V c t

/-! ## The call's result array after the call -/

/-- The call has one point, and each of its windows' one block starts at the origin of its array. -/
theorem idx4 : ∀ t : Fin cfg4.N, win4_0.index t (0 : Fin 2) = 0 ∧ win4_0.index t (1 : Fin 2) = 0
    ∧ win4_1.index t (0 : Fin 3) = 0 ∧ win4_1.index t (1 : Fin 3) = 0 ∧ win4_1.index t (2 : Fin 3) = 0
    ∧ win4_2.index t (0 : Fin 2) = 0 ∧ win4_2.index t (1 : Fin 2) = 0 :=
  (by decide +kernel : ∀ t : Fin grid4.N, _)

/-- The logits block is the whole logits array of the call. -/
theorem blk4_0 (c : Dev nD) (t : Fin cfg4.N) : iblk4 V c 0 t = V c main_v13 := by
  obtain ⟨e0, e1, -⟩ := idx4 t
  funext j
  show V c main_v13 (((cfg4.win 0).blk t).view.emb j) = V c main_v13 j
  refine congrArg (V c main_v13) ?_
  funext a; apply Fin.ext
  match a with
  | ⟨0, _⟩ => show win4_0.index t (0 : Fin 2) * 4 + 1 * (j 0).val = (j 0).val; omega
  | ⟨1, _⟩ => show win4_0.index t (1 : Fin 2) * 32768 + 1 * (j 1).val = (j 1).val; omega

/-- The noise block is the whole noise array of the call. -/
theorem blk4_1 (c : Dev nD) (t : Fin cfg4.N) : iblk4 V c 1 t = V c main_v12 := by
  obtain ⟨-, -, e0, e1, e2, -⟩ := idx4 t
  funext j
  show V c main_v12 (((cfg4.win 1).blk t).view.emb j) = V c main_v12 j
  refine congrArg (V c main_v12) ?_
  funext a; apply Fin.ext
  match a with
  | ⟨0, _⟩ => show win4_1.index t (0 : Fin 3) * 4 + 1 * (j 0).val = (j 0).val; omega
  | ⟨1, _⟩ => show win4_1.index t (1 : Fin 3) * 28 + 1 * (j 1).val = (j 1).val; omega
  | ⟨2, _⟩ => show win4_1.index t (2 : Fin 3) * 32768 + 1 * (j 2).val = (j 2).val; omega

/-- What the call's point writes back is the whole of the four stored rows. -/
theorem flushed4_eq (c : Dev nD) (t : Fin cfg4.N) :
    (dat4 V c).flushed 2 t = ((cfg4.win 2).blk t).view.read (Elt F) (out4_2 (V c main_v13) (V c main_v12)) := by
  show (cfg4.win 2).cut (grid4.coords t) ((dat4 V c).after 2 t) = _
  rw [after4_2, blk4_0, blk4_1]
  obtain ⟨-, -, -, -, -, e0, e1⟩ := idx4 t
  generalize out4_2 (V c main_v13) (V c main_v12) = G
  funext j
  show G j = G (((cfg4.win 2).blk t).view.emb j)
  refine congrArg G ?_
  funext a; apply Fin.ext
  match a with
  | ⟨0, _⟩ => show (j 0).val = win4_2.index t (0 : Fin 2) * 4 + 1 * (j 0).val; omega
  | ⟨1, _⟩ => show (j 1).val = win4_2.index t (1 : Fin 2) * 32768 + 1 * (j 1).val; omega

theorem mem_blk4 (t : Fin cfg4.N) (i : S4x32768.Idx) :
    i ∈ ((cfg4.win 2).blk t).view.set ↔ ∀ a : Fin 2, win4_2.index t a * S4x32768.size a ≤ (i a).val ∧ (i a).val < win4_2.index t a * S4x32768.size a + S4x32768.size a := by
  show i ∈ ((View.whole main_v14).slice (win4_2.rect t)).set ↔ _
  rw [View.set_slice_whole, Rect.mem_set_unit]
  exact Iff.rfl

/-- The call's result array after the call: the four stored rows of the arrays the call was entered with. -/
theorem final4 (c : Dev nD) : (dat4 V c).arrAt 2 cfg4.N = out4_2 (V c main_v13) (V c main_v12) :=
  (dat4 V c).arrAt_eq_of_cover 2 _ (fun t _ => flushed4_eq V c t) (fun i => ⟨t4_0, flush4_2 t4_0, by
    rw [mem_blk4]
    obtain ⟨-, -, -, -, -, e0, e1⟩ := idx4 t4_0
    intro a
    match a with
    | ⟨0, _⟩ => show win4_2.index t4_0 (0 : Fin 2) * 4 ≤ (i 0).val ∧ (i 0).val < win4_2.index t4_0 (0 : Fin 2) * 4 + 4; have h0 : (i 0).val < 4 := (i 0).isLt; omega
    | ⟨1, _⟩ => show win4_2.index t4_0 (1 : Fin 2) * 32768 ≤ (i 1).val ∧ (i 1).val < win4_2.index t4_0 (1 : Fin 2) * 32768 + 32768; have h1 : (i 1).val < 32768 := (i 1).isLt; omega⟩)

end Cert.KernelIdeal.Rgn

end
-- ==== Proof.KI.Region5.lean ====
/-
  Region 5 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The logits window's buffer holds its block when the body starts, for any proof data over these arrays
    whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The noise window's buffer likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Row r of the four logits rows (and of the four result rows), as a rectangle of the buffer. -/
abbrev rowL5_0 : Rect S4x32768 := Rect.unit (s := S4x32768) ![0, 0] S1x32768.size inb_S4x32768_S1x32768_0_0
abbrev rowL5_1 : Rect S4x32768 := Rect.unit (s := S4x32768) ![1, 0] S1x32768.size inb_S4x32768_S1x32768_1_0
abbrev rowL5_2 : Rect S4x32768 := Rect.unit (s := S4x32768) ![2, 0] S1x32768.size inb_S4x32768_S1x32768_2_0
abbrev rowL5_3 : Rect S4x32768 := Rect.unit (s := S4x32768) ![3, 0] S1x32768.size inb_S4x32768_S1x32768_3_0
/-- Slab r of the four noise slabs. -/
abbrev slab5_0 : Rect S4x28x32768 := Rect.unit (s := S4x28x32768) ![0, 0, 0] S1x28x32768.size inb_S4x28x32768_S1x28x32768_0_0_0
abbrev slab5_1 : Rect S4x28x32768 := Rect.unit (s := S4x28x32768) ![1, 0, 0] S1x28x32768.size inb_S4x28x32768_S1x28x32768_1_0_0
abbrev slab5_2 : Rect S4x28x32768 := Rect.unit (s := S4x28x32768) ![2, 0, 0] S1x28x32768.size inb_S4x28x32768_S1x28x32768_2_0_0
abbrev slab5_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out5_2 (x0 : Vec F S4x32768 .f32) (x1 : Vec F S4x28x32768 .f32) : Vec F S4x32768 .f32 :=
  View.canon [⟨rowL5_3, k5_pay1 (k5_pay5 (View.ld x0 rowL5_3) (View.ld x1 slab5_3)) (k5_pay6 (View.ld x0 rowL5_3) (View.ld x1 slab5_3))⟩,
    ⟨rowL5_2, k5_pay4 (View.ld x0 rowL5_2) (View.ld x1 slab5_2)⟩,
    ⟨rowL5_1, k5_pay3 (View.ld x0 rowL5_1) (View.ld x1 slab5_1)⟩,
    ⟨rowL5_0, k5_pay2 (View.ld x0 rowL5_0) (View.ld x1 slab5_0)⟩]

/-- The four stored rows tile the result buffer. -/
theorem cover5_2 (p3 p2 p1 p0 : Vec F S1x32768 .f32) (y : S4x32768.Idx) :
    ∃ pc ∈ ([⟨rowL5_3, p3⟩, ⟨rowL5_2, p2⟩, ⟨rowL5_1, p1⟩, ⟨rowL5_0, p0⟩] : List (View.Piece (Elt F) S4x32768 .f32)), y ∈ pc.1.set :=
  View.cover_of_tiled [⟨rowL5_3, p3⟩, ⟨rowL5_2, p2⟩, ⟨rowL5_1, p1⟩, ⟨rowL5_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel5 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__chunk_body arg0 harg0 arg1 harg1 arg2 harg2) K := by
  simp only [cc5__chunk_body_eq_skeleton]; unfold cc5__chunk_body_skel
  simp only [k5_part1_eq_skeleton]; unfold k5_part1_skel
  simp only [k5_part2_eq_skeleton]; unfold k5_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover5_2 _ _ _ _)

/-- The proof data of the call on core c: the arrays as the call finds them; after the body each input's
    buffer holds its block and the result buffer the four stored rows of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation5 (c : Dev nD) : BodyObligation (dat5 (F := F) V c) (defs₀ (F := F)) Variants.none () Set.univ := fun t => by
  rw [bigSep_W5, bigSep_W5]
  exact sound_body5 V c t

/-! ## The call's result array after the call -/

/-- The call has one point, and each of its windows' one block starts at the origin of its array. -/
theorem idx5 : ∀ t : Fin cfg5.N, win5_0.index t (0 : Fin 2) = 0 ∧ win5_0.index t (1 : Fin 2) = 0
    ∧ win5_1.index t (0 : Fin 3) = 0 ∧ win5_1.index t (1 : Fin 3) = 0 ∧ win5_1.index t (2 : Fin 3) = 0
    ∧ win5_2.index t (0 : Fin 2) = 0 ∧ win5_2.index t (1 : Fin 2) = 0 :=
  (by decide +kernel : ∀ t : Fin grid5.N, _)

/-- The logits block is the whole logits array of the call. -/
theorem blk5_0 (c : Dev nD) (t : Fin cfg5.N) : iblk5 V c 0 t = V c main_v16 := by
  obtain ⟨e0, e1, -⟩ := idx5 t
  funext j
  show V c main_v16 (((cfg5.win 0).blk t).view.emb j) = V c main_v16 j
  refine congrArg (V c main_v16) ?_
  funext a; apply Fin.ext
  match a with
  | ⟨0, _⟩ => show win5_0.index t (0 : Fin 2) * 4 + 1 * (j 0).val = (j 0).val; omega
  | ⟨1, _⟩ => show win5_0.index t (1 : Fin 2) * 32768 + 1 * (j 1).val = (j 1).val; omega

/-- The noise block is the whole noise array of the call. -/
theorem blk5_1 (c : Dev nD) (t : Fin cfg5.N) : iblk5 V c 1 t = V c main_v15 := by
  obtain ⟨-, -, e0, e1, e2, -⟩ := idx5 t
  funext j
  show V c main_v15 (((cfg5.win 1).blk t).view.emb j) = V c main_v15 j
  refine congrArg (V c main_v15) ?_
  funext a; apply Fin.ext
  match a with
  | ⟨0, _⟩ => show win5_1.index t (0 : Fin 3) * 4 + 1 * (j 0).val = (j 0).val; omega
  | ⟨1, _⟩ => show win5_1.index t (1 : Fin 3) * 28 + 1 * (j 1).val = (j 1).val; omega
  | ⟨2, _⟩ => show win5_1.index t (2 : Fin 3) * 32768 + 1 * (j 2).val = (j 2).val; omega

/-- What the call's point writes back is the whole of the four stored rows. -/
theorem flushed5_eq (c : Dev nD) (t : Fin cfg5.N) :
    (dat5 V c).flushed 2 t = ((cfg5.win 2).blk t).view.read (Elt F) (out5_2 (V c main_v16) (V c main_v15)) := by
  show (cfg5.win 2).cut (grid5.coords t) ((dat5 V c).after 2 t) = _
  rw [after5_2, blk5_0, blk5_1]
  obtain ⟨-, -, -, -, -, e0, e1⟩ := idx5 t
  generalize out5_2 (V c main_v16) (V c main_v15) = G
  funext j
  show G j = G (((cfg5.win 2).blk t).view.emb j)
  refine congrArg G ?_
  funext a; apply Fin.ext
  match a with
  | ⟨0, _⟩ => show (j 0).val = win5_2.index t (0 : Fin 2) * 4 + 1 * (j 0).val; omega
  | ⟨1, _⟩ => show (j 1).val = win5_2.index t (1 : Fin 2) * 32768 + 1 * (j 1).val; omega

theorem mem_blk5 (t : Fin cfg5.N) (i : S4x32768.Idx) :
    i ∈ ((cfg5.win 2).blk t).view.set ↔ ∀ a : Fin 2, win5_2.index t a * S4x32768.size a ≤ (i a).val ∧ (i a).val < win5_2.index t a * S4x32768.size a + S4x32768.size a := by
  show i ∈ ((View.whole main_v17).slice (win5_2.rect t)).set ↔ _
  rw [View.set_slice_whole, Rect.mem_set_unit]
  exact Iff.rfl

/-- The call's result array after the call: the four stored rows of the arrays the call was entered with. -/
theorem final5 (c : Dev nD) : (dat5 V c).arrAt 2 cfg5.N = out5_2 (V c main_v16) (V c main_v15) :=
  (dat5 V c).arrAt_eq_of_cover 2 _ (fun t _ => flushed5_eq V c t) (fun i => ⟨t5_0, flush5_2 t5_0, by
    rw [mem_blk5]
    obtain ⟨-, -, -, -, -, e0, e1⟩ := idx5 t5_0
    intro a
    match a with
    | ⟨0, _⟩ => show win5_2.index t5_0 (0 : Fin 2) * 4 ≤ (i 0).val ∧ (i 0).val < win5_2.index t5_0 (0 : Fin 2) * 4 + 4; have h0 : (i 0).val < 4 := (i 0).isLt; omega
    | ⟨1, _⟩ => show win5_2.index t5_0 (1 : Fin 2) * 32768 ≤ (i 1).val ∧ (i 1).val < win5_2.index t5_0 (1 : Fin 2) * 32768 + 32768; have h1 : (i 1).val < 32768 := (i 1).isLt; omega⟩)

end Cert.KernelIdeal.Rgn

end
-- ==== Proof.KI.Region6.lean ====
/-
  Region 6 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The logits window's buffer holds its block when the body starts, for any proof data over these arrays
    whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The noise window's buffer likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Row r of the four logits rows (and of the four result rows), as a rectangle of the buffer. -/
abbrev rowL6_0 : Rect S4x32768 := Rect.unit (s := S4x32768) ![0, 0] S1x32768.size inb_S4x32768_S1x32768_0_0
abbrev rowL6_1 : Rect S4x32768 := Rect.unit (s := S4x32768) ![1, 0] S1x32768.size inb_S4x32768_S1x32768_1_0
abbrev rowL6_2 : Rect S4x32768 := Rect.unit (s := S4x32768) ![2, 0] S1x32768.size inb_S4x32768_S1x32768_2_0
abbrev rowL6_3 : Rect S4x32768 := Rect.unit (s := S4x32768) ![3, 0] S1x32768.size inb_S4x32768_S1x32768_3_0
/-- Slab r of the four noise slabs. -/
abbrev slab6_0 : Rect S4x28x32768 := Rect.unit (s := S4x28x32768) ![0, 0, 0] S1x28x32768.size inb_S4x28x32768_S1x28x32768_0_0_0
abbrev slab6_1 : Rect S4x28x32768 := Rect.unit (s := S4x28x32768) ![1, 0, 0] S1x28x32768.size inb_S4x28x32768_S1x28x32768_1_0_0
abbrev slab6_2 : Rect S4x28x32768 := Rect.unit (s := S4x28x32768) ![2, 0, 0] S1x28x32768.size inb_S4x28x32768_S1x28x32768_2_0_0
abbrev slab6_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out6_2 (x0 : Vec F S4x32768 .f32) (x1 : Vec F S4x28x32768 .f32) : Vec F S4x32768 .f32 :=
  View.canon [⟨rowL6_3, k6_pay1 (k6_pay5 (View.ld x0 rowL6_3) (View.ld x1 slab6_3)) (k6_pay6 (View.ld x0 rowL6_3) (View.ld x1 slab6_3))⟩,
    ⟨rowL6_2, k6_pay4 (View.ld x0 rowL6_2) (View.ld x1 slab6_2)⟩,
    ⟨rowL6_1, k6_pay3 (View.ld x0 rowL6_1) (View.ld x1 slab6_1)⟩,
    ⟨rowL6_0, k6_pay2 (View.ld x0 rowL6_0) (View.ld x1 slab6_0)⟩]

/-- The four stored rows tile the result buffer. -/
theorem cover6_2 (p3 p2 p1 p0 : Vec F S1x32768 .f32) (y : S4x32768.Idx) :
    ∃ pc ∈ ([⟨rowL6_3, p3⟩, ⟨rowL6_2, p2⟩, ⟨rowL6_1, p1⟩, ⟨rowL6_0, p0⟩] : List (View.Piece (Elt F) S4x32768 .f32)), y ∈ pc.1.set :=
  View.cover_of_tiled [⟨rowL6_3, p3⟩, ⟨rowL6_2, p2⟩, ⟨rowL6_1, p1⟩, ⟨rowL6_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel6 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out6_2 x0 x1)) -∗ K ⟨⟩))
      ⊢ wp frame (wpE (defs₀ (F := F)) Variants.none c none) E (cc6__chunk_body arg0 harg0 arg1 harg1 arg2 harg2) K := by
  simp only [cc6__chunk_body_eq_skeleton]; unfold cc6__chunk_body_skel
  simp only [k6_part1_eq_skeleton]; unfold k6_part1_skel
  simp only [k6_part2_eq_skeleton]; unfold k6_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover6_2 _ _ _ _)

/-- The proof data of the call on core c: the arrays as the call finds them; after the body each input's
    buffer holds its block and the result buffer the four stored rows of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation6 (c : Dev nD) : BodyObligation (dat6 (F := F) V c) (defs₀ (F := F)) Variants.none () Set.univ := fun t => by
  rw [bigSep_W6, bigSep_W6]
  exact sound_body6 V c t

/-! ## The call's result array after the call -/

/-- The call has one point, and each of its windows' one block starts at the origin of its array. -/
theorem idx6 : ∀ t : Fin cfg6.N, win6_0.index t (0 : Fin 2) = 0 ∧ win6_0.index t (1 : Fin 2) = 0
    ∧ win6_1.index t (0 : Fin 3) = 0 ∧ win6_1.index t (1 : Fin 3) = 0 ∧ win6_1.index t (2 : Fin 3) = 0
    ∧ win6_2.index t (0 : Fin 2) = 0 ∧ win6_2.index t (1 : Fin 2) = 0 :=
  (by decide +kernel : ∀ t : Fin grid6.N, _)

/-- The logits block is the whole logits array of the call. -/
theorem blk6_0 (c : Dev nD) (t : Fin cfg6.N) : iblk6 V c 0 t = V c main_v19 := by
  obtain ⟨e0, e1, -⟩ := idx6 t
  funext j
  show V c main_v19 (((cfg6.win 0).blk t).view.emb j) = V c main_v19 j
  refine congrArg (V c main_v19) ?_
  funext a; apply Fin.ext
  match a with
  | ⟨0, _⟩ => show win6_0.index t (0 : Fin 2) * 4 + 1 * (j 0).val = (j 0).val; omega
  | ⟨1, _⟩ => show win6_0.index t (1 : Fin 2) * 32768 + 1 * (j 1).val = (j 1).val; omega

/-- The noise block is the whole noise array of the call. -/
theorem blk6_1 (c : Dev nD) (t : Fin cfg6.N) : iblk6 V c 1 t = V c main_v18 := by
  obtain ⟨-, -, e0, e1, e2, -⟩ := idx6 t
  funext j
  show V c main_v18 (((cfg6.win 1).blk t).view.emb j) = V c main_v18 j
  refine congrArg (V c main_v18) ?_
  funext a; apply Fin.ext
  match a with
  | ⟨0, _⟩ => show win6_1.index t (0 : Fin 3) * 4 + 1 * (j 0).val = (j 0).val; omega
  | ⟨1, _⟩ => show win6_1.index t (1 : Fin 3) * 28 + 1 * (j 1).val = (j 1).val; omega
  | ⟨2, _⟩ => show win6_1.index t (2 : Fin 3) * 32768 + 1 * (j 2).val = (j 2).val; omega

/-- What the call's point writes back is the whole of the four stored rows. -/
theorem flushed6_eq (c : Dev nD) (t : Fin cfg6.N) :
    (dat6 V c).flushed 2 t = ((cfg6.win 2).blk t).view.read (Elt F) (out6_2 (V c main_v19) (V c main_v18)) := by
  show (cfg6.win 2).cut (grid6.coords t) ((dat6 V c).after 2 t) = _
  rw [after6_2, blk6_0, blk6_1]
  obtain ⟨-, -, -, -, -, e0, e1⟩ := idx6 t
  generalize out6_2 (V c main_v19) (V c main_v18) = G
  funext j
  show G j = G (((cfg6.win 2).blk t).view.emb j)
  refine congrArg G ?_
  funext a; apply Fin.ext
  match a with
  | ⟨0, _⟩ => show (j 0).val = win6_2.index t (0 : Fin 2) * 4 + 1 * (j 0).val; omega
  | ⟨1, _⟩ => show (j 1).val = win6_2.index t (1 : Fin 2) * 32768 + 1 * (j 1).val; omega

theorem mem_blk6 (t : Fin cfg6.N) (i : S4x32768.Idx) :
    i ∈ ((cfg6.win 2).blk t).view.set ↔ ∀ a : Fin 2, win6_2.index t a * S4x32768.size a ≤ (i a).val ∧ (i a).val < win6_2.index t a * S4x32768.size a + S4x32768.size a := by
  show i ∈ ((View.whole main_v20).slice (win6_2.rect t)).set ↔ _
  rw [View.set_slice_whole, Rect.mem_set_unit]
  exact Iff.rfl

/-- The call's result array after the call: the four stored rows of the arrays the call was entered with. -/
theorem final6 (c : Dev nD) : (dat6 V c).arrAt 2 cfg6.N = out6_2 (V c main_v19) (V c main_v18) :=
  (dat6 V c).arrAt_eq_of_cover 2 _ (fun t _ => flushed6_eq V c t) (fun i => ⟨t6_0, flush6_2 t6_0, by
    rw [mem_blk6]
    obtain ⟨-, -, -, -, -, e0, e1⟩ := idx6 t6_0
    intro a
    match a with
    | ⟨0, _⟩ => show win6_2.index t6_0 (0 : Fin 2) * 4 ≤ (i 0).val ∧ (i 0).val < win6_2.index t6_0 (0 : Fin 2) * 4 + 4; have h0 : (i 0).val < 4 := (i 0).isLt; omega
    | ⟨1, _⟩ => show win6_2.index t6_0 (1 : Fin 2) * 32768 ≤ (i 1).val ∧ (i 1).val < win6_2.index t6_0 (1 : Fin 2) * 32768 + 32768; have h1 : (i 1).val < 32768 := (i 1).isLt; omega⟩)

end Cert.KernelIdeal.Rgn

end
-- ==== Proof.KI.Region7.lean ====
/-
  Region 7 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The logits window's buffer holds its block when the body starts, for any proof data over these arrays
    whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The noise window's buffer likewise. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Row r of the four logits rows (and of the four result rows), as a rectangle of the buffer. -/
abbrev rowL7_0 : Rect S4x32768 := Rect.unit (s := S4x32768) ![0, 0] S1x32768.size inb_S4x32768_S1x32768_0_0
abbrev rowL7_1 : Rect S4x32768 := Rect.unit (s := S4x32768) ![1, 0] S1x32768.size inb_S4x32768_S1x32768_1_0
abbrev rowL7_2 : Rect S4x32768 := Rect.unit (s := S4x32768) ![2, 0] S1x32768.size inb_S4x32768_S1x32768_2_0
abbrev rowL7_3 : Rect S4x32768 := Rect.unit (s := S4x32768) ![3, 0] S1x32768.size inb_S4x32768_S1x32768_3_0
/-- Slab r of the four noise slabs. -/
abbrev slab7_0 : Rect S4x28x32768 := Rect.unit (s := S4x28x32768) ![0, 0, 0] S1x28x32768.size inb_S4x28x32768_S1x28x32768_0_0_0
abbrev slab7_1 : Rect S4x28x32768 := Rect.unit (s := S4x28x32768) ![1, 0, 0] S1x28x32768.size inb_S4x28x32768_S1x28x32768_1_0_0
abbrev slab7_2 : Rect S4x28x32768 := Rect.unit (s := S4x28x32768) ![2, 0, 0] S1x28x32768.size inb_S4x28x32768_S1x28x32768_2_0_0
abbrev slab7_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out7_2 (x0 : Vec F S4x32768 .f32) (x1 : Vec F S4x28x32768 .f32) : Vec F S4x32768 .f32 :=
  View.canon [⟨rowL7_3, k7_pay1 (k7_pay5 (View.ld x0 rowL7_3) (View.ld x1 slab7_3)) (k7_pay6 (View.ld x0 rowL7_3) (View.ld x1 slab7_3))⟩,
    ⟨rowL7_2, k7_pay4 (View.ld x0 rowL7_2) (View.ld x1 slab7_2)⟩,
    ⟨rowL7_1, k7_pay3 (View.ld x0 rowL7_1) (View.ld x1 slab7_1)⟩,
    ⟨rowL7_0, k7_pay2 (View.ld x0 rowL7_0) (View.ld x1 slab7_0)⟩]

/-- The four stored rows tile the result buffer. -/
theorem cover7_2 (p3 p2 p1 p0 : Vec F S1x32768 .f32) (y : S4x32768.Idx) :
    ∃ pc ∈ ([⟨rowL7_3, p3⟩, ⟨rowL7_2, p2⟩, ⟨rowL7_1, p1⟩, ⟨rowL7_0, p0⟩] : List (View.Piece (Elt F) S4x32768 .f32)), y ∈ pc.1.set :=
  View.cover_of_tiled [⟨rowL7_3, p3⟩, ⟨rowL7_2, p2⟩, ⟨rowL7_1, p1⟩, ⟨rowL7_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel7 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out7_2 x0 x1)) -∗ K ⟨⟩))
      ⊢ wp frame (wpE (defs₀ (F := F)) Variants.none c none) E (cc7__chunk_body arg0 harg0 arg1 harg1 arg2 harg2) K := by
  simp only [cc7__chunk_body_eq_skeleton]; unfold cc7__chunk_body_skel
  simp only [k7_part1_eq_skeleton]; unfold k7_part1_skel
  simp only [k7_part2_eq_skeleton]; unfold k7_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover7_2 _ _ _ _)

/-- The proof data of the call on core c: the arrays as the call finds them; after the body each input's
    buffer holds its block and the result buffer the four stored rows of the input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation7 (c : Dev nD) : BodyObligation (dat7 (F := F) V c) (defs₀ (F := F)) Variants.none () Set.univ := fun t => by
  rw [bigSep_W7, bigSep_W7]
  exact sound_body7 V c t

/-! ## The call's result array after the call -/

/-- The call has one point, and each of its windows' one block starts at the origin of its array. -/
theorem idx7 : ∀ t : Fin cfg7.N, win7_0.index t (0 : Fin 2) = 0 ∧ win7_0.index t (1 : Fin 2) = 0
    ∧ win7_1.index t (0 : Fin 3) = 0 ∧ win7_1.index t (1 : Fin 3) = 0 ∧ win7_1.index t (2 : Fin 3) = 0
    ∧ win7_2.index t (0 : Fin 2) = 0 ∧ win7_2.index t (1 : Fin 2) = 0 :=
  (by decide +kernel : ∀ t : Fin grid7.N, _)

/-- The logits block is the whole logits array of the call. -/
theorem blk7_0 (c : Dev nD) (t : Fin cfg7.N) : iblk7 V c 0 t = V c main_v22 := by
  obtain ⟨e0, e1, -⟩ := idx7 t
  funext j
  show V c main_v22 (((cfg7.win 0).blk t).view.emb j) = V c main_v22 j
  refine congrArg (V c main_v22) ?_
  funext a; apply Fin.ext
  match a with
  | ⟨0, _⟩ => show win7_0.index t (0 : Fin 2) * 4 + 1 * (j 0).val = (j 0).val; omega
  | ⟨1, _⟩ => show win7_0.index t (1 : Fin 2) * 32768 + 1 * (j 1).val = (j 1).val; omega

/-- The noise block is the whole noise array of the call. -/
theorem blk7_1 (c : Dev nD) (t : Fin cfg7.N) : iblk7 V c 1 t = V c main_v21 := by
  obtain ⟨-, -, e0, e1, e2, -⟩ := idx7 t
  funext j
  show V c main_v21 (((cfg7.win 1).blk t).view.emb j) = V c main_v21 j
  refine congrArg (V c main_v21) ?_
  funext a; apply Fin.ext
  match a with
  | ⟨0, _⟩ => show win7_1.index t (0 : Fin 3) * 4 + 1 * (j 0).val = (j 0).val; omega
  | ⟨1, _⟩ => show win7_1.index t (1 : Fin 3) * 28 + 1 * (j 1).val = (j 1).val; omega
  | ⟨2, _⟩ => show win7_1.index t (2 : Fin 3) * 32768 + 1 * (j 2).val = (j 2).val; omega

/-- What the call's point writes back is the whole of the four stored rows. -/
theorem flushed7_eq (c : Dev nD) (t : Fin cfg7.N) :
    (dat7 V c).flushed 2 t = ((cfg7.win 2).blk t).view.read (Elt F) (out7_2 (V c main_v22) (V c main_v21)) := by
  show (cfg7.win 2).cut (grid7.coords t) ((dat7 V c).after 2 t) = _
  rw [after7_2, blk7_0, blk7_1]
  obtain ⟨-, -, -, -, -, e0, e1⟩ := idx7 t
  generalize out7_2 (V c main_v22) (V c main_v21) = G
  funext j
  show G j = G (((cfg7.win 2).blk t).view.emb j)
  refine congrArg G ?_
  funext a; apply Fin.ext
  match a with
  | ⟨0, _⟩ => show (j 0).val = win7_2.index t (0 : Fin 2) * 4 + 1 * (j 0).val; omega
  | ⟨1, _⟩ => show (j 1).val = win7_2.index t (1 : Fin 2) * 32768 + 1 * (j 1).val; omega

theorem mem_blk7 (t : Fin cfg7.N) (i : S4x32768.Idx) :
    i ∈ ((cfg7.win 2).blk t).view.set ↔ ∀ a : Fin 2, win7_2.index t a * S4x32768.size a ≤ (i a).val ∧ (i a).val < win7_2.index t a * S4x32768.size a + S4x32768.size a := by
  show i ∈ ((View.whole main_v23).slice (win7_2.rect t)).set ↔ _
  rw [View.set_slice_whole, Rect.mem_set_unit]
  exact Iff.rfl

/-- The call's result array after the call: the four stored rows of the arrays the call was entered with. -/
theorem final7 (c : Dev nD) : (dat7 V c).arrAt 2 cfg7.N = out7_2 (V c main_v22) (V c main_v21) :=
  (dat7 V c).arrAt_eq_of_cover 2 _ (fun t _ => flushed7_eq V c t) (fun i => ⟨t7_0, flush7_2 t7_0, by
    rw [mem_blk7]
    obtain ⟨-, -, -, -, -, e0, e1⟩ := idx7 t7_0
    intro a
    match a with
    | ⟨0, _⟩ => show win7_2.index t7_0 (0 : Fin 2) * 4 ≤ (i 0).val ∧ (i 0).val < win7_2.index t7_0 (0 : Fin 2) * 4 + 4; have h0 : (i 0).val < 4 := (i 0).isLt; omega
    | ⟨1, _⟩ => show win7_2.index t7_0 (1 : Fin 2) * 32768 ≤ (i 1).val ∧ (i 1).val < win7_2.index t7_0 (1 : Fin 2) * 32768 + 32768; have h1 : (i 1).val < 32768 := (i 1).isLt; omega⟩)

end Cert.KernelIdeal.Rgn

end
-- ==== Proof.KI.Region8.lean ====
/-
  Region 8 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The logits window's buffer holds its block when the body starts, for any proof data over these arrays
    whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The noise window's buffer likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Row r of the four logits rows (and of the four result rows), as a rectangle of the buffer. -/
abbrev rowL8_0 : Rect S4x32768 := Rect.unit (s := S4x32768) ![0, 0] S1x32768.size inb_S4x32768_S1x32768_0_0
abbrev rowL8_1 : Rect S4x32768 := Rect.unit (s := S4x32768) ![1, 0] S1x32768.size inb_S4x32768_S1x32768_1_0
abbrev rowL8_2 : Rect S4x32768 := Rect.unit (s := S4x32768) ![2, 0] S1x32768.size inb_S4x32768_S1x32768_2_0
abbrev rowL8_3 : Rect S4x32768 := Rect.unit (s := S4x32768) ![3, 0] S1x32768.size inb_S4x32768_S1x32768_3_0
/-- Slab r of the four noise slabs. -/
abbrev slab8_0 : Rect S4x28x32768 := Rect.unit (s := S4x28x32768) ![0, 0, 0] S1x28x32768.size inb_S4x28x32768_S1x28x32768_0_0_0
abbrev slab8_1 : Rect S4x28x32768 := Rect.unit (s := S4x28x32768) ![1, 0, 0] S1x28x32768.size inb_S4x28x32768_S1x28x32768_1_0_0
abbrev slab8_2 : Rect S4x28x32768 := Rect.unit (s := S4x28x32768) ![2, 0, 0] S1x28x32768.size inb_S4x28x32768_S1x28x32768_2_0_0
abbrev slab8_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out8_2 (x0 : Vec F S4x32768 .f32) (x1 : Vec F S4x28x32768 .f32) : Vec F S4x32768 .f32 :=
  View.canon [⟨rowL8_3, k8_pay1 (k8_pay5 (View.ld x0 rowL8_3) (View.ld x1 slab8_3)) (k8_pay6 (View.ld x0 rowL8_3) (View.ld x1 slab8_3))⟩,
    ⟨rowL8_2, k8_pay4 (View.ld x0 rowL8_2) (View.ld x1 slab8_2)⟩,
    ⟨rowL8_1, k8_pay3 (View.ld x0 rowL8_1) (View.ld x1 slab8_1)⟩,
    ⟨rowL8_0, k8_pay2 (View.ld x0 rowL8_0) (View.ld x1 slab8_0)⟩]

/-- The four stored rows tile the result buffer. -/
theorem cover8_2 (p3 p2 p1 p0 : Vec F S1x32768 .f32) (y : S4x32768.Idx) :
    ∃ pc ∈ ([⟨rowL8_3, p3⟩, ⟨rowL8_2, p2⟩, ⟨rowL8_1, p1⟩, ⟨rowL8_0, p0⟩] : List (View.Piece (Elt F) S4x32768 .f32)), y ∈ pc.1.set :=
  View.cover_of_tiled [⟨rowL8_3, p3⟩, ⟨rowL8_2, p2⟩, ⟨rowL8_1, p1⟩, ⟨rowL8_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel8 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out8_2 x0 x1)) -∗ K ⟨⟩))
      ⊢ wp frame (wpE (defs₀ (F := F)) Variants.none c none) E (cc8__chunk_body arg0 harg0 arg1 harg1 arg2 harg2) K := by
  simp only [cc8__chunk_body_eq_skeleton]; unfold cc8__chunk_body_skel
  simp only [k8_part1_eq_skeleton]; unfold k8_part1_skel
  simp only [k8_part2_eq_skeleton]; unfold k8_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover8_2 _ _ _ _)

/-- The proof data of the call on core c: the arrays as the call finds them; after the body each input's
    buffer holds its block and the result buffer the four stored rows of the input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation8 (c : Dev nD) : BodyObligation (dat8 (F := F) V c) (defs₀ (F := F)) Variants.none () Set.univ := fun t => by
  rw [bigSep_W8, bigSep_W8]
  exact sound_body8 V c t

/-! ## The call's result array after the call -/

/-- The call has one point, and each of its windows' one block starts at the origin of its array. -/
theorem idx8 : ∀ t : Fin cfg8.N, win8_0.index t (0 : Fin 2) = 0 ∧ win8_0.index t (1 : Fin 2) = 0
    ∧ win8_1.index t (0 : Fin 3) = 0 ∧ win8_1.index t (1 : Fin 3) = 0 ∧ win8_1.index t (2 : Fin 3) = 0
    ∧ win8_2.index t (0 : Fin 2) = 0 ∧ win8_2.index t (1 : Fin 2) = 0 :=
  (by decide +kernel : ∀ t : Fin grid8.N, _)

/-- The logits block is the whole logits array of the call. -/
theorem blk8_0 (c : Dev nD) (t : Fin cfg8.N) : iblk8 V c 0 t = V c main_v25 := by
  obtain ⟨e0, e1, -⟩ := idx8 t
  funext j
  show V c main_v25 (((cfg8.win 0).blk t).view.emb j) = V c main_v25 j
  refine congrArg (V c main_v25) ?_
  funext a; apply Fin.ext
  match a with
  | ⟨0, _⟩ => show win8_0.index t (0 : Fin 2) * 4 + 1 * (j 0).val = (j 0).val; omega
  | ⟨1, _⟩ => show win8_0.index t (1 : Fin 2) * 32768 + 1 * (j 1).val = (j 1).val; omega

/-- The noise block is the whole noise array of the call. -/
theorem blk8_1 (c : Dev nD) (t : Fin cfg8.N) : iblk8 V c 1 t = V c main_v24 := by
  obtain ⟨-, -, e0, e1, e2, -⟩ := idx8 t
  funext j
  show V c main_v24 (((cfg8.win 1).blk t).view.emb j) = V c main_v24 j
  refine congrArg (V c main_v24) ?_
  funext a; apply Fin.ext
  match a with
  | ⟨0, _⟩ => show win8_1.index t (0 : Fin 3) * 4 + 1 * (j 0).val = (j 0).val; omega
  | ⟨1, _⟩ => show win8_1.index t (1 : Fin 3) * 28 + 1 * (j 1).val = (j 1).val; omega
  | ⟨2, _⟩ => show win8_1.index t (2 : Fin 3) * 32768 + 1 * (j 2).val = (j 2).val; omega

/-- What the call's point writes back is the whole of the four stored rows. -/
theorem flushed8_eq (c : Dev nD) (t : Fin cfg8.N) :
    (dat8 V c).flushed 2 t = ((cfg8.win 2).blk t).view.read (Elt F) (out8_2 (V c main_v25) (V c main_v24)) := by
  show (cfg8.win 2).cut (grid8.coords t) ((dat8 V c).after 2 t) = _
  rw [after8_2, blk8_0, blk8_1]
  obtain ⟨-, -, -, -, -, e0, e1⟩ := idx8 t
  generalize out8_2 (V c main_v25) (V c main_v24) = G
  funext j
  show G j = G (((cfg8.win 2).blk t).view.emb j)
  refine congrArg G ?_
  funext a; apply Fin.ext
  match a with
  | ⟨0, _⟩ => show (j 0).val = win8_2.index t (0 : Fin 2) * 4 + 1 * (j 0).val; omega
  | ⟨1, _⟩ => show (j 1).val = win8_2.index t (1 : Fin 2) * 32768 + 1 * (j 1).val; omega

theorem mem_blk8 (t : Fin cfg8.N) (i : S4x32768.Idx) :
    i ∈ ((cfg8.win 2).blk t).view.set ↔ ∀ a : Fin 2, win8_2.index t a * S4x32768.size a ≤ (i a).val ∧ (i a).val < win8_2.index t a * S4x32768.size a + S4x32768.size a := by
  show i ∈ ((View.whole main_v26).slice (win8_2.rect t)).set ↔ _
  rw [View.set_slice_whole, Rect.mem_set_unit]
  exact Iff.rfl

/-- The call's result array after the call: the four stored rows of the arrays the call was entered with. -/
theorem final8 (c : Dev nD) : (dat8 V c).arrAt 2 cfg8.N = out8_2 (V c main_v25) (V c main_v24) :=
  (dat8 V c).arrAt_eq_of_cover 2 _ (fun t _ => flushed8_eq V c t) (fun i => ⟨t8_0, flush8_2 t8_0, by
    rw [mem_blk8]
    obtain ⟨-, -, -, -, -, e0, e1⟩ := idx8 t8_0
    intro a
    match a with
    | ⟨0, _⟩ => show win8_2.index t8_0 (0 : Fin 2) * 4 ≤ (i 0).val ∧ (i 0).val < win8_2.index t8_0 (0 : Fin 2) * 4 + 4; have h0 : (i 0).val < 4 := (i 0).isLt; omega
    | ⟨1, _⟩ => show win8_2.index t8_0 (1 : Fin 2) * 32768 ≤ (i 1).val ∧ (i 1).val < win8_2.index t8_0 (1 : Fin 2) * 32768 + 32768; have h1 : (i 1).val < 32768 := (i 1).isLt; omega⟩)

end Cert.KernelIdeal.Rgn

end
-- ==== Proof.KI.Region9.lean ====
/-
  Region 9 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The logits window's buffer holds its block when the body starts, for any proof data over these arrays
    whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The noise window's buffer likewise. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Row r of the four logits rows (and of the four result rows), as a rectangle of the buffer. -/
abbrev rowL9_0 : Rect S4x32768 := Rect.unit (s := S4x32768) ![0, 0] S1x32768.size inb_S4x32768_S1x32768_0_0
abbrev rowL9_1 : Rect S4x32768 := Rect.unit (s := S4x32768) ![1, 0] S1x32768.size inb_S4x32768_S1x32768_1_0
abbrev rowL9_2 : Rect S4x32768 := Rect.unit (s := S4x32768) ![2, 0] S1x32768.size inb_S4x32768_S1x32768_2_0
abbrev rowL9_3 : Rect S4x32768 := Rect.unit (s := S4x32768) ![3, 0] S1x32768.size inb_S4x32768_S1x32768_3_0
/-- Slab r of the four noise slabs. -/
abbrev slab9_0 : Rect S4x28x32768 := Rect.unit (s := S4x28x32768) ![0, 0, 0] S1x28x32768.size inb_S4x28x32768_S1x28x32768_0_0_0
abbrev slab9_1 : Rect S4x28x32768 := Rect.unit (s := S4x28x32768) ![1, 0, 0] S1x28x32768.size inb_S4x28x32768_S1x28x32768_1_0_0
abbrev slab9_2 : Rect S4x28x32768 := Rect.unit (s := S4x28x32768) ![2, 0, 0] S1x28x32768.size inb_S4x28x32768_S1x28x32768_2_0_0
abbrev slab9_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out9_2 (x0 : Vec F S4x32768 .f32) (x1 : Vec F S4x28x32768 .f32) : Vec F S4x32768 .f32 :=
  View.canon [⟨rowL9_3, k9_pay1 (k9_pay5 (View.ld x0 rowL9_3) (View.ld x1 slab9_3)) (k9_pay6 (View.ld x0 rowL9_3) (View.ld x1 slab9_3))⟩,
    ⟨rowL9_2, k9_pay4 (View.ld x0 rowL9_2) (View.ld x1 slab9_2)⟩,
    ⟨rowL9_1, k9_pay3 (View.ld x0 rowL9_1) (View.ld x1 slab9_1)⟩,
    ⟨rowL9_0, k9_pay2 (View.ld x0 rowL9_0) (View.ld x1 slab9_0)⟩]

/-- The four stored rows tile the result buffer. -/
theorem cover9_2 (p3 p2 p1 p0 : Vec F S1x32768 .f32) (y : S4x32768.Idx) :
    ∃ pc ∈ ([⟨rowL9_3, p3⟩, ⟨rowL9_2, p2⟩, ⟨rowL9_1, p1⟩, ⟨rowL9_0, p0⟩] : List (View.Piece (Elt F) S4x32768 .f32)), y ∈ pc.1.set :=
  View.cover_of_tiled [⟨rowL9_3, p3⟩, ⟨rowL9_2, p2⟩, ⟨rowL9_1, p1⟩, ⟨rowL9_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel9 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out9_2 x0 x1)) -∗ K ⟨⟩))
      ⊢ wp frame (wpE (defs₀ (F := F)) Variants.none c none) E (cc9__chunk_body arg0 harg0 arg1 harg1 arg2 harg2) K := by
  simp only [cc9__chunk_body_eq_skeleton]; unfold cc9__chunk_body_skel
  simp only [k9_part1_eq_skeleton]; unfold k9_part1_skel
  simp only [k9_part2_eq_skeleton]; unfold k9_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover9_2 _ _ _ _)

/-- The proof data of the call on core c: the arrays as the call finds them; after the body each input's
    buffer holds its block and the result buffer the four stored rows of the input blocks. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation9 (c : Dev nD) : BodyObligation (dat9 (F := F) V c) (defs₀ (F := F)) Variants.none () Set.univ := fun t => by
  rw [bigSep_W9, bigSep_W9]
  exact sound_body9 V c t

/-! ## The call's result array after the call -/

/-- The call has one point, and each of its windows' one block starts at the origin of its array. -/
theorem idx9 : ∀ t : Fin cfg9.N, win9_0.index t (0 : Fin 2) = 0 ∧ win9_0.index t (1 : Fin 2) = 0
    ∧ win9_1.index t (0 : Fin 3) = 0 ∧ win9_1.index t (1 : Fin 3) = 0 ∧ win9_1.index t (2 : Fin 3) = 0
    ∧ win9_2.index t (0 : Fin 2) = 0 ∧ win9_2.index t (1 : Fin 2) = 0 :=
  (by decide +kernel : ∀ t : Fin grid9.N, _)

/-- The logits block is the whole logits array of the call. -/
theorem blk9_0 (c : Dev nD) (t : Fin cfg9.N) : iblk9 V c 0 t = V c main_v28 := by
  obtain ⟨e0, e1, -⟩ := idx9 t
  funext j
  show V c main_v28 (((cfg9.win 0).blk t).view.emb j) = V c main_v28 j
  refine congrArg (V c main_v28) ?_
  funext a; apply Fin.ext
  match a with
  | ⟨0, _⟩ => show win9_0.index t (0 : Fin 2) * 4 + 1 * (j 0).val = (j 0).val; omega
  | ⟨1, _⟩ => show win9_0.index t (1 : Fin 2) * 32768 + 1 * (j 1).val = (j 1).val; omega

/-- The noise block is the whole noise array of the call. -/
theorem blk9_1 (c : Dev nD) (t : Fin cfg9.N) : iblk9 V c 1 t = V c main_v27 := by
  obtain ⟨-, -, e0, e1, e2, -⟩ := idx9 t
  funext j
  show V c main_v27 (((cfg9.win 1).blk t).view.emb j) = V c main_v27 j
  refine congrArg (V c main_v27) ?_
  funext a; apply Fin.ext
  match a with
  | ⟨0, _⟩ => show win9_1.index t (0 : Fin 3) * 4 + 1 * (j 0).val = (j 0).val; omega
  | ⟨1, _⟩ => show win9_1.index t (1 : Fin 3) * 28 + 1 * (j 1).val = (j 1).val; omega
  | ⟨2, _⟩ => show win9_1.index t (2 : Fin 3) * 32768 + 1 * (j 2).val = (j 2).val; omega

/-- What the call's point writes back is the whole of the four stored rows. -/
theorem flushed9_eq (c : Dev nD) (t : Fin cfg9.N) :
    (dat9 V c).flushed 2 t = ((cfg9.win 2).blk t).view.read (Elt F) (out9_2 (V c main_v28) (V c main_v27)) := by
  show (cfg9.win 2).cut (grid9.coords t) ((dat9 V c).after 2 t) = _
  rw [after9_2, blk9_0, blk9_1]
  obtain ⟨-, -, -, -, -, e0, e1⟩ := idx9 t
  generalize out9_2 (V c main_v28) (V c main_v27) = G
  funext j
  show G j = G (((cfg9.win 2).blk t).view.emb j)
  refine congrArg G ?_
  funext a; apply Fin.ext
  match a with
  | ⟨0, _⟩ => show (j 0).val = win9_2.index t (0 : Fin 2) * 4 + 1 * (j 0).val; omega
  | ⟨1, _⟩ => show (j 1).val = win9_2.index t (1 : Fin 2) * 32768 + 1 * (j 1).val; omega

theorem mem_blk9 (t : Fin cfg9.N) (i : S4x32768.Idx) :
    i ∈ ((cfg9.win 2).blk t).view.set ↔ ∀ a : Fin 2, win9_2.index t a * S4x32768.size a ≤ (i a).val ∧ (i a).val < win9_2.index t a * S4x32768.size a + S4x32768.size a := by
  show i ∈ ((View.whole main_v29).slice (win9_2.rect t)).set ↔ _
  rw [View.set_slice_whole, Rect.mem_set_unit]
  exact Iff.rfl

/-- The call's result array after the call: the four stored rows of the arrays the call was entered with. -/
theorem final9 (c : Dev nD) : (dat9 V c).arrAt 2 cfg9.N = out9_2 (V c main_v28) (V c main_v27) :=
  (dat9 V c).arrAt_eq_of_cover 2 _ (fun t _ => flushed9_eq V c t) (fun i => ⟨t9_0, flush9_2 t9_0, by
    rw [mem_blk9]
    obtain ⟨-, -, -, -, -, e0, e1⟩ := idx9 t9_0
    intro a
    match a with
    | ⟨0, _⟩ => show win9_2.index t9_0 (0 : Fin 2) * 4 ≤ (i 0).val ∧ (i 0).val < win9_2.index t9_0 (0 : Fin 2) * 4 + 4; have h0 : (i 0).val < 4 := (i 0).isLt; omega
    | ⟨1, _⟩ => show win9_2.index t9_0 (1 : Fin 2) * 32768 ≤ (i 1).val ∧ (i 1).val < win9_2.index t9_0 (1 : Fin 2) * 32768 + 32768; have h1 : (i 1).val < 32768 := (i 1).isLt; omega⟩)

end Cert.KernelIdeal.Rgn

end
-- ==== Proof.KI.Region10.lean ====
/-
  Region 10 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The logits window's buffer holds its block when the body starts, for any proof data over these arrays
    whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The noise window's buffer likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Row r of the four logits rows (and of the four result rows), as a rectangle of the buffer. -/
abbrev rowL10_0 : Rect S4x32768 := Rect.unit (s := S4x32768) ![0, 0] S1x32768.size inb_S4x32768_S1x32768_0_0
abbrev rowL10_1 : Rect S4x32768 := Rect.unit (s := S4x32768) ![1, 0] S1x32768.size inb_S4x32768_S1x32768_1_0
abbrev rowL10_2 : Rect S4x32768 := Rect.unit (s := S4x32768) ![2, 0] S1x32768.size inb_S4x32768_S1x32768_2_0
abbrev rowL10_3 : Rect S4x32768 := Rect.unit (s := S4x32768) ![3, 0] S1x32768.size inb_S4x32768_S1x32768_3_0
/-- Slab r of the four noise slabs. -/
abbrev slab10_0 : Rect S4x28x32768 := Rect.unit (s := S4x28x32768) ![0, 0, 0] S1x28x32768.size inb_S4x28x32768_S1x28x32768_0_0_0
abbrev slab10_1 : Rect S4x28x32768 := Rect.unit (s := S4x28x32768) ![1, 0, 0] S1x28x32768.size inb_S4x28x32768_S1x28x32768_1_0_0
abbrev slab10_2 : Rect S4x28x32768 := Rect.unit (s := S4x28x32768) ![2, 0, 0] S1x28x32768.size inb_S4x28x32768_S1x28x32768_2_0_0
abbrev slab10_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out10_2 (x0 : Vec F S4x32768 .f32) (x1 : Vec F S4x28x32768 .f32) : Vec F S4x32768 .f32 :=
  View.canon [⟨rowL10_3, k10_pay1 (k10_pay5 (View.ld x0 rowL10_3) (View.ld x1 slab10_3)) (k10_pay6 (View.ld x0 rowL10_3) (View.ld x1 slab10_3))⟩,
    ⟨rowL10_2, k10_pay4 (View.ld x0 rowL10_2) (View.ld x1 slab10_2)⟩,
    ⟨rowL10_1, k10_pay3 (View.ld x0 rowL10_1) (View.ld x1 slab10_1)⟩,
    ⟨rowL10_0, k10_pay2 (View.ld x0 rowL10_0) (View.ld x1 slab10_0)⟩]

/-- The four stored rows tile the result buffer. -/
theorem cover10_2 (p3 p2 p1 p0 : Vec F S1x32768 .f32) (y : S4x32768.Idx) :
    ∃ pc ∈ ([⟨rowL10_3, p3⟩, ⟨rowL10_2, p2⟩, ⟨rowL10_1, p1⟩, ⟨rowL10_0, p0⟩] : List (View.Piece (Elt F) S4x32768 .f32)), y ∈ pc.1.set :=
  View.cover_of_tiled [⟨rowL10_3, p3⟩, ⟨rowL10_2, p2⟩, ⟨rowL10_1, p1⟩, ⟨rowL10_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel10 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out10_2 x0 x1)) -∗ K ⟨⟩))
      ⊢ wp frame (wpE (defs₀ (F := F)) Variants.none c none) E (cc10__chunk_body arg0 harg0 arg1 harg1 arg2 harg2) K := by
  simp only [cc10__chunk_body_eq_skeleton]; unfold cc10__chunk_body_skel
  simp only [k10_part1_eq_skeleton]; unfold k10_part1_skel
  simp only [k10_part2_eq_skeleton]; unfold k10_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover10_2 _ _ _ _)

/-- The proof data of the call on core c: the arrays as the call finds them; after the body each input's
    buffer holds its block and the result buffer the four stored rows of the input blocks. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation10 (c : Dev nD) : BodyObligation (dat10 (F := F) V c) (defs₀ (F := F)) Variants.none () Set.univ := fun t => by
  rw [bigSep_W10, bigSep_W10]
  exact sound_body10 V c t

/-! ## The call's result array after the call -/

/-- The call has one point, and each of its windows' one block starts at the origin of its array. -/
theorem idx10 : ∀ t : Fin cfg10.N, win10_0.index t (0 : Fin 2) = 0 ∧ win10_0.index t (1 : Fin 2) = 0
    ∧ win10_1.index t (0 : Fin 3) = 0 ∧ win10_1.index t (1 : Fin 3) = 0 ∧ win10_1.index t (2 : Fin 3) = 0
    ∧ win10_2.index t (0 : Fin 2) = 0 ∧ win10_2.index t (1 : Fin 2) = 0 :=
  (by decide +kernel : ∀ t : Fin grid10.N, _)

/-- The logits block is the whole logits array of the call. -/
theorem blk10_0 (c : Dev nD) (t : Fin cfg10.N) : iblk10 V c 0 t = V c main_v31 := by
  obtain ⟨e0, e1, -⟩ := idx10 t
  funext j
  show V c main_v31 (((cfg10.win 0).blk t).view.emb j) = V c main_v31 j
  refine congrArg (V c main_v31) ?_
  funext a; apply Fin.ext
  match a with
  | ⟨0, _⟩ => show win10_0.index t (0 : Fin 2) * 4 + 1 * (j 0).val = (j 0).val; omega
  | ⟨1, _⟩ => show win10_0.index t (1 : Fin 2) * 32768 + 1 * (j 1).val = (j 1).val; omega

/-- The noise block is the whole noise array of the call. -/
theorem blk10_1 (c : Dev nD) (t : Fin cfg10.N) : iblk10 V c 1 t = V c main_v30 := by
  obtain ⟨-, -, e0, e1, e2, -⟩ := idx10 t
  funext j
  show V c main_v30 (((cfg10.win 1).blk t).view.emb j) = V c main_v30 j
  refine congrArg (V c main_v30) ?_
  funext a; apply Fin.ext
  match a with
  | ⟨0, _⟩ => show win10_1.index t (0 : Fin 3) * 4 + 1 * (j 0).val = (j 0).val; omega
  | ⟨1, _⟩ => show win10_1.index t (1 : Fin 3) * 28 + 1 * (j 1).val = (j 1).val; omega
  | ⟨2, _⟩ => show win10_1.index t (2 : Fin 3) * 32768 + 1 * (j 2).val = (j 2).val; omega

/-- What the call's point writes back is the whole of the four stored rows. -/
theorem flushed10_eq (c : Dev nD) (t : Fin cfg10.N) :
    (dat10 V c).flushed 2 t = ((cfg10.win 2).blk t).view.read (Elt F) (out10_2 (V c main_v31) (V c main_v30)) := by
  show (cfg10.win 2).cut (grid10.coords t) ((dat10 V c).after 2 t) = _
  rw [after10_2, blk10_0, blk10_1]
  obtain ⟨-, -, -, -, -, e0, e1⟩ := idx10 t
  generalize out10_2 (V c main_v31) (V c main_v30) = G
  funext j
  show G j = G (((cfg10.win 2).blk t).view.emb j)
  refine congrArg G ?_
  funext a; apply Fin.ext
  match a with
  | ⟨0, _⟩ => show (j 0).val = win10_2.index t (0 : Fin 2) * 4 + 1 * (j 0).val; omega
  | ⟨1, _⟩ => show (j 1).val = win10_2.index t (1 : Fin 2) * 32768 + 1 * (j 1).val; omega

theorem mem_blk10 (t : Fin cfg10.N) (i : S4x32768.Idx) :
    i ∈ ((cfg10.win 2).blk t).view.set ↔ ∀ a : Fin 2, win10_2.index t a * S4x32768.size a ≤ (i a).val ∧ (i a).val < win10_2.index t a * S4x32768.size a + S4x32768.size a := by
  show i ∈ ((View.whole main_v32).slice (win10_2.rect t)).set ↔ _
  rw [View.set_slice_whole, Rect.mem_set_unit]
  exact Iff.rfl

/-- The call's result array after the call: the four stored rows of the arrays the call was entered with. -/
theorem final10 (c : Dev nD) : (dat10 V c).arrAt 2 cfg10.N = out10_2 (V c main_v31) (V c main_v30) :=
  (dat10 V c).arrAt_eq_of_cover 2 _ (fun t _ => flushed10_eq V c t) (fun i => ⟨t10_0, flush10_2 t10_0, by
    rw [mem_blk10]
    obtain ⟨-, -, -, -, -, e0, e1⟩ := idx10 t10_0
    intro a
    match a with
    | ⟨0, _⟩ => show win10_2.index t10_0 (0 : Fin 2) * 4 ≤ (i 0).val ∧ (i 0).val < win10_2.index t10_0 (0 : Fin 2) * 4 + 4; have h0 : (i 0).val < 4 := (i 0).isLt; omega
    | ⟨1, _⟩ => show win10_2.index t10_0 (1 : Fin 2) * 32768 ≤ (i 1).val ∧ (i 1).val < win10_2.index t10_0 (1 : Fin 2) * 32768 + 32768; have h1 : (i 1).val < 32768 := (i 1).isLt; omega⟩)

end Cert.KernelIdeal.Rgn

end
-- ==== Proof.KI.Region11.lean ====
/-
  Region 11 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The logits window's buffer holds its block when the body starts, for any proof data over these arrays
    whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The noise window's buffer likewise. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Row r of the four logits rows (and of the four result rows), as a rectangle of the buffer. -/
abbrev rowL11_0 : Rect S4x32768 := Rect.unit (s := S4x32768) ![0, 0] S1x32768.size inb_S4x32768_S1x32768_0_0
abbrev rowL11_1 : Rect S4x32768 := Rect.unit (s := S4x32768) ![1, 0] S1x32768.size inb_S4x32768_S1x32768_1_0
abbrev rowL11_2 : Rect S4x32768 := Rect.unit (s := S4x32768) ![2, 0] S1x32768.size inb_S4x32768_S1x32768_2_0
abbrev rowL11_3 : Rect S4x32768 := Rect.unit (s := S4x32768) ![3, 0] S1x32768.size inb_S4x32768_S1x32768_3_0
/-- Slab r of the four noise slabs. -/
abbrev slab11_0 : Rect S4x28x32768 := Rect.unit (s := S4x28x32768) ![0, 0, 0] S1x28x32768.size inb_S4x28x32768_S1x28x32768_0_0_0
abbrev slab11_1 : Rect S4x28x32768 := Rect.unit (s := S4x28x32768) ![1, 0, 0] S1x28x32768.size inb_S4x28x32768_S1x28x32768_1_0_0
abbrev slab11_2 : Rect S4x28x32768 := Rect.unit (s := S4x28x32768) ![2, 0, 0] S1x28x32768.size inb_S4x28x32768_S1x28x32768_2_0_0
abbrev slab11_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out11_2 (x0 : Vec F S4x32768 .f32) (x1 : Vec F S4x28x32768 .f32) : Vec F S4x32768 .f32 :=
  View.canon [⟨rowL11_3, k11_pay1 (k11_pay5 (View.ld x0 rowL11_3) (View.ld x1 slab11_3)) (k11_pay6 (View.ld x0 rowL11_3) (View.ld x1 slab11_3))⟩,
    ⟨rowL11_2, k11_pay4 (View.ld x0 rowL11_2) (View.ld x1 slab11_2)⟩,
    ⟨rowL11_1, k11_pay3 (View.ld x0 rowL11_1) (View.ld x1 slab11_1)⟩,
    ⟨rowL11_0, k11_pay2 (View.ld x0 rowL11_0) (View.ld x1 slab11_0)⟩]

/-- The four stored rows tile the result buffer. -/
theorem cover11_2 (p3 p2 p1 p0 : Vec F S1x32768 .f32) (y : S4x32768.Idx) :
    ∃ pc ∈ ([⟨rowL11_3, p3⟩, ⟨rowL11_2, p2⟩, ⟨rowL11_1, p1⟩, ⟨rowL11_0, p0⟩] : List (View.Piece (Elt F) S4x32768 .f32)), y ∈ pc.1.set :=
  View.cover_of_tiled [⟨rowL11_3, p3⟩, ⟨rowL11_2, p2⟩, ⟨rowL11_1, p1⟩, ⟨rowL11_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel11 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out11_2 x0 x1)) -∗ K ⟨⟩))
      ⊢ wp frame (wpE (defs₀ (F := F)) Variants.none c none) E (cc11__chunk_body arg0 harg0 arg1 harg1 arg2 harg2) K := by
  simp only [cc11__chunk_body_eq_skeleton]; unfold cc11__chunk_body_skel
  simp only [k11_part1_eq_skeleton]; unfold k11_part1_skel
  simp only [k11_part2_eq_skeleton]; unfold k11_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover11_2 _ _ _ _)

/-- The proof data of the call on core c: the arrays as the call finds them; after the body each input's
    buffer holds its block and the result buffer the four stored rows of the input blocks. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the body is called with, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation11 (c : Dev nD) : BodyObligation (dat11 (F := F) V c) (defs₀ (F := F)) Variants.none () Set.univ := fun t => by
  rw [bigSep_W11, bigSep_W11]
  exact sound_body11 V c t

/-! ## The call's result array after the call -/

/-- The call has one point, and each of its windows' one block starts at the origin of its array. -/
theorem idx11 : ∀ t : Fin cfg11.N, win11_0.index t (0 : Fin 2) = 0 ∧ win11_0.index t (1 : Fin 2) = 0
    ∧ win11_1.index t (0 : Fin 3) = 0 ∧ win11_1.index t (1 : Fin 3) = 0 ∧ win11_1.index t (2 : Fin 3) = 0
    ∧ win11_2.index t (0 : Fin 2) = 0 ∧ win11_2.index t (1 : Fin 2) = 0 :=
  (by decide +kernel : ∀ t : Fin grid11.N, _)

/-- The logits block is the whole logits array of the call. -/
theorem blk11_0 (c : Dev nD) (t : Fin cfg11.N) : iblk11 V c 0 t = V c main_v34 := by
  obtain ⟨e0, e1, -⟩ := idx11 t
  funext j
  show V c main_v34 (((cfg11.win 0).blk t).view.emb j) = V c main_v34 j
  refine congrArg (V c main_v34) ?_
  funext a; apply Fin.ext
  match a with
  | ⟨0, _⟩ => show win11_0.index t (0 : Fin 2) * 4 + 1 * (j 0).val = (j 0).val; omega
  | ⟨1, _⟩ => show win11_0.index t (1 : Fin 2) * 32768 + 1 * (j 1).val = (j 1).val; omega

/-- The noise block is the whole noise array of the call. -/
theorem blk11_1 (c : Dev nD) (t : Fin cfg11.N) : iblk11 V c 1 t = V c main_v33 := by
  obtain ⟨-, -, e0, e1, e2, -⟩ := idx11 t
  funext j
  show V c main_v33 (((cfg11.win 1).blk t).view.emb j) = V c main_v33 j
  refine congrArg (V c main_v33) ?_
  funext a; apply Fin.ext
  match a with
  | ⟨0, _⟩ => show win11_1.index t (0 : Fin 3) * 4 + 1 * (j 0).val = (j 0).val; omega
  | ⟨1, _⟩ => show win11_1.index t (1 : Fin 3) * 28 + 1 * (j 1).val = (j 1).val; omega
  | ⟨2, _⟩ => show win11_1.index t (2 : Fin 3) * 32768 + 1 * (j 2).val = (j 2).val; omega

/-- What the call's point writes back is the whole of the four stored rows. -/
theorem flushed11_eq (c : Dev nD) (t : Fin cfg11.N) :
    (dat11 V c).flushed 2 t = ((cfg11.win 2).blk t).view.read (Elt F) (out11_2 (V c main_v34) (V c main_v33)) := by
  show (cfg11.win 2).cut (grid11.coords t) ((dat11 V c).after 2 t) = _
  rw [after11_2, blk11_0, blk11_1]
  obtain ⟨-, -, -, -, -, e0, e1⟩ := idx11 t
  generalize out11_2 (V c main_v34) (V c main_v33) = G
  funext j
  show G j = G (((cfg11.win 2).blk t).view.emb j)
  refine congrArg G ?_
  funext a; apply Fin.ext
  match a with
  | ⟨0, _⟩ => show (j 0).val = win11_2.index t (0 : Fin 2) * 4 + 1 * (j 0).val; omega
  | ⟨1, _⟩ => show (j 1).val = win11_2.index t (1 : Fin 2) * 32768 + 1 * (j 1).val; omega

theorem mem_blk11 (t : Fin cfg11.N) (i : S4x32768.Idx) :
    i ∈ ((cfg11.win 2).blk t).view.set ↔ ∀ a : Fin 2, win11_2.index t a * S4x32768.size a ≤ (i a).val ∧ (i a).val < win11_2.index t a * S4x32768.size a + S4x32768.size a := by
  show i ∈ ((View.whole main_v35).slice (win11_2.rect t)).set ↔ _
  rw [View.set_slice_whole, Rect.mem_set_unit]
  exact Iff.rfl

/-- The call's result array after the call: the four stored rows of the arrays the call was entered with. -/
theorem final11 (c : Dev nD) : (dat11 V c).arrAt 2 cfg11.N = out11_2 (V c main_v34) (V c main_v33) :=
  (dat11 V c).arrAt_eq_of_cover 2 _ (fun t _ => flushed11_eq V c t) (fun i => ⟨t11_0, flush11_2 t11_0, by
    rw [mem_blk11]
    obtain ⟨-, -, -, -, -, e0, e1⟩ := idx11 t11_0
    intro a
    match a with
    | ⟨0, _⟩ => show win11_2.index t11_0 (0 : Fin 2) * 4 ≤ (i 0).val ∧ (i 0).val < win11_2.index t11_0 (0 : Fin 2) * 4 + 4; have h0 : (i 0).val < 4 := (i 0).isLt; omega
    | ⟨1, _⟩ => show win11_2.index t11_0 (1 : Fin 2) * 32768 ≤ (i 1).val ∧ (i 1).val < win11_2.index t11_0 (1 : Fin 2) * 32768 + 32768; have h1 : (i 1).val < 32768 := (i 1).isLt; omega⟩)

end Cert.KernelIdeal.Rgn

end
-- ==== Proof.KI.Region12.lean ====
/-
  Region 12 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The logits window's buffer holds its block when the body starts, for any proof data over these arrays
    whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- The noise window's buffer likewise. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Row r of the four logits rows (and of the four result rows), as a rectangle of the buffer. -/
abbrev rowL12_0 : Rect S4x32768 := Rect.unit (s := S4x32768) ![0, 0] S1x32768.size inb_S4x32768_S1x32768_0_0
abbrev rowL12_1 : Rect S4x32768 := Rect.unit (s := S4x32768) ![1, 0] S1x32768.size inb_S4x32768_S1x32768_1_0
abbrev rowL12_2 : Rect S4x32768 := Rect.unit (s := S4x32768) ![2, 0] S1x32768.size inb_S4x32768_S1x32768_2_0
abbrev rowL12_3 : Rect S4x32768 := Rect.unit (s := S4x32768) ![3, 0] S1x32768.size inb_S4x32768_S1x32768_3_0
/-- Slab r of the four noise slabs. -/
abbrev slab12_0 : Rect S4x28x32768 := Rect.unit (s := S4x28x32768) ![0, 0, 0] S1x28x32768.size inb_S4x28x32768_S1x28x32768_0_0_0
abbrev slab12_1 : Rect S4x28x32768 := Rect.unit (s := S4x28x32768) ![1, 0, 0] S1x28x32768.size inb_S4x28x32768_S1x28x32768_1_0_0
abbrev slab12_2 : Rect S4x28x32768 := Rect.unit (s := S4x28x32768) ![2, 0, 0] S1x28x32768.size inb_S4x28x32768_S1x28x32768_2_0_0
abbrev slab12_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out12_2 (x0 : Vec F S4x32768 .f32) (x1 : Vec F S4x28x32768 .f32) : Vec F S4x32768 .f32 :=
  View.canon [⟨rowL12_3, k12_pay1 (k12_pay5 (View.ld x0 rowL12_3) (View.ld x1 slab12_3)) (k12_pay6 (View.ld x0 rowL12_3) (View.ld x1 slab12_3))⟩,
    ⟨rowL12_2, k12_pay4 (View.ld x0 rowL12_2) (View.ld x1 slab12_2)⟩,
    ⟨rowL12_1, k12_pay3 (View.ld x0 rowL12_1) (View.ld x1 slab12_1)⟩,
    ⟨rowL12_0, k12_pay2 (View.ld x0 rowL12_0) (View.ld x1 slab12_0)⟩]

/-- The four stored rows tile the result buffer. -/
theorem cover12_2 (p3 p2 p1 p0 : Vec F S1x32768 .f32) (y : S4x32768.Idx) :
    ∃ pc ∈ ([⟨rowL12_3, p3⟩, ⟨rowL12_2, p2⟩, ⟨rowL12_1, p1⟩, ⟨rowL12_0, p0⟩] : List (View.Piece (Elt F) S4x32768 .f32)), y ∈ pc.1.set :=
  View.cover_of_tiled [⟨rowL12_3, p3⟩, ⟨rowL12_2, p2⟩, ⟨rowL12_1, p1⟩, ⟨rowL12_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel12 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out12_2 x0 x1)) -∗ K ⟨⟩))
      ⊢ wp frame (wpE (defs₀ (F := F)) Variants.none c none) E (cc12__chunk_body arg0 harg0 arg1 harg1 arg2 harg2) K := by
  simp only [cc12__chunk_body_eq_skeleton]; unfold cc12__chunk_body_skel
  simp only [k12_part1_eq_skeleton]; unfold k12_part1_skel
  simp only [k12_part2_eq_skeleton]; unfold k12_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover12_2 _ _ _ _)

/-- The proof data of the call on core c: the arrays as the call finds them; after the body each input's
    buffer holds its block and the result buffer the four stored rows of the input blocks. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation12 (c : Dev nD) : BodyObligation (dat12 (F := F) V c) (defs₀ (F := F)) Variants.none () Set.univ := fun t => by
  rw [bigSep_W12, bigSep_W12]
  exact sound_body12 V c t

/-! ## The call's result array after the call -/

/-- The call has one point, and each of its windows' one block starts at the origin of its array. -/
theorem idx12 : ∀ t : Fin cfg12.N, win12_0.index t (0 : Fin 2) = 0 ∧ win12_0.index t (1 : Fin 2) = 0
    ∧ win12_1.index t (0 : Fin 3) = 0 ∧ win12_1.index t (1 : Fin 3) = 0 ∧ win12_1.index t (2 : Fin 3) = 0
    ∧ win12_2.index t (0 : Fin 2) = 0 ∧ win12_2.index t (1 : Fin 2) = 0 :=
  (by decide +kernel : ∀ t : Fin grid12.N, _)

/-- The logits block is the whole logits array of the call. -/
theorem blk12_0 (c : Dev nD) (t : Fin cfg12.N) : iblk12 V c 0 t = V c main_v37 := by
  obtain ⟨e0, e1, -⟩ := idx12 t
  funext j
  show V c main_v37 (((cfg12.win 0).blk t).view.emb j) = V c main_v37 j
  refine congrArg (V c main_v37) ?_
  funext a; apply Fin.ext
  match a with
  | ⟨0, _⟩ => show win12_0.index t (0 : Fin 2) * 4 + 1 * (j 0).val = (j 0).val; omega
  | ⟨1, _⟩ => show win12_0.index t (1 : Fin 2) * 32768 + 1 * (j 1).val = (j 1).val; omega

/-- The noise block is the whole noise array of the call. -/
theorem blk12_1 (c : Dev nD) (t : Fin cfg12.N) : iblk12 V c 1 t = V c main_v36 := by
  obtain ⟨-, -, e0, e1, e2, -⟩ := idx12 t
  funext j
  show V c main_v36 (((cfg12.win 1).blk t).view.emb j) = V c main_v36 j
  refine congrArg (V c main_v36) ?_
  funext a; apply Fin.ext
  match a with
  | ⟨0, _⟩ => show win12_1.index t (0 : Fin 3) * 4 + 1 * (j 0).val = (j 0).val; omega
  | ⟨1, _⟩ => show win12_1.index t (1 : Fin 3) * 28 + 1 * (j 1).val = (j 1).val; omega
  | ⟨2, _⟩ => show win12_1.index t (2 : Fin 3) * 32768 + 1 * (j 2).val = (j 2).val; omega

/-- What the call's point writes back is the whole of the four stored rows. -/
theorem flushed12_eq (c : Dev nD) (t : Fin cfg12.N) :
    (dat12 V c).flushed 2 t = ((cfg12.win 2).blk t).view.read (Elt F) (out12_2 (V c main_v37) (V c main_v36)) := by
  show (cfg12.win 2).cut (grid12.coords t) ((dat12 V c).after 2 t) = _
  rw [after12_2, blk12_0, blk12_1]
  obtain ⟨-, -, -, -, -, e0, e1⟩ := idx12 t
  generalize out12_2 (V c main_v37) (V c main_v36) = G
  funext j
  show G j = G (((cfg12.win 2).blk t).view.emb j)
  refine congrArg G ?_
  funext a; apply Fin.ext
  match a with
  | ⟨0, _⟩ => show (j 0).val = win12_2.index t (0 : Fin 2) * 4 + 1 * (j 0).val; omega
  | ⟨1, _⟩ => show (j 1).val = win12_2.index t (1 : Fin 2) * 32768 + 1 * (j 1).val; omega

theorem mem_blk12 (t : Fin cfg12.N) (i : S4x32768.Idx) :
    i ∈ ((cfg12.win 2).blk t).view.set ↔ ∀ a : Fin 2, win12_2.index t a * S4x32768.size a ≤ (i a).val ∧ (i a).val < win12_2.index t a * S4x32768.size a + S4x32768.size a := by
  show i ∈ ((View.whole main_v38).slice (win12_2.rect t)).set ↔ _
  rw [View.set_slice_whole, Rect.mem_set_unit]
  exact Iff.rfl

/-- The call's result array after the call: the four stored rows of the arrays the call was entered with. -/
theorem final12 (c : Dev nD) : (dat12 V c).arrAt 2 cfg12.N = out12_2 (V c main_v37) (V c main_v36) :=
  (dat12 V c).arrAt_eq_of_cover 2 _ (fun t _ => flushed12_eq V c t) (fun i => ⟨t12_0, flush12_2 t12_0, by
    rw [mem_blk12]
    obtain ⟨-, -, -, -, -, e0, e1⟩ := idx12 t12_0
    intro a
    match a with
    | ⟨0, _⟩ => show win12_2.index t12_0 (0 : Fin 2) * 4 ≤ (i 0).val ∧ (i 0).val < win12_2.index t12_0 (0 : Fin 2) * 4 + 4; have h0 : (i 0).val < 4 := (i 0).isLt; omega
    | ⟨1, _⟩ => show win12_2.index t12_0 (1 : Fin 2) * 32768 ≤ (i 1).val ∧ (i 1).val < win12_2.index t12_0 (1 : Fin 2) * 32768 + 32768; have h1 : (i 1).val < 32768 := (i 1).isLt; omega⟩)

end Cert.KernelIdeal.Rgn

end
-- ==== Proof.KI.Region13.lean ====
/-
  Region 13 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The logits window's buffer holds its block when the body starts, for any proof data over these arrays
    whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The noise window's buffer likewise. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Row r of the four logits rows (and of the four result rows), as a rectangle of the buffer. -/
abbrev rowL13_0 : Rect S4x32768 := Rect.unit (s := S4x32768) ![0, 0] S1x32768.size inb_S4x32768_S1x32768_0_0
abbrev rowL13_1 : Rect S4x32768 := Rect.unit (s := S4x32768) ![1, 0] S1x32768.size inb_S4x32768_S1x32768_1_0
abbrev rowL13_2 : Rect S4x32768 := Rect.unit (s := S4x32768) ![2, 0] S1x32768.size inb_S4x32768_S1x32768_2_0
abbrev rowL13_3 : Rect S4x32768 := Rect.unit (s := S4x32768) ![3, 0] S1x32768.size inb_S4x32768_S1x32768_3_0
/-- Slab r of the four noise slabs. -/
abbrev slab13_0 : Rect S4x28x32768 := Rect.unit (s := S4x28x32768) ![0, 0, 0] S1x28x32768.size inb_S4x28x32768_S1x28x32768_0_0_0
abbrev slab13_1 : Rect S4x28x32768 := Rect.unit (s := S4x28x32768) ![1, 0, 0] S1x28x32768.size inb_S4x28x32768_S1x28x32768_1_0_0
abbrev slab13_2 : Rect S4x28x32768 := Rect.unit (s := S4x28x32768) ![2, 0, 0] S1x28x32768.size inb_S4x28x32768_S1x28x32768_2_0_0
abbrev slab13_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out13_2 (x0 : Vec F S4x32768 .f32) (x1 : Vec F S4x28x32768 .f32) : Vec F S4x32768 .f32 :=
  View.canon [⟨rowL13_3, k13_pay1 (k13_pay5 (View.ld x0 rowL13_3) (View.ld x1 slab13_3)) (k13_pay6 (View.ld x0 rowL13_3) (View.ld x1 slab13_3))⟩,
    ⟨rowL13_2, k13_pay4 (View.ld x0 rowL13_2) (View.ld x1 slab13_2)⟩,
    ⟨rowL13_1, k13_pay3 (View.ld x0 rowL13_1) (View.ld x1 slab13_1)⟩,
    ⟨rowL13_0, k13_pay2 (View.ld x0 rowL13_0) (View.ld x1 slab13_0)⟩]

/-- The four stored rows tile the result buffer. -/
theorem cover13_2 (p3 p2 p1 p0 : Vec F S1x32768 .f32) (y : S4x32768.Idx) :
    ∃ pc ∈ ([⟨rowL13_3, p3⟩, ⟨rowL13_2, p2⟩, ⟨rowL13_1, p1⟩, ⟨rowL13_0, p0⟩] : List (View.Piece (Elt F) S4x32768 .f32)), y ∈ pc.1.set :=
  View.cover_of_tiled [⟨rowL13_3, p3⟩, ⟨rowL13_2, p2⟩, ⟨rowL13_1, p1⟩, ⟨rowL13_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel13 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out13_2 x0 x1)) -∗ K ⟨⟩))
      ⊢ wp frame (wpE (defs₀ (F := F)) Variants.none c none) E (cc13__chunk_body arg0 harg0 arg1 harg1 arg2 harg2) K := by
  simp only [cc13__chunk_body_eq_skeleton]; unfold cc13__chunk_body_skel
  simp only [k13_part1_eq_skeleton]; unfold k13_part1_skel
  simp only [k13_part2_eq_skeleton]; unfold k13_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover13_2 _ _ _ _)

/-- The proof data of the call on core c: the arrays as the call finds them; after the body each input's
    buffer holds its block and the result buffer the four stored rows of the input blocks. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the body is called with, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation13 (c : Dev nD) : BodyObligation (dat13 (F := F) V c) (defs₀ (F := F)) Variants.none () Set.univ := fun t => by
  rw [bigSep_W13, bigSep_W13]
  exact sound_body13 V c t

/-! ## The call's result array after the call -/

/-- The call has one point, and each of its windows' one block starts at the origin of its array. -/
theorem idx13 : ∀ t : Fin cfg13.N, win13_0.index t (0 : Fin 2) = 0 ∧ win13_0.index t (1 : Fin 2) = 0
    ∧ win13_1.index t (0 : Fin 3) = 0 ∧ win13_1.index t (1 : Fin 3) = 0 ∧ win13_1.index t (2 : Fin 3) = 0
    ∧ win13_2.index t (0 : Fin 2) = 0 ∧ win13_2.index t (1 : Fin 2) = 0 :=
  (by decide +kernel : ∀ t : Fin grid13.N, _)

/-- The logits block is the whole logits array of the call. -/
theorem blk13_0 (c : Dev nD) (t : Fin cfg13.N) : iblk13 V c 0 t = V c main_v40 := by
  obtain ⟨e0, e1, -⟩ := idx13 t
  funext j
  show V c main_v40 (((cfg13.win 0).blk t).view.emb j) = V c main_v40 j
  refine congrArg (V c main_v40) ?_
  funext a; apply Fin.ext
  match a with
  | ⟨0, _⟩ => show win13_0.index t (0 : Fin 2) * 4 + 1 * (j 0).val = (j 0).val; omega
  | ⟨1, _⟩ => show win13_0.index t (1 : Fin 2) * 32768 + 1 * (j 1).val = (j 1).val; omega

/-- The noise block is the whole noise array of the call. -/
theorem blk13_1 (c : Dev nD) (t : Fin cfg13.N) : iblk13 V c 1 t = V c main_v39 := by
  obtain ⟨-, -, e0, e1, e2, -⟩ := idx13 t
  funext j
  show V c main_v39 (((cfg13.win 1).blk t).view.emb j) = V c main_v39 j
  refine congrArg (V c main_v39) ?_
  funext a; apply Fin.ext
  match a with
  | ⟨0, _⟩ => show win13_1.index t (0 : Fin 3) * 4 + 1 * (j 0).val = (j 0).val; omega
  | ⟨1, _⟩ => show win13_1.index t (1 : Fin 3) * 28 + 1 * (j 1).val = (j 1).val; omega
  | ⟨2, _⟩ => show win13_1.index t (2 : Fin 3) * 32768 + 1 * (j 2).val = (j 2).val; omega

/-- What the call's point writes back is the whole of the four stored rows. -/
theorem flushed13_eq (c : Dev nD) (t : Fin cfg13.N) :
    (dat13 V c).flushed 2 t = ((cfg13.win 2).blk t).view.read (Elt F) (out13_2 (V c main_v40) (V c main_v39)) := by
  show (cfg13.win 2).cut (grid13.coords t) ((dat13 V c).after 2 t) = _
  rw [after13_2, blk13_0, blk13_1]
  obtain ⟨-, -, -, -, -, e0, e1⟩ := idx13 t
  generalize out13_2 (V c main_v40) (V c main_v39) = G
  funext j
  show G j = G (((cfg13.win 2).blk t).view.emb j)
  refine congrArg G ?_
  funext a; apply Fin.ext
  match a with
  | ⟨0, _⟩ => show (j 0).val = win13_2.index t (0 : Fin 2) * 4 + 1 * (j 0).val; omega
  | ⟨1, _⟩ => show (j 1).val = win13_2.index t (1 : Fin 2) * 32768 + 1 * (j 1).val; omega

theorem mem_blk13 (t : Fin cfg13.N) (i : S4x32768.Idx) :
    i ∈ ((cfg13.win 2).blk t).view.set ↔ ∀ a : Fin 2, win13_2.index t a * S4x32768.size a ≤ (i a).val ∧ (i a).val < win13_2.index t a * S4x32768.size a + S4x32768.size a := by
  show i ∈ ((View.whole main_v41).slice (win13_2.rect t)).set ↔ _
  rw [View.set_slice_whole, Rect.mem_set_unit]
  exact Iff.rfl

/-- The call's result array after the call: the four stored rows of the arrays the call was entered with. -/
theorem final13 (c : Dev nD) : (dat13 V c).arrAt 2 cfg13.N = out13_2 (V c main_v40) (V c main_v39) :=
  (dat13 V c).arrAt_eq_of_cover 2 _ (fun t _ => flushed13_eq V c t) (fun i => ⟨t13_0, flush13_2 t13_0, by
    rw [mem_blk13]
    obtain ⟨-, -, -, -, -, e0, e1⟩ := idx13 t13_0
    intro a
    match a with
    | ⟨0, _⟩ => show win13_2.index t13_0 (0 : Fin 2) * 4 ≤ (i 0).val ∧ (i 0).val < win13_2.index t13_0 (0 : Fin 2) * 4 + 4; have h0 : (i 0).val < 4 := (i 0).isLt; omega
    | ⟨1, _⟩ => show win13_2.index t13_0 (1 : Fin 2) * 32768 ≤ (i 1).val ∧ (i 1).val < win13_2.index t13_0 (1 : Fin 2) * 32768 + 32768; have h1 : (i 1).val < 32768 := (i 1).isLt; omega⟩)

end Cert.KernelIdeal.Rgn

end
-- ==== Proof.KI.Region14.lean ====
/-
  Region 14 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The logits window's buffer holds its block when the body starts, for any proof data over these arrays
    whose body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The noise window's buffer likewise. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Row r of the four logits rows (and of the four result rows), as a rectangle of the buffer. -/
abbrev rowL14_0 : Rect S4x32768 := Rect.unit (s := S4x32768) ![0, 0] S1x32768.size inb_S4x32768_S1x32768_0_0
abbrev rowL14_1 : Rect S4x32768 := Rect.unit (s := S4x32768) ![1, 0] S1x32768.size inb_S4x32768_S1x32768_1_0
abbrev rowL14_2 : Rect S4x32768 := Rect.unit (s := S4x32768) ![2, 0] S1x32768.size inb_S4x32768_S1x32768_2_0
abbrev rowL14_3 : Rect S4x32768 := Rect.unit (s := S4x32768) ![3, 0] S1x32768.size inb_S4x32768_S1x32768_3_0
/-- Slab r of the four noise slabs. -/
abbrev slab14_0 : Rect S4x28x32768 := Rect.unit (s := S4x28x32768) ![0, 0, 0] S1x28x32768.size inb_S4x28x32768_S1x28x32768_0_0_0
abbrev slab14_1 : Rect S4x28x32768 := Rect.unit (s := S4x28x32768) ![1, 0, 0] S1x28x32768.size inb_S4x28x32768_S1x28x32768_1_0_0
abbrev slab14_2 : Rect S4x28x32768 := Rect.unit (s := S4x28x32768) ![2, 0, 0] S1x28x32768.size inb_S4x28x32768_S1x28x32768_2_0_0
abbrev slab14_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out14_2 (x0 : Vec F S4x32768 .f32) (x1 : Vec F S4x28x32768 .f32) : Vec F S4x32768 .f32 :=
  View.canon [⟨rowL14_3, k14_pay1 (k14_pay5 (View.ld x0 rowL14_3) (View.ld x1 slab14_3)) (k14_pay6 (View.ld x0 rowL14_3) (View.ld x1 slab14_3))⟩,
    ⟨rowL14_2, k14_pay4 (View.ld x0 rowL14_2) (View.ld x1 slab14_2)⟩,
    ⟨rowL14_1, k14_pay3 (View.ld x0 rowL14_1) (View.ld x1 slab14_1)⟩,
    ⟨rowL14_0, k14_pay2 (View.ld x0 rowL14_0) (View.ld x1 slab14_0)⟩]

/-- The four stored rows tile the result buffer. -/
theorem cover14_2 (p3 p2 p1 p0 : Vec F S1x32768 .f32) (y : S4x32768.Idx) :
    ∃ pc ∈ ([⟨rowL14_3, p3⟩, ⟨rowL14_2, p2⟩, ⟨rowL14_1, p1⟩, ⟨rowL14_0, p0⟩] : List (View.Piece (Elt F) S4x32768 .f32)), y ∈ pc.1.set :=
  View.cover_of_tiled [⟨rowL14_3, p3⟩, ⟨rowL14_2, p2⟩, ⟨rowL14_1, p1⟩, ⟨rowL14_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel14 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out14_2 x0 x1)) -∗ K ⟨⟩))
      ⊢ wp frame (wpE (defs₀ (F := F)) Variants.none c none) E (cc14__chunk_body arg0 harg0 arg1 harg1 arg2 harg2) K := by
  simp only [cc14__chunk_body_eq_skeleton]; unfold cc14__chunk_body_skel
  simp only [k14_part1_eq_skeleton]; unfold k14_part1_skel
  simp only [k14_part2_eq_skeleton]; unfold k14_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover14_2 _ _ _ _)

/-- The proof data of the call on core c: the arrays as the call finds them; after the body each input's
    buffer holds its block and the result buffer the four stored rows of the input blocks. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14_2 (iblk14 V c 0 t) (iblk14 V c 1 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- What the body is called with, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation14 (c : Dev nD) : BodyObligation (dat14 (F := F) V c) (defs₀ (F := F)) Variants.none () Set.univ := fun t => by
  rw [bigSep_W14, bigSep_W14]
  exact sound_body14 V c t

/-! ## The call's result array after the call -/

/-- The call has one point, and each of its windows' one block starts at the origin of its array. -/
theorem idx14 : ∀ t : Fin cfg14.N, win14_0.index t (0 : Fin 2) = 0 ∧ win14_0.index t (1 : Fin 2) = 0
    ∧ win14_1.index t (0 : Fin 3) = 0 ∧ win14_1.index t (1 : Fin 3) = 0 ∧ win14_1.index t (2 : Fin 3) = 0
    ∧ win14_2.index t (0 : Fin 2) = 0 ∧ win14_2.index t (1 : Fin 2) = 0 :=
  (by decide +kernel : ∀ t : Fin grid14.N, _)

/-- The logits block is the whole logits array of the call. -/
theorem blk14_0 (c : Dev nD) (t : Fin cfg14.N) : iblk14 V c 0 t = V c main_v43 := by
  obtain ⟨e0, e1, -⟩ := idx14 t
  funext j
  show V c main_v43 (((cfg14.win 0).blk t).view.emb j) = V c main_v43 j
  refine congrArg (V c main_v43) ?_
  funext a; apply Fin.ext
  match a with
  | ⟨0, _⟩ => show win14_0.index t (0 : Fin 2) * 4 + 1 * (j 0).val = (j 0).val; omega
  | ⟨1, _⟩ => show win14_0.index t (1 : Fin 2) * 32768 + 1 * (j 1).val = (j 1).val; omega

/-- The noise block is the whole noise array of the call. -/
theorem blk14_1 (c : Dev nD) (t : Fin cfg14.N) : iblk14 V c 1 t = V c main_v42 := by
  obtain ⟨-, -, e0, e1, e2, -⟩ := idx14 t
  funext j
  show V c main_v42 (((cfg14.win 1).blk t).view.emb j) = V c main_v42 j
  refine congrArg (V c main_v42) ?_
  funext a; apply Fin.ext
  match a with
  | ⟨0, _⟩ => show win14_1.index t (0 : Fin 3) * 4 + 1 * (j 0).val = (j 0).val; omega
  | ⟨1, _⟩ => show win14_1.index t (1 : Fin 3) * 28 + 1 * (j 1).val = (j 1).val; omega
  | ⟨2, _⟩ => show win14_1.index t (2 : Fin 3) * 32768 + 1 * (j 2).val = (j 2).val; omega

/-- What the call's point writes back is the whole of the four stored rows. -/
theorem flushed14_eq (c : Dev nD) (t : Fin cfg14.N) :
    (dat14 V c).flushed 2 t = ((cfg14.win 2).blk t).view.read (Elt F) (out14_2 (V c main_v43) (V c main_v42)) := by
  show (cfg14.win 2).cut (grid14.coords t) ((dat14 V c).after 2 t) = _
  rw [after14_2, blk14_0, blk14_1]
  obtain ⟨-, -, -, -, -, e0, e1⟩ := idx14 t
  generalize out14_2 (V c main_v43) (V c main_v42) = G
  funext j
  show G j = G (((cfg14.win 2).blk t).view.emb j)
  refine congrArg G ?_
  funext a; apply Fin.ext
  match a with
  | ⟨0, _⟩ => show (j 0).val = win14_2.index t (0 : Fin 2) * 4 + 1 * (j 0).val; omega
  | ⟨1, _⟩ => show (j 1).val = win14_2.index t (1 : Fin 2) * 32768 + 1 * (j 1).val; omega

theorem mem_blk14 (t : Fin cfg14.N) (i : S4x32768.Idx) :
    i ∈ ((cfg14.win 2).blk t).view.set ↔ ∀ a : Fin 2, win14_2.index t a * S4x32768.size a ≤ (i a).val ∧ (i a).val < win14_2.index t a * S4x32768.size a + S4x32768.size a := by
  show i ∈ ((View.whole main_v44).slice (win14_2.rect t)).set ↔ _
  rw [View.set_slice_whole, Rect.mem_set_unit]
  exact Iff.rfl

/-- The call's result array after the call: the four stored rows of the arrays the call was entered with. -/
theorem final14 (c : Dev nD) : (dat14 V c).arrAt 2 cfg14.N = out14_2 (V c main_v43) (V c main_v42) :=
  (dat14 V c).arrAt_eq_of_cover 2 _ (fun t _ => flushed14_eq V c t) (fun i => ⟨t14_0, flush14_2 t14_0, by
    rw [mem_blk14]
    obtain ⟨-, -, -, -, -, e0, e1⟩ := idx14 t14_0
    intro a
    match a with
    | ⟨0, _⟩ => show win14_2.index t14_0 (0 : Fin 2) * 4 ≤ (i 0).val ∧ (i 0).val < win14_2.index t14_0 (0 : Fin 2) * 4 + 4; have h0 : (i 0).val < 4 := (i 0).isLt; omega
    | ⟨1, _⟩ => show win14_2.index t14_0 (1 : Fin 2) * 32768 ≤ (i 1).val ∧ (i 1).val < win14_2.index t14_0 (1 : Fin 2) * 32768 + 32768; have h1 : (i 1).val < 32768 := (i 1).isLt; omega⟩)

end Cert.KernelIdeal.Rgn

end
-- ==== Proof.KI.Region15.lean ====
/-
  Region 15 of the program: one call of the chunk body on four batch rows.

  The call's two inputs are the four logits rows and the four noise slabs of its chunk, its output the four
  result rows.  The body stores one result row per batch row; each stored row is a pure function of the
  logits row and the noise slab it loaded.  This module states what the output buffer holds after the body
  (the four stored rows, which tile it), runs the body once against that statement, and packages the run
  as the obligation the launch of the call asks for, for any contents the call's arrays may hold on entry.
-/
import proofs.«146618_g16140487098628_cont_week2b_481_21_alg».proof.Proof.Gen.KernelIdeal.Launch
import proofs.«146618_g16140487098628_cont_week2b_481_21_alg».proof.Proof.Gen.KernelIdeal.Skeleton
import proofs.«146618_g16140487098628_cont_week2b_481_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered: a parameter here
variable (V : (c : Dev nD) → (b : Ref sig .tc) → Buf (Elt F) ((c : Thread nD τ).loc b))

/-- The block of window w the call works on, read off its array as the call finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The logits window's buffer holds its block when the body starts, for any proof data over these arrays
    whose body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- The noise window's buffer likewise. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- Row r of the four logits rows (and of the four result rows), as a rectangle of the buffer. -/
abbrev rowL15_0 : Rect S4x32768 := Rect.unit (s := S4x32768) ![0, 0] S1x32768.size inb_S4x32768_S1x32768_0_0
abbrev rowL15_1 : Rect S4x32768 := Rect.unit (s := S4x32768) ![1, 0] S1x32768.size inb_S4x32768_S1x32768_1_0
abbrev rowL15_2 : Rect S4x32768 := Rect.unit (s := S4x32768) ![2, 0] S1x32768.size inb_S4x32768_S1x32768_2_0
abbrev rowL15_3 : Rect S4x32768 := Rect.unit (s := S4x32768) ![3, 0] S1x32768.size inb_S4x32768_S1x32768_3_0
/-- Slab r of the four noise slabs. -/
abbrev slab15_0 : Rect S4x28x32768 := Rect.unit (s := S4x28x32768) ![0, 0, 0] S1x28x32768.size inb_S4x28x32768_S1x28x32768_0_0_0
abbrev slab15_1 : Rect S4x28x32768 := Rect.unit (s := S4x28x32768) ![1, 0, 0] S1x28x32768.size inb_S4x28x32768_S1x28x32768_1_0_0
abbrev slab15_2 : Rect S4x28x32768 := Rect.unit (s := S4x28x32768) ![2, 0, 0] S1x28x32768.size inb_S4x28x32768_S1x28x32768_2_0_0
abbrev slab15_3 : Rect S4x28x32768 := Rect.unit (s := S4x28x32768) ![3, 0, 0] S1x28x32768.size inb_S4x28x32768_S1x28x32768_3_0_0

/-- What the body leaves in the result buffer, from the logits rows x0 and the noise slabs x1: its four
    stored rows, the last store first; row r is the body's value of logits row r and slab r. -/
def out15_2 (x0 : Vec F S4x32768 .f32) (x1 : Vec F S4x28x32768 .f32) : Vec F S4x32768 .f32 :=
  View.canon [⟨rowL15_3, k15_pay1 (k15_pay5 (View.ld x0 rowL15_3) (View.ld x1 slab15_3)) (k15_pay6 (View.ld x0 rowL15_3) (View.ld x1 slab15_3))⟩,
    ⟨rowL15_2, k15_pay4 (View.ld x0 rowL15_2) (View.ld x1 slab15_2)⟩,
    ⟨rowL15_1, k15_pay3 (View.ld x0 rowL15_1) (View.ld x1 slab15_1)⟩,
    ⟨rowL15_0, k15_pay2 (View.ld x0 rowL15_0) (View.ld x1 slab15_0)⟩]

/-- The four stored rows tile the result buffer. -/
theorem cover15_2 (p3 p2 p1 p0 : Vec F S1x32768 .f32) (y : S4x32768.Idx) :
    ∃ pc ∈ ([⟨rowL15_3, p3⟩, ⟨rowL15_2, p2⟩, ⟨rowL15_1, p1⟩, ⟨rowL15_0, p0⟩] : List (View.Piece (Elt F) S4x32768 .f32)), y ∈ pc.1.set :=
  View.cover_of_tiled [⟨rowL15_3, p3⟩, ⟨rowL15_2, p2⟩, ⟨rowL15_1, p1⟩, ⟨rowL15_0, p0⟩] S1x32768.size (by rfl) y

set_option maxHeartbeats 4000000 in
/-- The body, called on whole buffers holding the logits rows x0, the noise slabs x1 and anything in the
    result buffer, runs to its end leaving the inputs as they were and the result buffer at the four stored rows. -/
theorem sound_kernel15 (c : Dev nD) (E : Set ℕ) (arg0 : Memref sig .tc .vmem S4x32768 .f32) (harg0 : arg0.IsWhole)
    (arg1 : Memref sig .tc .vmem S4x28x32768 .f32) (harg1 : arg1.IsWhole) (arg2 : Memref sig .tc .vmem S4x32768 .f32) (harg2 : arg2.IsWhole)
    (x0 : Vec F S4x32768 .f32) (x1 : Vec F S4x28x32768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out15_2 x0 x1)) -∗ K ⟨⟩))
      ⊢ wp frame (wpE (defs₀ (F := F)) Variants.none c none) E (cc15__chunk_body arg0 harg0 arg1 harg1 arg2 harg2) K := by
  simp only [cc15__chunk_body_eq_skeleton]; unfold cc15__chunk_body_skel
  simp only [k15_part1_eq_skeleton]; unfold k15_part1_skel
  simp only [k15_part2_eq_skeleton]; unfold k15_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover15_2 _ _ _ _)

/-- The proof data of the call on core c: the arrays as the call finds them; after the body each input's
    buffer holds its block and the result buffer the four stored rows of the input blocks. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-- What the body is called with, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch of the call asks for, at its one point. -/
theorem body_obligation15 (c : Dev nD) : BodyObligation (dat15 (F := F) V c) (defs₀ (F := F)) Variants.none () Set.univ := fun t => by
  rw [bigSep_W15, bigSep_W15]
  exact sound_body15 V c t

/-! ## The call's result array after the call -/

/-- The call has one point, and each of its windows' one block starts at the origin of its array. -/
theorem idx15 : ∀ t : Fin cfg15.N, win15_0.index t (0 : Fin 2) = 0 ∧ win15_0.index t (1 : Fin 2) = 0
    ∧ win15_1.index t (0 : Fin 3) = 0 ∧ win15_1.index t (1 : Fin 3) = 0 ∧ win15_1.index t (2 : Fin 3) = 0
    ∧ win15_2.index t (0 : Fin 2) = 0 ∧ win15_2.index t (1 : Fin 2) = 0 :=
  (by decide +kernel : ∀ t : Fin grid15.N, _)

/-- The logits block is the whole logits array of the call. -/
theorem blk15_0 (c : Dev nD) (t : Fin cfg15.N) : iblk15 V c 0 t = V c main_v46 := by
  obtain ⟨e0, e1, -⟩ := idx15 t
  funext j
  show V c main_v46 (((cfg15.win 0).blk t).view.emb j) = V c main_v46 j
  refine congrArg (V c main_v46) ?_
  funext a; apply Fin.ext
  match a with
  | ⟨0, _⟩ => show win15_0.index t (0 : Fin 2) * 4 + 1 * (j 0).val = (j 0).val; omega
  | ⟨1, _⟩ => show win15_0.index t (1 : Fin 2) * 32768 + 1 * (j 1).val = (j 1).val; omega

/-- The noise block is the whole noise array of the call. -/
theorem blk15_1 (c : Dev nD) (t : Fin cfg15.N) : iblk15 V c 1 t = V c main_v45 := by
  obtain ⟨-, -, e0, e1, e2, -⟩ := idx15 t
  funext j
  show V c main_v45 (((cfg15.win 1).blk t).view.emb j) = V c main_v45 j
  refine congrArg (V c main_v45) ?_
  funext a; apply Fin.ext
  match a with
  | ⟨0, _⟩ => show win15_1.index t (0 : Fin 3) * 4 + 1 * (j 0).val = (j 0).val; omega
  | ⟨1, _⟩ => show win15_1.index t (1 : Fin 3) * 28 + 1 * (j 1).val = (j 1).val; omega
  | ⟨2, _⟩ => show win15_1.index t (2 : Fin 3) * 32768 + 1 * (j 2).val = (j 2).val; omega

/-- What the call's point writes back is the whole of the four stored rows. -/
theorem flushed15_eq (c : Dev nD) (t : Fin cfg15.N) :
    (dat15 V c).flushed 2 t = ((cfg15.win 2).blk t).view.read (Elt F) (out15_2 (V c main_v46) (V c main_v45)) := by
  show (cfg15.win 2).cut (grid15.coords t) ((dat15 V c).after 2 t) = _
  rw [after15_2, blk15_0, blk15_1]
  obtain ⟨-, -, -, -, -, e0, e1⟩ := idx15 t
  generalize out15_2 (V c main_v46) (V c main_v45) = G
  funext j
  show G j = G (((cfg15.win 2).blk t).view.emb j)
  refine congrArg G ?_
  funext a; apply Fin.ext
  match a with
  | ⟨0, _⟩ => show (j 0).val = win15_2.index t (0 : Fin 2) * 4 + 1 * (j 0).val; omega
  | ⟨1, _⟩ => show (j 1).val = win15_2.index t (1 : Fin 2) * 32768 + 1 * (j 1).val; omega

theorem mem_blk15 (t : Fin cfg15.N) (i : S4x32768.Idx) :
    i ∈ ((cfg15.win 2).blk t).view.set ↔ ∀ a : Fin 2, win15_2.index t a * S4x32768.size a ≤ (i a).val ∧ (i a).val < win15_2.index t a * S4x32768.size a + S4x32768.size a := by
  show i ∈ ((View.whole main_v47).slice (win15_2.rect t)).set ↔ _
  rw [View.set_slice_whole, Rect.mem_set_unit]
  exact Iff.rfl

/-- The call's result array after the call: the four stored rows of the arrays the call was entered with. -/
theorem final15 (c : Dev nD) : (dat15 V c).arrAt 2 cfg15.N = out15_2 (V c main_v46) (V c main_v45) :=
  (dat15 V c).arrAt_eq_of_cover 2 _ (fun t _ => flushed15_eq V c t) (fun i => ⟨t15_0, flush15_2 t15_0, by
    rw [mem_blk15]
    obtain ⟨-, -, -, -, -, e0, e1⟩ := idx15 t15_0
    intro a
    match a with
    | ⟨0, _⟩ => show win15_2.index t15_0 (0 : Fin 2) * 4 ≤ (i 0).val ∧ (i 0).val < win15_2.index t15_0 (0 : Fin 2) * 4 + 4; have h0 : (i 0).val < 4 := (i 0).isLt; omega
    | ⟨1, _⟩ => show win15_2.index t15_0 (1 : Fin 2) * 32768 ≤ (i 1).val ∧ (i 1).val < win15_2.index t15_0 (1 : Fin 2) * 32768 + 32768; have h1 : (i 1).val < 32768 := (i 1).isLt; omega⟩)

end Cert.KernelIdeal.Rgn

end
-- ==== Proof.KI.Run.lean ====
/-
  The whole run of the program: sixteen calls of the chunk body between the slices that feed them, then the
  concatenation of the sixteen results.

  The contents of the core's buffers are followed through the program: at launch, after each pair of slices
  (what the next call is entered from), after each call (its result array at what the call's one point
  writes back, everything else as before), and after the final concatenation.  Every weakly fair execution
  terminates, nothing faults, and every buffer ends at the last of these contents.
-/
import proofs.«146618_g16140487098628_cont_week2b_481_21_alg».proof.Proof.KI.Region0
import proofs.«146618_g16140487098628_cont_week2b_481_21_alg».proof.Proof.KI.Region1
import proofs.«146618_g16140487098628_cont_week2b_481_21_alg».proof.Proof.KI.Region2
import proofs.«146618_g16140487098628_cont_week2b_481_21_alg».proof.Proof.KI.Region3
import proofs.«146618_g16140487098628_cont_week2b_481_21_alg».proof.Proof.KI.Region4
import proofs.«146618_g16140487098628_cont_week2b_481_21_alg».proof.Proof.KI.Region5
import proofs.«146618_g16140487098628_cont_week2b_481_21_alg».proof.Proof.KI.Region6
import proofs.«146618_g16140487098628_cont_week2b_481_21_alg».proof.Proof.KI.Region7
import proofs.«146618_g16140487098628_cont_week2b_481_21_alg».proof.Proof.KI.Region8
import proofs.«146618_g16140487098628_cont_week2b_481_21_alg».proof.Proof.KI.Region9
import proofs.«146618_g16140487098628_cont_week2b_481_21_alg».proof.Proof.KI.Region10
import proofs.«146618_g16140487098628_cont_week2b_481_21_alg».proof.Proof.KI.Region11
import proofs.«146618_g16140487098628_cont_week2b_481_21_alg».proof.Proof.KI.Region12
import proofs.«146618_g16140487098628_cont_week2b_481_21_alg».proof.Proof.KI.Region13
import proofs.«146618_g16140487098628_cont_week2b_481_21_alg».proof.Proof.KI.Region14
import proofs.«146618_g16140487098628_cont_week2b_481_21_alg».proof.Proof.KI.Region15

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's items -/

/-- At launch. -/
abbrev W0 : Dev nD → Valuation τ sig (Elt F) := fun c b => (s₀ m ρ).mem ((c : Dev nD), b)
/-- After the slices feeding call 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After call 0: its arrays at what the call leaves, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the slices feeding call 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After call 1: its arrays at what the call leaves, every other buffer as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the slices feeding call 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After call 2: its arrays at what the call leaves, every other buffer as before. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the slices feeding call 3. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After call 3: its arrays at what the call leaves, every other buffer as before. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the slices feeding call 4. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- After call 4: its arrays at what the call leaves, every other buffer as before. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the slices feeding call 5. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- After call 5: its arrays at what the call leaves, every other buffer as before. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After the slices feeding call 6. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- After call 6: its arrays at what the call leaves, every other buffer as before. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- After the slices feeding call 7. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- After call 7: its arrays at what the call leaves, every other buffer as before. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- After the slices feeding call 8. -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- After call 8: its arrays at what the call leaves, every other buffer as before. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- After the slices feeding call 9. -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- After call 9: its arrays at what the call leaves, every other buffer as before. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- After the slices feeding call 10. -/
abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
/-- After call 10: its arrays at what the call leaves, every other buffer as before. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)
/-- After the slices feeding call 11. -/
abbrev W23 : Dev nD → Valuation τ sig (Elt F) := fun c => StableHlo.after hostOps11 (W22 m ρ c)
abbrev V23 : (c : Dev nD) → (b : Ref sig .tc) → Buf (Elt F) ((c : Thread nD τ).loc b) := fun c b => W23 m ρ c b
/-- After call 11: its arrays at what the call leaves, every other buffer as before. -/
def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
abbrev V24 : (c : Dev nD) → (b : Ref sig .tc) → Buf (Elt F) ((c : Thread nD τ).loc b) := fun c b => W24 m ρ c b
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)
/-- After the slices feeding call 12. -/
abbrev W25 : Dev nD → Valuation τ sig (Elt F) := fun c => StableHlo.after hostOps12 (W24 m ρ c)
abbrev V25 : (c : Dev nD) → (b : Ref sig .tc) → Buf (Elt F) ((c : Thread nD τ).loc b) := fun c b => W25 m ρ c b
/-- After call 12: its arrays at what the call leaves, every other buffer as before. -/
def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
abbrev V26 : (c : Dev nD) → (b : Ref sig .tc) → Buf (Elt F) ((c : Thread nD τ).loc b) := fun c b => W26 m ρ c b
theorem hF12 (c : Dev nD) (w : Fin cfg12.W) : (dat12 (V25 m ρ) c).arrAt w cfg12.N = V26 m ρ c (Pipeline.arrRef spec12 w) :=
  (W26_arr m ρ c w).symm
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)
/-- After the slices feeding call 13. -/
abbrev W27 : Dev nD → Valuation τ sig (Elt F) := fun c => StableHlo.after hostOps13 (W26 m ρ c)
abbrev V27 : (c : Dev nD) → (b : Ref sig .tc) → Buf (Elt F) ((c : Thread nD τ).loc b) := fun c b => W27 m ρ c b
/-- After call 13: its arrays at what the call leaves, every other buffer as before. -/
def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
abbrev V28 : (c : Dev nD) → (b : Ref sig .tc) → Buf (Elt F) ((c : Thread nD τ).loc b) := fun c b => W28 m ρ c b
theorem hF13 (c : Dev nD) (w : Fin cfg13.W) : (dat13 (V27 m ρ) c).arrAt w cfg13.N = V28 m ρ c (Pipeline.arrRef spec13 w) :=
  (W28_arr m ρ c w).symm
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)
/-- After the slices feeding call 14. -/
abbrev W29 : Dev nD → Valuation τ sig (Elt F) := fun c => StableHlo.after hostOps14 (W28 m ρ c)
abbrev V29 : (c : Dev nD) → (b : Ref sig .tc) → Buf (Elt F) ((c : Thread nD τ).loc b) := fun c b => W29 m ρ c b
/-- After call 14: its arrays at what the call leaves, every other buffer as before. -/
def W30 (c : Dev nD) : Valuation τ sig (Elt F) :=
  Pipeline.withArrays spec14 c (W29 m ρ c) fun w => (dat14 (V29 m ρ) c).arrAt w cfg14.N
theorem W30_arr (c : Dev nD) (w : Fin cfg14.W) :
    W30 m ρ c (Proc.devRef .tc (Pipeline.arrRef spec14 w)) = (dat14 (V29 m ρ) c).arrAt w cfg14.N := by
  unfold W30; exact Pipeline.withArrays_arr spec14 launch14.win.arr_inj c _ _ w
theorem W30_of_ne (c : Dev nD) (b : Ref sig .tc) (hb : ∀ w, Pipeline.arrRef spec14 w ≠ b) :
    W30 m ρ c (Proc.devRef .tc b) = W29 m ρ c (Proc.devRef .tc b) := by
  unfold W30; exact Pipeline.withArrays_of_ne spec14 c _ _ b hb
abbrev V30 : (c : Dev nD) → (b : Ref sig .tc) → Buf (Elt F) ((c : Thread nD τ).loc b) := fun c b => W30 m ρ c b
theorem hF14 (c : Dev nD) (w : Fin cfg14.W) : (dat14 (V29 m ρ) c).arrAt w cfg14.N = V30 m ρ c (Pipeline.arrRef spec14 w) :=
  (W30_arr m ρ c w).symm
theorem hrest14 (c : Dev nD) : ∀ b, b ∉ Finset.univ.image (Pipeline.arrRef spec14) → V30 m ρ c b = V29 m ρ c b :=
  fun b hb => W30_of_ne m ρ c b fun w e => hb (Finset.mem_image.mpr ⟨w, Finset.mem_univ _, e⟩)
/-- After the slices feeding call 15. -/
abbrev W31 : Dev nD → Valuation τ sig (Elt F) := fun c => StableHlo.after hostOps15 (W30 m ρ c)
abbrev V31 : (c : Dev nD) → (b : Ref sig .tc) → Buf (Elt F) ((c : Thread nD τ).loc b) := fun c b => W31 m ρ c b
/-- After call 15: its arrays at what the call leaves, every other buffer as before. -/
def W32 (c : Dev nD) : Valuation τ sig (Elt F) :=
  Pipeline.withArrays spec15 c (W31 m ρ c) fun w => (dat15 (V31 m ρ) c).arrAt w cfg15.N
theorem W32_arr (c : Dev nD) (w : Fin cfg15.W) :
    W32 m ρ c (Proc.devRef .tc (Pipeline.arrRef spec15 w)) = (dat15 (V31 m ρ) c).arrAt w cfg15.N := by
  unfold W32; exact Pipeline.withArrays_arr spec15 launch15.win.arr_inj c _ _ w
theorem W32_of_ne (c : Dev nD) (b : Ref sig .tc) (hb : ∀ w, Pipeline.arrRef spec15 w ≠ b) :
    W32 m ρ c (Proc.devRef .tc b) = W31 m ρ c (Proc.devRef .tc b) := by
  unfold W32; exact Pipeline.withArrays_of_ne spec15 c _ _ b hb
abbrev V32 : (c : Dev nD) → (b : Ref sig .tc) → Buf (Elt F) ((c : Thread nD τ).loc b) := fun c b => W32 m ρ c b
theorem hF15 (c : Dev nD) (w : Fin cfg15.W) : (dat15 (V31 m ρ) c).arrAt w cfg15.N = V32 m ρ c (Pipeline.arrRef spec15 w) :=
  (W32_arr m ρ c w).symm
theorem hrest15 (c : Dev nD) : ∀ b, b ∉ Finset.univ.image (Pipeline.arrRef spec15) → V32 m ρ c b = V31 m ρ c b :=
  fun b hb => W32_of_ne m ρ c b fun w e => hb (Finset.mem_image.mpr ⟨w, Finset.mem_univ _, e⟩)
/-- After the concatenation: the end. -/
abbrev W33 : Dev nD → Valuation τ sig (Elt F) := fun c => StableHlo.after hostOps16 (W32 m ρ c)

/-! ## The calls' proof data and the state between items -/

abbrev adm : (p : Fin 16) → (pcfgs (F := F) p).Adm := fun p => (cfgs p).toPCfg_adm
/-- Every call's proof data, each at the contents its call is entered from. -/
def pdats : (p : Fin 16) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨14, _⟩ => fun c => dat14 (V29 m ρ) c
  | ⟨15, _⟩ => fun c => dat15 (V31 m ρ) c
  | ⟨_ + 16, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the owes: every unscoped buffer at the final contents, the generator register at some state. -/
abbrev Tₙ (c : Dev nD) : sProp 𝕄 := iprop(StableHlo.held (c : Thread nD τ) (Pipeline.ucRefs τ sig) (W33 m ρ c) ∗ ∃ r, prngReg c r)

/-! ## The calls as segments -/

set_option backward.isDefEq.respectTransparency.types false in
/-- Call 0: entered from every unscoped buffer at the contents after its slices, left at the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered from every unscoped buffer at the contents after its slices, left at the contents after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2: entered from every unscoped buffer at the contents after its slices, left at the contents after it. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3: entered from every unscoped buffer at the contents after its slices, left at the contents after it. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4: entered from every unscoped buffer at the contents after its slices, left at the contents after it. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5: entered from every unscoped buffer at the contents after its slices, left at the contents after it. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 6: entered from every unscoped buffer at the contents after its slices, left at the contents after it. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 7: entered from every unscoped buffer at the contents after its slices, left at the contents after it. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 8: entered from every unscoped buffer at the contents after its slices, left at the contents after it. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 9: entered from every unscoped buffer at the contents after its slices, left at the contents after it. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 10: entered from every unscoped buffer at the contents after its slices, left at the contents after it. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 11: entered from every unscoped buffer at the contents after its slices, left at the contents after it. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 12: entered from every unscoped buffer at the contents after its slices, left at the contents after it. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m ρ) c).loose
  hwaits := Pipeline.hwaits_of_owed_zero _ _ _ _ L lv 12 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec12 c (V25 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V25 m ρ c) (V26 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 13: entered from every unscoped buffer at the contents after its slices, left at the contents after it. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V27 m ρ) c).loose
  hwaits := Pipeline.hwaits_of_owed_zero _ _ _ _ L lv 13 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec13 c (V27 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V27 m ρ c) (V28 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 14: entered from every unscoped buffer at the contents after its slices, left at the contents after it. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V29 m ρ) c).loose
  hwaits := Pipeline.hwaits_of_owed_zero _ _ _ _ L lv 14 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec14 c (V29 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V29 m ρ c) (V30 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 15: entered from every unscoped buffer at the contents after its slices, left at the contents after it. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V31 m ρ) c).loose
  hwaits := Pipeline.hwaits_of_owed_zero _ _ _ _ L lv 15 fun _ _ => rfl
  pre c := iprop(StableHlo.held (c : Thread nD τ) (Pipeline.ucRefs τ sig) (W31 m ρ c) ∗ R c)
  post c := iprop(StableHlo.held (c : Thread nD τ) (Pipeline.ucRefs τ sig) (W32 m ρ c) ∗ R c)
  X c := iprop(∃ r, prngReg c r)
  Y c := iprop(∃ r, prngReg c r)
  Z c := Pipeline.unscopedRest (Ix := Unit) (Name := ℕ) (U := UR sig nD τ) (Lvl := ℕ) spec15 c (V31 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V31 m ρ c) (V32 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps4_fresh' : (hostOps4 : List (HloOp τ sig (Elt F))).Forall fun op => op.fresh = ∅ := by
  simp only [List.Forall]; repeat' constructor
theorem hostOps5_fresh' : (hostOps5 : List (HloOp τ sig (Elt F))).Forall fun op => op.fresh = ∅ := by
  simp only [List.Forall]; repeat' constructor
theorem hostOps6_fresh' : (hostOps6 : List (HloOp τ sig (Elt F))).Forall fun op => op.fresh = ∅ := by
  simp only [List.Forall]; repeat' constructor
theorem hostOps7_fresh' : (hostOps7 : List (HloOp τ sig (Elt F))).Forall fun op => op.fresh = ∅ := by
  simp only [List.Forall]; repeat' constructor
theorem hostOps8_fresh' : (hostOps8 : List (HloOp τ sig (Elt F))).Forall fun op => op.fresh = ∅ := by
  simp only [List.Forall]; repeat' constructor
theorem hostOps9_fresh' : (hostOps9 : List (HloOp τ sig (Elt F))).Forall fun op => op.fresh = ∅ := by
  simp only [List.Forall]; repeat' constructor
theorem hostOps10_fresh' : (hostOps10 : List (HloOp τ sig (Elt F))).Forall fun op => op.fresh = ∅ := by
  simp only [List.Forall]; repeat' constructor
theorem hostOps11_fresh' : (hostOps11 : List (HloOp τ sig (Elt F))).Forall fun op => op.fresh = ∅ := by
  simp only [List.Forall]; repeat' constructor
theorem hostOps12_fresh' : (hostOps12 : List (HloOp τ sig (Elt F))).Forall fun op => op.fresh = ∅ := by
  simp only [List.Forall]; repeat' constructor
theorem hostOps13_fresh' : (hostOps13 : List (HloOp τ sig (Elt F))).Forall fun op => op.fresh = ∅ := by
  simp only [List.Forall]; repeat' constructor
theorem hostOps14_fresh' : (hostOps14 : List (HloOp τ sig (Elt F))).Forall fun op => op.fresh = ∅ := by
  simp only [List.Forall]; repeat' constructor
theorem hostOps15_fresh' : (hostOps15 : List (HloOp τ sig (Elt F))).Forall fun op => op.fresh = ∅ := by
  simp only [List.Forall]; repeat' constructor
theorem hostOps16_fresh' : (hostOps16 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ),
    .host (hseg hostOps3 hostOps3_sub hostOps3_fresh' (W6 m ρ)),
    .region (reg3 m ρ),
    .host (hseg hostOps4 hostOps4_sub hostOps4_fresh' (W8 m ρ)),
    .region (reg4 m ρ),
    .host (hseg hostOps5 hostOps5_sub hostOps5_fresh' (W10 m ρ)),
    .region (reg5 m ρ),
    .host (hseg hostOps6 hostOps6_sub hostOps6_fresh' (W12 m ρ)),
    .region (reg6 m ρ),
    .host (hseg hostOps7 hostOps7_sub hostOps7_fresh' (W14 m ρ)),
    .region (reg7 m ρ),
    .host (hseg hostOps8 hostOps8_sub hostOps8_fresh' (W16 m ρ)),
    .region (reg8 m ρ),
    .host (hseg hostOps9 hostOps9_sub hostOps9_fresh' (W18 m ρ)),
    .region (reg9 m ρ),
    .host (hseg hostOps10 hostOps10_sub hostOps10_fresh' (W20 m ρ)),
    .region (reg10 m ρ),
    .host (hseg hostOps11 hostOps11_sub hostOps11_fresh' (W22 m ρ)),
    .region (reg11 m ρ),
    .host (hseg hostOps12 hostOps12_sub hostOps12_fresh' (W24 m ρ)),
    .region (reg12 m ρ),
    .host (hseg hostOps13 hostOps13_sub hostOps13_fresh' (W26 m ρ)),
    .region (reg13 m ρ),
    .host (hseg hostOps14 hostOps14_sub hostOps14_fresh' (W28 m ρ)),
    .region (reg14 m ρ),
    .host (hseg hostOps15 hostOps15_sub hostOps15_fresh' (W30 m ρ)),
    .region (reg15 m ρ),
    .host (hseg hostOps16 hostOps16_sub hostOps16_fresh' (W32 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer ends at the final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W33 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => show iprop(StableHlo.held (c : Thread nD τ) (Pipeline.ucRefs τ sig) (W33 m ρ c) ∗ R c)
        ⊢ iprop(Tₙ m ρ c ∗ ∃ W, owes (c : Thread nD τ) (0 : CellTallies nD τ sig Unit) W) from by
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h c => h c)

end Cert.KernelIdeal.Rgn

end
-- ==== Proof.KI.Ends.lean ====
/-
  What the buffers hold at the end of the program, walked back through its items.

  No slice and no call writes an argument array, so each argument ends as launched.  A call's result array is
  written by that call alone, so at the end it still holds what the call left; the arrays a call is entered
  with are the slices of the arguments taken just before it; and the final array is the concatenation of the
  sixteen result arrays.
-/
import proofs.«146618_g16140487098628_cont_week2b_481_21_alg».proof.Proof.KI.Run
import proofs.«146618_g16140487098628_cont_week2b_481_21_alg».proof.Proof.Gen.KernelIdeal.Regions
set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## One item at a time: a buffer the item does not write keeps its contents -/
theorem stepH0 (c : Dev nD) (b : Ref sig .tc) (h : b ∉ hostOps0_W) :
    W1 m ρ c (Proc.devRef .tc b) = W0 m ρ c (Proc.devRef .tc b) :=
  StableHlo.after_of_writes_sub hostOps0 _ hostOps0_writes h
theorem stepH1 (c : Dev nD) (b : Ref sig .tc) (h : b ∉ hostOps1_W) :
    W3 m ρ c (Proc.devRef .tc b) = W2 m ρ c (Proc.devRef .tc b) :=
  StableHlo.after_of_writes_sub hostOps1 _ hostOps1_writes h
theorem stepH2 (c : Dev nD) (b : Ref sig .tc) (h : b ∉ hostOps2_W) :
    W5 m ρ c (Proc.devRef .tc b) = W4 m ρ c (Proc.devRef .tc b) :=
  StableHlo.after_of_writes_sub hostOps2 _ hostOps2_writes h
theorem stepH3 (c : Dev nD) (b : Ref sig .tc) (h : b ∉ hostOps3_W) :
    W7 m ρ c (Proc.devRef .tc b) = W6 m ρ c (Proc.devRef .tc b) :=
  StableHlo.after_of_writes_sub hostOps3 _ hostOps3_writes h
theorem stepH4 (c : Dev nD) (b : Ref sig .tc) (h : b ∉ hostOps4_W) :
    W9 m ρ c (Proc.devRef .tc b) = W8 m ρ c (Proc.devRef .tc b) :=
  StableHlo.after_of_writes_sub hostOps4 _ hostOps4_writes h
theorem stepH5 (c : Dev nD) (b : Ref sig .tc) (h : b ∉ hostOps5_W) :
    W11 m ρ c (Proc.devRef .tc b) = W10 m ρ c (Proc.devRef .tc b) :=
  StableHlo.after_of_writes_sub hostOps5 _ hostOps5_writes h
theorem stepH6 (c : Dev nD) (b : Ref sig .tc) (h : b ∉ hostOps6_W) :
    W13 m ρ c (Proc.devRef .tc b) = W12 m ρ c (Proc.devRef .tc b) :=
  StableHlo.after_of_writes_sub hostOps6 _ hostOps6_writes h
theorem stepH7 (c : Dev nD) (b : Ref sig .tc) (h : b ∉ hostOps7_W) :
    W15 m ρ c (Proc.devRef .tc b) = W14 m ρ c (Proc.devRef .tc b) :=
  StableHlo.after_of_writes_sub hostOps7 _ hostOps7_writes h
theorem stepH8 (c : Dev nD) (b : Ref sig .tc) (h : b ∉ hostOps8_W) :
    W17 m ρ c (Proc.devRef .tc b) = W16 m ρ c (Proc.devRef .tc b) :=
  StableHlo.after_of_writes_sub hostOps8 _ hostOps8_writes h
theorem stepH9 (c : Dev nD) (b : Ref sig .tc) (h : b ∉ hostOps9_W) :
    W19 m ρ c (Proc.devRef .tc b) = W18 m ρ c (Proc.devRef .tc b) :=
  StableHlo.after_of_writes_sub hostOps9 _ hostOps9_writes h
theorem stepH10 (c : Dev nD) (b : Ref sig .tc) (h : b ∉ hostOps10_W) :
    W21 m ρ c (Proc.devRef .tc b) = W20 m ρ c (Proc.devRef .tc b) :=
  StableHlo.after_of_writes_sub hostOps10 _ hostOps10_writes h
theorem stepH11 (c : Dev nD) (b : Ref sig .tc) (h : b ∉ hostOps11_W) :
    W23 m ρ c (Proc.devRef .tc b) = W22 m ρ c (Proc.devRef .tc b) :=
  StableHlo.after_of_writes_sub hostOps11 _ hostOps11_writes h
theorem stepH12 (c : Dev nD) (b : Ref sig .tc) (h : b ∉ hostOps12_W) :
    W25 m ρ c (Proc.devRef .tc b) = W24 m ρ c (Proc.devRef .tc b) :=
  StableHlo.after_of_writes_sub hostOps12 _ hostOps12_writes h
theorem stepH13 (c : Dev nD) (b : Ref sig .tc) (h : b ∉ hostOps13_W) :
    W27 m ρ c (Proc.devRef .tc b) = W26 m ρ c (Proc.devRef .tc b) :=
  StableHlo.after_of_writes_sub hostOps13 _ hostOps13_writes h
theorem stepH14 (c : Dev nD) (b : Ref sig .tc) (h : b ∉ hostOps14_W) :
    W29 m ρ c (Proc.devRef .tc b) = W28 m ρ c (Proc.devRef .tc b) :=
  StableHlo.after_of_writes_sub hostOps14 _ hostOps14_writes h
theorem stepH15 (c : Dev nD) (b : Ref sig .tc) (h : b ∉ hostOps15_W) :
    W31 m ρ c (Proc.devRef .tc b) = W30 m ρ c (Proc.devRef .tc b) :=
  StableHlo.after_of_writes_sub hostOps15 _ hostOps15_writes h
theorem stepH16 (c : Dev nD) (b : Ref sig .tc) (h : b ∉ hostOps16_W) :
    W33 m ρ c (Proc.devRef .tc b) = W32 m ρ c (Proc.devRef .tc b) :=
  StableHlo.after_of_writes_sub hostOps16 _ hostOps16_writes h

/-! ## The arguments end as launched -/

theorem W0_arg0 (c : Dev nD) : W0 m ρ c (Proc.devRef .tc main_arg0) = m ((c : Thread nD τ).loc main_arg0) := rfl
theorem W0_arg1 (c : Dev nD) : W0 m ρ c (Proc.devRef .tc main_arg1) = m ((c : Thread nD τ).loc main_arg1) := rfl
theorem W2_arg0 (c : Dev nD) : W2 m ρ c (Proc.devRef .tc main_arg0) = m ((c : Thread nD τ).loc main_arg0) :=
  (W2_of_ne m ρ c main_arg0 (by decide)).trans ((stepH0 m ρ c main_arg0 (by decide)).trans (W0_arg0 m ρ c))
theorem W2_arg1 (c : Dev nD) : W2 m ρ c (Proc.devRef .tc main_arg1) = m ((c : Thread nD τ).loc main_arg1) :=
  (W2_of_ne m ρ c main_arg1 (by decide)).trans ((stepH0 m ρ c main_arg1 (by decide)).trans (W0_arg1 m ρ c))
theorem W4_arg0 (c : Dev nD) : W4 m ρ c (Proc.devRef .tc main_arg0) = m ((c : Thread nD τ).loc main_arg0) :=
  (W4_of_ne m ρ c main_arg0 (by decide)).trans ((stepH1 m ρ c main_arg0 (by decide)).trans (W2_arg0 m ρ c))
theorem W4_arg1 (c : Dev nD) : W4 m ρ c (Proc.devRef .tc main_arg1) = m ((c : Thread nD τ).loc main_arg1) :=
  (W4_of_ne m ρ c main_arg1 (by decide)).trans ((stepH1 m ρ c main_arg1 (by decide)).trans (W2_arg1 m ρ c))
theorem W6_arg0 (c : Dev nD) : W6 m ρ c (Proc.devRef .tc main_arg0) = m ((c : Thread nD τ).loc main_arg0) :=
  (W6_of_ne m ρ c main_arg0 (by decide)).trans ((stepH2 m ρ c main_arg0 (by decide)).trans (W4_arg0 m ρ c))
theorem W6_arg1 (c : Dev nD) : W6 m ρ c (Proc.devRef .tc main_arg1) = m ((c : Thread nD τ).loc main_arg1) :=
  (W6_of_ne m ρ c main_arg1 (by decide)).trans ((stepH2 m ρ c main_arg1 (by decide)).trans (W4_arg1 m ρ c))
theorem W8_arg0 (c : Dev nD) : W8 m ρ c (Proc.devRef .tc main_arg0) = m ((c : Thread nD τ).loc main_arg0) :=
  (W8_of_ne m ρ c main_arg0 (by decide)).trans ((stepH3 m ρ c main_arg0 (by decide)).trans (W6_arg0 m ρ c))
theorem W8_arg1 (c : Dev nD) : W8 m ρ c (Proc.devRef .tc main_arg1) = m ((c : Thread nD τ).loc main_arg1) :=
  (W8_of_ne m ρ c main_arg1 (by decide)).trans ((stepH3 m ρ c main_arg1 (by decide)).trans (W6_arg1 m ρ c))
theorem W10_arg0 (c : Dev nD) : W10 m ρ c (Proc.devRef .tc main_arg0) = m ((c : Thread nD τ).loc main_arg0) :=
  (W10_of_ne m ρ c main_arg0 (by decide)).trans ((stepH4 m ρ c main_arg0 (by decide)).trans (W8_arg0 m ρ c))
theorem W10_arg1 (c : Dev nD) : W10 m ρ c (Proc.devRef .tc main_arg1) = m ((c : Thread nD τ).loc main_arg1) :=
  (W10_of_ne m ρ c main_arg1 (by decide)).trans ((stepH4 m ρ c main_arg1 (by decide)).trans (W8_arg1 m ρ c))
theorem W12_arg0 (c : Dev nD) : W12 m ρ c (Proc.devRef .tc main_arg0) = m ((c : Thread nD τ).loc main_arg0) :=
  (W12_of_ne m ρ c main_arg0 (by decide)).trans ((stepH5 m ρ c main_arg0 (by decide)).trans (W10_arg0 m ρ c))
theorem W12_arg1 (c : Dev nD) : W12 m ρ c (Proc.devRef .tc main_arg1) = m ((c : Thread nD τ).loc main_arg1) :=
  (W12_of_ne m ρ c main_arg1 (by decide)).trans ((stepH5 m ρ c main_arg1 (by decide)).trans (W10_arg1 m ρ c))
theorem W14_arg0 (c : Dev nD) : W14 m ρ c (Proc.devRef .tc main_arg0) = m ((c : Thread nD τ).loc main_arg0) :=
  (W14_of_ne m ρ c main_arg0 (by decide)).trans ((stepH6 m ρ c main_arg0 (by decide)).trans (W12_arg0 m ρ c))
theorem W14_arg1 (c : Dev nD) : W14 m ρ c (Proc.devRef .tc main_arg1) = m ((c : Thread nD τ).loc main_arg1) :=
  (W14_of_ne m ρ c main_arg1 (by decide)).trans ((stepH6 m ρ c main_arg1 (by decide)).trans (W12_arg1 m ρ c))
theorem W16_arg0 (c : Dev nD) : W16 m ρ c (Proc.devRef .tc main_arg0) = m ((c : Thread nD τ).loc main_arg0) :=
  (W16_of_ne m ρ c main_arg0 (by decide)).trans ((stepH7 m ρ c main_arg0 (by decide)).trans (W14_arg0 m ρ c))
theorem W16_arg1 (c : Dev nD) : W16 m ρ c (Proc.devRef .tc main_arg1) = m ((c : Thread nD τ).loc main_arg1) :=
  (W16_of_ne m ρ c main_arg1 (by decide)).trans ((stepH7 m ρ c main_arg1 (by decide)).trans (W14_arg1 m ρ c))
theorem W18_arg0 (c : Dev nD) : W18 m ρ c (Proc.devRef .tc main_arg0) = m ((c : Thread nD τ).loc main_arg0) :=
  (W18_of_ne m ρ c main_arg0 (by decide)).trans ((stepH8 m ρ c main_arg0 (by decide)).trans (W16_arg0 m ρ c))
theorem W18_arg1 (c : Dev nD) : W18 m ρ c (Proc.devRef .tc main_arg1) = m ((c : Thread nD τ).loc main_arg1) :=
  (W18_of_ne m ρ c main_arg1 (by decide)).trans ((stepH8 m ρ c main_arg1 (by decide)).trans (W16_arg1 m ρ c))
theorem W20_arg0 (c : Dev nD) : W20 m ρ c (Proc.devRef .tc main_arg0) = m ((c : Thread nD τ).loc main_arg0) :=
  (W20_of_ne m ρ c main_arg0 (by decide)).trans ((stepH9 m ρ c main_arg0 (by decide)).trans (W18_arg0 m ρ c))
theorem W20_arg1 (c : Dev nD) : W20 m ρ c (Proc.devRef .tc main_arg1) = m ((c : Thread nD τ).loc main_arg1) :=
  (W20_of_ne m ρ c main_arg1 (by decide)).trans ((stepH9 m ρ c main_arg1 (by decide)).trans (W18_arg1 m ρ c))
theorem W22_arg0 (c : Dev nD) : W22 m ρ c (Proc.devRef .tc main_arg0) = m ((c : Thread nD τ).loc main_arg0) :=
  (W22_of_ne m ρ c main_arg0 (by decide)).trans ((stepH10 m ρ c main_arg0 (by decide)).trans (W20_arg0 m ρ c))
theorem W22_arg1 (c : Dev nD) : W22 m ρ c (Proc.devRef .tc main_arg1) = m ((c : Thread nD τ).loc main_arg1) :=
  (W22_of_ne m ρ c main_arg1 (by decide)).trans ((stepH10 m ρ c main_arg1 (by decide)).trans (W20_arg1 m ρ c))
theorem W24_arg0 (c : Dev nD) : W24 m ρ c (Proc.devRef .tc main_arg0) = m ((c : Thread nD τ).loc main_arg0) :=
  (W24_of_ne m ρ c main_arg0 (by decide)).trans ((stepH11 m ρ c main_arg0 (by decide)).trans (W22_arg0 m ρ c))
theorem W24_arg1 (c : Dev nD) : W24 m ρ c (Proc.devRef .tc main_arg1) = m ((c : Thread nD τ).loc main_arg1) :=
  (W24_of_ne m ρ c main_arg1 (by decide)).trans ((stepH11 m ρ c main_arg1 (by decide)).trans (W22_arg1 m ρ c))
theorem W26_arg0 (c : Dev nD) : W26 m ρ c (Proc.devRef .tc main_arg0) = m ((c : Thread nD τ).loc main_arg0) :=
  (W26_of_ne m ρ c main_arg0 (by decide)).trans ((stepH12 m ρ c main_arg0 (by decide)).trans (W24_arg0 m ρ c))
theorem W26_arg1 (c : Dev nD) : W26 m ρ c (Proc.devRef .tc main_arg1) = m ((c : Thread nD τ).loc main_arg1) :=
  (W26_of_ne m ρ c main_arg1 (by decide)).trans ((stepH12 m ρ c main_arg1 (by decide)).trans (W24_arg1 m ρ c))
theorem W28_arg0 (c : Dev nD) : W28 m ρ c (Proc.devRef .tc main_arg0) = m ((c : Thread nD τ).loc main_arg0) :=
  (W28_of_ne m ρ c main_arg0 (by decide)).trans ((stepH13 m ρ c main_arg0 (by decide)).trans (W26_arg0 m ρ c))
theorem W28_arg1 (c : Dev nD) : W28 m ρ c (Proc.devRef .tc main_arg1) = m ((c : Thread nD τ).loc main_arg1) :=
  (W28_of_ne m ρ c main_arg1 (by decide)).trans ((stepH13 m ρ c main_arg1 (by decide)).trans (W26_arg1 m ρ c))
theorem W30_arg0 (c : Dev nD) : W30 m ρ c (Proc.devRef .tc main_arg0) = m ((c : Thread nD τ).loc main_arg0) :=
  (W30_of_ne m ρ c main_arg0 (by decide)).trans ((stepH14 m ρ c main_arg0 (by decide)).trans (W28_arg0 m ρ c))
theorem W30_arg1 (c : Dev nD) : W30 m ρ c (Proc.devRef .tc main_arg1) = m ((c : Thread nD τ).loc main_arg1) :=
  (W30_of_ne m ρ c main_arg1 (by decide)).trans ((stepH14 m ρ c main_arg1 (by decide)).trans (W28_arg1 m ρ c))
theorem W32_arg0 (c : Dev nD) : W32 m ρ c (Proc.devRef .tc main_arg0) = m ((c : Thread nD τ).loc main_arg0) :=
  (W32_of_ne m ρ c main_arg0 (by decide)).trans ((stepH15 m ρ c main_arg0 (by decide)).trans (W30_arg0 m ρ c))
theorem W32_arg1 (c : Dev nD) : W32 m ρ c (Proc.devRef .tc main_arg1) = m ((c : Thread nD τ).loc main_arg1) :=
  (W32_of_ne m ρ c main_arg1 (by decide)).trans ((stepH15 m ρ c main_arg1 (by decide)).trans (W30_arg1 m ρ c))
theorem W33_arg0 (c : Dev nD) : W33 m ρ c (Proc.devRef .tc main_arg0) = m ((c : Thread nD τ).loc main_arg0) :=
  (stepH16 m ρ c main_arg0 (by decide)).trans (W32_arg0 m ρ c)
theorem W33_arg1 (c : Dev nD) : W33 m ρ c (Proc.devRef .tc main_arg1) = m ((c : Thread nD τ).loc main_arg1) :=
  (stepH16 m ρ c main_arg1 (by decide)).trans (W32_arg1 m ρ c)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W33_arg0 m ρ c),
     (h c _ (mem_uc main_arg1 (by decide))).trans (W33_arg1 m ρ c)⟩) (run_all m ρ)

/-! ## What each call is entered with, and what it leaves, in terms of the arguments -/

theorem in0_0 (c : Dev nD) : V1 m ρ c main_v1 = extractStridedSlice S4x32768 ![0, 0] (m ((c : Thread nD τ).loc main_arg0)) slices_S64x32768_S4x32768_0_0 := by
  show StableHlo.after hostOps0 (W0 m ρ c) (Proc.devRef .tc main_v1) = _
  rw [← W0_arg0 m ρ c]
  after_results
theorem in0_1 (c : Dev nD) : V1 m ρ c main_v0 = extractStridedSlice S4x28x32768 ![0, 0, 0] (m ((c : Thread nD τ).loc main_arg1)) slices_S64x28x32768_S4x28x32768_0_0_0 := by
  show StableHlo.after hostOps0 (W0 m ρ c) (Proc.devRef .tc main_v0) = _
  rw [← W0_arg1 m ρ c]
  after_results
theorem out_end0 (c : Dev nD) : W32 m ρ c (Proc.devRef .tc main_v2)
    = out0_2 (extractStridedSlice S4x32768 ![0, 0] (m ((c : Thread nD τ).loc main_arg0)) slices_S64x32768_S4x32768_0_0)
        (extractStridedSlice S4x28x32768 ![0, 0, 0] (m ((c : Thread nD τ).loc main_arg1)) slices_S64x28x32768_S4x28x32768_0_0_0) :=
  (W32_of_ne m ρ c main_v2 (by decide)).trans <| (stepH15 m ρ c main_v2 (by decide)).trans <|
  (W30_of_ne m ρ c main_v2 (by decide)).trans <| (stepH14 m ρ c main_v2 (by decide)).trans <|
  (W28_of_ne m ρ c main_v2 (by decide)).trans <| (stepH13 m ρ c main_v2 (by decide)).trans <|
  (W26_of_ne m ρ c main_v2 (by decide)).trans <| (stepH12 m ρ c main_v2 (by decide)).trans <|
  (W24_of_ne m ρ c main_v2 (by decide)).trans <| (stepH11 m ρ c main_v2 (by decide)).trans <|
  (W22_of_ne m ρ c main_v2 (by decide)).trans <| (stepH10 m ρ c main_v2 (by decide)).trans <|
  (W20_of_ne m ρ c main_v2 (by decide)).trans <| (stepH9 m ρ c main_v2 (by decide)).trans <|
  (W18_of_ne m ρ c main_v2 (by decide)).trans <| (stepH8 m ρ c main_v2 (by decide)).trans <|
  (W16_of_ne m ρ c main_v2 (by decide)).trans <| (stepH7 m ρ c main_v2 (by decide)).trans <|
  (W14_of_ne m ρ c main_v2 (by decide)).trans <| (stepH6 m ρ c main_v2 (by decide)).trans <|
  (W12_of_ne m ρ c main_v2 (by decide)).trans <| (stepH5 m ρ c main_v2 (by decide)).trans <|
  (W10_of_ne m ρ c main_v2 (by decide)).trans <| (stepH4 m ρ c main_v2 (by decide)).trans <|
  (W8_of_ne m ρ c main_v2 (by decide)).trans <| (stepH3 m ρ c main_v2 (by decide)).trans <|
  (W6_of_ne m ρ c main_v2 (by decide)).trans <| (stepH2 m ρ c main_v2 (by decide)).trans <|
  (W4_of_ne m ρ c main_v2 (by decide)).trans <| (stepH1 m ρ c main_v2 (by decide)).trans <|
  (W2_arr m ρ c 2).trans <| (final0 (V1 m ρ) c).trans (by rw [in0_0, in0_1])

theorem in1_0 (c : Dev nD) : V3 m ρ c main_v4 = extractStridedSlice S4x32768 ![4, 0] (m ((c : Thread nD τ).loc main_arg0)) slices_S64x32768_S4x32768_4_0 := by
  show StableHlo.after hostOps1 (W2 m ρ c) (Proc.devRef .tc main_v4) = _
  rw [← W2_arg0 m ρ c]
  after_results
theorem in1_1 (c : Dev nD) : V3 m ρ c main_v3 = extractStridedSlice S4x28x32768 ![4, 0, 0] (m ((c : Thread nD τ).loc main_arg1)) slices_S64x28x32768_S4x28x32768_4_0_0 := by
  show StableHlo.after hostOps1 (W2 m ρ c) (Proc.devRef .tc main_v3) = _
  rw [← W2_arg1 m ρ c]
  after_results
theorem out_end1 (c : Dev nD) : W32 m ρ c (Proc.devRef .tc main_v5)
    = out1_2 (extractStridedSlice S4x32768 ![4, 0] (m ((c : Thread nD τ).loc main_arg0)) slices_S64x32768_S4x32768_4_0)
        (extractStridedSlice S4x28x32768 ![4, 0, 0] (m ((c : Thread nD τ).loc main_arg1)) slices_S64x28x32768_S4x28x32768_4_0_0) :=
  (W32_of_ne m ρ c main_v5 (by decide)).trans <| (stepH15 m ρ c main_v5 (by decide)).trans <|
  (W30_of_ne m ρ c main_v5 (by decide)).trans <| (stepH14 m ρ c main_v5 (by decide)).trans <|
  (W28_of_ne m ρ c main_v5 (by decide)).trans <| (stepH13 m ρ c main_v5 (by decide)).trans <|
  (W26_of_ne m ρ c main_v5 (by decide)).trans <| (stepH12 m ρ c main_v5 (by decide)).trans <|
  (W24_of_ne m ρ c main_v5 (by decide)).trans <| (stepH11 m ρ c main_v5 (by decide)).trans <|
  (W22_of_ne m ρ c main_v5 (by decide)).trans <| (stepH10 m ρ c main_v5 (by decide)).trans <|
  (W20_of_ne m ρ c main_v5 (by decide)).trans <| (stepH9 m ρ c main_v5 (by decide)).trans <|
  (W18_of_ne m ρ c main_v5 (by decide)).trans <| (stepH8 m ρ c main_v5 (by decide)).trans <|
  (W16_of_ne m ρ c main_v5 (by decide)).trans <| (stepH7 m ρ c main_v5 (by decide)).trans <|
  (W14_of_ne m ρ c main_v5 (by decide)).trans <| (stepH6 m ρ c main_v5 (by decide)).trans <|
  (W12_of_ne m ρ c main_v5 (by decide)).trans <| (stepH5 m ρ c main_v5 (by decide)).trans <|
  (W10_of_ne m ρ c main_v5 (by decide)).trans <| (stepH4 m ρ c main_v5 (by decide)).trans <|
  (W8_of_ne m ρ c main_v5 (by decide)).trans <| (stepH3 m ρ c main_v5 (by decide)).trans <|
  (W6_of_ne m ρ c main_v5 (by decide)).trans <| (stepH2 m ρ c main_v5 (by decide)).trans <|
  (W4_arr m ρ c 2).trans <| (final1 (V3 m ρ) c).trans (by rw [in1_0, in1_1])

theorem in2_0 (c : Dev nD) : V5 m ρ c main_v7 = extractStridedSlice S4x32768 ![8, 0] (m ((c : Thread nD τ).loc main_arg0)) slices_S64x32768_S4x32768_8_0 := by
  show StableHlo.after hostOps2 (W4 m ρ c) (Proc.devRef .tc main_v7) = _
  rw [← W4_arg0 m ρ c]
  after_results
theorem in2_1 (c : Dev nD) : V5 m ρ c main_v6 = extractStridedSlice S4x28x32768 ![8, 0, 0] (m ((c : Thread nD τ).loc main_arg1)) slices_S64x28x32768_S4x28x32768_8_0_0 := by
  show StableHlo.after hostOps2 (W4 m ρ c) (Proc.devRef .tc main_v6) = _
  rw [← W4_arg1 m ρ c]
  after_results
theorem out_end2 (c : Dev nD) : W32 m ρ c (Proc.devRef .tc main_v8)
    = out2_2 (extractStridedSlice S4x32768 ![8, 0] (m ((c : Thread nD τ).loc main_arg0)) slices_S64x32768_S4x32768_8_0)
        (extractStridedSlice S4x28x32768 ![8, 0, 0] (m ((c : Thread nD τ).loc main_arg1)) slices_S64x28x32768_S4x28x32768_8_0_0) :=
  (W32_of_ne m ρ c main_v8 (by decide)).trans <| (stepH15 m ρ c main_v8 (by decide)).trans <|
  (W30_of_ne m ρ c main_v8 (by decide)).trans <| (stepH14 m ρ c main_v8 (by decide)).trans <|
  (W28_of_ne m ρ c main_v8 (by decide)).trans <| (stepH13 m ρ c main_v8 (by decide)).trans <|
  (W26_of_ne m ρ c main_v8 (by decide)).trans <| (stepH12 m ρ c main_v8 (by decide)).trans <|
  (W24_of_ne m ρ c main_v8 (by decide)).trans <| (stepH11 m ρ c main_v8 (by decide)).trans <|
  (W22_of_ne m ρ c main_v8 (by decide)).trans <| (stepH10 m ρ c main_v8 (by decide)).trans <|
  (W20_of_ne m ρ c main_v8 (by decide)).trans <| (stepH9 m ρ c main_v8 (by decide)).trans <|
  (W18_of_ne m ρ c main_v8 (by decide)).trans <| (stepH8 m ρ c main_v8 (by decide)).trans <|
  (W16_of_ne m ρ c main_v8 (by decide)).trans <| (stepH7 m ρ c main_v8 (by decide)).trans <|
  (W14_of_ne m ρ c main_v8 (by decide)).trans <| (stepH6 m ρ c main_v8 (by decide)).trans <|
  (W12_of_ne m ρ c main_v8 (by decide)).trans <| (stepH5 m ρ c main_v8 (by decide)).trans <|
  (W10_of_ne m ρ c main_v8 (by decide)).trans <| (stepH4 m ρ c main_v8 (by decide)).trans <|
  (W8_of_ne m ρ c main_v8 (by decide)).trans <| (stepH3 m ρ c main_v8 (by decide)).trans <|
  (W6_arr m ρ c 2).trans <| (final2 (V5 m ρ) c).trans (by rw [in2_0, in2_1])

theorem in3_0 (c : Dev nD) : V7 m ρ c main_v10 = extractStridedSlice S4x32768 ![12, 0] (m ((c : Thread nD τ).loc main_arg0)) slices_S64x32768_S4x32768_12_0 := by
  show StableHlo.after hostOps3 (W6 m ρ c) (Proc.devRef .tc main_v10) = _
  rw [← W6_arg0 m ρ c]
  after_results
theorem in3_1 (c : Dev nD) : V7 m ρ c main_v9 = extractStridedSlice S4x28x32768 ![12, 0, 0] (m ((c : Thread nD τ).loc main_arg1)) slices_S64x28x32768_S4x28x32768_12_0_0 := by
  show StableHlo.after hostOps3 (W6 m ρ c) (Proc.devRef .tc main_v9) = _
  rw [← W6_arg1 m ρ c]
  after_results
theorem out_end3 (c : Dev nD) : W32 m ρ c (Proc.devRef .tc main_v11)
    = out3_2 (extractStridedSlice S4x32768 ![12, 0] (m ((c : Thread nD τ).loc main_arg0)) slices_S64x32768_S4x32768_12_0)
        (extractStridedSlice S4x28x32768 ![12, 0, 0] (m ((c : Thread nD τ).loc main_arg1)) slices_S64x28x32768_S4x28x32768_12_0_0) :=
  (W32_of_ne m ρ c main_v11 (by decide)).trans <| (stepH15 m ρ c main_v11 (by decide)).trans <|
  (W30_of_ne m ρ c main_v11 (by decide)).trans <| (stepH14 m ρ c main_v11 (by decide)).trans <|
  (W28_of_ne m ρ c main_v11 (by decide)).trans <| (stepH13 m ρ c main_v11 (by decide)).trans <|
  (W26_of_ne m ρ c main_v11 (by decide)).trans <| (stepH12 m ρ c main_v11 (by decide)).trans <|
  (W24_of_ne m ρ c main_v11 (by decide)).trans <| (stepH11 m ρ c main_v11 (by decide)).trans <|
  (W22_of_ne m ρ c main_v11 (by decide)).trans <| (stepH10 m ρ c main_v11 (by decide)).trans <|
  (W20_of_ne m ρ c main_v11 (by decide)).trans <| (stepH9 m ρ c main_v11 (by decide)).trans <|
  (W18_of_ne m ρ c main_v11 (by decide)).trans <| (stepH8 m ρ c main_v11 (by decide)).trans <|
  (W16_of_ne m ρ c main_v11 (by decide)).trans <| (stepH7 m ρ c main_v11 (by decide)).trans <|
  (W14_of_ne m ρ c main_v11 (by decide)).trans <| (stepH6 m ρ c main_v11 (by decide)).trans <|
  (W12_of_ne m ρ c main_v11 (by decide)).trans <| (stepH5 m ρ c main_v11 (by decide)).trans <|
  (W10_of_ne m ρ c main_v11 (by decide)).trans <| (stepH4 m ρ c main_v11 (by decide)).trans <|
  (W8_arr m ρ c 2).trans <| (final3 (V7 m ρ) c).trans (by rw [in3_0, in3_1])

theorem in4_0 (c : Dev nD) : V9 m ρ c main_v13 = extractStridedSlice S4x32768 ![16, 0] (m ((c : Thread nD τ).loc main_arg0)) slices_S64x32768_S4x32768_16_0 := by
  show StableHlo.after hostOps4 (W8 m ρ c) (Proc.devRef .tc main_v13) = _
  rw [← W8_arg0 m ρ c]
  after_results
theorem in4_1 (c : Dev nD) : V9 m ρ c main_v12 = extractStridedSlice S4x28x32768 ![16, 0, 0] (m ((c : Thread nD τ).loc main_arg1)) slices_S64x28x32768_S4x28x32768_16_0_0 := by
  show StableHlo.after hostOps4 (W8 m ρ c) (Proc.devRef .tc main_v12) = _
  rw [← W8_arg1 m ρ c]
  after_results
theorem out_end4 (c : Dev nD) : W32 m ρ c (Proc.devRef .tc main_v14)
    = out4_2 (extractStridedSlice S4x32768 ![16, 0] (m ((c : Thread nD τ).loc main_arg0)) slices_S64x32768_S4x32768_16_0)
        (extractStridedSlice S4x28x32768 ![16, 0, 0] (m ((c : Thread nD τ).loc main_arg1)) slices_S64x28x32768_S4x28x32768_16_0_0) :=
  (W32_of_ne m ρ c main_v14 (by decide)).trans <| (stepH15 m ρ c main_v14 (by decide)).trans <|
  (W30_of_ne m ρ c main_v14 (by decide)).trans <| (stepH14 m ρ c main_v14 (by decide)).trans <|
  (W28_of_ne m ρ c main_v14 (by decide)).trans <| (stepH13 m ρ c main_v14 (by decide)).trans <|
  (W26_of_ne m ρ c main_v14 (by decide)).trans <| (stepH12 m ρ c main_v14 (by decide)).trans <|
  (W24_of_ne m ρ c main_v14 (by decide)).trans <| (stepH11 m ρ c main_v14 (by decide)).trans <|
  (W22_of_ne m ρ c main_v14 (by decide)).trans <| (stepH10 m ρ c main_v14 (by decide)).trans <|
  (W20_of_ne m ρ c main_v14 (by decide)).trans <| (stepH9 m ρ c main_v14 (by decide)).trans <|
  (W18_of_ne m ρ c main_v14 (by decide)).trans <| (stepH8 m ρ c main_v14 (by decide)).trans <|
  (W16_of_ne m ρ c main_v14 (by decide)).trans <| (stepH7 m ρ c main_v14 (by decide)).trans <|
  (W14_of_ne m ρ c main_v14 (by decide)).trans <| (stepH6 m ρ c main_v14 (by decide)).trans <|
  (W12_of_ne m ρ c main_v14 (by decide)).trans <| (stepH5 m ρ c main_v14 (by decide)).trans <|
  (W10_arr m ρ c 2).trans <| (final4 (V9 m ρ) c).trans (by rw [in4_0, in4_1])

theorem in5_0 (c : Dev nD) : V11 m ρ c main_v16 = extractStridedSlice S4x32768 ![20, 0] (m ((c : Thread nD τ).loc main_arg0)) slices_S64x32768_S4x32768_20_0 := by
  show StableHlo.after hostOps5 (W10 m ρ c) (Proc.devRef .tc main_v16) = _
  rw [← W10_arg0 m ρ c]
  after_results
theorem in5_1 (c : Dev nD) : V11 m ρ c main_v15 = extractStridedSlice S4x28x32768 ![20, 0, 0] (m ((c : Thread nD τ).loc main_arg1)) slices_S64x28x32768_S4x28x32768_20_0_0 := by
  show StableHlo.after hostOps5 (W10 m ρ c) (Proc.devRef .tc main_v15) = _
  rw [← W10_arg1 m ρ c]
  after_results
theorem out_end5 (c : Dev nD) : W32 m ρ c (Proc.devRef .tc main_v17)
    = out5_2 (extractStridedSlice S4x32768 ![20, 0] (m ((c : Thread nD τ).loc main_arg0)) slices_S64x32768_S4x32768_20_0)
        (extractStridedSlice S4x28x32768 ![20, 0, 0] (m ((c : Thread nD τ).loc main_arg1)) slices_S64x28x32768_S4x28x32768_20_0_0) :=
  (W32_of_ne m ρ c main_v17 (by decide)).trans <| (stepH15 m ρ c main_v17 (by decide)).trans <|
  (W30_of_ne m ρ c main_v17 (by decide)).trans <| (stepH14 m ρ c main_v17 (by decide)).trans <|
  (W28_of_ne m ρ c main_v17 (by decide)).trans <| (stepH13 m ρ c main_v17 (by decide)).trans <|
  (W26_of_ne m ρ c main_v17 (by decide)).trans <| (stepH12 m ρ c main_v17 (by decide)).trans <|
  (W24_of_ne m ρ c main_v17 (by decide)).trans <| (stepH11 m ρ c main_v17 (by decide)).trans <|
  (W22_of_ne m ρ c main_v17 (by decide)).trans <| (stepH10 m ρ c main_v17 (by decide)).trans <|
  (W20_of_ne m ρ c main_v17 (by decide)).trans <| (stepH9 m ρ c main_v17 (by decide)).trans <|
  (W18_of_ne m ρ c main_v17 (by decide)).trans <| (stepH8 m ρ c main_v17 (by decide)).trans <|
  (W16_of_ne m ρ c main_v17 (by decide)).trans <| (stepH7 m ρ c main_v17 (by decide)).trans <|
  (W14_of_ne m ρ c main_v17 (by decide)).trans <| (stepH6 m ρ c main_v17 (by decide)).trans <|
  (W12_arr m ρ c 2).trans <| (final5 (V11 m ρ) c).trans (by rw [in5_0, in5_1])

theorem in6_0 (c : Dev nD) : V13 m ρ c main_v19 = extractStridedSlice S4x32768 ![24, 0] (m ((c : Thread nD τ).loc main_arg0)) slices_S64x32768_S4x32768_24_0 := by
  show StableHlo.after hostOps6 (W12 m ρ c) (Proc.devRef .tc main_v19) = _
  rw [← W12_arg0 m ρ c]
  after_results
theorem in6_1 (c : Dev nD) : V13 m ρ c main_v18 = extractStridedSlice S4x28x32768 ![24, 0, 0] (m ((c : Thread nD τ).loc main_arg1)) slices_S64x28x32768_S4x28x32768_24_0_0 := by
  show StableHlo.after hostOps6 (W12 m ρ c) (Proc.devRef .tc main_v18) = _
  rw [← W12_arg1 m ρ c]
  after_results
theorem out_end6 (c : Dev nD) : W32 m ρ c (Proc.devRef .tc main_v20)
    = out6_2 (extractStridedSlice S4x32768 ![24, 0] (m ((c : Thread nD τ).loc main_arg0)) slices_S64x32768_S4x32768_24_0)
        (extractStridedSlice S4x28x32768 ![24, 0, 0] (m ((c : Thread nD τ).loc main_arg1)) slices_S64x28x32768_S4x28x32768_24_0_0) :=
  (W32_of_ne m ρ c main_v20 (by decide)).trans <| (stepH15 m ρ c main_v20 (by decide)).trans <|
  (W30_of_ne m ρ c main_v20 (by decide)).trans <| (stepH14 m ρ c main_v20 (by decide)).trans <|
  (W28_of_ne m ρ c main_v20 (by decide)).trans <| (stepH13 m ρ c main_v20 (by decide)).trans <|
  (W26_of_ne m ρ c main_v20 (by decide)).trans <| (stepH12 m ρ c main_v20 (by decide)).trans <|
  (W24_of_ne m ρ c main_v20 (by decide)).trans <| (stepH11 m ρ c main_v20 (by decide)).trans <|
  (W22_of_ne m ρ c main_v20 (by decide)).trans <| (stepH10 m ρ c main_v20 (by decide)).trans <|
  (W20_of_ne m ρ c main_v20 (by decide)).trans <| (stepH9 m ρ c main_v20 (by decide)).trans <|
  (W18_of_ne m ρ c main_v20 (by decide)).trans <| (stepH8 m ρ c main_v20 (by decide)).trans <|
  (W16_of_ne m ρ c main_v20 (by decide)).trans <| (stepH7 m ρ c main_v20 (by decide)).trans <|
  (W14_arr m ρ c 2).trans <| (final6 (V13 m ρ) c).trans (by rw [in6_0, in6_1])

theorem in7_0 (c : Dev nD) : V15 m ρ c main_v22 = extractStridedSlice S4x32768 ![28, 0] (m ((c : Thread nD τ).loc main_arg0)) slices_S64x32768_S4x32768_28_0 := by
  show StableHlo.after hostOps7 (W14 m ρ c) (Proc.devRef .tc main_v22) = _
  rw [← W14_arg0 m ρ c]
  after_results
theorem in7_1 (c : Dev nD) : V15 m ρ c main_v21 = extractStridedSlice S4x28x32768 ![28, 0, 0] (m ((c : Thread nD τ).loc main_arg1)) slices_S64x28x32768_S4x28x32768_28_0_0 := by
  show StableHlo.after hostOps7 (W14 m ρ c) (Proc.devRef .tc main_v21) = _
  rw [← W14_arg1 m ρ c]
  after_results
theorem out_end7 (c : Dev nD) : W32 m ρ c (Proc.devRef .tc main_v23)
    = out7_2 (extractStridedSlice S4x32768 ![28, 0] (m ((c : Thread nD τ).loc main_arg0)) slices_S64x32768_S4x32768_28_0)
        (extractStridedSlice S4x28x32768 ![28, 0, 0] (m ((c : Thread nD τ).loc main_arg1)) slices_S64x28x32768_S4x28x32768_28_0_0) :=
  (W32_of_ne m ρ c main_v23 (by decide)).trans <| (stepH15 m ρ c main_v23 (by decide)).trans <|
  (W30_of_ne m ρ c main_v23 (by decide)).trans <| (stepH14 m ρ c main_v23 (by decide)).trans <|
  (W28_of_ne m ρ c main_v23 (by decide)).trans <| (stepH13 m ρ c main_v23 (by decide)).trans <|
  (W26_of_ne m ρ c main_v23 (by decide)).trans <| (stepH12 m ρ c main_v23 (by decide)).trans <|
  (W24_of_ne m ρ c main_v23 (by decide)).trans <| (stepH11 m ρ c main_v23 (by decide)).trans <|
  (W22_of_ne m ρ c main_v23 (by decide)).trans <| (stepH10 m ρ c main_v23 (by decide)).trans <|
  (W20_of_ne m ρ c main_v23 (by decide)).trans <| (stepH9 m ρ c main_v23 (by decide)).trans <|
  (W18_of_ne m ρ c main_v23 (by decide)).trans <| (stepH8 m ρ c main_v23 (by decide)).trans <|
  (W16_arr m ρ c 2).trans <| (final7 (V15 m ρ) c).trans (by rw [in7_0, in7_1])

theorem in8_0 (c : Dev nD) : V17 m ρ c main_v25 = extractStridedSlice S4x32768 ![32, 0] (m ((c : Thread nD τ).loc main_arg0)) slices_S64x32768_S4x32768_32_0 := by
  show StableHlo.after hostOps8 (W16 m ρ c) (Proc.devRef .tc main_v25) = _
  rw [← W16_arg0 m ρ c]
  after_results
theorem in8_1 (c : Dev nD) : V17 m ρ c main_v24 = extractStridedSlice S4x28x32768 ![32, 0, 0] (m ((c : Thread nD τ).loc main_arg1)) slices_S64x28x32768_S4x28x32768_32_0_0 := by
  show StableHlo.after hostOps8 (W16 m ρ c) (Proc.devRef .tc main_v24) = _
  rw [← W16_arg1 m ρ c]
  after_results
theorem out_end8 (c : Dev nD) : W32 m ρ c (Proc.devRef .tc main_v26)
    = out8_2 (extractStridedSlice S4x32768 ![32, 0] (m ((c : Thread nD τ).loc main_arg0)) slices_S64x32768_S4x32768_32_0)
        (extractStridedSlice S4x28x32768 ![32, 0, 0] (m ((c : Thread nD τ).loc main_arg1)) slices_S64x28x32768_S4x28x32768_32_0_0) :=
  (W32_of_ne m ρ c main_v26 (by decide)).trans <| (stepH15 m ρ c main_v26 (by decide)).trans <|
  (W30_of_ne m ρ c main_v26 (by decide)).trans <| (stepH14 m ρ c main_v26 (by decide)).trans <|
  (W28_of_ne m ρ c main_v26 (by decide)).trans <| (stepH13 m ρ c main_v26 (by decide)).trans <|
  (W26_of_ne m ρ c main_v26 (by decide)).trans <| (stepH12 m ρ c main_v26 (by decide)).trans <|
  (W24_of_ne m ρ c main_v26 (by decide)).trans <| (stepH11 m ρ c main_v26 (by decide)).trans <|
  (W22_of_ne m ρ c main_v26 (by decide)).trans <| (stepH10 m ρ c main_v26 (by decide)).trans <|
  (W20_of_ne m ρ c main_v26 (by decide)).trans <| (stepH9 m ρ c main_v26 (by decide)).trans <|
  (W18_arr m ρ c 2).trans <| (final8 (V17 m ρ) c).trans (by rw [in8_0, in8_1])

theorem in9_0 (c : Dev nD) : V19 m ρ c main_v28 = extractStridedSlice S4x32768 ![36, 0] (m ((c : Thread nD τ).loc main_arg0)) slices_S64x32768_S4x32768_36_0 := by
  show StableHlo.after hostOps9 (W18 m ρ c) (Proc.devRef .tc main_v28) = _
  rw [← W18_arg0 m ρ c]
  after_results
theorem in9_1 (c : Dev nD) : V19 m ρ c main_v27 = extractStridedSlice S4x28x32768 ![36, 0, 0] (m ((c : Thread nD τ).loc main_arg1)) slices_S64x28x32768_S4x28x32768_36_0_0 := by
  show StableHlo.after hostOps9 (W18 m ρ c) (Proc.devRef .tc main_v27) = _
  rw [← W18_arg1 m ρ c]
  after_results
theorem out_end9 (c : Dev nD) : W32 m ρ c (Proc.devRef .tc main_v29)
    = out9_2 (extractStridedSlice S4x32768 ![36, 0] (m ((c : Thread nD τ).loc main_arg0)) slices_S64x32768_S4x32768_36_0)
        (extractStridedSlice S4x28x32768 ![36, 0, 0] (m ((c : Thread nD τ).loc main_arg1)) slices_S64x28x32768_S4x28x32768_36_0_0) :=
  (W32_of_ne m ρ c main_v29 (by decide)).trans <| (stepH15 m ρ c main_v29 (by decide)).trans <|
  (W30_of_ne m ρ c main_v29 (by decide)).trans <| (stepH14 m ρ c main_v29 (by decide)).trans <|
  (W28_of_ne m ρ c main_v29 (by decide)).trans <| (stepH13 m ρ c main_v29 (by decide)).trans <|
  (W26_of_ne m ρ c main_v29 (by decide)).trans <| (stepH12 m ρ c main_v29 (by decide)).trans <|
  (W24_of_ne m ρ c main_v29 (by decide)).trans <| (stepH11 m ρ c main_v29 (by decide)).trans <|
  (W22_of_ne m ρ c main_v29 (by decide)).trans <| (stepH10 m ρ c main_v29 (by decide)).trans <|
  (W20_arr m ρ c 2).trans <| (final9 (V19 m ρ) c).trans (by rw [in9_0, in9_1])

theorem in10_0 (c : Dev nD) : V21 m ρ c main_v31 = extractStridedSlice S4x32768 ![40, 0] (m ((c : Thread nD τ).loc main_arg0)) slices_S64x32768_S4x32768_40_0 := by
  show StableHlo.after hostOps10 (W20 m ρ c) (Proc.devRef .tc main_v31) = _
  rw [← W20_arg0 m ρ c]
  after_results
theorem in10_1 (c : Dev nD) : V21 m ρ c main_v30 = extractStridedSlice S4x28x32768 ![40, 0, 0] (m ((c : Thread nD τ).loc main_arg1)) slices_S64x28x32768_S4x28x32768_40_0_0 := by
  show StableHlo.after hostOps10 (W20 m ρ c) (Proc.devRef .tc main_v30) = _
  rw [← W20_arg1 m ρ c]
  after_results
theorem out_end10 (c : Dev nD) : W32 m ρ c (Proc.devRef .tc main_v32)
    = out10_2 (extractStridedSlice S4x32768 ![40, 0] (m ((c : Thread nD τ).loc main_arg0)) slices_S64x32768_S4x32768_40_0)
        (extractStridedSlice S4x28x32768 ![40, 0, 0] (m ((c : Thread nD τ).loc main_arg1)) slices_S64x28x32768_S4x28x32768_40_0_0) :=
  (W32_of_ne m ρ c main_v32 (by decide)).trans <| (stepH15 m ρ c main_v32 (by decide)).trans <|
  (W30_of_ne m ρ c main_v32 (by decide)).trans <| (stepH14 m ρ c main_v32 (by decide)).trans <|
  (W28_of_ne m ρ c main_v32 (by decide)).trans <| (stepH13 m ρ c main_v32 (by decide)).trans <|
  (W26_of_ne m ρ c main_v32 (by decide)).trans <| (stepH12 m ρ c main_v32 (by decide)).trans <|
  (W24_of_ne m ρ c main_v32 (by decide)).trans <| (stepH11 m ρ c main_v32 (by decide)).trans <|
  (W22_arr m ρ c 2).trans <| (final10 (V21 m ρ) c).trans (by rw [in10_0, in10_1])

theorem in11_0 (c : Dev nD) : V23 m ρ c main_v34 = extractStridedSlice S4x32768 ![44, 0] (m ((c : Thread nD τ).loc main_arg0)) slices_S64x32768_S4x32768_44_0 := by
  show StableHlo.after hostOps11 (W22 m ρ c) (Proc.devRef .tc main_v34) = _
  rw [← W22_arg0 m ρ c]
  after_results
theorem in11_1 (c : Dev nD) : V23 m ρ c main_v33 = extractStridedSlice S4x28x32768 ![44, 0, 0] (m ((c : Thread nD τ).loc main_arg1)) slices_S64x28x32768_S4x28x32768_44_0_0 := by
  show StableHlo.after hostOps11 (W22 m ρ c) (Proc.devRef .tc main_v33) = _
  rw [← W22_arg1 m ρ c]
  after_results
theorem out_end11 (c : Dev nD) : W32 m ρ c (Proc.devRef .tc main_v35)
    = out11_2 (extractStridedSlice S4x32768 ![44, 0] (m ((c : Thread nD τ).loc main_arg0)) slices_S64x32768_S4x32768_44_0)
        (extractStridedSlice S4x28x32768 ![44, 0, 0] (m ((c : Thread nD τ).loc main_arg1)) slices_S64x28x32768_S4x28x32768_44_0_0) :=
  (W32_of_ne m ρ c main_v35 (by decide)).trans <| (stepH15 m ρ c main_v35 (by decide)).trans <|
  (W30_of_ne m ρ c main_v35 (by decide)).trans <| (stepH14 m ρ c main_v35 (by decide)).trans <|
  (W28_of_ne m ρ c main_v35 (by decide)).trans <| (stepH13 m ρ c main_v35 (by decide)).trans <|
  (W26_of_ne m ρ c main_v35 (by decide)).trans <| (stepH12 m ρ c main_v35 (by decide)).trans <|
  (W24_arr m ρ c 2).trans <| (final11 (V23 m ρ) c).trans (by rw [in11_0, in11_1])

theorem in12_0 (c : Dev nD) : V25 m ρ c main_v37 = extractStridedSlice S4x32768 ![48, 0] (m ((c : Thread nD τ).loc main_arg0)) slices_S64x32768_S4x32768_48_0 := by
  show StableHlo.after hostOps12 (W24 m ρ c) (Proc.devRef .tc main_v37) = _
  rw [← W24_arg0 m ρ c]
  after_results
theorem in12_1 (c : Dev nD) : V25 m ρ c main_v36 = extractStridedSlice S4x28x32768 ![48, 0, 0] (m ((c : Thread nD τ).loc main_arg1)) slices_S64x28x32768_S4x28x32768_48_0_0 := by
  show StableHlo.after hostOps12 (W24 m ρ c) (Proc.devRef .tc main_v36) = _
  rw [← W24_arg1 m ρ c]
  after_results
theorem out_end12 (c : Dev nD) : W32 m ρ c (Proc.devRef .tc main_v38)
    = out12_2 (extractStridedSlice S4x32768 ![48, 0] (m ((c : Thread nD τ).loc main_arg0)) slices_S64x32768_S4x32768_48_0)
        (extractStridedSlice S4x28x32768 ![48, 0, 0] (m ((c : Thread nD τ).loc main_arg1)) slices_S64x28x32768_S4x28x32768_48_0_0) :=
  (W32_of_ne m ρ c main_v38 (by decide)).trans <| (stepH15 m ρ c main_v38 (by decide)).trans <|
  (W30_of_ne m ρ c main_v38 (by decide)).trans <| (stepH14 m ρ c main_v38 (by decide)).trans <|
  (W28_of_ne m ρ c main_v38 (by decide)).trans <| (stepH13 m ρ c main_v38 (by decide)).trans <|
  (W26_arr m ρ c 2).trans <| (final12 (V25 m ρ) c).trans (by rw [in12_0, in12_1])

theorem in13_0 (c : Dev nD) : V27 m ρ c main_v40 = extractStridedSlice S4x32768 ![52, 0] (m ((c : Thread nD τ).loc main_arg0)) slices_S64x32768_S4x32768_52_0 := by
  show StableHlo.after hostOps13 (W26 m ρ c) (Proc.devRef .tc main_v40) = _
  rw [← W26_arg0 m ρ c]
  after_results
theorem in13_1 (c : Dev nD) : V27 m ρ c main_v39 = extractStridedSlice S4x28x32768 ![52, 0, 0] (m ((c : Thread nD τ).loc main_arg1)) slices_S64x28x32768_S4x28x32768_52_0_0 := by
  show StableHlo.after hostOps13 (W26 m ρ c) (Proc.devRef .tc main_v39) = _
  rw [← W26_arg1 m ρ c]
  after_results
theorem out_end13 (c : Dev nD) : W32 m ρ c (Proc.devRef .tc main_v41)
    = out13_2 (extractStridedSlice S4x32768 ![52, 0] (m ((c : Thread nD τ).loc main_arg0)) slices_S64x32768_S4x32768_52_0)
        (extractStridedSlice S4x28x32768 ![52, 0, 0] (m ((c : Thread nD τ).loc main_arg1)) slices_S64x28x32768_S4x28x32768_52_0_0) :=
  (W32_of_ne m ρ c main_v41 (by decide)).trans <| (stepH15 m ρ c main_v41 (by decide)).trans <|
  (W30_of_ne m ρ c main_v41 (by decide)).trans <| (stepH14 m ρ c main_v41 (by decide)).trans <|
  (W28_arr m ρ c 2).trans <| (final13 (V27 m ρ) c).trans (by rw [in13_0, in13_1])

theorem in14_0 (c : Dev nD) : V29 m ρ c main_v43 = extractStridedSlice S4x32768 ![56, 0] (m ((c : Thread nD τ).loc main_arg0)) slices_S64x32768_S4x32768_56_0 := by
  show StableHlo.after hostOps14 (W28 m ρ c) (Proc.devRef .tc main_v43) = _
  rw [← W28_arg0 m ρ c]
  after_results
theorem in14_1 (c : Dev nD) : V29 m ρ c main_v42 = extractStridedSlice S4x28x32768 ![56, 0, 0] (m ((c : Thread nD τ).loc main_arg1)) slices_S64x28x32768_S4x28x32768_56_0_0 := by
  show StableHlo.after hostOps14 (W28 m ρ c) (Proc.devRef .tc main_v42) = _
  rw [← W28_arg1 m ρ c]
  after_results
theorem out_end14 (c : Dev nD) : W32 m ρ c (Proc.devRef .tc main_v44)
    = out14_2 (extractStridedSlice S4x32768 ![56, 0] (m ((c : Thread nD τ).loc main_arg0)) slices_S64x32768_S4x32768_56_0)
        (extractStridedSlice S4x28x32768 ![56, 0, 0] (m ((c : Thread nD τ).loc main_arg1)) slices_S64x28x32768_S4x28x32768_56_0_0) :=
  (W32_of_ne m ρ c main_v44 (by decide)).trans <| (stepH15 m ρ c main_v44 (by decide)).trans <|
  (W30_arr m ρ c 2).trans <| (final14 (V29 m ρ) c).trans (by rw [in14_0, in14_1])

theorem in15_0 (c : Dev nD) : V31 m ρ c main_v46 = extractStridedSlice S4x32768 ![60, 0] (m ((c : Thread nD τ).loc main_arg0)) slices_S64x32768_S4x32768_60_0 := by
  show StableHlo.after hostOps15 (W30 m ρ c) (Proc.devRef .tc main_v46) = _
  rw [← W30_arg0 m ρ c]
  after_results
theorem in15_1 (c : Dev nD) : V31 m ρ c main_v45 = extractStridedSlice S4x28x32768 ![60, 0, 0] (m ((c : Thread nD τ).loc main_arg1)) slices_S64x28x32768_S4x28x32768_60_0_0 := by
  show StableHlo.after hostOps15 (W30 m ρ c) (Proc.devRef .tc main_v45) = _
  rw [← W30_arg1 m ρ c]
  after_results
theorem out_end15 (c : Dev nD) : W32 m ρ c (Proc.devRef .tc main_v47)
    = out15_2 (extractStridedSlice S4x32768 ![60, 0] (m ((c : Thread nD τ).loc main_arg0)) slices_S64x32768_S4x32768_60_0)
        (extractStridedSlice S4x28x32768 ![60, 0, 0] (m ((c : Thread nD τ).loc main_arg1)) slices_S64x28x32768_S4x28x32768_60_0_0) :=
  (W32_arr m ρ c 2).trans <| (final15 (V31 m ρ) c).trans (by rw [in15_0, in15_1])

/-- The final array is the concatenation of the sixteen result arrays. -/
theorem cat_end (c : Dev nD) : W33 m ρ c (Proc.devRef .tc main_v48)
    = concatenate S64x32768 0 [⟨S4x32768, W32 m ρ c (Proc.devRef .tc main_v2)⟩, ⟨S4x32768, W32 m ρ c (Proc.devRef .tc main_v5)⟩, ⟨S4x32768, W32 m ρ c (Proc.devRef .tc main_v8)⟩, ⟨S4x32768, W32 m ρ c (Proc.devRef .tc main_v11)⟩, ⟨S4x32768, W32 m ρ c (Proc.devRef .tc main_v14)⟩, ⟨S4x32768, W32 m ρ c (Proc.devRef .tc main_v17)⟩, ⟨S4x32768, W32 m ρ c (Proc.devRef .tc main_v20)⟩, ⟨S4x32768, W32 m ρ c (Proc.devRef .tc main_v23)⟩, ⟨S4x32768, W32 m ρ c (Proc.devRef .tc main_v26)⟩, ⟨S4x32768, W32 m ρ c (Proc.devRef .tc main_v29)⟩, ⟨S4x32768, W32 m ρ c (Proc.devRef .tc main_v32)⟩, ⟨S4x32768, W32 m ρ c (Proc.devRef .tc main_v35)⟩, ⟨S4x32768, W32 m ρ c (Proc.devRef .tc main_v38)⟩, ⟨S4x32768, W32 m ρ c (Proc.devRef .tc main_v41)⟩, ⟨S4x32768, W32 m ρ c (Proc.devRef .tc main_v44)⟩, ⟨S4x32768, W32 m ρ c (Proc.devRef .tc main_v47)⟩] concatenates_S4x32768_S4x32768_S4x32768_S4x32768_S4x32768_S4x32768_S4x32768_S4x32768_S4x32768_S4x32768_S4x32768_S4x32768_S4x32768_S4x32768_S4x32768_S4x32768_S64x32768_d0 := by
  show StableHlo.after hostOps16 (W32 m ρ c) (Proc.devRef .tc main_v48) = _
  after_results
  rfl

end Cert.KernelIdeal.Rgn

end
-- ==== Proof.Spec.lean ====
/-
  The two sides of the certificate as functions of one batch row, on the extended reals.

  One batch row carries a row of logits `l d` (d < D) and a slab of uniform noise `u k d` (k < K).
  The kernel forms the weight  w(k,d) = exp(2·l d) / (log u k d)²,  normalises each noise row k by the
  sum of its weights over d, and takes the maximum over k.  The reference forms the Gumbel logit
  z(k,d) = (−log(−log u k d) + l d) / ½,  takes the softmax over d (shifted by the row's maximum)
  and the maximum over k.  The float literals are kept as the printed words.
-/
import Idealize.ShloMosaic.PureOps.Ideal
import Idealize.ShloMosaic.Lib.ValueIdx

noncomputable section

namespace Cert.GumbelMax

open Idealize.ShloMosaic Idealize.ShloMosaic.ValueIdx

/-- The kernel's softmax weight of one element: exp(2·l) / (log u)². -/
def weight (l u : EReal) : EReal :=
  Ideal.div (Ideal.exp (l * Ideal.ofBits .f32 0x40000000#32)) (Ideal.log u * Ideal.log u)

/-- The kernel's value at column `d` of one batch row: the maximum over the noise rows `k` of the weight
    times the reciprocal of the row's total weight. -/
def kernelVal {K D : ℕ} (l : Fin D → EReal) (u : Fin K → Fin D → EReal) (d : Fin D) : EReal :=
  (Finset.univ : Finset (Fin K)).fold max (Ideal.ofBits .f32 0xFF800000#32)
    (fun k => weight (l d) (u k d) * Ideal.div (Ideal.ofBits .f32 0x3F800000#32) (∑ d' : Fin D, weight (l d') (u k d')))

/-- The reference's Gumbel logit of one element: (−log(−log u) + l) / ½. -/
def logit (l u : EReal) : EReal :=
  Ideal.div (-(Ideal.log (-(Ideal.log u))) + l) (Ideal.ofBits .f32 0x3F000000#32)

/-- The reference's row maximum of the logits of noise row `k`, as its reduce prints it. -/
def rowMax {K D : ℕ} (l : Fin D → EReal) (u : Fin K → Fin D → EReal) (k : Fin K) : EReal :=
  max (Ideal.ofBits .f32 0xFF800000#32)
    ((Finset.univ : Finset (Fin D)).fold max (Ideal.ofBits .f32 0xFF800000#32) (fun d' => logit (l d') (u k d')))

/-- The reference's value at column `d` of one batch row: the maximum over `k` of the shifted softmax. -/
def refVal {K D : ℕ} (l : Fin D → EReal) (u : Fin K → Fin D → EReal) (d : Fin D) : EReal :=
  (Finset.univ : Finset (Fin K)).fold max (Ideal.ofBits .f32 0xFF800000#32)
    (fun k => Ideal.div (Ideal.exp (logit (l d) (u k d) - rowMax l u k))
      (Ideal.ofBits .f32 0x00000000#32 + ∑ d' : Fin D, Ideal.exp (logit (l d') (u k d') - rowMax l u k)))

/-- The kernel's result array from the two argument arrays: entry (b, d) is the kernel's value at column d of
    batch row b (logits row b, noise slab b). -/
def kernelArr (x : (⟨2, ![64, 32768]⟩ : Shape).Idx → EReal) (u : (⟨3, ![64, 28, 32768]⟩ : Shape).Idx → EReal) :
    (⟨2, ![64, 32768]⟩ : Shape).Idx → EReal :=
  fun i => kernelVal (K := 28) (D := 32768) (fun d => x (ix2 (i 0) d)) (fun k d => u (ix3 (i 0) k d)) (i 1)

/-- The reference's result array from the two argument arrays, entry by entry likewise. -/
def refArr (x : (⟨2, ![64, 32768]⟩ : Shape).Idx → EReal) (u : (⟨3, ![64, 28, 32768]⟩ : Shape).Idx → EReal) :
    (⟨2, ![64, 32768]⟩ : Shape).Idx → EReal :=
  fun i => refVal (K := 28) (D := 32768) (fun d => x (ix2 (i 0) d)) (fun k d => u (ix3 (i 0) k d)) (i 1)

end Cert.GumbelMax

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KI.Payload.lean ====
/-
  The kernel's stored value, entry by entry, is the Spec's kernelVal.

  One store of the kernel writes, for one batch row, the vector whose entry d is the maximum over the
  noise rows k of  w(k,d) · (1 / Σ_d' w(k,d')),  where  w(k,d) = exp(2·l d) / (log u k d)².  The value is
  read stage by stage at an index given by its coordinates: the weights, their row sums, the
  normalised weights, and the maximum over k.
-/
import proofs.«146618_g16140487098628_cont_week2b_481_21_alg».proof.Proof.Gen.KernelIdeal.Skeleton
import proofs.«146618_g16140487098628_cont_week2b_481_21_alg».proof.Proof.Spec
import proofs.«146618_g16140487098628_cont_week2b_481_21_alg».proof.Proof.LibColumn
import Idealize.ShloMosaic.Lib.ValueLayout
import Idealize.ShloMosaic.PureOps.Ideal.Laws

noncomputable section

namespace Cert.GumbelMax

open Idealize.ShloMosaic Idealize.ShloMosaic.ValueIdx
open Cert.KernelIdeal Cert.KernelIdeal.Gen Cert.Lib.Column

section Stages

variable (v0 : Vec Ideal Cert.KernelIdeal.S1x32768 .f32) (v5 : Vec Ideal Cert.KernelIdeal.S1x28x32768 .f32)

/-- The exponential of a vector at an index. -/
theorem exp_at {s : Shape} {φ : FTy} (x : FVec Ideal s φ) (i : s.Idx) : exp x i = Ideal.exp (x i) := rfl
/-- The logarithm of a vector at an index. -/
theorem log_at {s : Shape} {φ : FTy} (x : FVec Ideal s φ) (i : s.Idx) : log x i = Ideal.log (x i) := rfl

/-- The array of weights  w(k,d) = exp(2·l d) / (log u k d)². -/
def wArr : FVec Ideal S28x32768 .f32 :=
  divf (broadcastTo S28x32768 (exp (mulf (shapeCast S1x32768 v0 shapeCasts_S1x32768_S1x32768)
      (broadcast S1x32768 (Scalar.ofBits .f32 0x40000000#32)))) broadcasts_S1x32768_S28x32768)
    (mulf (log (shapeCast S28x32768 v5 shapeCasts_S1x28x32768_S28x32768))
      (log (shapeCast S28x32768 v5 shapeCasts_S1x28x32768_S28x32768)))

/-- The row sums  Σ_d' w(k,d'). -/
def sArr : FVec Ideal S28 .f32 :=
  multiReduction .add [1] S28 (wArr v0 v5) 0x00000000#32 reduces_S28x32768_S28 (.inl rfl) rfl

/-- The normalised weights  w(k,d) · (1 / Σ_d' w(k,d')). -/
def qArr : FVec Ideal S28x32768 .f32 :=
  mulf (wArr v0 v5) (broadcastTo S28x32768 (divf (broadcast S28x1 (Scalar.ofBits .f32 0x3F800000#32))
    (shapeCast S28x1 (sArr v0 v5) shapeCasts_S28_S28x1)) broadcasts_S28x1_S28x32768)

/-- The stored value is the column maximum of the normalised weights, recast to one row. -/
theorem pay_eq : k0_pay2 (F := Ideal) v0 v5
    = shapeCast S1x32768 (multiReduction .maximumf [0] S32768 (qArr v0 v5) 0xFF800000#32 reduces_S28x32768_S32768 (.inl rfl) rfl)
        shapeCasts_S32768_S1x32768 := by
  unfold k0_pay2 qArr sArr wArr
  rfl

/-- The weight at (k, d). -/
theorem wArr_at (k : Fin 28) (d : Fin 32768) :
    wArr v0 v5 (ix2 k d) = weight (v0 (ix2 (0 : Fin 1) d)) (v5 (ix3 (0 : Fin 1) k d)) := by
  unfold wArr weight
  rw [divf_apply, mulf_apply, broadcastTo_1b_ab_apply, exp_at, mulf_apply, log_at, shapeCast_self,
    shapeCast_1ab_ab_apply]
  rfl

/-- Inserting d on the last axis of the row index k. -/
theorem liftS_at (k : Fin 28) (d : Fin 32768) : reduces_S28x32768_S28.lift (ix1 k) d = ix2 k d :=
  funext fun a => Fin.ext (by match a with | ⟨0, _⟩ => rfl | ⟨1, _⟩ => rfl)
/-- Inserting k on the first axis of the column index d. -/
theorem liftM_at (k : Fin 28) (d : Fin 32768) : reduces_S28x32768_S32768.lift (ix1 d) k = ix2 k d :=
  funext fun a => Fin.ext (by match a with | ⟨0, _⟩ => rfl | ⟨1, _⟩ => rfl)

/-- The row sum at k. -/
theorem sArr_at (k : Fin 28) :
    sArr v0 v5 (ix1 k) = ∑ d' : Fin 32768, weight (v0 (ix2 (0 : Fin 1) d')) (v5 (ix3 (0 : Fin 1) k d')) := by
  unfold sArr
  refine (Ideal.multiReduction_add_single (wArr v0 v5) 0x00000000#32 reduces_S28x32768_S28 (.inl rfl) rfl (ix1 k)).trans ?_
  refine Finset.sum_congr rfl fun d' _ => ?_
  exact (congrArg (wArr v0 v5) (liftS_at k d')).trans (wArr_at v0 v5 k d')

/-- The normalised weight at (k, d). -/
theorem qArr_at (k : Fin 28) (d : Fin 32768) :
    qArr v0 v5 (ix2 k d)
      = weight (v0 (ix2 (0 : Fin 1) d)) (v5 (ix3 (0 : Fin 1) k d))
        * Ideal.div (Ideal.ofBits .f32 0x3F800000#32) (∑ d' : Fin 32768, weight (v0 (ix2 (0 : Fin 1) d')) (v5 (ix3 (0 : Fin 1) k d'))) := by
  unfold qArr
  rw [mulf_apply, wArr_at, broadcastTo_a1_ab_apply, divf_apply, shapeCast_a_a1_apply, sArr_at]
  rfl

end Stages

theorem pay_apply (v0 : Vec Ideal Cert.KernelIdeal.S1x32768 .f32) (v5 : Vec Ideal Cert.KernelIdeal.S1x28x32768 .f32) (d : Fin 32768) :
    Cert.KernelIdeal.Gen.k0_pay2 (F := Ideal) v0 v5 (ValueIdx.ix2 (0 : Fin 1) d)
      = kernelVal (K := 28) (D := 32768) (fun d' => v0 (ValueIdx.ix2 (0 : Fin 1) d')) (fun k d' => v5 (ValueIdx.ix3 (0 : Fin 1) k d')) d := by
  rw [pay_eq, shapeCast_a_1a_apply]
  refine (Ideal.multiReduction_maximumf_single (qArr v0 v5) 0xFF800000#32 reduces_S28x32768_S32768 (.inl rfl) rfl (ix1 d)).trans ?_
  unfold kernelVal
  refine Finset.fold_congr fun k _ => ?_
  exact (congrArg (qArr v0 v5) (liftM_at k d)).trans (qArr_at v0 v5 k d)

end Cert.GumbelMax

end
-- ==== Proof.KI.Assemble.lean ====
/-
  The host side of the program, read at an index.

  The program cuts the batch of 64 rows into sixteen chunks of four rows (a slice of the logits array and a slice of
  the noise array per chunk), runs the chunk body once per chunk, and joins the sixteen results along the rows.
  Row b of the joined array is therefore row b mod 4 of chunk b / 4.  A chunk's result buffer holds four stored rows,
  the last store first; row r of the buffer is the stored row whose one-row rectangle sits at r, and its payload is,
  for every r and for every chunk, one and the same function of the logits row and the noise slab loaded at r.  On the
  extended reals that function is the kernel's value of one batch row.  A slice starting at row o read at row r is the
  argument at row o + r, and 4·(b / 4) + b mod 4 = b: so entry (b, d) of the joined array is the kernel's value of
  batch row b at column d, which is the kernel's value array.
-/
import proofs.«146618_g16140487098628_cont_week2b_481_21_alg».proof.Proof.KI.Region0
import proofs.«146618_g16140487098628_cont_week2b_481_21_alg».proof.Proof.KI.Region1
import proofs.«146618_g16140487098628_cont_week2b_481_21_alg».proof.Proof.KI.Region2
import proofs.«146618_g16140487098628_cont_week2b_481_21_alg».proof.Proof.KI.Region3
import proofs.«146618_g16140487098628_cont_week2b_481_21_alg».proof.Proof.KI.Region4
import proofs.«146618_g16140487098628_cont_week2b_481_21_alg».proof.Proof.KI.Region5
import proofs.«146618_g16140487098628_cont_week2b_481_21_alg».proof.Proof.KI.Region6
import proofs.«146618_g16140487098628_cont_week2b_481_21_alg».proof.Proof.KI.Region7
import proofs.«146618_g16140487098628_cont_week2b_481_21_alg».proof.Proof.KI.Region8
import proofs.«146618_g16140487098628_cont_week2b_481_21_alg».proof.Proof.KI.Region9
import proofs.«146618_g16140487098628_cont_week2b_481_21_alg».proof.Proof.KI.Region10
import proofs.«146618_g16140487098628_cont_week2b_481_21_alg».proof.Proof.KI.Region11
import proofs.«146618_g16140487098628_cont_week2b_481_21_alg».proof.Proof.KI.Region12
import proofs.«146618_g16140487098628_cont_week2b_481_21_alg».proof.Proof.KI.Region13
import proofs.«146618_g16140487098628_cont_week2b_481_21_alg».proof.Proof.KI.Region14
import proofs.«146618_g16140487098628_cont_week2b_481_21_alg».proof.Proof.KI.Region15
import proofs.«146618_g16140487098628_cont_week2b_481_21_alg».proof.Proof.KI.Payload
import proofs.«146618_g16140487098628_cont_week2b_481_21_alg».proof.Proof.Spec
import Idealize.ShloMosaic.Lib.Pipeline.Value
import Idealize.ShloMosaic.Lib.ValueIdx

set_option maxRecDepth 16384

noncomputable section

namespace Cert.KernelIdeal.Rgn

open Cert.KernelIdeal Cert.KernelIdeal.Gen
open Idealize.ShloMosaic Idealize.ShloMosaic.ValueIdx

variable {F : FTy → Type} [FloatOps F]

/-! ### The concatenation of sixteen four-row pieces read at an index -/

/-- Sixteen pieces of four rows each, joined along the rows: row b of the result is row b mod 4 of piece b / 4. -/
theorem concat16_apply {α : Type} (f : Fin 16 → (S4x32768.Idx → α)) (b : Fin 64) (d : Fin 32768) :
    concatenate S64x32768 0 [⟨S4x32768, f 0⟩, ⟨S4x32768, f 1⟩, ⟨S4x32768, f 2⟩, ⟨S4x32768, f 3⟩, ⟨S4x32768, f 4⟩, ⟨S4x32768, f 5⟩, ⟨S4x32768, f 6⟩, ⟨S4x32768, f 7⟩, ⟨S4x32768, f 8⟩, ⟨S4x32768, f 9⟩, ⟨S4x32768, f 10⟩, ⟨S4x32768, f 11⟩, ⟨S4x32768, f 12⟩, ⟨S4x32768, f 13⟩, ⟨S4x32768, f 14⟩, ⟨S4x32768, f 15⟩] concatenates_S4x32768_S4x32768_S4x32768_S4x32768_S4x32768_S4x32768_S4x32768_S4x32768_S4x32768_S4x32768_S4x32768_S4x32768_S4x32768_S4x32768_S4x32768_S4x32768_S64x32768_d0 (ix2 b d)
      = f ⟨b.val / 4, by omega⟩ (ix2 (⟨b.val % 4, by omega⟩ : Fin 4) d) := by
  have hl : ([⟨S4x32768, f 0⟩, ⟨S4x32768, f 1⟩, ⟨S4x32768, f 2⟩, ⟨S4x32768, f 3⟩, ⟨S4x32768, f 4⟩, ⟨S4x32768, f 5⟩, ⟨S4x32768, f 6⟩, ⟨S4x32768, f 7⟩, ⟨S4x32768, f 8⟩, ⟨S4x32768, f 9⟩, ⟨S4x32768, f 10⟩, ⟨S4x32768, f 11⟩, ⟨S4x32768, f 12⟩, ⟨S4x32768, f 13⟩, ⟨S4x32768, f 14⟩, ⟨S4x32768, f 15⟩] : List ((s : Shape) × (s.Idx → α)))
      = List.ofFn fun n : Fin 16 => (⟨S4x32768, f n⟩ : (s : Shape) × (s.Idx → α)) := by
    simp only [List.ofFn_succ, List.ofFn_zero]; rfl
  have key := concatenate_ofFn_apply (t := S64x32768) (s₁ := S4x32768) (0 : Fin 2) f (hl ▸ concatenates_S4x32768_S4x32768_S4x32768_S4x32768_S4x32768_S4x32768_S4x32768_S4x32768_S4x32768_S4x32768_S4x32768_S4x32768_S4x32768_S4x32768_S4x32768_S4x32768_S64x32768_d0) rfl 4 rfl (ix2 b d)
    ⟨b.val / 4, by omega⟩ rfl (ix2 (⟨b.val % 4, by omega⟩ : Fin 4) d) rfl (fun a ha => by
      match a with
      | ⟨0, _⟩ => exact absurd rfl ha
      | ⟨1, _⟩ => rfl)
  rw [← key]
  congr 1

/-- The same, as a case split: if every piece, at each of its rows that could be row b, gives the value v, the
    concatenation gives v at row b. -/
theorem concat16_all {α : Type} (p0 p1 p2 p3 p4 p5 p6 p7 p8 p9 p10 p11 p12 p13 p14 p15 : S4x32768.Idx → α) (b : Fin 64) (d : Fin 32768) (v : α)
    (h0 : ∀ r : Fin 4, b.val = 0 + r.val → p0 (ix2 r d) = v)
    (h1 : ∀ r : Fin 4, b.val = 4 + r.val → p1 (ix2 r d) = v)
    (h2 : ∀ r : Fin 4, b.val = 8 + r.val → p2 (ix2 r d) = v)
    (h3 : ∀ r : Fin 4, b.val = 12 + r.val → p3 (ix2 r d) = v)
    (h4 : ∀ r : Fin 4, b.val = 16 + r.val → p4 (ix2 r d) = v)
    (h5 : ∀ r : Fin 4, b.val = 20 + r.val → p5 (ix2 r d) = v)
    (h6 : ∀ r : Fin 4, b.val = 24 + r.val → p6 (ix2 r d) = v)
    (h7 : ∀ r : Fin 4, b.val = 28 + r.val → p7 (ix2 r d) = v)
    (h8 : ∀ r : Fin 4, b.val = 32 + r.val → p8 (ix2 r d) = v)
    (h9 : ∀ r : Fin 4, b.val = 36 + r.val → p9 (ix2 r d) = v)
    (h10 : ∀ r : Fin 4, b.val = 40 + r.val → p10 (ix2 r d) = v)
    (h11 : ∀ r : Fin 4, b.val = 44 + r.val → p11 (ix2 r d) = v)
    (h12 : ∀ r : Fin 4, b.val = 48 + r.val → p12 (ix2 r d) = v)
    (h13 : ∀ r : Fin 4, b.val = 52 + r.val → p13 (ix2 r d) = v)
    (h14 : ∀ r : Fin 4, b.val = 56 + r.val → p14 (ix2 r d) = v)
    (h15 : ∀ r : Fin 4, b.val = 60 + r.val → p15 (ix2 r d) = v) :
    concatenate S64x32768 0 [⟨S4x32768, p0⟩, ⟨S4x32768, p1⟩, ⟨S4x32768, p2⟩, ⟨S4x32768, p3⟩, ⟨S4x32768, p4⟩, ⟨S4x32768, p5⟩, ⟨S4x32768, p6⟩, ⟨S4x32768, p7⟩, ⟨S4x32768, p8⟩, ⟨S4x32768, p9⟩, ⟨S4x32768, p10⟩, ⟨S4x32768, p11⟩, ⟨S4x32768, p12⟩, ⟨S4x32768, p13⟩, ⟨S4x32768, p14⟩, ⟨S4x32768, p15⟩] concatenates_S4x32768_S4x32768_S4x32768_S4x32768_S4x32768_S4x32768_S4x32768_S4x32768_S4x32768_S4x32768_S4x32768_S4x32768_S4x32768_S4x32768_S4x32768_S4x32768_S64x32768_d0 (ix2 b d) = v := by
  refine (concat16_apply ![p0, p1, p2, p3, p4, p5, p6, p7, p8, p9, p10, p11, p12, p13, p14, p15] b d).trans ?_
  have hn : (⟨b.val / 4, by omega⟩ : Fin 16).val = b.val / 4 := rfl
  revert hn
  generalize (⟨b.val / 4, by omega⟩ : Fin 16) = n
  intro hn
  match n, hn with
  | ⟨0, _⟩, hn => exact h0 ⟨b.val % 4, by omega⟩ (by have e : 0 = b.val / 4 := hn; show b.val = 0 + b.val % 4; omega)
  | ⟨1, _⟩, hn => exact h1 ⟨b.val % 4, by omega⟩ (by have e : 1 = b.val / 4 := hn; show b.val = 4 + b.val % 4; omega)
  | ⟨2, _⟩, hn => exact h2 ⟨b.val % 4, by omega⟩ (by have e : 2 = b.val / 4 := hn; show b.val = 8 + b.val % 4; omega)
  | ⟨3, _⟩, hn => exact h3 ⟨b.val % 4, by omega⟩ (by have e : 3 = b.val / 4 := hn; show b.val = 12 + b.val % 4; omega)
  | ⟨4, _⟩, hn => exact h4 ⟨b.val % 4, by omega⟩ (by have e : 4 = b.val / 4 := hn; show b.val = 16 + b.val % 4; omega)
  | ⟨5, _⟩, hn => exact h5 ⟨b.val % 4, by omega⟩ (by have e : 5 = b.val / 4 := hn; show b.val = 20 + b.val % 4; omega)
  | ⟨6, _⟩, hn => exact h6 ⟨b.val % 4, by omega⟩ (by have e : 6 = b.val / 4 := hn; show b.val = 24 + b.val % 4; omega)
  | ⟨7, _⟩, hn => exact h7 ⟨b.val % 4, by omega⟩ (by have e : 7 = b.val / 4 := hn; show b.val = 28 + b.val % 4; omega)
  | ⟨8, _⟩, hn => exact h8 ⟨b.val % 4, by omega⟩ (by have e : 8 = b.val / 4 := hn; show b.val = 32 + b.val % 4; omega)
  | ⟨9, _⟩, hn => exact h9 ⟨b.val % 4, by omega⟩ (by have e : 9 = b.val / 4 := hn; show b.val = 36 + b.val % 4; omega)
  | ⟨10, _⟩, hn => exact h10 ⟨b.val % 4, by omega⟩ (by have e : 10 = b.val / 4 := hn; show b.val = 40 + b.val % 4; omega)
  | ⟨11, _⟩, hn => exact h11 ⟨b.val % 4, by omega⟩ (by have e : 11 = b.val / 4 := hn; show b.val = 44 + b.val % 4; omega)
  | ⟨12, _⟩, hn => exact h12 ⟨b.val % 4, by omega⟩ (by have e : 12 = b.val / 4 := hn; show b.val = 48 + b.val % 4; omega)
  | ⟨13, _⟩, hn => exact h13 ⟨b.val % 4, by omega⟩ (by have e : 13 = b.val / 4 := hn; show b.val = 52 + b.val % 4; omega)
  | ⟨14, _⟩, hn => exact h14 ⟨b.val % 4, by omega⟩ (by have e : 14 = b.val / 4 := hn; show b.val = 56 + b.val % 4; omega)
  | ⟨15, _⟩, hn => exact h15 ⟨b.val % 4, by omega⟩ (by have e : 15 = b.val / 4 := hn; show b.val = 60 + b.val % 4; omega)
  | ⟨k + 16, hk⟩, _ => exact absurd hk (by omega)

/-! ### One call's result buffer read at an index -/

/-- The payloads of the four stored rows are one and the same function of the loaded logits row and noise slab. -/
theorem pay3_eq_pay2 : @k0_pay3 F _ = @k0_pay2 F _ := rfl
theorem pay4_eq_pay2 : @k0_pay4 F _ = @k0_pay2 F _ := rfl
theorem pay1_eq_pay2 (a : Vec F S1x32768 .f32) (b : Vec F S1x28x32768 .f32) :
    k0_pay1 (k0_pay5 a b) (k0_pay6 a b) = k0_pay2 a b := rfl

/-- Row r of the buffer, as a one-row rectangle, places its index (0, d) at (r, d). -/
theorem emb_row0 (d : Fin 32768) : rowL0_0.emb (ix2 (0 : Fin 1) d) = (ix2 (0 : Fin 4) d : S4x32768.Idx) := by
  funext a; apply Fin.ext
  match a with
  | ⟨0, _⟩ => rfl
  | ⟨1, _⟩ => show 0 + 1 * d.val = d.val; omega
theorem emb_row1 (d : Fin 32768) : rowL0_1.emb (ix2 (0 : Fin 1) d) = (ix2 (1 : Fin 4) d : S4x32768.Idx) := by
  funext a; apply Fin.ext
  match a with
  | ⟨0, _⟩ => rfl
  | ⟨1, _⟩ => show 0 + 1 * d.val = d.val; omega
theorem emb_row2 (d : Fin 32768) : rowL0_2.emb (ix2 (0 : Fin 1) d) = (ix2 (2 : Fin 4) d : S4x32768.Idx) := by
  funext a; apply Fin.ext
  match a with
  | ⟨0, _⟩ => rfl
  | ⟨1, _⟩ => show 0 + 1 * d.val = d.val; omega
theorem emb_row3 (d : Fin 32768) : rowL0_3.emb (ix2 (0 : Fin 1) d) = (ix2 (3 : Fin 4) d : S4x32768.Idx) := by
  funext a; apply Fin.ext
  match a with
  | ⟨0, _⟩ => rfl
  | ⟨1, _⟩ => show 0 + 1 * d.val = d.val; omega

/-- Slab r of the noise buffer places its index (0, k, d) at (r, k, d). -/
theorem emb_slab0 (k : Fin 28) (d : Fin 32768) :
    slab0_0.emb (ix3 (0 : Fin 1) k d) = (ix3 (0 : Fin 4) k d : S4x28x32768.Idx) := by
  funext a; apply Fin.ext
  match a with
  | ⟨0, _⟩ => rfl
  | ⟨1, _⟩ => show 0 + 1 * k.val = k.val; omega
  | ⟨2, _⟩ => show 0 + 1 * d.val = d.val; omega
theorem emb_slab1 (k : Fin 28) (d : Fin 32768) :
    slab0_1.emb (ix3 (0 : Fin 1) k d) = (ix3 (1 : Fin 4) k d : S4x28x32768.Idx) := by
  funext a; apply Fin.ext
  match a with
  | ⟨0, _⟩ => rfl
  | ⟨1, _⟩ => show 0 + 1 * k.val = k.val; omega
  | ⟨2, _⟩ => show 0 + 1 * d.val = d.val; omega
theorem emb_slab2 (k : Fin 28) (d : Fin 32768) :
    slab0_2.emb (ix3 (0 : Fin 1) k d) = (ix3 (2 : Fin 4) k d : S4x28x32768.Idx) := by
  funext a; apply Fin.ext
  match a with
  | ⟨0, _⟩ => rfl
  | ⟨1, _⟩ => show 0 + 1 * k.val = k.val; omega
  | ⟨2, _⟩ => show 0 + 1 * d.val = d.val; omega
theorem emb_slab3 (k : Fin 28) (d : Fin 32768) :
    slab0_3.emb (ix3 (0 : Fin 1) k d) = (ix3 (3 : Fin 4) k d : S4x28x32768.Idx) := by
  funext a; apply Fin.ext
  match a with
  | ⟨0, _⟩ => rfl
  | ⟨1, _⟩ => show 0 + 1 * k.val = k.val; omega
  | ⟨2, _⟩ => show 0 + 1 * d.val = d.val; omega

/-- Row r is not in the one-row rectangle at another row o. -/
theorem not_mem_row {o : Nat} {inb : ∀ a, (![o, 0] : Fin 2 → Nat) a + S1x32768.size a ≤ S4x32768.size a} (r : Fin 4) (d : Fin 32768)
    (h : r.val ≠ o) : (ix2 r d : S4x32768.Idx) ∉ (Rect.unit (s := S4x32768) ![o, 0] S1x32768.size inb).set := by
  rw [Rect.mem_set_unit]
  intro h'
  have h0 := h' 0
  change o ≤ r.val ∧ r.val < o + 1 at h0
  omega

/-- Off the last stored rectangle, the buffer holds what the earlier stores left. -/
theorem canon_skip (r : Rect S4x32768) (w : r.shape.Idx → Elt F .f32) (L : List (View.Piece (Elt F) S4x32768 .f32))
    {y : S4x32768.Idx} (h : y ∉ r.set) : View.canon (⟨r, w⟩ :: L) y = View.canon L y :=
  View.canon_cons_of_not_mem ⟨r, w⟩ L h

/-- The result buffer at (r, d) is the stored row's payload, of logits row r and noise slab r, at (0, d). -/
theorem out0_apply3 (A0 : Vec F S4x32768 .f32) (A1 : Vec F S4x28x32768 .f32) (d : Fin 32768) :
    out0_2 A0 A1 (ix2 (3 : Fin 4) d) = k0_pay2 (View.ld A0 rowL0_3) (View.ld A1 slab0_3) (ix2 (0 : Fin 1) d) := by
  unfold out0_2
  refine (congrArg (View.canon _) (emb_row3 d).symm).trans ?_
  exact (View.canon_cons_emb _ _ _ _).trans (congrFun (pay1_eq_pay2 _ _) _)
theorem out0_apply2 (A0 : Vec F S4x32768 .f32) (A1 : Vec F S4x28x32768 .f32) (d : Fin 32768) :
    out0_2 A0 A1 (ix2 (2 : Fin 4) d) = k0_pay2 (View.ld A0 rowL0_2) (View.ld A1 slab0_2) (ix2 (0 : Fin 1) d) := by
  unfold out0_2
  refine (canon_skip _ _ _ (not_mem_row (o := 3) (2 : Fin 4) d (by decide))).trans ?_
  refine (congrArg (View.canon _) (emb_row2 d).symm).trans ?_
  exact (View.canon_cons_emb _ _ _ _).trans (congrFun (congrFun (congrFun pay4_eq_pay2 _) _) _)
theorem out0_apply1 (A0 : Vec F S4x32768 .f32) (A1 : Vec F S4x28x32768 .f32) (d : Fin 32768) :
    out0_2 A0 A1 (ix2 (1 : Fin 4) d) = k0_pay2 (View.ld A0 rowL0_1) (View.ld A1 slab0_1) (ix2 (0 : Fin 1) d) := by
  unfold out0_2
  refine (canon_skip _ _ _ (not_mem_row (o := 3) (1 : Fin 4) d (by decide))).trans ?_
  refine (canon_skip _ _ _ (not_mem_row (o := 2) (1 : Fin 4) d (by decide))).trans ?_
  refine (congrArg (View.canon _) (emb_row1 d).symm).trans ?_
  exact (View.canon_cons_emb _ _ _ _).trans (congrFun (congrFun (congrFun pay3_eq_pay2 _) _) _)
theorem out0_apply0 (A0 : Vec F S4x32768 .f32) (A1 : Vec F S4x28x32768 .f32) (d : Fin 32768) :
    out0_2 A0 A1 (ix2 (0 : Fin 4) d) = k0_pay2 (View.ld A0 rowL0_0) (View.ld A1 slab0_0) (ix2 (0 : Fin 1) d) := by
  unfold out0_2
  refine (canon_skip _ _ _ (not_mem_row (o := 3) (0 : Fin 4) d (by decide))).trans ?_
  refine (canon_skip _ _ _ (not_mem_row (o := 2) (0 : Fin 4) d (by decide))).trans ?_
  refine (canon_skip _ _ _ (not_mem_row (o := 1) (0 : Fin 4) d (by decide))).trans ?_
  refine (congrArg (View.canon _) (emb_row0 d).symm).trans ?_
  exact View.canon_cons_emb _ _ _ _

/-- The result buffer at (r, d), on the extended reals: the kernel's value of logits row r and noise slab r at d. -/
theorem out0_val (A0 : Vec Ideal S4x32768 .f32) (A1 : Vec Ideal S4x28x32768 .f32) (r : Fin 4) (d : Fin 32768) :
    out0_2 (F := Ideal) A0 A1 (ix2 r d)
      = Cert.GumbelMax.kernelVal (K := 28) (D := 32768) (fun d' => A0 (ix2 r d')) (fun k d' => A1 (ix3 r k d')) d := by
  match r with
  | ⟨0, _⟩ =>
    refine (out0_apply0 A0 A1 d).trans ((Cert.GumbelMax.pay_apply _ _ d).trans ?_)
    exact congrArg₂ (fun a b => Cert.GumbelMax.kernelVal (K := 28) (D := 32768) a b d)
      (funext fun d' => congrArg A0 (emb_row0 d')) (funext fun k => funext fun d' => congrArg A1 (emb_slab0 k d'))
  | ⟨1, _⟩ =>
    refine (out0_apply1 A0 A1 d).trans ((Cert.GumbelMax.pay_apply _ _ d).trans ?_)
    exact congrArg₂ (fun a b => Cert.GumbelMax.kernelVal (K := 28) (D := 32768) a b d)
      (funext fun d' => congrArg A0 (emb_row1 d')) (funext fun k => funext fun d' => congrArg A1 (emb_slab1 k d'))
  | ⟨2, _⟩ =>
    refine (out0_apply2 A0 A1 d).trans ((Cert.GumbelMax.pay_apply _ _ d).trans ?_)
    exact congrArg₂ (fun a b => Cert.GumbelMax.kernelVal (K := 28) (D := 32768) a b d)
      (funext fun d' => congrArg A0 (emb_row2 d')) (funext fun k => funext fun d' => congrArg A1 (emb_slab2 k d'))
  | ⟨3, _⟩ =>
    refine (out0_apply3 A0 A1 d).trans ((Cert.GumbelMax.pay_apply _ _ d).trans ?_)
    exact congrArg₂ (fun a b => Cert.GumbelMax.kernelVal (K := 28) (D := 32768) a b d)
      (funext fun d' => congrArg A0 (emb_row3 d')) (funext fun k => funext fun d' => congrArg A1 (emb_slab3 k d'))

/-- One call on the four rows from row o on: its result at (r, d) is the kernel's value of batch row b = o + r. -/
theorem piece_val (o : Nat) (hx : S64x32768.Slices ![o, 0] S4x32768) (hu : S64x28x32768.Slices ![o, 0, 0] S4x28x32768)
    (x : FVec Ideal S64x32768 .f32) (u : FVec Ideal S64x28x32768 .f32) (r : Fin 4) (b : Fin 64) (hb : b.val = o + r.val)
    (d : Fin 32768) :
    out0_2 (F := Ideal) (extractStridedSlice S4x32768 ![o, 0] x hx) (extractStridedSlice S4x28x32768 ![o, 0, 0] u hu) (ix2 r d)
      = Cert.GumbelMax.kernelVal (K := 28) (D := 32768) (fun d' => x (ix2 b d')) (fun k d' => u (ix3 b k d')) d := by
  refine (out0_val _ _ r d).trans ?_
  refine congrArg₂ (fun a c => Cert.GumbelMax.kernelVal (K := 28) (D := 32768) a c d) (funext fun d' => ?_)
    (funext fun k => funext fun d' => ?_)
  · refine extractStridedSlice_apply ![o, 0] x hx (ix2 r d') (ix2 b d') (fun a => ?_)
    match a with
    | ⟨0, _⟩ => exact hb
    | ⟨1, _⟩ => show d'.val = 0 + d'.val; omega
  · refine extractStridedSlice_apply ![o, 0, 0] u hu (ix3 r k d') (ix3 b k d') (fun a => ?_)
    match a with
    | ⟨0, _⟩ => exact hb
    | ⟨1, _⟩ => show k.val = 0 + k.val; omega
    | ⟨2, _⟩ => show d'.val = 0 + d'.val; omega

/-! ### The sixteen calls -/

/-- Every call runs the same body: its result buffer is the same function of its two inputs. -/
theorem out1_eq : @out1_2 F _ = @out0_2 F _ := rfl
theorem out2_eq : @out2_2 F _ = @out0_2 F _ := rfl
theorem out3_eq : @out3_2 F _ = @out0_2 F _ := rfl
theorem out4_eq : @out4_2 F _ = @out0_2 F _ := rfl
theorem out5_eq : @out5_2 F _ = @out0_2 F _ := rfl
theorem out6_eq : @out6_2 F _ = @out0_2 F _ := rfl
theorem out7_eq : @out7_2 F _ = @out0_2 F _ := rfl
theorem out8_eq : @out8_2 F _ = @out0_2 F _ := rfl
theorem out9_eq : @out9_2 F _ = @out0_2 F _ := rfl
theorem out10_eq : @out10_2 F _ = @out0_2 F _ := rfl
theorem out11_eq : @out11_2 F _ = @out0_2 F _ := rfl
theorem out12_eq : @out12_2 F _ = @out0_2 F _ := rfl
theorem out13_eq : @out13_2 F _ = @out0_2 F _ := rfl
theorem out14_eq : @out14_2 F _ = @out0_2 F _ := rfl
theorem out15_eq : @out15_2 F _ = @out0_2 F _ := rfl

/-- The host program's result: the sixteen calls' result buffers, each on its four-row slices of the two arguments,
    joined along the rows, is the kernel's value array. -/
theorem assemble (x : FVec Ideal S64x32768 .f32) (u : FVec Ideal S64x28x32768 .f32) :
    concatenate S64x32768 0 [⟨S4x32768, out0_2 (F := Ideal) (extractStridedSlice S4x32768 ![0, 0] x slices_S64x32768_S4x32768_0_0) (extractStridedSlice S4x28x32768 ![0, 0, 0] u slices_S64x28x32768_S4x28x32768_0_0_0)⟩,
        ⟨S4x32768, out1_2 (F := Ideal) (extractStridedSlice S4x32768 ![4, 0] x slices_S64x32768_S4x32768_4_0) (extractStridedSlice S4x28x32768 ![4, 0, 0] u slices_S64x28x32768_S4x28x32768_4_0_0)⟩,
        ⟨S4x32768, out2_2 (F := Ideal) (extractStridedSlice S4x32768 ![8, 0] x slices_S64x32768_S4x32768_8_0) (extractStridedSlice S4x28x32768 ![8, 0, 0] u slices_S64x28x32768_S4x28x32768_8_0_0)⟩,
        ⟨S4x32768, out3_2 (F := Ideal) (extractStridedSlice S4x32768 ![12, 0] x slices_S64x32768_S4x32768_12_0) (extractStridedSlice S4x28x32768 ![12, 0, 0] u slices_S64x28x32768_S4x28x32768_12_0_0)⟩,
        ⟨S4x32768, out4_2 (F := Ideal) (extractStridedSlice S4x32768 ![16, 0] x slices_S64x32768_S4x32768_16_0) (extractStridedSlice S4x28x32768 ![16, 0, 0] u slices_S64x28x32768_S4x28x32768_16_0_0)⟩,
        ⟨S4x32768, out5_2 (F := Ideal) (extractStridedSlice S4x32768 ![20, 0] x slices_S64x32768_S4x32768_20_0) (extractStridedSlice S4x28x32768 ![20, 0, 0] u slices_S64x28x32768_S4x28x32768_20_0_0)⟩,
        ⟨S4x32768, out6_2 (F := Ideal) (extractStridedSlice S4x32768 ![24, 0] x slices_S64x32768_S4x32768_24_0) (extractStridedSlice S4x28x32768 ![24, 0, 0] u slices_S64x28x32768_S4x28x32768_24_0_0)⟩,
        ⟨S4x32768, out7_2 (F := Ideal) (extractStridedSlice S4x32768 ![28, 0] x slices_S64x32768_S4x32768_28_0) (extractStridedSlice S4x28x32768 ![28, 0, 0] u slices_S64x28x32768_S4x28x32768_28_0_0)⟩,
        ⟨S4x32768, out8_2 (F := Ideal) (extractStridedSlice S4x32768 ![32, 0] x slices_S64x32768_S4x32768_32_0) (extractStridedSlice S4x28x32768 ![32, 0, 0] u slices_S64x28x32768_S4x28x32768_32_0_0)⟩,
        ⟨S4x32768, out9_2 (F := Ideal) (extractStridedSlice S4x32768 ![36, 0] x slices_S64x32768_S4x32768_36_0) (extractStridedSlice S4x28x32768 ![36, 0, 0] u slices_S64x28x32768_S4x28x32768_36_0_0)⟩,
        ⟨S4x32768, out10_2 (F := Ideal) (extractStridedSlice S4x32768 ![40, 0] x slices_S64x32768_S4x32768_40_0) (extractStridedSlice S4x28x32768 ![40, 0, 0] u slices_S64x28x32768_S4x28x32768_40_0_0)⟩,
        ⟨S4x32768, out11_2 (F := Ideal) (extractStridedSlice S4x32768 ![44, 0] x slices_S64x32768_S4x32768_44_0) (extractStridedSlice S4x28x32768 ![44, 0, 0] u slices_S64x28x32768_S4x28x32768_44_0_0)⟩,
        ⟨S4x32768, out12_2 (F := Ideal) (extractStridedSlice S4x32768 ![48, 0] x slices_S64x32768_S4x32768_48_0) (extractStridedSlice S4x28x32768 ![48, 0, 0] u slices_S64x28x32768_S4x28x32768_48_0_0)⟩,
        ⟨S4x32768, out13_2 (F := Ideal) (extractStridedSlice S4x32768 ![52, 0] x slices_S64x32768_S4x32768_52_0) (extractStridedSlice S4x28x32768 ![52, 0, 0] u slices_S64x28x32768_S4x28x32768_52_0_0)⟩,
        ⟨S4x32768, out14_2 (F := Ideal) (extractStridedSlice S4x32768 ![56, 0] x slices_S64x32768_S4x32768_56_0) (extractStridedSlice S4x28x32768 ![56, 0, 0] u slices_S64x28x32768_S4x28x32768_56_0_0)⟩,
        ⟨S4x32768, out15_2 (F := Ideal) (extractStridedSlice S4x32768 ![60, 0] x slices_S64x32768_S4x32768_60_0) (extractStridedSlice S4x28x32768 ![60, 0, 0] u slices_S64x28x32768_S4x28x32768_60_0_0)⟩] concatenates_S4x32768_S4x32768_S4x32768_S4x32768_S4x32768_S4x32768_S4x32768_S4x32768_S4x32768_S4x32768_S4x32768_S4x32768_S4x32768_S4x32768_S4x32768_S4x32768_S64x32768_d0
      = Cert.GumbelMax.kernelArr x u := by
  funext i
  obtain ⟨b, d, rfl⟩ : ∃ (b : Fin 64) (d : Fin 32768), i = ix2 b d := ⟨i 0, i 1, eq_ix2 i⟩
  refine (concat16_all _ _ _ _ _ _ _ _ _ _ _ _ _ _ _ _ b d
    (Cert.GumbelMax.kernelVal (K := 28) (D := 32768) (fun d' => x (ix2 b d')) (fun k d' => u (ix3 b k d')) d)
    (fun r hb => (piece_val 0 _ _ x u r b hb d))
    (fun r hb => (congrFun (congrFun (congrFun out1_eq _) _) _).trans (piece_val 4 _ _ x u r b hb d))
    (fun r hb => (congrFun (congrFun (congrFun out2_eq _) _) _).trans (piece_val 8 _ _ x u r b hb d))
    (fun r hb => (congrFun (congrFun (congrFun out3_eq _) _) _).trans (piece_val 12 _ _ x u r b hb d))
    (fun r hb => (congrFun (congrFun (congrFun out4_eq _) _) _).trans (piece_val 16 _ _ x u r b hb d))
    (fun r hb => (congrFun (congrFun (congrFun out5_eq _) _) _).trans (piece_val 20 _ _ x u r b hb d))
    (fun r hb => (congrFun (congrFun (congrFun out6_eq _) _) _).trans (piece_val 24 _ _ x u r b hb d))
    (fun r hb => (congrFun (congrFun (congrFun out7_eq _) _) _).trans (piece_val 28 _ _ x u r b hb d))
    (fun r hb => (congrFun (congrFun (congrFun out8_eq _) _) _).trans (piece_val 32 _ _ x u r b hb d))
    (fun r hb => (congrFun (congrFun (congrFun out9_eq _) _) _).trans (piece_val 36 _ _ x u r b hb d))
    (fun r hb => (congrFun (congrFun (congrFun out10_eq _) _) _).trans (piece_val 40 _ _ x u r b hb d))
    (fun r hb => (congrFun (congrFun (congrFun out11_eq _) _) _).trans (piece_val 44 _ _ x u r b hb d))
    (fun r hb => (congrFun (congrFun (congrFun out12_eq _) _) _).trans (piece_val 48 _ _ x u r b hb d))
    (fun r hb => (congrFun (congrFun (congrFun out13_eq _) _) _).trans (piece_val 52 _ _ x u r b hb d))
    (fun r hb => (congrFun (congrFun (congrFun out14_eq _) _) _).trans (piece_val 56 _ _ x u r b hb d))
    (fun r hb => (congrFun (congrFun (congrFun out15_eq _) _) _).trans (piece_val 60 _ _ x u r b hb d))).trans ?_
  rfl

end Cert.KernelIdeal.Rgn

end
-- ==== Proof.KI.Value.lean ====
/-
  The kernel program's result in terms of its arguments.

  The final array is the concatenation of the sixteen calls' result arrays; each of those is the four stored
  rows of the call's chunk of the arguments; so entry (b, d) of the final array is the body's value of
  logits row b and noise slab b at column d.
-/
import proofs.«146618_g16140487098628_cont_week2b_481_21_alg».proof.Proof.KI.Ends
import proofs.«146618_g16140487098628_cont_week2b_481_21_alg».proof.Proof.KI.Assemble
set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ) (ρ : Dev nD → PrngReg)

/-- The final array of the kernel program is the kernel-side function of the two argument arrays. -/
theorem kernel_value (c : Dev nD) :
    W33 (F := Ideal) m ρ c (Proc.devRef .tc main_v48)
      = Cert.GumbelMax.kernelArr (m ((c : Thread nD τ).loc main_arg0)) (m ((c : Thread nD τ).loc main_arg1)) := by
  rw [cat_end, out_end0, out_end1, out_end2, out_end3, out_end4, out_end5, out_end6, out_end7, out_end8, out_end9, out_end10, out_end11, out_end12, out_end13, out_end14, out_end15]
  exact assemble _ _

/-- The kernel program's run with its result named: every weakly fair execution terminates, nothing faulting,
    the result array ends at the kernel-side function of the arguments and the arguments end as launched. -/
theorem run_value : θ_run (defs (F := Ideal)) (onTc (τ := τ) (main (F := Ideal))) ⟨m, fun _ => 0, ρ⟩ (fun r => ∀ c : Dev nD,
      r.2.mem ((c.tc : Thread nD τ).loc main_v48) = Cert.GumbelMax.kernelArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v48 (by decide))).trans (kernel_value m ρ c),
     (h c _ (mem_uc main_arg0 (by decide))).trans (W33_arg0 m ρ c),
     (h c _ (mem_uc main_arg1 (by decide))).trans (W33_arg1 m ρ c)⟩) (run_all m ρ)

end Cert.KernelIdeal.Rgn

end
-- ==== Proof.RefValue.lean ====
/-
  The reference program's result, entry by entry, is the Spec's refArr.

  Each stage of the reference is read at an index given by its coordinates (b, k, d):
  the Gumbel logit, the row maximum over d, the shifted exponential, its sum over d,
  the quotient, and last the maximum over k.
-/
import proofs.«146618_g16140487098628_cont_week2b_481_21_alg».proof.Proof.Gen.ReferenceIdeal.Read
import proofs.«146618_g16140487098628_cont_week2b_481_21_alg».proof.Proof.Spec

noncomputable section

namespace Cert.GumbelMax

open Idealize.ShloMosaic Idealize.ShloMosaic.ValueIdx
open Cert.ReferenceIdeal Cert.ReferenceIdeal.Gen Cert.ReferenceIdeal.Read

section Stages

variable (x0 : (⟨Cert.ReferenceIdeal.S64x32768, .f32⟩ : BufTy).Contents (Elt Ideal))
  (x1 : (⟨Cert.ReferenceIdeal.S64x28x32768, .f32⟩ : BufTy).Contents (Elt Ideal))

/-- Stage 8 at (b, k, d) is the Gumbel logit of that element. -/
theorem v8_at (b : Fin 64) (k : Fin 28) (d : Fin 32768) :
    val_main_v8 (F := Ideal) x0 x1 (ix3 b k d) = logit (x0 (ix2 b d)) (x1 (ix3 b k d)) := by
  rw [val_main_v8_apply, val_main_v6_apply, val_main_v4_apply, val_main_v3_apply, val_main_v2_apply,
    val_main_v1_apply, val_main_v5_apply, val_main_v0_apply, val_main_v7_apply, val_main_cst_apply]
  have hi : idx_main_v0 (idx_main_v5 (ix3 b k d)) = ix2 b d :=
    funext fun a => Fin.ext (by match a with | ⟨0, _⟩ => rfl | ⟨1, _⟩ => rfl)
  rw [hi]
  simp only [Ideal.hostDivf_def, Ideal.addf_def, Ideal.hostNegf_def, Ideal.negf_def, Ideal.hostUnary_log_def,
    Ideal.ofBits_def]
  rfl

/-- The reduction over the last axis drops it. -/
theorem red2 : S64x28x32768.Reduces [2] S64x28 := by decide
/-- The reduction over the middle axis drops it. -/
theorem red1 : S64x28x32768.Reduces [1] S64x32768 := by decide

/-- Inserting d on the last axis of (b, k). -/
theorem lift2_at (b : Fin 64) (k : Fin 28) (d : Fin 32768) : red2.lift (ix2 b k) d = ix3 b k d :=
  funext fun a => Fin.ext (by match a with | ⟨0, _⟩ => rfl | ⟨1, _⟩ => rfl | ⟨2, _⟩ => rfl)
/-- Inserting k on the middle axis of (b, d). -/
theorem lift1_at (b : Fin 64) (k : Fin 28) (d : Fin 32768) : red1.lift (ix2 b d) k = ix3 b k d :=
  funext fun a => Fin.ext (by match a with | ⟨0, _⟩ => rfl | ⟨1, _⟩ => rfl | ⟨2, _⟩ => rfl)

/-- Stage 11 at (b, k) is the row maximum of the logits of noise row k. -/
theorem v11_at (b : Fin 64) (k : Fin 28) :
    val_main_v11 (F := Ideal) x0 x1 (ix2 b k)
      = rowMax (fun d => x0 (ix2 b d)) (fun k d => x1 (ix3 b k d)) k := by
  rw [val_main_v11_apply, val_main_v10_apply, val_main_cst_1_apply]
  unfold val_main_v9
  rw [Host.reduce_eq_fold_single (FloatOps.maximumf (F := Ideal) (φ := .f32)) _ _ reducesTo_S64x28x32768_S64x28_d2 red2 h_S_]
  rw [val_main_cst_0_apply]
  unfold rowMax
  simp only [Ideal.maximumf_def, Ideal.ofBits_def]
  refine congrArg (max _) ?_
  refine Finset.fold_congr fun d _ => ?_
  exact (congrArg (val_main_v8 (F := Ideal) x0 x1) (lift2_at b k d)).trans (v8_at x0 x1 b k d)

/-- Stage 15 at (b, k, d) is the exponential of the logit shifted by its row's maximum. -/
theorem v15_at (b : Fin 64) (k : Fin 28) (d : Fin 32768) :
    val_main_v15 (F := Ideal) x0 x1 (ix3 b k d)
      = Ideal.exp (logit (x0 (ix2 b d)) (x1 (ix3 b k d)) - rowMax (fun d => x0 (ix2 b d)) (fun k d => x1 (ix3 b k d)) k) := by
  rw [val_main_v15_apply, val_main_v14_apply, val_main_v13_apply, val_main_v12_apply, v8_at]
  have hi : idx_main_v12 (idx_main_v13 (ix3 b k d)) = ix2 b k :=
    funext fun a => Fin.ext (by match a with | ⟨0, _⟩ => rfl | ⟨1, _⟩ => rfl)
  rw [hi, v11_at]
  simp only [Ideal.hostUnary_exp_def, Ideal.subf_def]

/-- Stage 16 at (b, k) is the sum over d of the shifted exponentials, from the printed zero. -/
theorem v16_at (b : Fin 64) (k : Fin 28) :
    val_main_v16 (F := Ideal) x0 x1 (ix2 b k)
      = Ideal.ofBits .f32 0x00000000#32 + ∑ d' : Fin 32768,
          Ideal.exp (logit (x0 (ix2 b d')) (x1 (ix3 b k d')) - rowMax (fun d => x0 (ix2 b d)) (fun k d => x1 (ix3 b k d)) k) := by
  rw [val_main_v16_apply, val_main_cst_2_apply]
  simp only [Ideal.ofBits_def]
  refine congrArg (_ + ·) (Finset.sum_congr rfl fun d' _ => ?_)
  have hi : idx_main_v16 (ix2 b k) d' = ix3 b k d' :=
    funext fun a => Fin.ext (by match a with | ⟨0, _⟩ => rfl | ⟨1, _⟩ => rfl | ⟨2, _⟩ => rfl)
  rw [hi, v15_at]

/-- Stage 19 at (b, k, d) is the softmax quotient of noise row k at column d. -/
theorem v19_at (b : Fin 64) (k : Fin 28) (d : Fin 32768) :
    val_main_v19 (F := Ideal) x0 x1 (ix3 b k d)
      = Ideal.div (Ideal.exp (logit (x0 (ix2 b d)) (x1 (ix3 b k d)) - rowMax (fun d => x0 (ix2 b d)) (fun k d => x1 (ix3 b k d)) k))
          (Ideal.ofBits .f32 0x00000000#32 + ∑ d' : Fin 32768,
            Ideal.exp (logit (x0 (ix2 b d')) (x1 (ix3 b k d')) - rowMax (fun d => x0 (ix2 b d)) (fun k d => x1 (ix3 b k d)) k)) := by
  rw [val_main_v19_apply, val_main_v18_apply, val_main_v17_apply, v15_at]
  have hi : idx_main_v17 (idx_main_v18 (ix3 b k d)) = ix2 b k :=
    funext fun a => Fin.ext (by match a with | ⟨0, _⟩ => rfl | ⟨1, _⟩ => rfl)
  rw [hi, v16_at]
  simp only [Ideal.hostDivf_def]

/-- The result at (b, d) is the maximum over the noise rows k of the softmax quotients. -/
theorem v20_at (b : Fin 64) (d : Fin 32768) :
    val_main_v20 (F := Ideal) x0 x1 (ix2 b d)
      = refVal (fun d => x0 (ix2 b d)) (fun k d => x1 (ix3 b k d)) d := by
  unfold val_main_v20
  rw [Host.reduce_eq_fold_single (FloatOps.maximumf (F := Ideal) (φ := .f32)) _ _ reducesTo_S64x28x32768_S64x32768_d1 red1 h_S_]
  rw [val_main_cst_3_apply]
  unfold refVal
  simp only [Ideal.maximumf_def, Ideal.ofBits_def]
  refine Finset.fold_congr fun k _ => ?_
  exact (congrArg (val_main_v19 (F := Ideal) x0 x1) (lift1_at b k d)).trans (v19_at x0 x1 b k d)

end Stages

theorem ref_eq (x0 : (⟨Cert.ReferenceIdeal.S64x32768, .f32⟩ : BufTy).Contents (Elt Ideal)) (x1 : (⟨Cert.ReferenceIdeal.S64x28x32768, .f32⟩ : BufTy).Contents (Elt Ideal)) :
    Cert.ReferenceIdeal.Read.val_main_v20 (F := Ideal) x0 x1 = refArr x0 x1 := by
  funext i
  obtain ⟨b, d, rfl⟩ : ∃ (b : Fin 64) (d : Fin 32768), i = ix2 b d := ⟨i 0, i 1, eq_ix2 i⟩
  exact v20_at x0 x1 b d

end Cert.GumbelMax

end
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.LibFiniteInputs.lean ====
/-
  Finite inputs are real numbers.  A precondition of the form  all (|x| < +∞)  evaluates, at the extended reals, the
  conjunction over all entries of an array  x  of  max x (-x) < ⊤ : the binary32 word 0x7F800000 denotes ⊤, and
  max x (-x) < ⊤  excludes  x = ⊤  and  x = ⊥ .  So when the conjunction (a reduction by "and" into a scalar, from the
  constant true) comes out 1, every entry of  x  is the image of a real number.  Stated for an array of any shape.
-/
import Idealize.ShloMosaic.Lib.ReduceAll
import Idealize.ShloMosaic.Lib.IdealHost
import Idealize.ShloMosaic.Lib.ValueIdx
import proofs.«146618_g16140487098628_cont_week2b_481_21_alg».proof.Proof.LibRealValued

noncomputable section

namespace Cert.Lib.FiniteInputs

open Idealize.ShloMosaic Idealize.ShloMosaic.ValueIdx Cert.RealValued

/-- A rank-0 array has one index. -/
instance subsingleton_scalar_idx : Subsingleton (⟨0, ![]⟩ : Shape).Idx := ⟨fun a b => funext fun d => d.elim0⟩

/-- The f32 word 0x7F800000 denotes +∞. -/
theorem inf_word : Ideal.ofBits .f32 0x7F800000#32 = (⊤ : EReal) := by simp [Ideal.ofBits, Ideal.ieee]

/-- An extended real whose absolute value max x (-x) is below ⊤ is neither infinity: it is a real number. -/
theorem isReal_of_abs_lt_top (x : EReal) (h : max x (-x) < ⊤) : IsReal x := by
  rw [max_lt_iff] at h
  induction x using EReal.rec with
  | bot => exact absurd h.2 (by simp)
  | coe r => exact ⟨r, rfl⟩
  | top => exact absurd h.1 (by simp)

/-- On one value: the comparison |x| < +∞ came out 1, so x is a real number. -/
theorem isReal_of_cmp (x : Ideal .f32)
    (h : FloatOps.cmpf .olt (FloatOps.hostAbsf x) (Ideal.ofBits .f32 0x7F800000#32) = 1#1) : IsReal x := by
  rw [inf_word] at h
  apply isReal_of_abs_lt_top
  by_contra hn
  have : FloatOps.cmpf .olt (FloatOps.hostAbsf x) (⊤ : EReal) = 0#1 := by
    show Ideal.cmp .olt (max (x : EReal) (-(x : EReal))) ⊤ = 0#1
    unfold Ideal.cmp
    simp [hn]
  rw [this] at h
  exact absurd h (by decide)

/-- The conjunction over all entries of |x| < +∞ (a reduction by "and" into a scalar) came out 1: every entry
    of x is a real number. -/
theorem all_lt_inf {s : Shape} {axes : List (Fin s.rank)} (x : FVec Ideal s .f32)
    (hb : (⟨0, ![]⟩ : Shape).BroadcastsInDim s (![] : Fin 0 → Fin s.rank)) (hr : s.ReducesTo axes (⟨0, ![]⟩ : Shape)) (hu : 0 < (⟨0, ![]⟩ : Shape).numel) (j : (⟨0, ![]⟩ : Shape).Idx)
    (e : Host.reduce IntOp.andi (cmpf .olt (Host.absf x) (broadcastInDim s ![] hb (constant (F := Ideal) (⟨0, ![]⟩ : Shape) .f32 0x7F800000#32)))
          (constantI (⟨0, ![]⟩ : Shape) 1 1#1) hr hu j = 1#1) (i : s.Idx) : IsReal (x i) := by
  have hi := Host.reduce_andi_all _ _ hr hu j e i
  rw [cmpf_apply, broadcastInDim_scalar_apply, constant_apply] at hi
  exact isReal_of_cmp (x i) hi

end Cert.Lib.FiniteInputs

end
-- ==== Proof.PreFacts.lean ====
/-
  What the precondition says of the two argument arrays, on the extended reals.

  The precondition is the conjunction of four statements, each an "and" over all entries of an array:
  |x0| < +∞,  |x1| < +∞,  x1 > 0,  x1 < 1.  When it evaluates to 1, each of the four conjunctions is 1, hence each
  comparison is 1 at every entry.  |x| < +∞ excludes both infinities, so every entry of x0 and of x1 is a real
  number; the other two comparisons then place every entry of x1 in the open interval (0, 1).
-/
import Idealize.ShloMosaic.Lib.ReduceAll
import Idealize.ShloMosaic.Lib.IdealHost
import Idealize.ShloMosaic.Lib.ValueIdx
import proofs.«146618_g16140487098628_cont_week2b_481_21_alg».proof.Pre_finite_inputs
import proofs.«146618_g16140487098628_cont_week2b_481_21_alg».proof.Proof.LibFiniteInputs

noncomputable section

namespace Cert.GumbelMax

open Idealize.ShloMosaic Idealize.ShloMosaic.ValueIdx Cert.RealValued Cert.Lib.FiniteInputs

/-- The f32 word 0x3F800000 denotes 1. -/
theorem word_one : Ideal.ofBits .f32 0x3F800000#32 = (1 : EReal) := by
  simp [Ideal.ofBits, Ideal.ieee, -EReal.coe_mul]; norm_num

/-- On one value: the comparison x > 0 came out 1, so 0 < x. -/
theorem pos_of_cmp (x : Ideal .f32)
    (h : FloatOps.cmpf .ogt x (Ideal.ofBits .f32 0x00000000#32) = 1#1) : (0 : EReal) < x := by
  rw [Ideal.ofBits_zero_f32] at h
  by_contra hn
  have : FloatOps.cmpf .ogt x (0 : EReal) = 0#1 := by
    show Ideal.cmp .ogt (x : EReal) 0 = 0#1
    unfold Ideal.cmp
    simp [hn]
  rw [this] at h
  exact absurd h (by decide)

/-- On one value: the comparison x < 1 came out 1, so x < 1. -/
theorem lt_one_of_cmp (x : Ideal .f32)
    (h : FloatOps.cmpf .olt x (Ideal.ofBits .f32 0x3F800000#32) = 1#1) : x < (1 : EReal) := by
  rw [word_one] at h
  by_contra hn
  have : FloatOps.cmpf .olt x (1 : EReal) = 0#1 := by
    show Ideal.cmp .olt (x : EReal) 1 = 0#1
    unfold Ideal.cmp
    simp [hn]
  rw [this] at h
  exact absurd h (by decide)

/-- The conjunction over all entries of x > 0 came out 1: every entry of x is above 0. -/
theorem all_gt_zero {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel) (j : (⟨0, ![]⟩ : Shape).Idx)
    (e : Host.reduce IntOp.andi
          (cmpf .ogt x (broadcastInDim s ![] hb (constant (F := Ideal) (⟨0, ![]⟩ : Shape) .f32 0x00000000#32)))
          (constantI (⟨0, ![]⟩ : Shape) 1 1#1) hr hu j = 1#1) (i : s.Idx) : (0 : EReal) < x i := by
  have hi := Host.reduce_andi_all _ _ hr hu j e i
  rw [cmpf_apply, broadcastInDim_scalar_apply, constant_apply] at hi
  exact pos_of_cmp (x i) hi

/-- The conjunction over all entries of x < 1 came out 1: every entry of x is below 1. -/
theorem all_lt_one {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel) (j : (⟨0, ![]⟩ : Shape).Idx)
    (e : Host.reduce IntOp.andi
          (cmpf .olt x (broadcastInDim s ![] hb (constant (F := Ideal) (⟨0, ![]⟩ : Shape) .f32 0x3F800000#32)))
          (constantI (⟨0, ![]⟩ : Shape) 1 1#1) hr hu j = 1#1) (i : s.Idx) : x i < (1 : EReal) := by
  have hi := Host.reduce_andi_all _ _ hr hu j e i
  rw [cmpf_apply, broadcastInDim_scalar_apply, constant_apply] at hi
  exact lt_one_of_cmp (x i) hi

/-- The precondition holds: every entry of the first array is a real number and every entry of the second a real
    number in the open interval (0, 1). -/
theorem pre_real [Cert.Pre_finite_inputs.Facts] (x0 : FVec Ideal Cert.Pre_finite_inputs.S64x32768 .f32)
    (x1 : FVec Ideal Cert.Pre_finite_inputs.S64x28x32768 .f32)
    (h : Cert.Pre_finite_inputs.fn (F := Ideal) x0 x1 = fun _ => 1#1) :
    (∀ i, ∃ r : ℝ, x0 i = (r : EReal)) ∧ (∀ j, ∃ r : ℝ, 0 < r ∧ r < 1 ∧ x1 j = (r : EReal)) := by
  have h0 := congrFun h ix0
  dsimp only [Cert.Pre_finite_inputs.fn, Cert.Pre_finite_inputs.fn_part1] at h0
  change IntOp.andi (IntOp.andi (IntOp.andi _ _) _) _ = 1#1 at h0
  rw [IntOp.andi_eq_one, IntOp.andi_eq_one, IntOp.andi_eq_one] at h0
  obtain ⟨⟨⟨hA, hB⟩, hC⟩, hD⟩ := h0
  refine ⟨fun i => all_lt_inf x0 _ _ _ _ hA i, fun j => ?_⟩
  obtain ⟨r, hr⟩ := all_lt_inf x1 _ _ _ _ hB j
  have hpos := all_gt_zero x1 _ _ _ _ hC j
  have hlt := all_lt_one x1 _ _ _ _ hD j
  rw [hr] at hpos hlt
  exact ⟨r, by exact_mod_cast hpos, by exact_mod_cast hlt, hr⟩

end Cert.GumbelMax

end
-- ==== Proof.LibRealOrder.lean ====
/-
  More about extended reals that are real numbers: order, difference, logarithm.

  Beside products, sums and exponentials (the companion file on real-valued extended reals), a proof that carries
  "this quantity is a real number" through a program also meets negation and difference, the maximum of two reals and
  of finitely many taken from -infinity, the logarithm of a positive real, and a sum of positive reals over a nonempty
  finite index type, which is a POSITIVE real. Last, the one law of subtraction used beside them: subtracting a sum of
  two reals from ANY extended real is subtracting one and then the other (false for infinite subtrahends).
-/
import proofs.«146618_g16140487098628_cont_week2b_481_21_alg».proof.Proof.LibRealValued

noncomputable section

namespace Cert.RealValued

open Idealize.ShloMosaic

theorem isReal_one : IsReal (1 : EReal) := ⟨1, rfl⟩

theorem IsReal.neg {a : EReal} (ha : IsReal a) : IsReal (-a) := by
  obtain ⟨r, rfl⟩ := ha; exact ⟨-r, (EReal.coe_neg r).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.max {a b : EReal} (ha : IsReal a) (hb : IsReal b) : IsReal (max a b) := by
  rcases le_total a b with h | h
  · rw [max_eq_right h]; exact hb
  · rw [max_eq_left h]; exact ha

/-- The logarithm of a positive real is a real. -/
theorem IsPos.log {a : EReal} (ha : IsPos a) : IsReal (Ideal.log a) := by
  obtain ⟨r, hr, rfl⟩ := ha
  refine ⟨Real.log r, ?_⟩
  rw [Ideal.log_coe, if_neg (not_le.mpr hr)]

/-- A sum of positive reals over a nonempty finite type is a positive real. -/
theorem isPos_sum {ι : Type} [Fintype ι] [Nonempty ι] (f : ι → EReal) (h : ∀ i, IsPos (f i)) : IsPos (∑ i, f i) := by
  classical
  choose r hr using h
  refine ⟨∑ i, r i, Finset.sum_pos (fun i _ => (hr i).1) Finset.univ_nonempty, ?_⟩
  rw [coe_sum]; exact Finset.sum_congr rfl fun i _ => (hr i).2

/-- The maximum, taken from -infinity, of finitely many reals (at least one) is a real. -/
theorem isReal_fold_max {ι : Type} (s : Finset ι) (hs : s.Nonempty) (f : ι → EReal) (h : ∀ i ∈ s, IsReal (f i)) :
    IsReal (s.fold max (⊥ : EReal) f) := by
  classical
  induction hs using Finset.Nonempty.cons_induction with
  | singleton a =>
    rw [Finset.fold_singleton, max_eq_left bot_le]
    exact h a (Finset.mem_singleton_self a)
  | cons a s ha hs ih =>
    rw [Finset.fold_cons]
    exact (h a (Finset.mem_cons_self a s)).max (ih fun i hi => h i (Finset.mem_cons.mpr (Or.inr hi)))

/-- Subtracting a sum of two reals is subtracting one and then the other, from any extended real. -/
theorem sub_add_real (x : EReal) (a b : ℝ) : x - ((a : EReal) + (b : EReal)) = x - (a : EReal) - (b : EReal) := by
  induction x using EReal.rec with
  | bot => rw [EReal.bot_sub, EReal.bot_sub, EReal.bot_sub]
  | coe r =>
    rw [← EReal.coe_add, ← EReal.coe_sub, ← EReal.coe_sub, ← EReal.coe_sub]
    exact congrArg _ (by ring)
  | top => rw [← EReal.coe_add, EReal.top_sub_coe, EReal.top_sub_coe, EReal.top_sub_coe]

end Cert.RealValued

end
-- ==== Proof.Algebra.lean ====
/-
  The kernel's value and the reference's value of one batch row agree, on the extended reals.

  With every logit  l d  a real number L and every noise value  u k d  a real number U in (0,1), put
  t = log U < 0.  The kernel's weight is  w = exp(2L) / t²,  a positive real; the reference's Gumbel logit is
  z = (−log(−t) + L) / ½ = 2L − 2·log(−t),  a real, and  exp z = exp(2L) / (−t)² = w.
  The kernel normalises by the row sum  S = Σ w  (a positive real, the row being nonempty):  w / S.
  The reference shifts by the row maximum M of the z (a real: a maximum of finitely many reals, at least one),
  so its numerator is  exp(z − M) = w / exp M,  its denominator  0 + Σ exp(z − M) = S / exp M,  and the quotient
  is  w / S  again.  Every division met is by a nonzero real, where it is the product with the reciprocal, so the
  whole computation takes place among the real numbers.  The two maxima over the noise rows k are then maxima
  of the same function.
-/
import proofs.«146618_g16140487098628_cont_week2b_481_21_alg».proof.Proof.Spec
import proofs.«146618_g16140487098628_cont_week2b_481_21_alg».proof.Proof.LibRealOrder

noncomputable section

namespace Cert.GumbelMax

open Idealize.ShloMosaic Cert.RealValued

/-! ### The float literals as extended reals -/

/-- The pattern of `2.0` denotes the real 2. -/
theorem ofBits_two : Ideal.ofBits .f32 0x40000000#32 = ((2 : ℝ) : EReal) := by
  simp [Ideal.ofBits, Ideal.ieee, -EReal.coe_mul]; norm_num

/-- The pattern of `1.0` denotes the real 1. -/
theorem ofBits_one : Ideal.ofBits .f32 0x3F800000#32 = ((1 : ℝ) : EReal) := by
  simp [Ideal.ofBits, Ideal.ieee, -EReal.coe_mul]; norm_num

/-- The pattern of `0.5` denotes the real 1/2. -/
theorem ofBits_half : Ideal.ofBits .f32 0x3F000000#32 = ((1 / 2 : ℝ) : EReal) := by
  simp [Ideal.ofBits, Ideal.ieee, -EReal.coe_mul]; norm_num

/-- The pattern of `-inf` denotes −∞. -/
theorem ofBits_ninf : Ideal.ofBits .f32 0xFF800000#32 = (⊥ : EReal) := by
  simp [Ideal.ofBits, Ideal.ieee]

/-! ### The weight and the logit of one element, as real numbers -/

/-- The weight as a real number: exp(2L) · 1/(log U)². -/
def wR (L U : ℝ) : ℝ := Real.exp (L * 2) * (1 / (Real.log U * Real.log U))

/-- The Gumbel logit as a real number: (−log(−log U) + L) · 1/(1/2). -/
def zR (L U : ℝ) : ℝ := (-Real.log (-Real.log U) + L) * (1 / (1 / 2))

/-- For a real logit and a noise value in (0,1) the kernel's weight is the real `wR`. -/
theorem weight_coe {L U : ℝ} (h0 : 0 < U) (h1 : U < 1) :
    weight (L : EReal) (U : EReal) = ((wR L U : ℝ) : EReal) := by
  have ht : Real.log U < 0 := Real.log_neg h0 h1
  have hne : Real.log U * Real.log U ≠ 0 := mul_ne_zero ht.ne ht.ne
  unfold weight wR
  rw [ofBits_two, Ideal.log_coe, if_neg (not_le.mpr h0), ← EReal.coe_mul, ← EReal.coe_mul, Ideal.exp_coe,
    Ideal.div_coe hne, ← EReal.coe_mul]

/-- For a real logit and a noise value in (0,1) the reference's Gumbel logit is the real `zR`. -/
theorem logit_coe {L U : ℝ} (h0 : 0 < U) (h1 : U < 1) :
    logit (L : EReal) (U : EReal) = ((zR L U : ℝ) : EReal) := by
  have ht : Real.log U < 0 := Real.log_neg h0 h1
  have hpos : ¬ (-Real.log U ≤ 0) := not_le.mpr (neg_pos.mpr ht)
  have hhalf : (1 / 2 : ℝ) ≠ 0 := by norm_num
  unfold logit zR
  rw [ofBits_half, Ideal.log_coe, if_neg (not_le.mpr h0), ← EReal.coe_neg, Ideal.log_coe, if_neg hpos,
    ← EReal.coe_neg, ← EReal.coe_add, Ideal.div_coe hhalf, ← EReal.coe_mul]

/-- The exponential of the Gumbel logit is the weight: exp(2L − 2·log(−t)) = exp(2L) / t². -/
theorem exp_zR {L U : ℝ} (h0 : 0 < U) (h1 : U < 1) : Real.exp (zR L U) = wR L U := by
  have ht : Real.log U < 0 := Real.log_neg h0 h1
  have hne : Real.log U ≠ 0 := ht.ne
  have hpos : 0 < -Real.log U := neg_pos.mpr ht
  unfold zR wR
  have e : (-Real.log (-Real.log U) + L) * (1 / (1 / 2))
      = L * 2 - Real.log (-Real.log U) - Real.log (-Real.log U) := by ring
  rw [e, Real.exp_sub, Real.exp_sub, Real.exp_log hpos]
  field_simp

/-! ### The two values of one batch row agree -/

theorem kernelVal_eq_refVal {K D : ℕ} (hD : 0 < D) (l : Fin D → EReal) (u : Fin K → Fin D → EReal)
    (hl : ∀ d, ∃ r : ℝ, l d = (r : EReal))
    (hu : ∀ k d, ∃ r : ℝ, 0 < r ∧ r < 1 ∧ u k d = (r : EReal)) (d : Fin D) :
    kernelVal l u d = refVal l u d := by
  choose L hL using hl
  choose U hU0 hU1 hU using hu
  haveI : Nonempty (Fin D) := ⟨⟨0, hD⟩⟩
  unfold kernelVal refVal
  refine Finset.fold_congr (fun k _ => ?_)
  -- every weight and every logit of noise row k is a real
  have hw : ∀ d', weight (l d') (u k d') = ((wR (L d') (U k d') : ℝ) : EReal) := fun d' => by
    rw [hL d', hU k d']; exact weight_coe (hU0 k d') (hU1 k d')
  have hz : ∀ d', logit (l d') (u k d') = ((zR (L d') (U k d') : ℝ) : EReal) := fun d' => by
    rw [hL d', hU k d']; exact logit_coe (hU0 k d') (hU1 k d')
  have hwpos : ∀ d', 0 < wR (L d') (U k d') := fun d' => by
    rw [← exp_zR (hU0 k d') (hU1 k d')]; exact Real.exp_pos _
  -- the row sum S of the weights is a positive real
  have hSpos : 0 < ∑ d', wR (L d') (U k d') := Finset.sum_pos (fun d' _ => hwpos d') Finset.univ_nonempty
  have hsum : (∑ d' : Fin D, weight (l d') (u k d')) = ((∑ d', wR (L d') (U k d') : ℝ) : EReal) := by
    rw [coe_sum]; exact Finset.sum_congr rfl fun d' _ => hw d'
  -- the row maximum M of the logits is a real
  obtain ⟨M, hM⟩ : ∃ M : ℝ, rowMax l u k = (M : EReal) := by
    unfold rowMax
    rw [ofBits_ninf, max_eq_right bot_le]
    exact isReal_fold_max _ Finset.univ_nonempty _ (fun d' _ => ⟨_, hz d'⟩)
  -- the shifted exponentials are the weights over exp M, and their sum is S over exp M
  have hexp : ∀ d', Ideal.exp (logit (l d') (u k d') - rowMax l u k)
      = ((wR (L d') (U k d') / Real.exp M : ℝ) : EReal) := fun d' => by
    rw [hz d', hM, ← EReal.coe_sub, Ideal.exp_coe, Real.exp_sub, exp_zR (hU0 k d') (hU1 k d')]
  have hsum2 : (Ideal.ofBits .f32 0x00000000#32 + ∑ d' : Fin D, Ideal.exp (logit (l d') (u k d') - rowMax l u k))
      = (((∑ d', wR (L d') (U k d')) / Real.exp M : ℝ) : EReal) := by
    rw [Ideal.ofBits_zero_f32, zero_add, Finset.sum_div, coe_sum]
    exact Finset.sum_congr rfl fun d' _ => hexp d'
  have hSM : (∑ d', wR (L d') (U k d')) / Real.exp M ≠ 0 := (div_pos hSpos (Real.exp_pos M)).ne'
  have hE : Real.exp M ≠ 0 := (Real.exp_pos M).ne'
  -- both quotients are the real w / S
  rw [hw d, hsum, ofBits_one, Ideal.div_coe hSpos.ne', hexp d, hsum2, Ideal.div_coe hSM, ← EReal.coe_mul,
    ← EReal.coe_mul, ← EReal.coe_mul]
  congr 1
  have hS0 := hSpos.ne'
  field_simp

end Cert.GumbelMax

end
-- ==== Proof.Bridge.lean ====
/-
  The two programs end with equal results.

  Given that the kernel's run ends with the Spec's kernelArr of its arguments (and leaves the arguments
  unchanged), the claim follows: the reference's run ends with refArr of its arguments, the arguments of
  the two runs agree, and under the precondition (every logit a real number, every noise entry a real
  number strictly between 0 and 1) the two arrays are equal entry by entry.
-/
import proofs.«146618_g16140487098628_cont_week2b_481_21_alg».proof.Defs
import proofs.«146618_g16140487098628_cont_week2b_481_21_alg».proof.Proof.Gen.KernelIdeal
import proofs.«146618_g16140487098628_cont_week2b_481_21_alg».proof.Proof.Gen.ReferenceIdeal
import proofs.«146618_g16140487098628_cont_week2b_481_21_alg».proof.Proof.Gen.ReferenceIdeal.Read
import proofs.«146618_g16140487098628_cont_week2b_481_21_alg».proof.Proof.Gen.Pre_finite_inputs
import proofs.«146618_g16140487098628_cont_week2b_481_21_alg».proof.Proof.RefValue
import proofs.«146618_g16140487098628_cont_week2b_481_21_alg».proof.Proof.PreFacts
import proofs.«146618_g16140487098628_cont_week2b_481_21_alg».proof.Proof.Algebra

noncomputable section

namespace Cert.GumbelMax

open Idealize.ShloMosaic Idealize.SL.Sem Idealize.ShloMosaic.ValueIdx

/-- On arrays of real logits and of noise strictly between 0 and 1, the reference's array is the kernel's. -/
theorem refArr_eq_kernelArr (x : (⟨2, ![64, 32768]⟩ : Shape).Idx → EReal) (u : (⟨3, ![64, 28, 32768]⟩ : Shape).Idx → EReal)
    (hx : ∀ i, ∃ r : ℝ, x i = (r : EReal)) (hu : ∀ j, ∃ r : ℝ, 0 < r ∧ r < 1 ∧ u j = (r : EReal)) :
    refArr x u = kernelArr x u := by
  funext i
  unfold refArr kernelArr
  exact (kernelVal_eq_refVal (by norm_num) _ _ (fun d => hx _) (fun k d => hu _) _).symm

theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v48) = kernelArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))) :
    Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, hrun m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  obtain ⟨hx, hu⟩ := pre_real _ _ (hpre c)
  exact ((Cert.ReferenceIdeal.Read.val_main_v20_eq _ _).trans (ref_eq _ _)).trans (refArr_eq_kernelArr _ _ hx hu)

end Cert.GumbelMax

end
-- ==== Proof.lean ====
/-
  The certificate of the Gumbel-softmax sampling kernel against its reference.

  Both programs compute, for every batch row b and column d, the maximum over the 28 noise rows k of the
  softmax over d of the Gumbel-perturbed logits at temperature 1/2.  The kernel uses
  exp((g + l)/½) = exp(2·l)/(log u)² and normalises by the plain sum of these weights; the reference forms
  the logits (−log(−log u) + l)/½, subtracts the row maximum, exponentiates and divides by the sum.  On the
  extended reals the two agree when every logit is a real number and every noise entry lies strictly between
  0 and 1 (the reference's two logarithms are then inside their domains), which is what the precondition states.

  The kernel program is sixteen calls of one body on chunks of four batch rows, each between the slices that
  feed it, followed by the concatenation of the sixteen results.  Its frame and its value are read off one
  run through these items (the modules under KB/ for the program as printed, under KI/ for its idealization);
  the reference's run and its reading at an index are the generated modules; Algebra.lean joins the two
  sides row by row, PreFacts.lean reads the precondition, Bridge.lean states the joined claim.
-/
import proofs.«146618_g16140487098628_cont_week2b_481_21_alg».proof.Defs
import proofs.«146618_g16140487098628_cont_week2b_481_21_alg».proof.Proof.Gen.Kernel
import proofs.«146618_g16140487098628_cont_week2b_481_21_alg».proof.Proof.Gen.KernelIdeal
import proofs.«146618_g16140487098628_cont_week2b_481_21_alg».proof.Proof.Gen.ReferenceIdeal
import proofs.«146618_g16140487098628_cont_week2b_481_21_alg».proof.Proof.Gen.ReferenceIdeal.Run
import proofs.«146618_g16140487098628_cont_week2b_481_21_alg».proof.Proof.Gen.ReferenceIdeal.Read
import proofs.«146618_g16140487098628_cont_week2b_481_21_alg».proof.Proof.Gen.Pre_finite_inputs
import proofs.«146618_g16140487098628_cont_week2b_481_21_alg».proof.Proof.KB.Ends
import proofs.«146618_g16140487098628_cont_week2b_481_21_alg».proof.Proof.KI.Value
import proofs.«146618_g16140487098628_cont_week2b_481_21_alg».proof.Proof.Bridge
import Idealize.ShloMosaic.Adequacy
import Idealize.ShloMosaic.Init

noncomputable section

namespace Cert.Proof

open Idealize.ShloMosaic Idealize.SL.Sem

/-- The program as printed runs to its end and leaves its arguments as launched. -/
theorem frame_k : Cert.frame_Kernel (hKernel := Cert.Kernel.Gen.facts) (hPre_finite_inputs := Cert.Pre_finite_inputs.Gen.facts) :=
  fun m ρ _ => Cert.Kernel.Rgn.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Rgn.frame m ρ

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial,
    Cert.GumbelMax.algebraic_of fun m ρ => Cert.KernelIdeal.Rgn.run_value m ρ⟩

end Cert.Proof

end
